-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x784 : Shape := ⟨2, ![8192, 784]⟩
abbrev S2048x784 : Shape := ⟨2, ![2048, 784]⟩
abbrev S2048 : Shape := ⟨1, ![2048]⟩
abbrev S2048x2048 : Shape := ⟨2, ![2048, 2048]⟩
abbrev S10x2048 : Shape := ⟨2, ![10, 2048]⟩
abbrev S10 : Shape := ⟨1, ![10]⟩
abbrev S_ : Shape := ⟨0, ![]⟩

class Facts : Prop where
  bcast_S_S8192x784 : S_.BroadcastsInDim S8192x784 (![] : Fin 0 → Fin S8192x784.rank)
  reducesTo_S8192x784_S_d0_1 : S8192x784.ReducesTo [0, 1] S_
  h_S_ : 0 < S_.numel
  bcast_S_S2048x784 : S_.BroadcastsInDim S2048x784 (![] : Fin 0 → Fin S2048x784.rank)
  reducesTo_S2048x784_S_d0_1 : S2048x784.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S10x2048 : S_.BroadcastsInDim S10x2048 (![] : Fin 0 → Fin S10x2048.rank)
  reducesTo_S10x2048_S_d0_1 : S10x2048.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S10 .f32) (main_arg12 : FVec F S10 .f32) (main_v48 : IVec S_ 1) (main_v49 : FVec F S10x2048 .f32) (main_v50 : FVec F S10x2048 .f32) : IVec S_ 1 :=
  let main_v51 : IVec S10x2048 1 := cmpf .olt main_v49 main_v50
  let main_c_19 : IVec S_ 1 := constantI S_ 1 1#1
  let main_v52 : IVec S_ 1 := (fun x v => Host.reduce IntOp.andi x v reducesTo_S10x2048_S_d0_1 h_S_) main_v51 main_c_19
  let main_v53 : IVec S_ 1 := andi main_v48 main_v52
  let main_v54 : FVec F S10 .f32 := Host.absf main_arg11
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg7 : FVec F S2048x2048 .f32) (main_arg8 : FVec F S2048 .f32) (main_arg9 : FVec F S2048 .f32) (main_arg10 : FVec F S10x2048 .f32) (main_arg11 : FVec F S10 .f32) (main_arg12 : FVec F S10 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S10x2048 .f32 := Host.absf main_arg10
  let main_cst_18 : FVec F S_ .f32 := constant S_ .f32 0x7F800000#32
  let main_v50 : FVec F S10x2048 .f32 := broadcastInDim S10x2048 ![] bcast_S_S10x2048 main_cst_18
  fn_part3 (F := F) main_arg11 main_arg12 main_v48 main_v49 main_v50

def fn_part1 {F : FTy → Type} [FloatOps F] (main_arg4 : FVec F S2048x2048 .f32) (main_arg5 : FVec F S2048 .f32) (main_arg6 : FVec F S2048 .f32) (main_arg7 : FVec F S2048x2048 .f32) (main_arg8 : FVec F S2048 .f32) (main_arg9 : FVec F S2048 .f32) (main_arg10 : FVec F S10x2048 .f32) (main_arg11 : FVec F S10 .f32) (main_arg12 : FVec F S10 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x784 .f32) (main_arg1 : FVec F S2048x784 .f32) (main_arg2 : FVec F S2048 .f32) (main_arg3 : FVec F S2048 .f32) (main_arg4 : FVec F S2048x2048 .f32) (main_arg5 : FVec F S2048 .f32) (main_arg6 : FVec F S2048 .f32) (main_arg7 : FVec F S2048x2048 .f32) (main_arg8 : FVec F S2048 .f32) (main_arg9 : FVec F S2048 .f32) (main_arg10 : FVec F S10x2048 .f32) (main_arg11 : FVec F S10 .f32) (main_arg12 : FVec F S10 .f32) : IVec S_ 1 :=
  let main_v0 : FVec F S8192x784 .f32 := Host.absf main_arg0
  let main_cst : FVec F S_ .f32 := constant S_ .f32 0x7F800000#32
  let main_v1 : FVec F S8192x784 .f32 := broadcastInDim S8192x784 ![] bcast_S_S8192x784 main_cst
  let main_v2 : IVec S8192x784 1 := cmpf .olt main_v0 main_v1
  let main_c : IVec S_ 1 := constantI S_ 1 1#1
  let main_v3 : IVec S_ 1 := (fun x v => Host.reduce IntOp.andi x v reducesTo_S8192x784_S_d0_1 h_S_) main_v2 main_c
  let main_v4 : FVec F S2048x784 .f32 := Host.absf main_arg1
  let main_cst_0 : FVec F S_ .f32 := constant S_ .f32 0x7F800000#32
  let main_v5 : FVec F S2048x784 .f32 := broadcastInDim S2048x784 ![] bcast_S_S2048x784 main_cst_0
  let main_v6 : IVec S2048x784 1 := cmpf .olt main_v4 main_v5
  let main_c_1 : IVec S_ 1 := constantI S_ 1 1#1
  let main_v7 : IVec S_ 1 := (fun x v => Host.reduce IntOp.andi x v reducesTo_S2048x784_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_v13 main_v16
-- ==== Kernel.lean ====
abbrev S8192x784 : Shape := ⟨2, ![8192, 784]⟩
abbrev S2048x784 : Shape := ⟨2, ![2048, 784]⟩
abbrev S2048 : Shape := ⟨1, ![2048]⟩
abbrev S2048x2048 : Shape := ⟨2, ![2048, 2048]⟩
abbrev S10x2048 : Shape := ⟨2, ![10, 2048]⟩
abbrev S10 : Shape := ⟨1, ![10]⟩
abbrev S8192x2048 : Shape := ⟨2, ![8192, 2048]⟩
abbrev S1x2048 : Shape := ⟨2, ![1, 2048]⟩
abbrev S256x784 : Shape := ⟨2, ![256, 784]⟩
abbrev S256x2048 : Shape := ⟨2, ![256, 2048]⟩
abbrev S784x2048 : Shape := ⟨2, ![784, 2048]⟩
abbrev S_ : Shape := ⟨0, ![]⟩
abbrev S8192x10 : Shape := ⟨2, ![8192, 10]⟩
abbrev S1x10 : Shape := ⟨2, ![1, 10]⟩
abbrev S256x10 : Shape := ⟨2, ![256, 10]⟩
abbrev S2048x10 : Shape := ⟨2, ![2048, 10]⟩

abbrev nBuf : Space → Nat
  | .hbm => 98
  | .vmem => 60
  | .smem => 0
  | _ => 0

abbrev bufTy : (tb : Table) → Fin (tcTables nBuf tb) → BufTy
  | .hbm, ⟨0, _⟩ => ⟨S8192x784, .f32⟩
  | .hbm, ⟨1, _⟩ => ⟨S2048x784, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S10x2048, .f32⟩
  | .hbm, ⟨11, _⟩ => ⟨S10, .f32⟩
  | .hbm, ⟨12, _⟩ => ⟨S10, .f32⟩
  | .hbm, ⟨13, _⟩ => ⟨S8192x784, .bf16⟩
  | .hbm, ⟨14, _⟩ => ⟨S8192x2048, .f32⟩
  | .hbm, ⟨15, _⟩ => ⟨S1x2048, .f32⟩
  | .hbm, ⟨16, _⟩ => ⟨S1x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S8192x2048, .bf16⟩
  | .hbm, ⟨35, _⟩ => ⟨S8192x2048, .f32⟩
  | .hbm, ⟨36, _⟩ => ⟨S1x2048, .f32⟩
  | .hbm, ⟨37, _⟩ => ⟨S1x2048, .f32⟩
  | .hbm, ⟨38, _⟩ => ⟨S_, .f32⟩
  | .hbm, ⟨39, _⟩ => ⟨S1x2048, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S1x2048, .f32⟩
  | .hbm, ⟨45, _⟩ => ⟨S1x2048, .f32⟩
  | .hbm, ⟨46, _⟩ => ⟨S1x2048, .f32⟩
  | .hbm, ⟨47, _⟩ => ⟨S_, .f32⟩
  | .hbm, ⟨48, _⟩ => ⟨S1x2048, .f32⟩
  | .hbm, ⟨49, _⟩ => ⟨S1x2048, .f32⟩
  | .hbm, ⟨50, _⟩ => ⟨S1x2048, .f32⟩
  | .hbm, ⟨51, _⟩ => ⟨S1x2048, .f32⟩
  | .hbm, ⟨52, _⟩ => ⟨S1x2048, .f32⟩
  | .hbm, ⟨53, _⟩ => ⟨S1x2048, .f32⟩
  | .hbm, ⟨54, _⟩ => ⟨S1x2048, .f32⟩
  | .hbm, ⟨55, _⟩ => ⟨S8192x2048, .bf16⟩
  | .hbm, ⟨56, _⟩ => ⟨S8192x2048, .f32⟩
  | .hbm, ⟨57, _⟩ => ⟨S1x2048, .f32⟩
  | .hbm, ⟨58, _⟩ => ⟨S1x2048, .f32⟩
  | .hbm, ⟨59, _⟩ => ⟨S_, .f32⟩
  | .hbm, ⟨60, _⟩ => ⟨S1x2048, .f32⟩
  | .hbm, ⟨61, _⟩ => ⟨S1x2048, .f32⟩
  | .hbm, ⟨62, _⟩ => ⟨S_, .f32⟩
  | .hbm, ⟨63, _⟩ => ⟨S1x2048, .f32⟩
  | .hbm, ⟨64, _⟩ => ⟨S1x2048, .f32⟩
  | .hbm, ⟨65, _⟩ => ⟨S1x2048, .f32⟩
  | .hbm, ⟨66, _⟩ => ⟨S1x2048, .f32⟩
  | .hbm, ⟨67, _⟩ => ⟨S1x2048, .f32⟩
  | .hbm, ⟨68, _⟩ => ⟨S_, .f32⟩
  | .hbm, ⟨69, _⟩ => ⟨S1x2048, .f32⟩
  | .hbm, ⟨70, _⟩ => ⟨S1x2048, .f32⟩
  | .hbm, ⟨71, _⟩ => ⟨S1x2048, .f32⟩
  | .hbm, ⟨72, _⟩ => ⟨S1x2048, .f32⟩
  | .hbm, ⟨73, _⟩ => ⟨S1x2048, .f32⟩
  | .hbm, ⟨74, _⟩ => ⟨S1x2048, .f32⟩
  | .hbm, ⟨75, _⟩ => ⟨S1x2048, .f32⟩
  | .hbm, ⟨76, _⟩ => ⟨S8192x2048, .bf16⟩
  | .hbm, ⟨77, _⟩ => ⟨S8192x10, .f32⟩
  | .hbm, ⟨78, _⟩ => ⟨S1x10, .f32⟩
  | .hbm, ⟨79, _⟩ => ⟨S1x10, .f32⟩
  | .hbm, ⟨80, _⟩ => ⟨S_, .f32⟩
  | .hbm, ⟨81, _⟩ => ⟨S1x10, .f32⟩
  | .hbm, ⟨82, _⟩ => ⟨S1x10, .f32⟩
  | .hbm, ⟨83, _⟩ => ⟨S_, .f32⟩
  | .hbm, ⟨84, _⟩ => ⟨S1x10, .f32⟩
  | .hbm, ⟨85, _⟩ => ⟨S1x10, .f32⟩
  | .hbm, ⟨86, _⟩ => ⟨S1x10, .f32⟩
  | .hbm, ⟨87, _⟩ => ⟨S1x10, .f32⟩
  | .hbm, ⟨88, _⟩ => ⟨S1x10, .f32⟩
  | .hbm, ⟨89, _⟩ => ⟨S_, .f32⟩
  | .hbm, ⟨90, _⟩ => ⟨S1x10, .f32⟩
  | .hbm, ⟨91, _⟩ => ⟨S1x10, .f32⟩
  | .hbm, ⟨92, _⟩ => ⟨S1x10, .f32⟩
  | .hbm, ⟨93, _⟩ => ⟨S1x10, .f32⟩
  | .hbm, ⟨94, _⟩ => ⟨S1x10, .f32⟩
  | .hbm, ⟨95, _⟩ => ⟨S1x10, .f32⟩
  | .hbm, ⟨96, _⟩ => ⟨S1x10, .f32⟩
  | .hbm, ⟨97, _⟩ => ⟨S8192x10, .f32⟩
  | .local _ .vmem, ⟨0, _⟩ => ⟨S256x784, .bf16⟩
  | .local _ .vmem, ⟨1, _⟩ => ⟨S256x784, .bf16⟩
  | .local _ .vmem, ⟨2, _⟩ => ⟨S2048x784, .f32⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S2048x2048, .f32⟩
  | .local _ .vmem, ⟨18, _⟩ => ⟨S256x2048, .f32⟩
  | .local _ .vmem, ⟨19, _⟩ => ⟨S256x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S256x2048, .f32⟩
  | .local _ .vmem, ⟨25, _⟩ => ⟨S256x2048, .f32⟩
  | .local _ .vmem, ⟨26, _⟩ => ⟨S1x2048, .f32⟩
  | .local _ .vmem, ⟨27, _⟩ => ⟨S1x2048, .f32⟩
  | .local _ .vmem, ⟨28, _⟩ => ⟨S256x2048, .bf16⟩
  | .local _ .vmem, ⟨29, _⟩ => ⟨S256x2048, .bf16⟩
  | .local _ .vmem, ⟨30, _⟩ => ⟨S256x2048, .bf16⟩
  | .local _ .vmem, ⟨31, _⟩ => ⟨S256x2048, .bf16⟩
  | .local _ .vmem, ⟨32, _⟩ => ⟨S2048x2048, .f32⟩
  | .local _ .vmem, ⟨33, _⟩ => ⟨S256x2048, .f32⟩
  | .local _ .vmem, ⟨34, _⟩ => ⟨S256x2048, .f32⟩
  | .local _ .vmem, ⟨35, _⟩ => ⟨S1x2048, .f32⟩
  | .local _ .vmem, ⟨36, _⟩ => ⟨S1x2048, .f32⟩
  | .local _ .vmem, ⟨37, _⟩ => ⟨S1x2048, .f32⟩
  | .local _ .vmem, ⟨38, _⟩ => ⟨S1x2048, .f32⟩
  | .local _ .vmem, ⟨39, _⟩ => ⟨S256x2048, .f32⟩
  | .local _ .vmem, ⟨40, _⟩ => ⟨S256x2048, .f32⟩
  | .local _ .vmem, ⟨41, _⟩ => ⟨S1x2048, .f32⟩
  | .local _ .vmem, ⟨42, _⟩ => ⟨S1x2048, .f32⟩
  | .local _ .vmem, ⟨43, _⟩ => ⟨S256x2048, .bf16⟩
  | .local _ .vmem, ⟨44, _⟩ => ⟨S256x2048, .bf16⟩
  | .local _ .vmem, ⟨45, _⟩ => ⟨S256x2048, .bf16⟩
  | .local _ .vmem, ⟨46, _⟩ => ⟨S256x2048, .bf16⟩
  | .local _ .vmem, ⟨47, _⟩ => ⟨S10x2048, .f32⟩
  | .local _ .vmem, ⟨48, _⟩ => ⟨S256x10, .f32⟩
  | .local _ .vmem, ⟨49, _⟩ => ⟨S256x10, .f32⟩
  | .local _ .vmem, ⟨50, _⟩ => ⟨S1x10, .f32⟩
  | .local _ .vmem, ⟨51, _⟩ => ⟨S1x10, .f32⟩
  | .local _ .vmem, ⟨52, _⟩ => ⟨S1x10, .f32⟩
  | .local _ .vmem, ⟨53, _⟩ => ⟨S1x10, .f32⟩
  | .local _ .vmem, ⟨54, _⟩ => ⟨S256x10, .f32⟩
  | .local _ .vmem, ⟨55, _⟩ => ⟨S256x10, .f32⟩
  | .local _ .vmem, ⟨56, _⟩ => ⟨S1x10, .f32⟩
  | .local _ .vmem, ⟨57, _⟩ => ⟨S1x10, .f32⟩
  | .local _ .vmem, ⟨58, _⟩ => ⟨S256x10, .f32⟩
  | .local _ .vmem, ⟨59, _⟩ => ⟨S256x10, .f32⟩
  | _, _ => ⟨S8192x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_v17_2 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33_0 : Ref sig .tc := ⟨.hbm, 56, rfl⟩
abbrev main_v33_1 : Ref sig .tc := ⟨.hbm, 57, rfl⟩
abbrev main_v33_2 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49_0 : Ref sig .tc := ⟨.hbm, 77, rfl⟩
abbrev main_v49_1 : Ref sig .tc := ⟨.hbm, 78, rfl⟩
abbrev main_v49_2 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_scratch0 : Ref sig .tc := ⟨.vmem, 22, rfl⟩
abbrev cc2_scratch1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_scratch0 : Ref sig .tc := ⟨.vmem, 37, rfl⟩
abbrev cc4_scratch1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg4_0 : Ref sig .tc := ⟨.vmem, 51, rfl⟩
abbrev cc6_scratch0 : Ref sig .tc := ⟨.vmem, 52, rfl⟩
abbrev cc6_scratch1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc4_sem3_0 : DmaSem sig := 31
abbrev cc4_sem4_0 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem2_1 : DmaSem sig := 43
abbrev cc6_sem3_0 : DmaSem sig := 44
abbrev cc6_sem4_0 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem3_0 : DmaSem sig := 50
abbrev cc7_sem3_1 : DmaSem sig := 51

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v30 : BitVec 1 := Scalar.cmpi .eq arg0 c31_i32
  let v31 : BitVec 32 := Scalar.extui v30
  let c0_i32_18 : BitVec 32 := 0#32
  let v32 : BitVec 1 := Scalar.cmpi .ne v31 c0_i32_18
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x784 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def k2_cond2 (i : grid2.Coords) : BitVec 1 :=
  let arg0 : BitVec 32 := BitVec.ofNat 32 (i 0).val
  let c31_i32 : BitVec 32 := 31#32
  let v30 : BitVec 1 := Scalar.cmpi .eq arg0 c31_i32
  let v31 : BitVec 32 := Scalar.extui v30
  let c0_i32_18 : BitVec 32 := 0#32
  let v32 : BitVec 1 := Scalar.cmpi .ne v31 c0_i32_18
  v32

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![32], ![false]⟩

def k4_cond2 (i : grid4.Coords) : BitVec 1 :=
  let arg0 : BitVec 32 := BitVec.ofNat 32 (i 0).val
  let c31_i32 : BitVec 32 := 31#32
  let v30 : BitVec 1 := Scalar.cmpi .eq arg0 c31_i32
  let v31 : BitVec 32 := Scalar.extui v30
  let c0_i32_18 : BitVec 32 := 0#32
  let v32 : BitVec 1 := Scalar.cmpi .ne v31 c0_i32_18
  v32

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x2048 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2048 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S256x2048 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![32], ![false]⟩

def k6_cond2 (i : grid6.Coords) : BitVec 1 :=
  let arg0 : BitVec 32 := BitVec.ofNat 32 (i 0).val
  let c31_i32 : BitVec 32 := 31#32
  let v30 : BitVec 1 := Scalar.cmpi .eq arg0 c31_i32
  let v31 : BitVec 32 := Scalar.extui v30
  let c0_i32_18 : BitVec 32 := 0#32
  let v32 : BitVec 1 := Scalar.cmpi .ne v31 c0_i32_18
  v32

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S256x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10x2048 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x10 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x10 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x10 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x10 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S256x10 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bitsLt_bf16_f32 : FTy.bits .bf16 < FTy.bits .f32
  inb_S2048x784_S2048x784_0_0 : ∀ a, (![0, 0] : Fin 2 → Nat) a + S2048x784.size a ≤ S2048x784.size a
  h_S2048x784 : 0 < S2048x784.numel
  inb_S256x784_S256x784_0_0 : ∀ a, (![0, 0] : Fin 2 → Nat) a + S256x784.size a ≤ S256x784.size a
  h_S256x784 : 0 < S256x784.numel
  shapeCasts_S256x784_S256x784 : S256x784.ShapeCasts S256x784
  transposes_S2048x784_p1_0_S784x2048 : S2048x784.Transposes [1, 0] S784x2048
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S256x2048_S2048 : S256x2048.Reduces [0] S2048
  shapeCasts_S2048_S1x2048 : S2048.ShapeCasts S1x2048
  bcast_S_S1x2048 : S_.BroadcastsInDim S1x2048 (![] : Fin 0 → Fin S1x2048.rank)
  shapeCasts_S256x2048_S256x2048 : S256x2048.ShapeCasts S256x2048
  broadcasts_S1x2048_S256x2048 : S1x2048.Broadcasts S256x2048
  packedbf16_S256x2048_S256x2048_0_0 : (Rect.unit (s := S256x2048) ![0, 0] S256x2048.size inb_S256x2048_S256x2048_0_0).PackedRows (EltTy.packing .bf16)
  inb_S2048x2048_S2048x2048_0_0 : ∀ a, (![0, 0] : Fin 2 → Nat) a + S2048x2048.size a ≤ S2048x2048.size a
  h_S2048x2048 : 0 < S2048x2048.numel
  transposes_S2048x2048_p1_0_S2048x2048 : S2048x2048.Transposes [1, 0] S2048x2048
  inb_S10x2048_S10x2048_0_0 : ∀ a, (![0, 0] : Fin 2 → Nat) a + S10x2048.size a ≤ S10x2048.size a
  h_S10x2048 : 0 < S10x2048.numel
  transposes_S10x2048_p1_0_S2048x10 : S10x2048.Transposes [1, 0] S2048x10
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  reduces_S256x10_S10 : S256x10.Reduces [0] S10
  shapeCasts_S10_S1x10 : S10.ShapeCasts S1x10
  bcast_S_S1x10 : S_.BroadcastsInDim S1x10 (![] : Fin 0 → Fin S1x10.rank)
  shapeCasts_S256x10_S256x10 : S256x10.ShapeCasts S256x10
  broadcasts_S1x10_S256x10 : S1x10.Broadcasts S256x10
  dot_S256x784_S784x2048_S256x2048_1_0_0_1_n_n_wf : DotDims.WF S256x784 S784x2048 S256x2048 [1] [0] [0] [1] [] []
  dot_S256x2048_S2048x2048_S256x2048_1_0_0_1_n_n_wf : DotDims.WF S256x2048 S2048x2048 S256x2048 [1] [0] [0] [1] [] []
  dot_S256x2048_S2048x10_S256x10_1_0_0_1_n_n_wf : DotDims.WF S256x2048 S2048x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x784.size a ≤ S8192x784.size a
  hwx0_0 : ∀ i : grid0.Coords, EltTy.bits .bf16 = 32 ∨ (Rect.block (s := S8192x784) S256x784.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x784.size a ≤ S2048x784.size a
  hwx0_1 : ∀ i : grid0.Coords, EltTy.bits .f32 = 32 ∨ (Rect.block (s := S2048x784) S2048x784.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .f32 = 32 ∨ (Rect.block (s := S8192x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S8192x2048.size a
  hwx1_3 : ∀ i : grid1.Coords, EltTy.bits .bf16 = 32 ∨ (Rect.block (s := S8192x2048) S256x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S8192x2048.size a
  hwx2_0 : ∀ i : grid2.Coords, EltTy.bits .bf16 = 32 ∨ (Rect.block (s := S8192x2048) S256x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .f32 = 32 ∨ (Rect.block (s := S2048x2048) S2048x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S8192x2048.size a
  hwx2_2 : ∀ i : grid2.Coords, EltTy.bits .f32 = 32 ∨ (Rect.block (s := S8192x2048) S256x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x2048.size a
  hwx2_4 : ∀ i : grid2.Coords, EltTy.bits .f32 = 32 ∨ (Rect.block (s := S1x2048) S1x2048.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S8192x2048.size a
  hwx3_0 : ∀ i : grid3.Coords, EltTy.bits .f32 = 32 ∨ (Rect.block (s := S8192x2048) S256x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048.size a ≤ S1x2048.size a
  hwx3_1 : ∀ i : grid3.Coords, EltTy.bits .f32 = 32 ∨ (Rect.block (s := S1x2048) S1x2048.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x2048.size a
  hwx3_2 : ∀ i : grid3.Coords, EltTy.bits .f32 = 32 ∨ (Rect.block (s := S1x2048) S1x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x2048.size a ≤ S8192x2048.size a
  hwx3_3 : ∀ i : grid3.Coords, EltTy.bits .bf16 = 32 ∨ (Rect.block (s := S8192x2048) S256x2048.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x2048.size a ≤ S8192x2048.size a
  hwx4_0 : ∀ i : grid4.Coords, EltTy.bits .bf16 = 32 ∨ (Rect.block (s := S8192x2048) S256x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x2048.size a ≤ S2048x2048.size a
  hwx4_1 : ∀ i : grid4.Coords, EltTy.bits .f32 = 32 ∨ (Rect.block (s := S2048x2048) S2048x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x2048.size a ≤ S8192x2048.size a
  hwx4_2 : ∀ i : grid4.Coords, EltTy.bits .f32 = 32 ∨ (Rect.block (s := S8192x2048) S256x2048.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x2048.size a ≤ S1x2048.size a
  hwx4_3 : ∀ i : grid4.Coords, EltTy.bits .f32 = 32 ∨ (Rect.block (s := S1x2048) S1x2048.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2048.size a ≤ S1x2048.size a
  hwx4_4 : ∀ i : grid4.Coords, EltTy.bits .f32 = 32 ∨ (Rect.block (s := S1x2048) S1x2048.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x2048.size a ≤ S8192x2048.size a
  hwx5_0 : ∀ i : grid5.Coords, EltTy.bits .f32 = 32 ∨ (Rect.block (s := S8192x2048) S256x2048.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2048.size a ≤ S1x2048.size a
  hwx5_1 : ∀ i : grid5.Coords, EltTy.bits .f32 = 32 ∨ (Rect.block (s := S1x2048) S1x2048.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2048.size a ≤ S1x2048.size a
  hwx5_2 : ∀ i : grid5.Coords, EltTy.bits .f32 = 32 ∨ (Rect.block (s := S1x2048) S1x2048.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x2048.size a ≤ S8192x2048.size a
  hwx5_3 : ∀ i : grid5.Coords, EltTy.bits .bf16 = 32 ∨ (Rect.block (s := S8192x2048) S256x2048.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x2048.size a ≤ S8192x2048.size a
  hwx6_0 : ∀ i : grid6.Coords, EltTy.bits .bf16 = 32 ∨ (Rect.block (s := S8192x2048) S256x2048.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10x2048.size a ≤ S10x2048.size a
  hwx6_1 : ∀ i : grid6.Coords, EltTy.bits .f32 = 32 ∨ (Rect.block (s := S10x2048) S10x2048.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S256x10.size a ≤ S8192x10.size a
  hwx6_2 : ∀ i : grid6.Coords, EltTy.bits .f32 = 32 ∨ (Rect.block (s := S8192x10) S256x10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x10.size a ≤ S1x10.size a
  hwx6_3 : ∀ i : grid6.Coords, EltTy.bits .f32 = 32 ∨ (Rect.block (s := S1x10) S1x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x10.size a ≤ S1x10.size a
  hwx6_4 : ∀ i : grid6.Coords, EltTy.bits .f32 = 32 ∨ (Rect.block (s := S1x10) S1x10.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x10.size a ≤ S8192x10.size a
  hwx7_0 : ∀ i : grid7.Coords, EltTy.bits .f32 = 32 ∨ (Rect.block (s := S8192x10) S256x10.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x10.size a ≤ S1x10.size a
  hwx7_1 : ∀ i : grid7.Coords, EltTy.bits .f32 = 32 ∨ (Rect.block (s := S1x10) S1x10.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x10.size a ≤ S1x10.size a
  hwx7_2 : ∀ i : grid7.Coords, EltTy.bits .f32 = 32 ∨ (Rect.block (s := S1x10) S1x10.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S256x10.size a ≤ S8192x10.size a
  hwx7_3 : ∀ i : grid7.Coords, EltTy.bits .f32 = 32 ∨ (Rect.block (s := S8192x10) S256x10.size (cc7_transform_3 i) (hinb7_3 i)).WholeWords (EltTy.packing .f32)

variable [Facts₀]

def dot_S256x784_S784x2048_S256x2048_1_0_0_1_n_n : DotDims S256x784 S784x2048 S256x2048 where
  lhsContracting := [1]
  rhsContracting := [0]
  lhsNonContracting := [0]
  rhsNonContracting := [1]
  lhsBatch := []
  rhsBatch := []
  wf := dot_S256x784_S784x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x10_S256x10_1_0_0_1_n_n : DotDims S256x2048 S2048x10 S256x10 where
  lhsContracting := [1]
  rhsContracting := [0]
  lhsNonContracting := [0]
  rhsNonContracting := [1]
  lhsBatch := []
  rhsBatch := []
  wf := dot_S256x2048_S2048x10_S256x10_1_0_0_1_n_n_wf

abbrev win0_0 : Pipeline.Window sig grid0 :=
  Pipeline.Window.ofSpec (Memref.whole main_v0) S256x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x2048.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x2048.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v1_0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17_0) S256x2048.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17_1) S1x2048.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17_2) S1x2048.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v17_0) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S1x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S256x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v32) S256x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S2048x2048.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33_0) S256x2048.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v33_1) S1x2048.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v33_2) S1x2048.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond2 i == 1#1) | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v33_0) S256x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S1x2048.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v47) S1x2048.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v48) S256x2048.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v48) S256x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S10x2048.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v49_0) S256x10.size cc6_transform_2 reads6_2 true false 2 stage6_2 sem6_2
    hrank6 hreads6_2 hinb6_2 nbuf6_2 (Memref.isWhole_whole _) hwx6_2 hstage6_2

abbrev win6_3 : Pipeline.Window sig grid6 :=
  Pipeline.Window.ofSpec (Memref.whole main_v49_1) S1x10.size cc6_transform_3 reads6_3 true true 1 stage6_3 sem6_3
    hrank6 hreads6_3 hinb6_3 nbuf6_3 (Memref.isWhole_whole _) hwx6_3 hstage6_3

abbrev win6_4 : Pipeline.Window sig grid6 :=
  Pipeline.Window.ofSpec (Memref.whole main_v49_2) S1x10.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun i => !(k6_cond2 i == 1#1) | 4 => fun i => !(k6_cond2 i == 1#1) | ⟨_ + 5, h⟩ => absurd h (Nat.not_lt.2 (Nat.le_add_left _ _))

abbrev win7_0 : Pipeline.Window sig grid7 :=
  Pipeline.Window.ofSpec (Memref.whole main_v49_0) S256x10.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v60) S1x10.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v63) S1x10.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v64) S256x10.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S8192x784 : Shape := ⟨2, ![8192, 784]⟩
abbrev S2048x784 : Shape := ⟨2, ![2048, 784]⟩
abbrev S2048 : Shape := ⟨1, ![2048]⟩
abbrev S2048x2048 : Shape := ⟨2, ![2048, 2048]⟩
abbrev S10x2048 : Shape := ⟨2, ![10, 2048]⟩
abbrev S10 : Shape := ⟨1, ![10]⟩
abbrev S_ : Shape := ⟨0, ![]⟩
abbrev S784x2048 : Shape := ⟨2, ![784, 2048]⟩
abbrev S8192x2048 : Shape := ⟨2, ![8192, 2048]⟩
abbrev S1x2048 : Shape := ⟨2, ![1, 2048]⟩
abbrev S2048x10 : Shape := ⟨2, ![2048, 10]⟩
abbrev S8192x10 : Shape := ⟨2, ![8192, 10]⟩
abbrev S1x10 : Shape := ⟨2, ![1, 10]⟩

abbrev nBuf : Space → Nat
  | .hbm => 210
  | .vmem => 0
  | .smem => 0
  | _ => 0

abbrev hbmTy0_0 (i : Nat) : BufTy := match i % 128 with
  | 0 => ⟨S8192x784, .f32⟩
  | 1 => ⟨S2048x784, .f32⟩
  | 2 => ⟨S2048, .f32⟩
  | 3 => ⟨S2048, .f32⟩
  | 4 => ⟨S2048x2048, .f32⟩
  | 5 => ⟨S2048, .f32⟩
  | 6 => ⟨S2048, .f32⟩
  | 7 => ⟨S2048x2048, .f32⟩
  | 8 => ⟨S2048, .f32⟩
  | 9 => ⟨S2048, .f32⟩
  | 10 => ⟨S10x2048, .f32⟩
  | 11 => ⟨S10, .f32⟩
  | 12 => ⟨S10, .f32⟩
  | 13 => ⟨S2048x784, .f32⟩
  | 14 => ⟨S_, .f32⟩
  | 15 => ⟨S_, .f32⟩
  | 16 => ⟨S_, .f32⟩
  | 17 => ⟨S2048x784, .f32⟩
  | 18 => ⟨S2048x784, .f32⟩
  | 19 => ⟨S_, .f32⟩
  | 20 => ⟨S2048x784, .f32⟩
  | 21 => ⟨S2048x784, .f32⟩
  | 22 => ⟨S2048x784, .f32⟩
  | 23 => ⟨S2048x784, .f32⟩
  | 24 => ⟨S784x2048, .f32⟩
  | 25 => ⟨S8192x2048, .f32⟩
  | 26 => ⟨S_, .f32⟩
  | 27 => ⟨S2048, .f32⟩
  | 28 => ⟨S_, .f32⟩
  | 29 => ⟨S2048, .f32⟩
  | 30 => ⟨S2048, .f32⟩
  | 31 => ⟨S1x2048, .f32⟩
  | 32 => ⟨S8192x2048, .f32⟩
  | 33 => ⟨S8192x2048, .f32⟩
  | 34 => ⟨S8192x2048, .f32⟩
  | 35 => ⟨S_, .f32⟩
  | 36 => ⟨S2048, .f32⟩
  | 37 => ⟨S_, .f32⟩
  | 38 => ⟨S2048, .f32⟩
  | 39 => ⟨S2048, .f32⟩
  | 40 => ⟨S1x2048, .f32⟩
  | 41 => ⟨S8192x2048, .f32⟩
  | 42 => ⟨S8192x2048, .f32⟩
  | 43 => ⟨S_, .f32⟩
  | 44 => ⟨S2048, .f32⟩
  | 45 => ⟨S2048, .f32⟩
  | 46 => ⟨S2048, .f32⟩
  | 47 => ⟨S2048, .f32⟩
  | 48 => ⟨S1x2048, .f32⟩
  | 49 => ⟨S8192x2048, .f32⟩
  | 50 => ⟨S8192x2048, .f32⟩
  | 51 => ⟨S1x2048, .f32⟩
  | 52 => ⟨S8192x2048, .f32⟩
  | 53 => ⟨S8192x2048, .f32⟩
  | 54 => ⟨S8192x2048, .f32⟩
  | 55 => ⟨S_, .f32⟩
  | 56 => ⟨S_, .f32⟩
  | 57 => ⟨S_, .f32⟩
  | 58 => ⟨S8192x2048, .f32⟩
  | 59 => ⟨S8192x2048, .f32⟩
  | 60 => ⟨S_, .f32⟩
  | 61 => ⟨S8192x2048, .f32⟩
  | 62 => ⟨S8192x2048, .f32⟩
  | 63 => ⟨S8192x2048, .f32⟩
  | 64 => ⟨S8192x2048, .f32⟩
  | 65 => ⟨S2048x2048, .f32⟩
  | 66 => ⟨S_, .f32⟩
  | 67 => ⟨S_, .f32⟩
  | 68 => ⟨S_, .f32⟩
  | 69 => ⟨S2048x2048, .f32⟩
  | 70 => ⟨S2048x2048, .f32⟩
  | 71 => ⟨S_, .f32⟩
  | 72 => ⟨S2048x2048, .f32⟩
  | 73 => ⟨S2048x2048, .f32⟩
  | 74 => ⟨S2048x2048, .f32⟩
  | 75 => ⟨S2048x2048, .f32⟩
  | 76 => ⟨S2048x2048, .f32⟩
  | 77 => ⟨S8192x2048, .f32⟩
  | 78 => ⟨S_, .f32⟩
  | 79 => ⟨S2048, .f32⟩
  | 80 => ⟨S_, .f32⟩
  | 81 => ⟨S2048, .f32⟩
  | 82 => ⟨S2048, .f32⟩
  | 83 => ⟨S1x2048, .f32⟩
  | 84 => ⟨S8192x2048, .f32⟩
  | 85 => ⟨S8192x2048, .f32⟩
  | 86 => ⟨S8192x2048, .f32⟩
  | 87 => ⟨S_, .f32⟩
  | 88 => ⟨S2048, .f32⟩
  | 89 => ⟨S_, .f32⟩
  | 90 => ⟨S2048, .f32⟩
  | 91 => ⟨S2048, .f32⟩
  | 92 => ⟨S1x2048, .f32⟩
  | 93 => ⟨S8192x2048, .f32⟩
  | 94 => ⟨S8192x2048, .f32⟩
  | 95 => ⟨S_, .f32⟩
  | 96 => ⟨S2048, .f32⟩
  | 97 => ⟨S2048, .f32⟩
  | 98 => ⟨S2048, .f32⟩
  | 99 => ⟨S2048, .f32⟩
  | 100 => ⟨S1x2048, .f32⟩
  | 101 => ⟨S8192x2048, .f32⟩
  | 102 => ⟨S8192x2048, .f32⟩
  | 103 => ⟨S1x2048, .f32⟩
  | 104 => ⟨S8192x2048, .f32⟩
  | 105 => ⟨S8192x2048, .f32⟩
  | 106 => ⟨S8192x2048, .f32⟩
  | 107 => ⟨S_, .f32⟩
  | 108 => ⟨S_, .f32⟩
  | 109 => ⟨S_, .f32⟩
  | 110 => ⟨S8192x2048, .f32⟩
  | 111 => ⟨S8192x2048, .f32⟩
  | 112 => ⟨S_, .f32⟩
  | 113 => ⟨S8192x2048, .f32⟩
  | 114 => ⟨S8192x2048, .f32⟩
  | 115 => ⟨S8192x2048, .f32⟩
  | 116 => ⟨S8192x2048, .f32⟩
  | 117 => ⟨S2048x2048, .f32⟩
  | 118 => ⟨S_, .f32⟩
  | 119 => ⟨S_, .f32⟩
  | 120 => ⟨S_, .f32⟩
  | 121 => ⟨S2048x2048, .f32⟩
  | 122 => ⟨S2048x2048, .f32⟩
  | 123 => ⟨S_, .f32⟩
  | 124 => ⟨S2048x2048, .f32⟩
  | 125 => ⟨S2048x2048, .f32⟩
  | 126 => ⟨S2048x2048, .f32⟩
  | 127 => ⟨S2048x2048, .f32⟩
  | _ => ⟨S8192x784, .f32⟩

abbrev hbmTy0_1 (i : Nat) : BufTy := match i % 128 with
  | 0 => ⟨S2048x2048, .f32⟩
  | 1 => ⟨S8192x2048, .f32⟩
  | 2 => ⟨S_, .f32⟩
  | 3 => ⟨S2048, .f32⟩
  | 4 => ⟨S_, .f32⟩
  | 5 => ⟨S2048, .f32⟩
  | 6 => ⟨S2048, .f32⟩
  | 7 => ⟨S1x2048, .f32⟩
  | 8 => ⟨S8192x2048, .f32⟩
  | 9 => ⟨S8192x2048, .f32⟩
  | 10 => ⟨S8192x2048, .f32⟩
  | 11 => ⟨S_, .f32⟩
  | 12 => ⟨S2048, .f32⟩
  | 13 => ⟨S_, .f32⟩
  | 14 => ⟨S2048, .f32⟩
  | 15 => ⟨S2048, .f32⟩
  | 16 => ⟨S1x2048, .f32⟩
  | 17 => ⟨S8192x2048, .f32⟩
  | 18 => ⟨S8192x2048, .f32⟩
  | 19 => ⟨S_, .f32⟩
  | 20 => ⟨S2048, .f32⟩
  | 21 => ⟨S2048, .f32⟩
  | 22 => ⟨S2048, .f32⟩
  | 23 => ⟨S2048, .f32⟩
  | 24 => ⟨S1x2048, .f32⟩
  | 25 => ⟨S8192x2048, .f32⟩
  | 26 => ⟨S8192x2048, .f32⟩
  | 27 => ⟨S1x2048, .f32⟩
  | 28 => ⟨S8192x2048, .f32⟩
  | 29 => ⟨S8192x2048, .f32⟩
  | 30 => ⟨S8192x2048, .f32⟩
  | 31 => ⟨S_, .f32⟩
  | 32 => ⟨S_, .f32⟩
  | 33 => ⟨S_, .f32⟩
  | 34 => ⟨S8192x2048, .f32⟩
  | 35 => ⟨S8192x2048, .f32⟩
  | 36 => ⟨S_, .f32⟩
  | 37 => ⟨S8192x2048, .f32⟩
  | 38 => ⟨S8192x2048, .f32⟩
  | 39 => ⟨S8192x2048, .f32⟩
  | 40 => ⟨S8192x2048, .f32⟩
  | 41 => ⟨S10x2048, .f32⟩
  | 42 => ⟨S_, .f32⟩
  | 43 => ⟨S_, .f32⟩
  | 44 => ⟨S_, .f32⟩
  | 45 => ⟨S10x2048, .f32⟩
  | 46 => ⟨S10x2048, .f32⟩
  | 47 => ⟨S_, .f32⟩
  | 48 => ⟨S10x2048, .f32⟩
  | 49 => ⟨S10x2048, .f32⟩
  | 50 => ⟨S10x2048, .f32⟩
  | 51 => ⟨S10x2048, .f32⟩
  | 52 => ⟨S2048x10, .f32⟩
  | 53 => ⟨S8192x10, .f32⟩
  | 54 => ⟨S_, .f32⟩
  | 55 => ⟨S10, .f32⟩
  | 56 => ⟨S_, .f32⟩
  | 57 => ⟨S10, .f32⟩
  | 58 => ⟨S10, .f32⟩
  | 59 => ⟨S1x10, .f32⟩
  | 60 => ⟨S8192x10, .f32⟩
  | 61 => ⟨S8192x10, .f32⟩
  | 62 => ⟨S8192x10, .f32⟩
  | 63 => ⟨S_, .f32⟩
  | 64 => ⟨S10, .f32⟩
  | 65 => ⟨S_, .f32⟩
  | 66 => ⟨S10, .f32⟩
  | 67 => ⟨S10, .f32⟩
  | 68 => ⟨S1x10, .f32⟩
  | 69 => ⟨S8192x10, .f32⟩
  | 70 => ⟨S8192x10, .f32⟩
  | 71 => ⟨S_, .f32⟩
  | 72 => ⟨S10, .f32⟩
  | 73 => ⟨S10, .f32⟩
  | 74 => ⟨S10, .f32⟩
  | 75 => ⟨S10, .f32⟩
  | 76 => ⟨S1x10, .f32⟩
  | 77 => ⟨S8192x10, .f32⟩
  | 78 => ⟨S8192x10, .f32⟩
  | 79 => ⟨S1x10, .f32⟩
  | 80 => ⟨S8192x10, .f32⟩
  | 81 => ⟨S8192x10, .f32⟩
  | _ => ⟨S8192x784, .f32⟩

abbrev hbmTy (i : Nat) : BufTy := match i / 128 with
  | 0 => hbmTy0_0 i
  | 1 => hbmTy0_1 i
  | _ => ⟨S8192x784, .f32⟩

abbrev bufTy : (tb : Table) → Fin (tcTables nBuf tb) → BufTy
  | .hbm, ⟨i, _⟩ => hbmTy i
  | _, _ => ⟨S8192x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_cst_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_cst_2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_cst_4 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_5 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_cst_7 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_8 : Ref sig .tc := ⟨.hbm, 66, rfl⟩
abbrev main_cst_9 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_10 : Ref sig .tc := ⟨.hbm, 78, rfl⟩
abbrev main_v39 : Ref sig .tc := ⟨.hbm, 79, rfl⟩
abbrev main_cst_11 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_12 : Ref sig .tc := ⟨.hbm, 87, rfl⟩
abbrev main_v46 : Ref sig .tc := ⟨.hbm, 88, rfl⟩
abbrev main_cst_13 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_14 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_15 : Ref sig .tc := ⟨.hbm, 107, rfl⟩
abbrev main_cst_16 : Ref sig .tc := ⟨.hbm, 108, rfl⟩
abbrev main_call7_v0 : Ref sig .tc := ⟨.hbm, 109, rfl⟩
abbrev main_call7_v1 : Ref sig .tc := ⟨.hbm, 110, rfl⟩
abbrev main_call7_v2 : Ref sig .tc := ⟨.hbm, 111, rfl⟩
abbrev main_call7_v3 : Ref sig .tc := ⟨.hbm, 112, rfl⟩
abbrev main_call7_v4 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_17 : Ref sig .tc := ⟨.hbm, 118, rfl⟩
abbrev main_cst_18 : Ref sig .tc := ⟨.hbm, 119, rfl⟩
abbrev main_call9_v0 : Ref sig .tc := ⟨.hbm, 120, rfl⟩
abbrev main_call9_v1 : Ref sig .tc := ⟨.hbm, 121, rfl⟩
abbrev main_call9_v2 : Ref sig .tc := ⟨.hbm, 122, rfl⟩
abbrev main_call9_v3 : Ref sig .tc := ⟨.hbm, 123, rfl⟩
abbrev main_call9_v4 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_cst_19 : Ref sig .tc := ⟨.hbm, 130, rfl⟩
abbrev main_v72 : Ref sig .tc := ⟨.hbm, 131, rfl⟩
abbrev main_cst_20 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_cst_21 : Ref sig .tc := ⟨.hbm, 139, rfl⟩
abbrev main_v79 : Ref sig .tc := ⟨.hbm, 140, rfl⟩
abbrev main_cst_22 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_cst_23 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_cst_24 : Ref sig .tc := ⟨.hbm, 159, rfl⟩
abbrev main_cst_25 : Ref sig .tc := ⟨.hbm, 160, rfl⟩
abbrev main_call11_v0 : Ref sig .tc := ⟨.hbm, 161, rfl⟩
abbrev main_call11_v1 : Ref sig .tc := ⟨.hbm, 162, rfl⟩
abbrev main_call11_v2 : Ref sig .tc := ⟨.hbm, 163, rfl⟩
abbrev main_call11_v3 : Ref sig .tc := ⟨.hbm, 164, rfl⟩
abbrev main_call11_v4 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_cst_26 : Ref sig .tc := ⟨.hbm, 170, rfl⟩
abbrev main_cst_27 : Ref sig .tc := ⟨.hbm, 171, rfl⟩
abbrev main_call13_v0 : Ref sig .tc := ⟨.hbm, 172, rfl⟩
abbrev main_call13_v1 : Ref sig .tc := ⟨.hbm, 173, rfl⟩
abbrev main_call13_v2 : Ref sig .tc := ⟨.hbm, 174, rfl⟩
abbrev main_call13_v3 : Ref sig .tc := ⟨.hbm, 175, rfl⟩
abbrev main_call13_v4 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_cst_28 : Ref sig .tc := ⟨.hbm, 182, rfl⟩
abbrev main_v105 : Ref sig .tc := ⟨.hbm, 183, rfl⟩
abbrev main_cst_29 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_cst_30 : Ref sig .tc := ⟨.hbm, 191, rfl⟩
abbrev main_v112 : Ref sig .tc := ⟨.hbm, 192, rfl⟩
abbrev main_cst_31 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_cst_32 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩

abbrev nD : Nat := 1
abbrev τ : Topo := Topo.v7x

variable {F : FTy → Type} [FloatOps F]

class Facts₀ : Prop where
  bcast_S_S2048x784 : S_.BroadcastsInDim S2048x784 (![] : Fin 0 → Fin S2048x784.rank)
  transposes_S2048x784_S784x2048_1_0 : S2048x784.Transposes [1, 0] S784x2048
  reducesTo_S8192x2048_S2048_d0 : S8192x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S_S2048x2048 : S_.BroadcastsInDim S2048x2048 (![] : Fin 0 → Fin S2048x2048.rank)
  transposes_S2048x2048_S2048x2048_1_0 : S2048x2048.Transposes [1, 0] S2048x2048
  bcast_S_S10x2048 : S_.BroadcastsInDim S10x2048 (![] : Fin 0 → Fin S10x2048.rank)
  transposes_S10x2048_S2048x10_1_0 : S10x2048.Transposes [1, 0] S2048x10
  reducesTo_S8192x10_S10_d0 : S8192x10.ReducesTo [0] S10
  bcast_S_S10 : S_.BroadcastsInDim S10 (![] : Fin 0 → Fin S10.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  dot_S8192x784_S784x2048_S8192x2048_1_0_0_1_n_n_wf : DotDims.WF S8192x784 S784x2048 S8192x2048 [1] [0] [0] [1] [] []
  dot_S8192x2048_S2048x2048_S8192x2048_1_0_0_1_n_n_wf : DotDims.WF S8192x2048 S2048x2048 S8192x2048 [1] [0] [0] [1] [] []
  dot_S8192x2048_S2048x10_S8192x10_1_0_0_1_n_n_wf : DotDims.WF S8192x2048 S2048x10 S8192x10 [1] [0] [0] [1] [] []

variable [Facts₀]

def dot_S8192x784_S784x2048_S8192x2048_1_0_0_1_n_n : DotDims S8192x784 S784x2048 S8192x2048 where
  lhsContracting := [1]
  rhsContracting := [0]
  lhsNonContracting := [0]
  rhsNonContracting := [1]
  lhsBatch := []
  rhsBatch := []
  wf := dot_S8192x784_S784x2048_S8192x2048_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x10_S8192x10_1_0_0_1_n_n : DotDims S8192x2048 S2048x10 S8192x10 where
  lhsContracting := [1]
  rhsContracting := [0]
  lhsNonContracting := [0]
  rhsNonContracting := [1]
  lhsBatch := []
  rhsBatch := []
  wf := dot_S8192x2048_S2048x10_S8192x10_1_0_0_1_n_n_wf

class Facts : Prop extends Facts₀ where

variable [Facts]
-- ==== Proof.KRunCond.lean ====
/-
  The run of the kernel's program with its result named.

  @main is thirteen items: five stretches of host operations and eight kernel regions. Between two items every unscoped
  buffer of a core is held whole at a valuation: the launch contents, then each host stretch applied, then what each
  region leaves in the arrays it may change. Given one record per region, entered from the valuation before it and left at
  the one after it, every weakly fair execution terminates; the final memory holds the result array at the last
  valuation's contents and every argument array as launched.
-/
import proofs.«117354_j7189775254092_1_alg».proof.Proof.Gen.Kernel.Regions

set_option maxRecDepth 1144

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The program's run, given the regions' records: every weakly fair execution of @main from memory `m` terminates, the
    result array ends at the last valuation's contents of it, and every argument array ends as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V7 m outs c) ∗ E 4 c) ⊢ R4.pre c)
    (hpost4 : ∀ c : Dev nD, R4.post c ⊢ iprop(StableHlo.held (c : Thread nD τ) (Pipeline.ucRefs τ sig) (V8 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V9 m outs c) ∗ E 5 c) ⊢ R5.pre c)
    (hpost5 : ∀ c : Dev nD, R5.post c ⊢ iprop(StableHlo.held (c : Thread nD τ) (Pipeline.ucRefs τ sig) (V10 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V10 m outs c) ∗ E 6 c) ⊢ R6.pre c)
    (hpost6 : ∀ c : Dev nD, R6.post c ⊢ iprop(StableHlo.held (c : Thread nD τ) (Pipeline.ucRefs τ sig) (V11 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V12 m outs c) ∗ E 7 c) ⊢ R7.pre c)
    (hpost7 : ∀ c : Dev nD, R7.post c ⊢ iprop(StableHlo.held (c : Thread nD τ) (Pipeline.ucRefs τ sig) (V13 m outs c) ∗ E 8 c)) :
    θ_run defs (onTc (τ := τ) (main (F := F))) ⟨m, fun _ => 0, ρ⟩ (fun r => ∀ c : Dev nD,
      r.2.mem ((c.tc : Thread nD τ).loc main_v64) = V13 m outs c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, hpre0 c, hpost0 c, hpre1 c, (hpost1 c).trans (hpre2 c), hpost2 c, hpre3 c, (hpost3 c).trans (hpre4 c), hpost4 c, hpre5 c, (hpost5 c).trans (hpre6 c), hpost6 c, hpre7 c, (hpost7 c).trans (sep_mono .rfl (hE8 c))⟩)
    (hinit := ?_) (QY := fun c s => s.mem ((c.tc : Thread nD τ).loc main_v64) = V13 m outs c main_v64 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact ⟨h (Proc.devRef .tc main_v64) (Finset.mem_filter.mpr ⟨StableHlo.devRef_mem_tcRefs main_v64, by decide⟩),
        (h (Proc.devRef .tc main_arg0) (Finset.mem_filter.mpr ⟨StableHlo.devRef_mem_tcRefs main_arg0, by decide⟩)).trans (V13_main_arg0 m outs c),
        (h (Proc.devRef .tc main_arg1) (Finset.mem_filter.mpr ⟨StableHlo.devRef_mem_tcRefs main_arg1, by decide⟩)).trans (V13_main_arg1 m outs c),
        (h (Proc.devRef .tc main_arg2) (Finset.mem_filter.mpr ⟨StableHlo.devRef_mem_tcRefs main_arg2, by decide⟩)).trans (V13_main_arg2 m outs c),
        (h (Proc.devRef .tc main_arg3) (Finset.mem_filter.mpr ⟨StableHlo.devRef_mem_tcRefs main_arg3, by decide⟩)).trans (V13_main_arg3 m outs c),
        (h (Proc.devRef .tc main_arg4) (Finset.mem_filter.mpr ⟨StableHlo.devRef_mem_tcRefs main_arg4, by decide⟩)).trans (V13_main_arg4 m outs c),
        (h (Proc.devRef .tc main_arg5) (Finset.mem_filter.mpr ⟨StableHlo.devRef_mem_tcRefs main_arg5, by decide⟩)).trans (V13_main_arg5 m outs c),
        (h (Proc.devRef .tc main_arg6) (Finset.mem_filter.mpr ⟨StableHlo.devRef_mem_tcRefs main_arg6, by decide⟩)).trans (V13_main_arg6 m outs c),
        (h (Proc.devRef .tc main_arg7) (Finset.mem_filter.mpr ⟨StableHlo.devRef_mem_tcRefs main_arg7, by decide⟩)).trans (V13_main_arg7 m outs c),
        (h (Proc.devRef .tc main_arg8) (Finset.mem_filter.mpr ⟨StableHlo.devRef_mem_tcRefs main_arg8, by decide⟩)).trans (V13_main_arg8 m outs c),
        (h (Proc.devRef .tc main_arg9) (Finset.mem_filter.mpr ⟨StableHlo.devRef_mem_tcRefs main_arg9, by decide⟩)).trans (V13_main_arg9 m outs c),
        (h (Proc.devRef .tc main_arg10) (Finset.mem_filter.mpr ⟨StableHlo.devRef_mem_tcRefs main_arg10, by decide⟩)).trans (V13_main_arg10 m outs c),
        (h (Proc.devRef .tc main_arg11) (Finset.mem_filter.mpr ⟨StableHlo.devRef_mem_tcRefs main_arg11, by decide⟩)).trans (V13_main_arg11 m outs c),
        (h (Proc.devRef .tc main_arg12) (Finset.mem_filter.mpr ⟨StableHlo.devRef_mem_tcRefs main_arg12, by decide⟩)).trans (V13_main_arg12 m outs c)⟩
    · iexact HSI

end Cert.Kernel.Hand

end
-- ==== Proof.KRunRegs.lean ====
/-
  The run of the kernel's program at the launch's own resources.

  Nothing is owed between cores and no level is assigned; beside the buffers each core carries only its generator
  register, at some state, and the fact that it owes nothing. With that rest state at every boundary, the eight regions'
  records (each entered from the valuation before it, left at the one after) give the run: it terminates, the result array
  ends at the last valuation's contents, every argument array as launched.
-/
import proofs.«117354_j7189775254092_1_alg».proof.Proof.KRunCond
import Idealize.ShloMosaic.Lib.Pipeline.Kit
import Idealize.ShloMosaic.Lib.Pipeline.RegionsLoop

set_option maxRecDepth 1144

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- No core owes another anything: no level is assigned. -/
abbrev L0 : GSem nD τ sig → Finset Unit := fun _ => ∅
abbrev lv0 : GSem nD τ sig → Unit → ℕ := fun _ _ => 0

/-- What a core carries beside its buffers at every boundary: the generator register at some state, nothing owed. -/
abbrev Rest (c : Dev nD) : sProp 𝕄 :=
  iprop((∃ r, prngReg c r) ∗ ∃ W, owes (c : Thread nD τ) (0 : CellTallies nD τ sig Unit) W)

/-- What the launch hands one core beside its buffers — its staging semaphores, its dues (none), the generator register at
    its launch state — makes that core's rest state. -/
theorem rest_of_launch_core (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c) : sProp 𝕄) ⊢ Rest (F := F) c := by
  iintro ⟨-, HO, -, Hp, -⟩
  isplitl [Hp]; · iexists _; iexact Hp
  iexists ∅; iexact HO

/-- … and so on every core at once. -/
theorem rest_of_launch (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts L0 lv0)
      ⊢ (|={Set.univ}=> bigSep Finset.univ (fun c : Dev nD => Rest (F := F) c) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c))
      ⊢ (bigSep Finset.univ (fun c : Dev nD => Rest (F := F) c) : sProp 𝕄) :=
    bigSep_mono fun c _ => rest_of_launch_core ρ c
  iintro ⟨H, -⟩
  imodintro
  iapply hmono
  iexact H

variable (m : (ℓ : Loc nD τ sig) → Buf (Elt F) ℓ)

set_option backward.isDefEq.respectTransparency.types false in
/-- The run from the eight regions' records, at the launch's own resources. -/
theorem run_of_regs (ρ : Dev nD → PrngReg) (outs : Outs (F := F))
    (pdats : (p : Fin 8) → (c : Dev nD) → Dat τ (Elt F) Unit ℕ (UR sig nD τ) ℕ (cfgs p) c)
    (R0 : RegionSeg (pcfgs (F := F)) adm pdats () defs₀ Variants.none L0 lv0 0)
    (R1 : RegionSeg (pcfgs (F := F)) adm pdats () defs₀ Variants.none L0 lv0 1)
    (R2 : RegionSeg (pcfgs (F := F)) adm pdats () defs₀ Variants.none L0 lv0 2)
    (R3 : RegionSeg (pcfgs (F := F)) adm pdats () defs₀ Variants.none L0 lv0 3)
    (R4 : RegionSeg (pcfgs (F := F)) adm pdats () defs₀ Variants.none L0 lv0 4)
    (R5 : RegionSeg (pcfgs (F := F)) adm pdats () defs₀ Variants.none L0 lv0 5)
    (R6 : RegionSeg (pcfgs (F := F)) adm pdats () defs₀ Variants.none L0 lv0 6)
    (R7 : RegionSeg (pcfgs (F := F)) adm pdats () defs₀ Variants.none L0 lv0 7)
    (hpre0 : ∀ c : Dev nD, iprop(StableHlo.held (c : Thread nD τ) (Pipeline.ucRefs τ sig) (V1 m c) ∗ Rest (F := F) c) ⊢ R0.pre c)
    (hpost0 : ∀ c : Dev nD, R0.post c ⊢ iprop(StableHlo.held (c : Thread nD τ) (Pipeline.ucRefs τ sig) (V2 m outs c) ∗ Rest (F := F) c))
    (hpre1 : ∀ c : Dev nD, iprop(StableHlo.held (c : Thread nD τ) (Pipeline.ucRefs τ sig) (V3 m outs c) ∗ Rest (F := F) c) ⊢ R1.pre c)
    (hpost1 : ∀ c : Dev nD, R1.post c ⊢ iprop(StableHlo.held (c : Thread nD τ) (Pipeline.ucRefs τ sig) (V4 m outs c) ∗ Rest (F := F) c))
    (hpre2 : ∀ c : Dev nD, iprop(StableHlo.held (c : Thread nD τ) (Pipeline.ucRefs τ sig) (V4 m outs c) ∗ Rest (F := F) c) ⊢ R2.pre c)
    (hpost2 : ∀ c : Dev nD, R2.post c ⊢ iprop(StableHlo.held (c : Thread nD τ) (Pipeline.ucRefs τ sig) (V5 m outs c) ∗ Rest (F := F) c))
    (hpre3 : ∀ c : Dev nD, iprop(StableHlo.held (c : Thread nD τ) (Pipeline.ucRefs τ sig) (V6 m outs c) ∗ Rest (F := F) c) ⊢ R3.pre c)
    (hpost3 : ∀ c : Dev nD, R3.post c ⊢ iprop(StableHlo.held (c : Thread nD τ) (Pipeline.ucRefs τ sig) (V7 m outs c) ∗ Rest (F := F) c))
    (hpre4 : ∀ c : Dev nD, iprop(StableHlo.held (c : Thread nD τ) (Pipeline.ucRefs τ sig) (V7 m outs c) ∗ Rest (F := F) c) ⊢ R4.pre c)
    (hpost4 : ∀ c : Dev nD, R4.post c ⊢ iprop(StableHlo.held (c : Thread nD τ) (Pipeline.ucRefs τ sig) (V8 m outs c) ∗ Rest (F := F) c))
    (hpre5 : ∀ c : Dev nD, iprop(StableHlo.held (c : Thread nD τ) (Pipeline.ucRefs τ sig) (V9 m outs c) ∗ Rest (F := F) c) ⊢ R5.pre c)
    (hpost5 : ∀ c : Dev nD, R5.post c ⊢ iprop(StableHlo.held (c : Thread nD τ) (Pipeline.ucRefs τ sig) (V10 m outs c) ∗ Rest (F := F) c))
    (hpre6 : ∀ c : Dev nD, iprop(StableHlo.held (c : Thread nD τ) (Pipeline.ucRefs τ sig) (V10 m outs c) ∗ Rest (F := F) c) ⊢ R6.pre c)
    (hpost6 : ∀ c : Dev nD, R6.post c ⊢ iprop(StableHlo.held (c : Thread nD τ) (Pipeline.ucRefs τ sig) (V11 m outs c) ∗ Rest (F := F) c))
    (hpre7 : ∀ c : Dev nD, iprop(StableHlo.held (c : Thread nD τ) (Pipeline.ucRefs τ sig) (V12 m outs c) ∗ Rest (F := F) c) ⊢ R7.pre c)
    (hpost7 : ∀ c : Dev nD, R7.post c ⊢ iprop(StableHlo.held (c : Thread nD τ) (Pipeline.ucRefs τ sig) (V13 m outs c) ∗ Rest (F := F) c)) :
    θ_run defs (onTc (τ := τ) (main (F := F))) ⟨m, fun _ => 0, ρ⟩ (fun r => ∀ c : Dev nD,
      r.2.mem ((c.tc : Thread nD τ).loc main_v64) = V13 m outs c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_cond m emb₁ () Variants.none L0 lv0 (fun _ _ => rfl) ρ outs pdats (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := rest_of_launch ρ)
    (hE8 := fun c => by
      iintro ⟨-, HO⟩
      iexact HO)
    R0 hpre0 hpost0 R1 hpre1 hpost1 R2 hpre2 hpost2 R3 hpre3 hpost3 R4 hpre4 hpost4 R5 hpre5 hpost5 R6 hpre6 hpost6 R7 hpre7 hpost7

end Cert.Kernel.Hand

end
-- ==== Proof.KRegion0Runs.lean ====
import proofs.«117354_j7189775254092_1_alg».proof.Proof.Gen.Kernel.Launch
import proofs.«117354_j7189775254092_1_alg».proof.Proof.Gen.Kernel.Skeleton
import proofs.«117354_j7189775254092_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 0, `cc0__matmul_stats_kernel`): the body's conditions over the grid and its three runs

The body zeroes the two accumulators under its first condition (the first grid point), adds the tile's column sums
and column sums of squares to them at every point, and under its second condition (the last grid point) copies them
to the two `[1, N]` outputs. Three control cases meet the grid: A (first point), B (the points between), C (last). -/

/-- The zero offsets of a rank-two rectangle, as a constant function. -/
theorem hzero0 : (![0, 0] : Fin 2 → Nat) = fun _ => 0 := funext fun a => by fin_cases a <;> rfl

section Whole

variable {Val : EltTy → Type} [∀ e, Nonempty (Val e)] {sg : RefSig} {κ : Kind} {sp : Space} {S : Shape} {e : EltTy}

/-- A store through the whole-shape rectangle, last, leaves its payload in the buffer whatever was stored before. -/
theorem read_writes_cons_whole0 (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through the whole-shape rectangle reads the buffer's contents. -/
theorem readAt_whole0 (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end Whole

/-! ## The body's two conditions -/

/-- The first condition (`program_id == 0`), from the grid coordinates. -/
abbrev cond0_0 (i : grid0.Coords) : Prop := (Scalar.cmpi .ne (Scalar.extui (Scalar.cmpi .eq (BitVec.ofNat 32 (i 0).val) 0#32)) 0#32) = 1#1
/-- The second condition (`program_id == num_programs - 1`), from the grid coordinates. -/
abbrev cond0_1 (i : grid0.Coords) : Prop := k0_cond2 i = 1#1

/-- The first condition holds at the first point only. -/
theorem hcond0_0 : ∀ t : Fin cfg0.N, cond0_0 (grid0.coords t) ↔ t.val = 0 :=
  (by decide +kernel : ∀ t : Fin grid0.N, cond0_0 (grid0.coords t) ↔ t.val = 0)
/-- The second condition holds at the last point only. -/
theorem hcond0_1 : ∀ t : Fin cfg0.N, cond0_1 (grid0.coords t) ↔ t.val + 1 = cfg0.N :=
  (by decide +kernel : ∀ t : Fin grid0.N, cond0_1 (grid0.coords t) ↔ t.val + 1 = grid0.N)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Off the last point the two `[1, N]` outputs are idle (nothing is stored into them) and are not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last point they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The scratch operands -/

/-- The two accumulators: whole scoped buffers of the kernel's own, passed beside the windows. -/
abbrev scM0_0 : Memref sig .tc .vmem S1x2048 .f32 := Memref.whole cc0_scratch0
abbrev scM0_1 : Memref sig .tc .vmem S1x2048 .f32 := Memref.whole cc0_scratch1

/-! ## The three runs of the body

On whole memrefs: the two inputs at contents `x0` (the row tile) and `x1` (the weights) are left as they were; the
product's output holds the product `k0_pay1 x1 x0`; the accumulators hold `k0_pay4 x1 x0 s` and `k0_pay5 x1 x0 s'`,
where `s`, `s'` are what they held when the sums were added (zeros at the first point, else what the point before
left); the two `[1, N]` outputs are untouched off the last point and hold the accumulators' new contents at it. -/

set_option maxHeartbeats 1000000 in
/-- Case A, the first point: the accumulators are zeroed, then added to. -/
theorem run0_A (c : Dev nD) (i : grid0.Coords) (arg1 : Memref sig .tc .vmem S256x784 .bf16) (harg1 : arg1.IsWhole) (arg2 : Memref sig .tc .vmem S2048x784 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i)
    (x0 : Vec F S256x784 .bf16) (x1 : Vec F S2048x784 .f32) (xi3 xi4 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k0_pay1 x1 x0)
            ∗ owns (c : Thread nD τ) arg4 fullShare xi3 ∗ owns (c : Thread nD τ) arg5 fullShare xi4
            ∗ owns (c : Thread nD τ) arg6 fullShare (k0_pay4 x1 x0 (k0_pay2 (F := F))) ∗ owns (c : Thread nD τ) arg7 fullShare (k0_pay5 x1 x0 (k0_pay3 (F := F)))) -∗ K ⟨⟩))
      ⊢ wp frame (wpE (defs₀ (F := F)) Variants.none c none) E (cc0__matmul_stats_kernel i arg1 harg1 arg2 harg2 arg3 harg3 arg4 harg4 arg5 harg5 arg6 harg6 arg7 harg7) K := by
  simp only [cc0__matmul_stats_kernel_eq_skeleton]; unfold cc0__matmul_stats_kernel_skel
  simp only [k0_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
  subst hf1; subst hf2; subst hf4; subst hf5
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole0 _ _ hzero0, readAt_whole0 _ _ hzero0, readAt_whole0 _ _ hzero0]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole0 _ _ hzero0, readAt_whole0 _ _ hzero0, readAt_whole0 _ _ hzero0, View.readCov_cons_toLoadRect]
  · iexists _; isplitr
    swap; · iexact H7
    ipureintro
    sl_unfold_run_names
    rw [read_writes_cons_whole0 _ _ hzero0, readAt_whole0 _ _ hzero0, readAt_whole0 _ _ hzero0, View.readCov_cons_toLoadRect]

set_option maxHeartbeats 1000000 in
/-- Case B, a point between the first and the last: the accumulators, at what the point before left, are added to. -/
theorem run0_B (c : Dev nD) (i : grid0.Coords) (arg1 : Memref sig .tc .vmem S256x784 .bf16) (harg1 : arg1.IsWhole) (arg2 : Memref sig .tc .vmem S2048x784 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : ¬cond0_1 i)
    (x0 : Vec F S256x784 .bf16) (x1 : Vec F S2048x784 .f32) (xi3 xi4 xs0 xs1 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k0_pay1 x1 x0)
            ∗ owns (c : Thread nD τ) arg4 fullShare xi3 ∗ owns (c : Thread nD τ) arg5 fullShare xi4
            ∗ owns (c : Thread nD τ) arg6 fullShare (k0_pay4 x1 x0 xs0) ∗ owns (c : Thread nD τ) arg7 fullShare (k0_pay5 x1 x0 xs1)) -∗ K ⟨⟩))
      ⊢ wp frame (wpE (defs₀ (F := F)) Variants.none c none) E (cc0__matmul_stats_kernel i arg1 harg1 arg2 harg2 arg3 harg3 arg4 harg4 arg5 harg5 arg6 harg6 arg7 harg7) K := by
  simp only [cc0__matmul_stats_kernel_eq_skeleton]; unfold cc0__matmul_stats_kernel_skel
  simp only [k0_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  subst hf1; subst hf2; subst hf4; subst hf5; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole0 _ _ hzero0, readAt_whole0 _ _ hzero0, readAt_whole0 _ _ hzero0]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole0 _ _ hzero0, readAt_whole0 _ _ hzero0, readAt_whole0 _ _ hzero0, readAt_whole0 _ _ hzero0]
  · iexists _; isplitr
    swap; · iexact H7
    ipureintro
    sl_unfold_run_names
    rw [read_writes_cons_whole0 _ _ hzero0, readAt_whole0 _ _ hzero0, readAt_whole0 _ _ hzero0, readAt_whole0 _ _ hzero0]

set_option maxHeartbeats 1000000 in
/-- Case C, the last point: the accumulators are added to, then copied to the two `[1, N]` outputs. -/
theorem run0_C (c : Dev nD) (i : grid0.Coords) (arg1 : Memref sig .tc .vmem S256x784 .bf16) (harg1 : arg1.IsWhole) (arg2 : Memref sig .tc .vmem S2048x784 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i)
    (x0 : Vec F S256x784 .bf16) (x1 : Vec F S2048x784 .f32) (xs0 xs1 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k0_pay1 x1 x0)
            ∗ owns (c : Thread nD τ) arg4 fullShare (k0_pay4 x1 x0 xs0) ∗ owns (c : Thread nD τ) arg5 fullShare (k0_pay5 x1 x0 xs1)
            ∗ owns (c : Thread nD τ) arg6 fullShare (k0_pay4 x1 x0 xs0) ∗ owns (c : Thread nD τ) arg7 fullShare (k0_pay5 x1 x0 xs1)) -∗ K ⟨⟩))
      ⊢ wp frame (wpE (defs₀ (F := F)) Variants.none c none) E (cc0__matmul_stats_kernel i arg1 harg1 arg2 harg2 arg3 harg3 arg4 harg4 arg5 harg5 arg6 harg6 arg7 harg7) K := by
  simp only [cc0__matmul_stats_kernel_eq_skeleton]; unfold cc0__matmul_stats_kernel_skel
  simp only [k0_part1_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  subst hf1; subst hf2; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole0 _ _ hzero0, readAt_whole0 _ _ hzero0, readAt_whole0 _ _ hzero0]
  isplitl [H4]
  · iexists _; isplitr
    swap; · iexact H4
    ipureintro
    sl_unfold_run_names
    rw [read_writes_cons_whole0 _ _ hzero0, View.readCov_cons_toLoadRect, readAt_whole0 _ _ hzero0, readAt_whole0 _ _ hzero0, readAt_whole0 _ _ hzero0]
  isplitl [H5]
  · iexists _; isplitr
    swap; · iexact H5
    ipureintro
    sl_unfold_run_names
    rw [read_writes_cons_whole0 _ _ hzero0, View.readCov_cons_toLoadRect, readAt_whole0 _ _ hzero0, readAt_whole0 _ _ hzero0, readAt_whole0 _ _ hzero0]
  isplitl [H6]
  · iexists _; isplitr
    swap; · iexact H6
    ipureintro
    sl_unfold_run_names
    rw [read_writes_cons_whole0 _ _ hzero0, readAt_whole0 _ _ hzero0, readAt_whole0 _ _ hzero0, readAt_whole0 _ _ hzero0]
  · iexists _; isplitr
    swap; · iexact H7
    ipureintro
    sl_unfold_run_names
    rw [read_writes_cons_whole0 _ _ hzero0, readAt_whole0 _ _ hzero0, readAt_whole0 _ _ hzero0, readAt_whole0 _ _ hzero0]

end Cert.Kernel.Hand

end
-- ==== Proof.KRegion0.lean ====
import proofs.«117354_j7189775254092_1_alg».proof.Proof.KRegion0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 0, `cc0__matmul_stats_kernel`), at the entry contents `V`: proof data and body obligation

The tile's product is written back at every point; the two accumulators are carried between points in scratch, and
their contents after each point are stated by recursion on the point (`accSum0`, `accSq0`); the two `[1, N]` outputs
are stored (from the accumulators) and written back at the last point only. -/

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's (fetched at the first point only: its block index never moves) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the accumulators hold after each point -/

/-- The column-sum accumulator after point `n`: at the first point the zero row plus the tile's column sums, later
    what the point before left plus the tile's (`k0_pay4`: the body's own association). -/
def accSum0 (c : Dev nD) : (n : ℕ) → n < cfg0.N → Vec F S1x2048 .f32
  | 0, h => k0_pay4 (iblk0 V c 1 ⟨0, h⟩) (iblk0 V c 0 ⟨0, h⟩) (k0_pay2 (F := F))
  | n + 1, h => k0_pay4 (iblk0 V c 1 ⟨n + 1, h⟩) (iblk0 V c 0 ⟨n + 1, h⟩) (accSum0 c n (Nat.lt_of_succ_lt h))

/-- The accumulator of the column sums of squares after point `n`, likewise (`k0_pay5`). -/
def accSq0 (c : Dev nD) : (n : ℕ) → n < cfg0.N → Vec F S1x2048 .f32
  | 0, h => k0_pay5 (iblk0 V c 1 ⟨0, h⟩) (iblk0 V c 0 ⟨0, h⟩) (k0_pay3 (F := F))
  | n + 1, h => k0_pay5 (iblk0 V c 1 ⟨n + 1, h⟩) (iblk0 V c 0 ⟨n + 1, h⟩) (accSq0 c n (Nat.lt_of_succ_lt h))

theorem accSum0_zero (c : Dev nD) (t : Fin cfg0.N) (h : t.val = 0) :
    accSum0 V c t.val t.isLt = k0_pay4 (iblk0 V c 1 t) (iblk0 V c 0 t) (k0_pay2 (F := F)) := by
  obtain ⟨n, hn⟩ := t
  cases n with
  | zero => rfl
  | succ n => exact absurd h (Nat.succ_ne_zero n)

theorem accSum0_pos (c : Dev nD) (t : Fin cfg0.N) (h : t.val ≠ 0) :
    accSum0 V c t.val t.isLt = k0_pay4 (iblk0 V c 1 t) (iblk0 V c 0 t) (accSum0 V c (t.val - 1) (Nat.lt_of_le_of_lt (Nat.sub_le _ _) t.isLt)) := by
  obtain ⟨n, hn⟩ := t
  cases n with
  | zero => exact absurd rfl h
  | succ n => rfl

theorem accSq0_zero (c : Dev nD) (t : Fin cfg0.N) (h : t.val = 0) :
    accSq0 V c t.val t.isLt = k0_pay5 (iblk0 V c 1 t) (iblk0 V c 0 t) (k0_pay3 (F := F)) := by
  obtain ⟨n, hn⟩ := t
  cases n with
  | zero => rfl
  | succ n => exact absurd h (Nat.succ_ne_zero n)

theorem accSq0_pos (c : Dev nD) (t : Fin cfg0.N) (h : t.val ≠ 0) :
    accSq0 V c t.val t.isLt = k0_pay5 (iblk0 V c 1 t) (iblk0 V c 0 t) (accSq0 V c (t.val - 1) (Nat.lt_of_le_of_lt (Nat.sub_le _ _) t.isLt)) := by
  obtain ⟨n, hn⟩ := t
  cases n with
  | zero => exact absurd rfl h
  | succ n => rfl

/-! ## The region's invariant -/

/-- Before position `n`: the two accumulators — at anything before the first point, afterwards at what the point
    before left in them —, every other scoped buffer no window stages, and the generator register at some state. -/
def Phi0 (c : Dev nD) : (n : ℕ) → n ≤ cfg0.N → sProp 𝕄
  | 0, _ => iprop((∃ d, owns (c : Thread nD τ) scM0_0 fullShare d) ∗ (∃ d, owns (c : Thread nD τ) scM0_1 fullShare d)
      ∗ Pipeline.scopedRestBut (Ix := Unit) (Name := ℕ) (U := UR sig nD τ) (Lvl := ℕ) (Val := Elt F) spec0 c [cc0_scratch0, cc0_scratch1] ∗ (∃ r, prngReg c r))
  | n + 1, hn => iprop(owns (c : Thread nD τ) scM0_0 fullShare (accSum0 V c n hn) ∗ owns (c : Thread nD τ) scM0_1 fullShare (accSq0 V c n hn)
      ∗ Pipeline.scopedRestBut (Ix := Unit) (Name := ℕ) (U := UR sig nD τ) (Lvl := ℕ) (Val := Elt F) spec0 c [cc0_scratch0, cc0_scratch1] ∗ (∃ r, prngReg c r))

theorem Phi0_zero (c : Dev nD) (n : ℕ) (h : n ≤ cfg0.N) (hz : n = 0) :
    Phi0 V c n h = iprop((∃ d, owns (c : Thread nD τ) scM0_0 fullShare d) ∗ (∃ d, owns (c : Thread nD τ) scM0_1 fullShare d)
      ∗ Pipeline.scopedRestBut (Ix := Unit) (Name := ℕ) (U := UR sig nD τ) (Lvl := ℕ) (Val := Elt F) spec0 c [cc0_scratch0, cc0_scratch1] ∗ (∃ r, prngReg c r)) := by
  subst hz; rfl

theorem Phi0_succ (c : Dev nD) (n : ℕ) (hn : n < cfg0.N) :
    Phi0 V c (n + 1) hn = iprop(owns (c : Thread nD τ) scM0_0 fullShare (accSum0 V c n hn) ∗ owns (c : Thread nD τ) scM0_1 fullShare (accSq0 V c n hn)
      ∗ Pipeline.scopedRestBut (Ix := Unit) (Name := ℕ) (U := UR sig nD τ) (Lvl := ℕ) (Val := Elt F) spec0 c [cc0_scratch0, cc0_scratch1] ∗ (∃ r, prngReg c r)) := rfl

theorem Phi0_pos (c : Dev nD) (n : ℕ) (h : n ≤ cfg0.N) (hz : n ≠ 0) :
    Phi0 V c n h = iprop(owns (c : Thread nD τ) scM0_0 fullShare (accSum0 V c (n - 1) (by omega)) ∗ owns (c : Thread nD τ) scM0_1 fullShare (accSq0 V c (n - 1) (by omega))
      ∗ Pipeline.scopedRestBut (Ix := Unit) (Name := ℕ) (U := UR sig nD τ) (Lvl := ℕ) (Val := Elt F) spec0 c [cc0_scratch0, cc0_scratch1] ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block, the product's at the product of the blocks, the two `[1, N]` outputs' at the
    accumulators' contents after `t` (consulted at the last point only: elsewhere they are idle); the invariant
    `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 1 t) (iblk0 V c 0 t)
    | ⟨3, _⟩ => accSum0 V c t.val t.isLt
    | ⟨4, _⟩ => accSq0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 1 t) (iblk0 V c 0 t) := by dsimp only [dat0]
theorem after0_3 (c : Dev nD) (t : Fin cfg0.N) : (dat0 V c).after 3 t = accSum0 V c t.val t.isLt := by dsimp only [dat0]
theorem after0_4 (c : Dev nD) (t : Fin cfg0.N) : (dat0 V c).after 4 t = accSq0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
/-- The body at any point: the closed forms of the two conditions say which case the point is in; the inputs' memrefs
    hold their blocks; the invariant hands the body the accumulators (at anything at the first point, else at what the
    point before left) and takes them back at this point's contents; off the last point the two `[1, N]` outputs'
    buffers are handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  have hN : t.val < 32 := lt_of_lt_of_eq t.isLt (show cfg0.N = 32 from N_0)
  have hN' : cfg0.N = 32 := N_0
  by_cases h0 : t.val = 0
  · by_cases h1 : t.val + 1 = cfg0.N
    · exfalso; omega
    · have hc0 : cond0_0 (grid0.coords t) := (hcond0_0 t).mpr h0
      have hc1 : ¬cond0_1 (grid0.coords t) := fun h => h1 ((hcond0_1 t).mp h)
      rw [Dat.leavesExact_idle (dat0 V c) 3 t (idleAt0_3 t hc1) (noFlush0_3 t hc1)]
      rw [Dat.leavesExact_idle (dat0 V c) 4 t (idleAt0_4 t hc1) (noFlush0_4 t hc1)]
      rw [accSum0_zero V c t h0, accSq0_zero V c t h0]
      rw [Phi0_castSucc V c t, Phi0_zero V c _ _ h0]
      iintro ⟨⟨HS0, HS1, HR, Hg⟩, Ho, ⟨%d0, H0⟩, ⟨%d1, H1⟩, ⟨%d2, H2⟩, ⟨%d3, H3⟩, ⟨%d4, H4⟩⟩
      iapply (run0_A c (grid0.coords t) _ _ _ _ _ _ _ _ _ _ _ _ _ _ hc0 hc1 (iblk0 V c 0 t) (iblk0 V c 1 t) _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4
  · by_cases h1 : t.val + 1 = cfg0.N
    · have hc0 : ¬cond0_0 (grid0.coords t) := fun h => h0 ((hcond0_0 t).mp h)
      have hc1 : cond0_1 (grid0.coords t) := (hcond0_1 t).mpr h1
      rw [show (dat0 V c).leavesExact 3 t = owns (c : Thread nD τ) (st0_3 t) fullShare ((dat0 V c).after 3 t) from by
        unfold Dat.leavesExact; rw [liveAt0_3 t hc1], after0_3]
      rw [show (dat0 V c).leavesExact 4 t = owns (c : Thread nD τ) (st0_4 t) fullShare ((dat0 V c).after 4 t) from by
        unfold Dat.leavesExact; rw [liveAt0_4 t hc1], after0_4]
      rw [accSum0_pos V c t h0, accSq0_pos V c t h0]
      rw [Phi0_castSucc V c t, Phi0_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run0_C c (grid0.coords t) _ _ _ _ _ _ _ _ _ _ _ _ _ _ hc0 hc1 (iblk0 V c 0 t) (iblk0 V c 1 t) _ _ Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 3 t (idleAt0_3 t hc1) (noFlush0_3 t hc1)]
      rw [Dat.leavesExact_idle (dat0 V c) 4 t (idleAt0_4 t hc1) (noFlush0_4 t hc1)]
      rw [accSum0_pos V c t h0, accSq0_pos V c t h0]
      rw [Phi0_castSucc V c t, Phi0_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run0_B c (grid0.coords t) _ _ _ _ _ _ _ _ _ _ _ _ _ _ hc0 hc1 (iblk0 V c 0 t) (iblk0 V c 1 t) _ _ _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the invariant -/

/-- The generator register and the scoped buffers no window stages make the invariant before the first point: the two
    accumulators are among those buffers, each whole at some contents. -/
theorem hin0 (c : Dev nD) : iprop((∃ r, prngReg c r) ∗ Pipeline.scopedRest (Ix := Unit) (Name := ℕ) (U := UR sig nD τ) (Lvl := ℕ) (Val := Elt F) spec0 c) ⊢ (dat0 V c).Φ 0 := by
  rw [show (dat0 V c).Φ 0 = Phi0 V c 0 (Nat.zero_le _) from rfl, Phi0_zero V c 0 _ rfl, scopedRest0_split]
  simp only [scM0_0, scM0_1, owns_whole]
  iintro ⟨Hg, ⟨HS0, HS1⟩, HR⟩
  isplitl [HS0]; · iexact HS0
  isplitl [HS1]; · iexact HS1
  isplitl [HR]; · iexact HR
  iexact Hg

/-- After the last point the invariant gives them back, the accumulators' named contents forgotten. -/
theorem hout0 (c : Dev nD) : (dat0 V c).Φ (Fin.last cfg0.N) ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), scopedRest0_split]
  simp only [scM0_0, scM0_1, owns_whole]
  iintro ⟨HS0, HS1, HR, Hg⟩
  isplitl [Hg]; · iexact Hg
  isplitl [HS0 HS1]
  · isplitl [HS0]; · iexists _; iexact HS0
    iexists _; iexact HS1
  iexact HR

end Cert.Kernel.Hand

end
-- ==== Proof.KSeg0.lean ====
/-
  Region 0 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.KRunRegs
import proofs.«117354_j7189775254092_1_alg».proof.Proof.KRegion0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 0 is entered from, read at the TensorCore's references. -/
abbrev Vin0 : (c : Dev nD) → (b : Ref sig .tc) → Buf (Elt F) ((c : Thread nD τ).loc b) := fun c b => V1 m c b
/-- The buffer contents region 0 is left at, read at the TensorCore's references. -/
abbrev Vout0 : (c : Dev nD) → (b : Ref sig .tc) → Buf (Elt F) ((c : Thread nD τ).loc b) := fun c b => V2 m outs c b

/-- What `outs` must hold for region 0: each output array at what the pipeline's write-backs leave. -/
def OutsOk0 : Prop := ∀ c : Dev nD, (outs 2 main_v1_0 c = (dat0 (Vin0 m) c).arrAt 2 cfg0.N) ∧ (outs 2 main_v1_1 c = (dat0 (Vin0 m) c).arrAt 3 cfg0.N) ∧ (outs 2 main_v1_2 c = (dat0 (Vin0 m) c).arrAt 4 cfg0.N)

/-- The valuation after the region holds `outs`' value at `main_v1_0`. -/
theorem Vafter_at_0_2 (c : Dev nD) : Vout0 m outs c main_v1_0 = outs 2 main_v1_0 c := by
  show V2 m outs c (Proc.devRef .tc main_v1_0) = _
  simp only [V2, Function.update_of_ne (StableHlo.devRef_ne_of_ne (by decide) : (Proc.devRef .tc main_v1_0 : DevRef τ sig) ≠ Proc.devRef .tc main_v1_2), Function.update_of_ne (StableHlo.devRef_ne_of_ne (by decide) : (Proc.devRef .tc main_v1_0 : DevRef τ sig) ≠ Proc.devRef .tc main_v1_1), Function.update_self]
/-- The valuation after the region holds `outs`' value at `main_v1_1`. -/
theorem Vafter_at_0_3 (c : Dev nD) : Vout0 m outs c main_v1_1 = outs 2 main_v1_1 c := by
  show V2 m outs c (Proc.devRef .tc main_v1_1) = _
  simp only [V2, Function.update_of_ne (StableHlo.devRef_ne_of_ne (by decide) : (Proc.devRef .tc main_v1_1 : DevRef τ sig) ≠ Proc.devRef .tc main_v1_2), Function.update_self]
/-- The valuation after the region holds `outs`' value at `main_v1_2`. -/
theorem Vafter_at_0_4 (c : Dev nD) : Vout0 m outs c main_v1_2 = outs 2 main_v1_2 c := by
  show V2 m outs c (Proc.devRef .tc main_v1_2) = _
  simp only [V2, Function.update_self]

variable {m outs}

/-- At the region's exit each of its arrays holds what the pipeline leaves. -/
theorem hF0 (ho : OutsOk0 m outs) (c : Dev nD) (w : Fin cfg0.W) :
    (dat0 (Vin0 m) c).arrAt w cfg0.N = Vout0 m outs c (Pipeline.arrRef spec0 w) := by
  match w with
  | ⟨0, _⟩ => exact ((dat0 (Vin0 m) c).arrAt_in ⟨0, by decide⟩ rfl cfg0.N).trans ((A_eq0 (Vin0 m) c ⟨0, by decide⟩).trans (V2_of m outs c _ (by decide)).symm)
  | ⟨1, _⟩ => exact ((dat0 (Vin0 m) c).arrAt_in ⟨1, by decide⟩ rfl cfg0.N).trans ((A_eq0 (Vin0 m) c ⟨1, by decide⟩).trans (V2_of m outs c _ (by decide)).symm)
  | ⟨2, _⟩ => exact (((ho c).1).symm.trans (Vafter_at_0_2 m outs c).symm : _ = Vout0 m outs c main_v1_0)
  | ⟨3, _⟩ => exact (((ho c).2.1).symm.trans (Vafter_at_0_3 m outs c).symm : _ = Vout0 m outs c main_v1_1)
  | ⟨4, _⟩ => exact (((ho c).2.2).symm.trans (Vafter_at_0_4 m outs c).symm : _ = Vout0 m outs c main_v1_2)

/-- Every other buffer is left as entered. -/
theorem hrest0 (c : Dev nD) : ∀ b, b ∉ Finset.univ.image (Pipeline.arrRef spec0) → Vout0 m outs c b = Vin0 m c b :=
  fun b hb => V2_of m outs c b (fun h => hb (by
    simp only [List.mem_cons, List.mem_nil_iff, _root_.or_false] at h
    rcases h with rfl | rfl | rfl
    · exact Finset.mem_image.mpr ⟨⟨2, by decide⟩, Finset.mem_univ _, rfl⟩
    · exact Finset.mem_image.mpr ⟨⟨3, by decide⟩, Finset.mem_univ _, rfl⟩
    · exact Finset.mem_image.mpr ⟨⟨4, by decide⟩, Finset.mem_univ _, rfl⟩))

set_option backward.isDefEq.respectTransparency.types false in
/-- Region 0 as a segment, for any family of proof data whose component here is `dat0` at the entry contents. -/
def seg0 (pdats : (p : Fin 8) → (c : Dev nD) → Dat τ (Elt F) Unit ℕ (UR sig nD τ) ℕ (cfgs p) c)
    (hp : ∀ c, pdats 0 c = dat0 (Vin0 m) c) (ho : OutsOk0 m outs) :
    RegionSeg (pcfgs (F := F)) adm pdats () defs₀ Variants.none L0 lv0 0 where
  win := launch0.win.to₀
  block_pos := launch0.block_pos
  stage_whole := launch0.stage_whole
  K := PEmpty
  osem k := k.elim
  ho := Pipeline.OwnSemFacts.none _
  hbody c := by rw [hp c]; exact (body_obligation0 (Vin0 m) c).loose
  hwaits := Pipeline.hwaits_of_owed_zero _ _ _ _ L0 lv0 0 fun c t => by rw [hp c]; rfl
  pre c := iprop(StableHlo.held (c : Thread nD τ) (Pipeline.ucRefs τ sig) (V1 m c) ∗ Rest (F := F) c)
  post c := iprop(StableHlo.held (c : Thread nD τ) (Pipeline.ucRefs τ sig) (V2 m outs c) ∗ Rest (F := F) c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm pdats launch0.win launch0.arr_whole c
      ((pdats 0 c).share_full fun _ => by rw [hp c]; rfl) (Vin0 m c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    iintro ⟨Hp, -, Hr⟩
    iapply (hin0 (Vin0 m) c)
    isplitl [Hp]; · iexact Hp
    iexact Hr
  hout c := by
    rw [Pipeline.ownSems0_none, hp c]
    iintro H
    ihave H' := (hout0 (Vin0 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats ((pdats 0 c).share_full fun _ => by rw [hp c]; rfl)
      (Vin0 m c) (Vout0 m outs c) ((pdats 0 c).arrAt · cfg0.N) (by rw [hp c]; exact hF0 ho c) (hrest0 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion1.lean ====
/- The body half of region 1 of @main (custom_call 1, `cc1_kernel`, pipeline 1), at ANY float instance `F` and at a
   PARAMETER `V` — the TensorCore's buffer contents when the region is entered.

   The body is pointwise: it loads the tile of window 0 and the two row vectors of windows 1 and 2, computes a payload
   (`k1_pay1`: the tile times the first row plus the second row, each row broadcast down the tile; then rounded,
   clamped and cast), and stores it over the whole staging buffer of window 3. So what the body leaves in the output
   buffer is a closed function of the three input blocks at the point (`out1_3`), and what it finds in each input buffer
   is that window's block at the point, fetched there or not: windows 1 and 2 are fetched at the first point only, and at
   every later point their block index has not moved, so the buffer still holds the same block.

   Delivered: the blocks `iblk1`, the input-side lemmas `before1_W_of`, the output buffer's contents `out1_3` and its
   cover `cover1_3`, the body's triple `sound_kernel1`, the proof data `dat1`, and the body obligation
   `body_obligation1`. -/
import proofs.«117354_j7189775254092_1_alg».proof.Proof.Gen.Kernel.Launch
import proofs.«117354_j7189775254092_1_alg».proof.Proof.Gen.Kernel.Skeleton
import proofs.«117354_j7189775254092_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is `V`'s
    (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: it is fetched at the
    first point only, and where it is not fetched its block index has not moved, so the buffer still holds the
    previous point's block, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (as window 1's). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole tile: what the body loads of window 0's buffer and stores over window 3's. -/
abbrev r1_0 : Rect S256x2048 := Rect.unit (s := S256x2048) ![0, 0] S256x2048.size inb_S256x2048_S256x2048_0_0
/-- The whole row vector: what the body loads of window 1's and of window 2's buffer. -/
abbrev r1_1 : Rect S1x2048 := Rect.unit (s := S1x2048) ![0, 0] S1x2048.size inb_S1x2048_S1x2048_0_0

/-! ## What the body leaves in the output window's buffer -/

/-- Window 3's staging buffer after the body, from the input windows' blocks: its one store as a piece, the payload
    the skeleton's over what the three loads read. -/
def out1_3 (x0 : Vec F S256x2048 .f32) (x1 : Vec F S1x2048 .f32) (x2 : Vec F S1x2048 .f32) : Vec F S256x2048 .bf16 :=
  View.canon [⟨r1_0, k1_pay1 (View.ld x0 r1_0) (View.ld x1 r1_1) (View.ld x2 r1_1)⟩]

/-- The store is over the whole buffer, so it covers it (one block, checked by evaluation). -/
theorem cover1_3 (p0 : Vec F S256x2048 .bf16) (y : S256x2048.Idx) :
    ∃ pc ∈ ([⟨r1_0, p0⟩] : List (View.Piece (Elt F) S256x2048 .bf16)), y ∈ pc.1.set :=
  View.cover_of_tiled [⟨r1_0, p0⟩] S256x2048.size (by rfl) y

/-! ## The body's triple -/

set_option maxHeartbeats 1000000 in
/-- The kernel body on whole staging memrefs, the inputs' at read contents `xW` and the output's at anything, runs to
    the continuation holding the inputs' as they were and the output's at `out1_3` of the inputs'. The body also loads
    the output buffer before it stores over all of it; the value loaded is not used, so the buffer's prior contents do
    not matter. -/
theorem sound_kernel1 (c : Dev nD) (E : Set ℕ) (i : grid1.Coords) (arg1 : Memref sig .tc .vmem S256x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S256x2048 .bf16) (harg4 : arg4.IsWhole)
    (x0 : Vec F S256x2048 .f32) (x1 : Vec F S1x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand
-- ==== Proof.KSeg1.lean ====
/-
  Region 1 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.KRunRegs
import proofs.«117354_j7189775254092_1_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 1 is entered from, read at the TensorCore's references. -/
abbrev Vin1 : (c : Dev nD) → (b : Ref sig .tc) → Buf (Elt F) ((c : Thread nD τ).loc b) := fun c b => V3 m outs c b
/-- The buffer contents region 1 is left at, read at the TensorCore's references. -/
abbrev Vout1 : (c : Dev nD) → (b : Ref sig .tc) → Buf (Elt F) ((c : Thread nD τ).loc b) := fun c b => V4 m outs c b

/-- What `outs` must hold for region 1: each output array at what the pipeline's write-backs leave. -/
def OutsOk1 : Prop := ∀ c : Dev nD, (outs 4 main_v16 c = (dat1 (Vin1 m outs) c).arrAt 3 cfg1.N)

/-- The valuation after the region holds `outs`' value at `main_v16`. -/
theorem Vafter_at_1_3 (c : Dev nD) : Vout1 m outs c main_v16 = outs 4 main_v16 c := by
  show V4 m outs c (Proc.devRef .tc main_v16) = _
  simp only [V4, Function.update_self]

variable {m outs}

/-- At the region's exit each of its arrays holds what the pipeline leaves. -/
theorem hF1 (ho : OutsOk1 m outs) (c : Dev nD) (w : Fin cfg1.W) :
    (dat1 (Vin1 m outs) c).arrAt w cfg1.N = Vout1 m outs c (Pipeline.arrRef spec1 w) := by
  match w with
  | ⟨0, _⟩ => exact ((dat1 (Vin1 m outs) c).arrAt_in ⟨0, by decide⟩ rfl cfg1.N).trans ((A_eq1 (Vin1 m outs) c ⟨0, by decide⟩).trans (V4_of m outs c _ (by decide)).symm)
  | ⟨1, _⟩ => exact ((dat1 (Vin1 m outs) c).arrAt_in ⟨1, by decide⟩ rfl cfg1.N).trans ((A_eq1 (Vin1 m outs) c ⟨1, by decide⟩).trans (V4_of m outs c _ (by decide)).symm)
  | ⟨2, _⟩ => exact ((dat1 (Vin1 m outs) c).arrAt_in ⟨2, by decide⟩ rfl cfg1.N).trans ((A_eq1 (Vin1 m outs) c ⟨2, by decide⟩).trans (V4_of m outs c _ (by decide)).symm)
  | ⟨3, _⟩ => exact (((ho c)).symm.trans (Vafter_at_1_3 m outs c).symm : _ = Vout1 m outs c main_v16)

/-- Every other buffer is left as entered. -/
theorem hrest1 (c : Dev nD) : ∀ b, b ∉ Finset.univ.image (Pipeline.arrRef spec1) → Vout1 m outs c b = Vin1 m outs c b :=
  fun b hb => V4_of m outs c b (fun h => hb (by
    simp only [List.mem_cons, List.mem_nil_iff, _root_.or_false] at h
    subst h
    exact Finset.mem_image.mpr ⟨⟨3, by decide⟩, Finset.mem_univ _, rfl⟩))

set_option backward.isDefEq.respectTransparency.types false in
/-- Region 1 as a segment, for any family of proof data whose component here is `dat1` at the entry contents. -/
def seg1 (pdats : (p : Fin 8) → (c : Dev nD) → Dat τ (Elt F) Unit ℕ (UR sig nD τ) ℕ (cfgs p) c)
    (hp : ∀ c, pdats 1 c = dat1 (Vin1 m outs) c) (ho : OutsOk1 m outs) :
    RegionSeg (pcfgs (F := F)) adm pdats () defs₀ Variants.none L0 lv0 1 where
  win := launch1.win.to₀
  block_pos := launch1.block_pos
  stage_whole := launch1.stage_whole
  K := PEmpty
  osem k := k.elim
  ho := Pipeline.OwnSemFacts.none _
  hbody c := by rw [hp c]; exact (body_obligation1 (Vin1 m outs) c).loose
  hwaits := Pipeline.hwaits_of_owed_zero _ _ _ _ L0 lv0 1 fun c t => by rw [hp c]; rfl
  pre c := iprop(StableHlo.held (c : Thread nD τ) (Pipeline.ucRefs τ sig) (V3 m outs c) ∗ Rest (F := F) c)
  post c := iprop(StableHlo.held (c : Thread nD τ) (Pipeline.ucRefs τ sig) (V4 m outs c) ∗ Rest (F := F) c)
  X c := iprop(∃ r, prngReg c r)
  Y c := iprop(∃ r, prngReg c r)
  Z c := Pipeline.unscopedRest (Ix := Unit) (Name := ℕ) (U := UR sig nD τ) (Lvl := ℕ) spec1 c (Vin1 m outs c)
  hentry c := by
    rw [Pipeline.ownSems0_none]
    have hsplit := Pipeline.arrays_of_unscopedBufs (p := 1) (pcfgs (F := F)) adm pdats launch1.win launch1.arr_whole c
      ((pdats 1 c).share_full fun _ => by rw [hp c]; rfl) (Vin1 m outs c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    show iprop((∃ r, prngReg c r) ∗ Pipeline.prefHeld (pcfgs (F := F) 1).pre c (fun _ => fullShare) ((adm (F := F) 1).1) ∗ Pipeline.scopedRest (Ix := Unit) (Name := ℕ) (U := UR sig nD τ) (Lvl := ℕ) (Val := Elt F) spec1 c) ⊢ (Pipeline.ΦA spec1 c : sProp 𝕄)
    unfold Pipeline.ΦA
    iintro ⟨Hp, -, Hr⟩
    isplitl [Hr]; · iexact Hr
    iexact Hp
  hout c := by
    rw [Pipeline.ownSems0_none, hp c]
    show (Pipeline.ΦA spec1 c : sProp 𝕄) ⊢ iprop((∃ r, prngReg c r) ∗ emp ∗ Pipeline.scopedRest (Ix := Unit) (Name := ℕ) (U := UR sig nD τ) (Lvl := ℕ) (Val := Elt F) spec1 c)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats ((pdats 1 c).share_full fun _ => by rw [hp c]; rfl)
      (Vin1 m outs c) (Vout1 m outs c) ((pdats 1 c).arrAt · cfg1.N) (by rw [hp c]; exact hF1 ho c) (hrest1 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion2Runs.lean ====
import proofs.«117354_j7189775254092_1_alg».proof.Proof.Gen.Kernel.Launch
import proofs.«117354_j7189775254092_1_alg».proof.Proof.Gen.Kernel.Skeleton
import proofs.«117354_j7189775254092_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 2, `cc2__matmul_stats_kernel`): the body's conditions over the grid and its three runs

The body zeroes the two accumulators under its first condition (the first grid point), adds the tile's column sums
and column sums of squares to them at every point, and under its second condition (the last grid point) copies them
to the two `[1, N]` outputs. Three control cases meet the grid: A (first point), B (the points between), C (last). -/

/-- The zero offsets of a rank-two rectangle, as a constant function. -/
theorem hzero2 : (![0, 0] : Fin 2 → Nat) = fun _ => 0 := funext fun a => by fin_cases a <;> rfl

section Whole

variable {Val : EltTy → Type} [∀ e, Nonempty (Val e)] {sg : RefSig} {κ : Kind} {sp : Space} {S : Shape} {e : EltTy}

/-- A store through the whole-shape rectangle, last, leaves its payload in the buffer whatever was stored before. -/
theorem read_writes_cons_whole2 (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through the whole-shape rectangle reads the buffer's contents. -/
theorem readAt_whole2 (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end Whole

/-! ## The body's two conditions -/

/-- The first condition (`program_id == 0`), from the grid coordinates. -/
abbrev cond2_0 (i : grid2.Coords) : Prop := (Scalar.cmpi .ne (Scalar.extui (Scalar.cmpi .eq (BitVec.ofNat 32 (i 0).val) 0#32)) 0#32) = 1#1
/-- The second condition (`program_id == num_programs - 1`), from the grid coordinates. -/
abbrev cond2_1 (i : grid2.Coords) : Prop := k2_cond2 i = 1#1

/-- The first condition holds at the first point only. -/
theorem hcond2_0 : ∀ t : Fin cfg2.N, cond2_0 (grid2.coords t) ↔ t.val = 0 :=
  (by decide +kernel : ∀ t : Fin grid2.N, cond2_0 (grid2.coords t) ↔ t.val = 0)
/-- The second condition holds at the last point only. -/
theorem hcond2_1 : ∀ t : Fin cfg2.N, cond2_1 (grid2.coords t) ↔ t.val + 1 = cfg2.N :=
  (by decide +kernel : ∀ t : Fin grid2.N, cond2_1 (grid2.coords t) ↔ t.val + 1 = grid2.N)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Off the last point the two `[1, N]` outputs are idle (nothing is stored into them) and are not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last point they are live. -/
theorem liveAt2_3 : ∀ t : Fin cfg2.N, cond2_1 (grid2.coords t) → cfg2.idle 3 (grid2.coords t) = false := by decide +kernel
theorem liveAt2_4 : ∀ t : Fin cfg2.N, cond2_1 (grid2.coords t) → cfg2.idle 4 (grid2.coords t) = false := by decide +kernel

/-! ## The scratch operands -/

/-- The two accumulators: whole scoped buffers of the kernel's own, passed beside the windows. -/
abbrev scM2_0 : Memref sig .tc .vmem S1x2048 .f32 := Memref.whole cc2_scratch0
abbrev scM2_1 : Memref sig .tc .vmem S1x2048 .f32 := Memref.whole cc2_scratch1

/-! ## The three runs of the body

On whole memrefs: the two inputs at contents `x0` (the row tile) and `x1` (the weights) are left as they were; the
product's output holds the product `k2_pay1 x1 x0`; the accumulators hold `k2_pay4 x1 x0 s` and `k2_pay5 x1 x0 s'`,
where `s`, `s'` are what they held when the sums were added (zeros at the first point, else what the point before
left); the two `[1, N]` outputs are untouched off the last point and hold the accumulators' new contents at it. -/

set_option maxHeartbeats 1000000 in
/-- Case A, the first point: the accumulators are zeroed, then added to. -/
theorem run2_A (c : Dev nD) (i : grid2.Coords) (arg1 : Memref sig .tc .vmem S256x2048 .bf16) (harg1 : arg1.IsWhole) (arg2 : Memref sig .tc .vmem S2048x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : cond2_0 i) (hc1 : ¬cond2_1 i)
    (x0 : Vec F S256x2048 .bf16) (x1 : Vec F S2048x2048 .f32) (xi3 xi4 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k2_pay1 x1 x0)
            ∗ owns (c : Thread nD τ) arg4 fullShare xi3 ∗ owns (c : Thread nD τ) arg5 fullShare xi4
            ∗ owns (c : Thread nD τ) arg6 fullShare (k2_pay4 x1 x0 (k2_pay2 (F := F))) ∗ owns (c : Thread nD τ) arg7 fullShare (k2_pay5 x1 x0 (k2_pay3 (F := F)))) -∗ K ⟨⟩))
      ⊢ wp frame (wpE (defs₀ (F := F)) Variants.none c none) E (cc2__matmul_stats_kernel i arg1 harg1 arg2 harg2 arg3 harg3 arg4 harg4 arg5 harg5 arg6 harg6 arg7 harg7) K := by
  simp only [cc2__matmul_stats_kernel_eq_skeleton]; unfold cc2__matmul_stats_kernel_skel
  simp only [k2_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
  subst hf1; subst hf2; subst hf4; subst hf5
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole2 _ _ hzero2, readAt_whole2 _ _ hzero2, readAt_whole2 _ _ hzero2]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole2 _ _ hzero2, readAt_whole2 _ _ hzero2, readAt_whole2 _ _ hzero2, View.readCov_cons_toLoadRect]
  · iexists _; isplitr
    swap; · iexact H7
    ipureintro
    sl_unfold_run_names
    rw [read_writes_cons_whole2 _ _ hzero2, readAt_whole2 _ _ hzero2, readAt_whole2 _ _ hzero2, View.readCov_cons_toLoadRect]

set_option maxHeartbeats 1000000 in
/-- Case B, a point between the first and the last: the accumulators, at what the point before left, are added to. -/
theorem run2_B (c : Dev nD) (i : grid2.Coords) (arg1 : Memref sig .tc .vmem S256x2048 .bf16) (harg1 : arg1.IsWhole) (arg2 : Memref sig .tc .vmem S2048x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond2_0 i) (hc1 : ¬cond2_1 i)
    (x0 : Vec F S256x2048 .bf16) (x1 : Vec F S2048x2048 .f32) (xi3 xi4 xs0 xs1 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k2_pay1 x1 x0)
            ∗ owns (c : Thread nD τ) arg4 fullShare xi3 ∗ owns (c : Thread nD τ) arg5 fullShare xi4
            ∗ owns (c : Thread nD τ) arg6 fullShare (k2_pay4 x1 x0 xs0) ∗ owns (c : Thread nD τ) arg7 fullShare (k2_pay5 x1 x0 xs1)) -∗ K ⟨⟩))
      ⊢ wp frame (wpE (defs₀ (F := F)) Variants.none c none) E (cc2__matmul_stats_kernel i arg1 harg1 arg2 harg2 arg3 harg3 arg4 harg4 arg5 harg5 arg6 harg6 arg7 harg7) K := by
  simp only [cc2__matmul_stats_kernel_eq_skeleton]; unfold cc2__matmul_stats_kernel_skel
  simp only [k2_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  subst hf1; subst hf2; subst hf4; subst hf5; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole2 _ _ hzero2, readAt_whole2 _ _ hzero2, readAt_whole2 _ _ hzero2]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole2 _ _ hzero2, readAt_whole2 _ _ hzero2, readAt_whole2 _ _ hzero2, readAt_whole2 _ _ hzero2]
  · iexists _; isplitr
    swap; · iexact H7
    ipureintro
    sl_unfold_run_names
    rw [read_writes_cons_whole2 _ _ hzero2, readAt_whole2 _ _ hzero2, readAt_whole2 _ _ hzero2, readAt_whole2 _ _ hzero2]

set_option maxHeartbeats 1000000 in
/-- Case C, the last point: the accumulators are added to, then copied to the two `[1, N]` outputs. -/
theorem run2_C (c : Dev nD) (i : grid2.Coords) (arg1 : Memref sig .tc .vmem S256x2048 .bf16) (harg1 : arg1.IsWhole) (arg2 : Memref sig .tc .vmem S2048x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond2_0 i) (hc1 : cond2_1 i)
    (x0 : Vec F S256x2048 .bf16) (x1 : Vec F S2048x2048 .f32) (xs0 xs1 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k2_pay1 x1 x0)
            ∗ owns (c : Thread nD τ) arg4 fullShare (k2_pay4 x1 x0 xs0) ∗ owns (c : Thread nD τ) arg5 fullShare (k2_pay5 x1 x0 xs1)
            ∗ owns (c : Thread nD τ) arg6 fullShare (k2_pay4 x1 x0 xs0) ∗ owns (c : Thread nD τ) arg7 fullShare (k2_pay5 x1 x0 xs1)) -∗ K ⟨⟩))
      ⊢ wp frame (wpE (defs₀ (F := F)) Variants.none c none) E (cc2__matmul_stats_kernel i arg1 harg1 arg2 harg2 arg3 harg3 arg4 harg4 arg5 harg5 arg6 harg6 arg7 harg7) K := by
  simp only [cc2__matmul_stats_kernel_eq_skeleton]; unfold cc2__matmul_stats_kernel_skel
  simp only [k2_part1_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  subst hf1; subst hf2; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole2 _ _ hzero2, readAt_whole2 _ _ hzero2, readAt_whole2 _ _ hzero2]
  isplitl [H4]
  · iexists _; isplitr
    swap; · iexact H4
    ipureintro
    sl_unfold_run_names
    rw [read_writes_cons_whole2 _ _ hzero2, View.readCov_cons_toLoadRect, readAt_whole2 _ _ hzero2, readAt_whole2 _ _ hzero2, readAt_whole2 _ _ hzero2]
  isplitl [H5]
  · iexists _; isplitr
    swap; · iexact H5
    ipureintro
    sl_unfold_run_names
    rw [read_writes_cons_whole2 _ _ hzero2, View.readCov_cons_toLoadRect, readAt_whole2 _ _ hzero2, readAt_whole2 _ _ hzero2, readAt_whole2 _ _ hzero2]
  isplitl [H6]
  · iexists _; isplitr
    swap; · iexact H6
    ipureintro
    sl_unfold_run_names
    rw [read_writes_cons_whole2 _ _ hzero2, readAt_whole2 _ _ hzero2, readAt_whole2 _ _ hzero2, readAt_whole2 _ _ hzero2]
  · iexists _; isplitr
    swap; · iexact H7
    ipureintro
    sl_unfold_run_names
    rw [read_writes_cons_whole2 _ _ hzero2, readAt_whole2 _ _ hzero2, readAt_whole2 _ _ hzero2, readAt_whole2 _ _ hzero2]

end Cert.Kernel.Hand

end
-- ==== Proof.KRegion2.lean ====
import proofs.«117354_j7189775254092_1_alg».proof.Proof.KRegion2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 2, `cc2__matmul_stats_kernel`), at the entry contents `V`: proof data and body obligation

The tile's product is written back at every point; the two accumulators are carried between points in scratch, and
their contents after each point are stated by recursion on the point (`accSum2`, `accSq2`); the two `[1, N]` outputs
are stored (from the accumulators) and written back at the last point only. -/

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is `V`'s
    and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's (fetched at the first point only: its block index never moves) likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the accumulators hold after each point -/

/-- The column-sum accumulator after point `n`: at the first point the zero row plus the tile's column sums, later
    what the point before left plus the tile's (`k2_pay4`: the body's own association). -/
def accSum2 (c : Dev nD) : (n : ℕ) → n < cfg2.N → Vec F S1x2048 .f32
  | 0, h => k2_pay4 (iblk2 V c 1 ⟨0, h⟩) (iblk2 V c 0 ⟨0, h⟩) (k2_pay2 (F := F))
  | n + 1, h => k2_pay4 (iblk2 V c 1 ⟨n + 1, h⟩) (iblk2 V c 0 ⟨n + 1, h⟩) (accSum2 c n (Nat.lt_of_succ_lt h))

/-- The accumulator of the column sums of squares after point `n`, likewise (`k2_pay5`). -/
def accSq2 (c : Dev nD) : (n : ℕ) → n < cfg2.N → Vec F S1x2048 .f32
  | 0, h => k2_pay5 (iblk2 V c 1 ⟨0, h⟩) (iblk2 V c 0 ⟨0, h⟩) (k2_pay3 (F := F))
  | n + 1, h => k2_pay5 (iblk2 V c 1 ⟨n + 1, h⟩) (iblk2 V c 0 ⟨n + 1, h⟩) (accSq2 c n (Nat.lt_of_succ_lt h))

theorem accSum2_zero (c : Dev nD) (t : Fin cfg2.N) (h : t.val = 0) :
    accSum2 V c t.val t.isLt = k2_pay4 (iblk2 V c 1 t) (iblk2 V c 0 t) (k2_pay2 (F := F)) := by
  obtain ⟨n, hn⟩ := t
  cases n with
  | zero => rfl
  | succ n => exact absurd h (Nat.succ_ne_zero n)

theorem accSum2_pos (c : Dev nD) (t : Fin cfg2.N) (h : t.val ≠ 0) :
    accSum2 V c t.val t.isLt = k2_pay4 (iblk2 V c 1 t) (iblk2 V c 0 t) (accSum2 V c (t.val - 1) (Nat.lt_of_le_of_lt (Nat.sub_le _ _) t.isLt)) := by
  obtain ⟨n, hn⟩ := t
  cases n with
  | zero => exact absurd rfl h
  | succ n => rfl

theorem accSq2_zero (c : Dev nD) (t : Fin cfg2.N) (h : t.val = 0) :
    accSq2 V c t.val t.isLt = k2_pay5 (iblk2 V c 1 t) (iblk2 V c 0 t) (k2_pay3 (F := F)) := by
  obtain ⟨n, hn⟩ := t
  cases n with
  | zero => rfl
  | succ n => exact absurd h (Nat.succ_ne_zero n)

theorem accSq2_pos (c : Dev nD) (t : Fin cfg2.N) (h : t.val ≠ 0) :
    accSq2 V c t.val t.isLt = k2_pay5 (iblk2 V c 1 t) (iblk2 V c 0 t) (accSq2 V c (t.val - 1) (Nat.lt_of_le_of_lt (Nat.sub_le _ _) t.isLt)) := by
  obtain ⟨n, hn⟩ := t
  cases n with
  | zero => exact absurd rfl h
  | succ n => rfl

/-! ## The region's invariant -/

/-- Before position `n`: the two accumulators — at anything before the first point, afterwards at what the point
    before left in them —, every other scoped buffer no window stages, and the generator register at some state. -/
def Phi2 (c : Dev nD) : (n : ℕ) → n ≤ cfg2.N → sProp 𝕄
  | 0, _ => iprop((∃ d, owns (c : Thread nD τ) scM2_0 fullShare d) ∗ (∃ d, owns (c : Thread nD τ) scM2_1 fullShare d)
      ∗ Pipeline.scopedRestBut (Ix := Unit) (Name := ℕ) (U := UR sig nD τ) (Lvl := ℕ) (Val := Elt F) spec2 c [cc2_scratch0, cc2_scratch1] ∗ (∃ r, prngReg c r))
  | n + 1, hn => iprop(owns (c : Thread nD τ) scM2_0 fullShare (accSum2 V c n hn) ∗ owns (c : Thread nD τ) scM2_1 fullShare (accSq2 V c n hn)
      ∗ Pipeline.scopedRestBut (Ix := Unit) (Name := ℕ) (U := UR sig nD τ) (Lvl := ℕ) (Val := Elt F) spec2 c [cc2_scratch0, cc2_scratch1] ∗ (∃ r, prngReg c r))

theorem Phi2_zero (c : Dev nD) (n : ℕ) (h : n ≤ cfg2.N) (hz : n = 0) :
    Phi2 V c n h = iprop((∃ d, owns (c : Thread nD τ) scM2_0 fullShare d) ∗ (∃ d, owns (c : Thread nD τ) scM2_1 fullShare d)
      ∗ Pipeline.scopedRestBut (Ix := Unit) (Name := ℕ) (U := UR sig nD τ) (Lvl := ℕ) (Val := Elt F) spec2 c [cc2_scratch0, cc2_scratch1] ∗ (∃ r, prngReg c r)) := by
  subst hz; rfl

theorem Phi2_succ (c : Dev nD) (n : ℕ) (hn : n < cfg2.N) :
    Phi2 V c (n + 1) hn = iprop(owns (c : Thread nD τ) scM2_0 fullShare (accSum2 V c n hn) ∗ owns (c : Thread nD τ) scM2_1 fullShare (accSq2 V c n hn)
      ∗ Pipeline.scopedRestBut (Ix := Unit) (Name := ℕ) (U := UR sig nD τ) (Lvl := ℕ) (Val := Elt F) spec2 c [cc2_scratch0, cc2_scratch1] ∗ (∃ r, prngReg c r)) := rfl

theorem Phi2_pos (c : Dev nD) (n : ℕ) (h : n ≤ cfg2.N) (hz : n ≠ 0) :
    Phi2 V c n h = iprop(owns (c : Thread nD τ) scM2_0 fullShare (accSum2 V c (n - 1) (by omega)) ∗ owns (c : Thread nD τ) scM2_1 fullShare (accSq2 V c (n - 1) (by omega))
      ∗ Pipeline.scopedRestBut (Ix := Unit) (Name := ℕ) (U := UR sig nD τ) (Lvl := ℕ) (Val := Elt F) spec2 c [cc2_scratch0, cc2_scratch1] ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, the product's at the product of the blocks, the two `[1, N]` outputs' at the
    accumulators' contents after `t` (consulted at the last point only: elsewhere they are idle); the invariant
    `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 1 t) (iblk2 V c 0 t)
    | ⟨3, _⟩ => accSum2 V c t.val t.isLt
    | ⟨4, _⟩ => accSq2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay1 (iblk2 V c 1 t) (iblk2 V c 0 t) := by dsimp only [dat2]
theorem after2_3 (c : Dev nD) (t : Fin cfg2.N) : (dat2 V c).after 3 t = accSum2 V c t.val t.isLt := by dsimp only [dat2]
theorem after2_4 (c : Dev nD) (t : Fin cfg2.N) : (dat2 V c).after 4 t = accSq2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any point: the closed forms of the two conditions say which case the point is in; the inputs' memrefs
    hold their blocks; the invariant hands the body the accumulators (at anything at the first point, else at what the
    point before left) and takes them back at this point's contents; off the last point the two `[1, N]` outputs'
    buffers are handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 32 := lt_of_lt_of_eq t.isLt (show cfg2.N = 32 from N_2)
  have hN' : cfg2.N = 32 := N_2
  by_cases h0 : t.val = 0
  · by_cases h1 : t.val + 1 = cfg2.N
    · exfalso; omega
    · have hc0 : cond2_0 (grid2.coords t) := (hcond2_0 t).mpr h0
      have hc1 : ¬cond2_1 (grid2.coords t) := fun h => h1 ((hcond2_1 t).mp h)
      rw [Dat.leavesExact_idle (dat2 V c) 3 t (idleAt2_3 t hc1) (noFlush2_3 t hc1)]
      rw [Dat.leavesExact_idle (dat2 V c) 4 t (idleAt2_4 t hc1) (noFlush2_4 t hc1)]
      rw [accSum2_zero V c t h0, accSq2_zero V c t h0]
      rw [Phi2_castSucc V c t, Phi2_zero V c _ _ h0]
      iintro ⟨⟨HS0, HS1, HR, Hg⟩, Ho, ⟨%d0, H0⟩, ⟨%d1, H1⟩, ⟨%d2, H2⟩, ⟨%d3, H3⟩, ⟨%d4, H4⟩⟩
      iapply (run2_A c (grid2.coords t) _ _ _ _ _ _ _ _ _ _ _ _ _ _ hc0 hc1 (iblk2 V c 0 t) (iblk2 V c 1 t) _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4
  · by_cases h1 : t.val + 1 = cfg2.N
    · have hc0 : ¬cond2_0 (grid2.coords t) := fun h => h0 ((hcond2_0 t).mp h)
      have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3]
      rw [show (dat2 V c).leavesExact 4 t = owns (c : Thread nD τ) (st2_4 t) fullShare ((dat2 V c).after 4 t) from by
        unfold Dat.leavesExact; rw [liveAt2_4 t hc1], after2_4]
      rw [accSum2_pos V c t h0, accSq2_pos V c t h0]
      rw [Phi2_castSucc V c t, Phi2_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run2_C c (grid2.coords t) _ _ _ _ _ _ _ _ _ _ _ _ _ _ hc0 hc1 (iblk2 V c 0 t) (iblk2 V c 1 t) _ _ Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc0 : ¬cond2_0 (grid2.coords t) := fun h => h0 ((hcond2_0 t).mp h)
      have hc1 : ¬cond2_1 (grid2.coords t) := fun h => h1 ((hcond2_1 t).mp h)
      rw [Dat.leavesExact_idle (dat2 V c) 3 t (idleAt2_3 t hc1) (noFlush2_3 t hc1)]
      rw [Dat.leavesExact_idle (dat2 V c) 4 t (idleAt2_4 t hc1) (noFlush2_4 t hc1)]
      rw [accSum2_pos V c t h0, accSq2_pos V c t h0]
      rw [Phi2_castSucc V c t, Phi2_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run2_B c (grid2.coords t) _ _ _ _ _ _ _ _ _ _ _ _ _ _ hc0 hc1 (iblk2 V c 0 t) (iblk2 V c 1 t) _ _ _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into and out of the invariant -/

/-- The generator register and the scoped buffers no window stages make the invariant before the first point: the two
    accumulators are among those buffers, each whole at some contents. -/
theorem hin2 (c : Dev nD) : iprop((∃ r, prngReg c r) ∗ Pipeline.scopedRest (Ix := Unit) (Name := ℕ) (U := UR sig nD τ) (Lvl := ℕ) (Val := Elt F) spec2 c) ⊢ (dat2 V c).Φ 0 := by
  rw [show (dat2 V c).Φ 0 = Phi2 V c 0 (Nat.zero_le _) from rfl, Phi2_zero V c 0 _ rfl, scopedRest2_split]
  simp only [scM2_0, scM2_1, owns_whole]
  iintro ⟨Hg, ⟨HS0, HS1⟩, HR⟩
  isplitl [HS0]; · iexact HS0
  isplitl [HS1]; · iexact HS1
  isplitl [HR]; · iexact HR
  iexact Hg

/-- After the last point the invariant gives them back, the accumulators' named contents forgotten. -/
theorem hout2 (c : Dev nD) : (dat2 V c).Φ (Fin.last cfg2.N) ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 32 := N_2; omega), scopedRest2_split]
  simp only [scM2_0, scM2_1, owns_whole]
  iintro ⟨HS0, HS1, HR, Hg⟩
  isplitl [Hg]; · iexact Hg
  isplitl [HS0 HS1]
  · isplitl [HS0]; · iexists _; iexact HS0
    iexists _; iexact HS1
  iexact HR

end Cert.Kernel.Hand

end
-- ==== Proof.KSeg2.lean ====
/-
  Region 2 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.KRunRegs
import proofs.«117354_j7189775254092_1_alg».proof.Proof.KRegion2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 2 is entered from, read at the TensorCore's references. -/
abbrev Vin2 : (c : Dev nD) → (b : Ref sig .tc) → Buf (Elt F) ((c : Thread nD τ).loc b) := fun c b => V4 m outs c b
/-- The buffer contents region 2 is left at, read at the TensorCore's references. -/
abbrev Vout2 : (c : Dev nD) → (b : Ref sig .tc) → Buf (Elt F) ((c : Thread nD τ).loc b) := fun c b => V5 m outs c b

/-- What `outs` must hold for region 2: each output array at what the pipeline's write-backs leave. -/
def OutsOk2 : Prop := ∀ c : Dev nD, (outs 5 main_v17_0 c = (dat2 (Vin2 m outs) c).arrAt 2 cfg2.N) ∧ (outs 5 main_v17_1 c = (dat2 (Vin2 m outs) c).arrAt 3 cfg2.N) ∧ (outs 5 main_v17_2 c = (dat2 (Vin2 m outs) c).arrAt 4 cfg2.N)

/-- The valuation after the region holds `outs`' value at `main_v17_0`. -/
theorem Vafter_at_2_2 (c : Dev nD) : Vout2 m outs c main_v17_0 = outs 5 main_v17_0 c := by
  show V5 m outs c (Proc.devRef .tc main_v17_0) = _
  simp only [V5, Function.update_of_ne (StableHlo.devRef_ne_of_ne (by decide) : (Proc.devRef .tc main_v17_0 : DevRef τ sig) ≠ Proc.devRef .tc main_v17_2), Function.update_of_ne (StableHlo.devRef_ne_of_ne (by decide) : (Proc.devRef .tc main_v17_0 : DevRef τ sig) ≠ Proc.devRef .tc main_v17_1), Function.update_self]
/-- The valuation after the region holds `outs`' value at `main_v17_1`. -/
theorem Vafter_at_2_3 (c : Dev nD) : Vout2 m outs c main_v17_1 = outs 5 main_v17_1 c := by
  show V5 m outs c (Proc.devRef .tc main_v17_1) = _
  simp only [V5, Function.update_of_ne (StableHlo.devRef_ne_of_ne (by decide) : (Proc.devRef .tc main_v17_1 : DevRef τ sig) ≠ Proc.devRef .tc main_v17_2), Function.update_self]
/-- The valuation after the region holds `outs`' value at `main_v17_2`. -/
theorem Vafter_at_2_4 (c : Dev nD) : Vout2 m outs c main_v17_2 = outs 5 main_v17_2 c := by
  show V5 m outs c (Proc.devRef .tc main_v17_2) = _
  simp only [V5, Function.update_self]

variable {m outs}

/-- At the region's exit each of its arrays holds what the pipeline leaves. -/
theorem hF2 (ho : OutsOk2 m outs) (c : Dev nD) (w : Fin cfg2.W) :
    (dat2 (Vin2 m outs) c).arrAt w cfg2.N = Vout2 m outs c (Pipeline.arrRef spec2 w) := by
  match w with
  | ⟨0, _⟩ => exact ((dat2 (Vin2 m outs) c).arrAt_in ⟨0, by decide⟩ rfl cfg2.N).trans ((A_eq2 (Vin2 m outs) c ⟨0, by decide⟩).trans (V5_of m outs c _ (by decide)).symm)
  | ⟨1, _⟩ => exact ((dat2 (Vin2 m outs) c).arrAt_in ⟨1, by decide⟩ rfl cfg2.N).trans ((A_eq2 (Vin2 m outs) c ⟨1, by decide⟩).trans (V5_of m outs c _ (by decide)).symm)
  | ⟨2, _⟩ => exact (((ho c).1).symm.trans (Vafter_at_2_2 m outs c).symm : _ = Vout2 m outs c main_v17_0)
  | ⟨3, _⟩ => exact (((ho c).2.1).symm.trans (Vafter_at_2_3 m outs c).symm : _ = Vout2 m outs c main_v17_1)
  | ⟨4, _⟩ => exact (((ho c).2.2).symm.trans (Vafter_at_2_4 m outs c).symm : _ = Vout2 m outs c main_v17_2)

/-- Every other buffer is left as entered. -/
theorem hrest2 (c : Dev nD) : ∀ b, b ∉ Finset.univ.image (Pipeline.arrRef spec2) → Vout2 m outs c b = Vin2 m outs c b :=
  fun b hb => V5_of m outs c b (fun h => hb (by
    simp only [List.mem_cons, List.mem_nil_iff, _root_.or_false] at h
    rcases h with rfl | rfl | rfl
    · exact Finset.mem_image.mpr ⟨⟨2, by decide⟩, Finset.mem_univ _, rfl⟩
    · exact Finset.mem_image.mpr ⟨⟨3, by decide⟩, Finset.mem_univ _, rfl⟩
    · exact Finset.mem_image.mpr ⟨⟨4, by decide⟩, Finset.mem_univ _, rfl⟩))

set_option backward.isDefEq.respectTransparency.types false in
/-- Region 2 as a segment, for any family of proof data whose component here is `dat2` at the entry contents. -/
def seg2 (pdats : (p : Fin 8) → (c : Dev nD) → Dat τ (Elt F) Unit ℕ (UR sig nD τ) ℕ (cfgs p) c)
    (hp : ∀ c, pdats 2 c = dat2 (Vin2 m outs) c) (ho : OutsOk2 m outs) :
    RegionSeg (pcfgs (F := F)) adm pdats () defs₀ Variants.none L0 lv0 2 where
  win := launch2.win.to₀
  block_pos := launch2.block_pos
  stage_whole := launch2.stage_whole
  K := PEmpty
  osem k := k.elim
  ho := Pipeline.OwnSemFacts.none _
  hbody c := by rw [hp c]; exact (body_obligation2 (Vin2 m outs) c).loose
  hwaits := Pipeline.hwaits_of_owed_zero _ _ _ _ L0 lv0 2 fun c t => by rw [hp c]; rfl
  pre c := iprop(StableHlo.held (c : Thread nD τ) (Pipeline.ucRefs τ sig) (V4 m outs c) ∗ Rest (F := F) c)
  post c := iprop(StableHlo.held (c : Thread nD τ) (Pipeline.ucRefs τ sig) (V5 m outs c) ∗ Rest (F := F) c)
  X c := iprop(∃ r, prngReg c r)
  Y c := iprop(∃ r, prngReg c r)
  Z c := Pipeline.unscopedRest (Ix := Unit) (Name := ℕ) (U := UR sig nD τ) (Lvl := ℕ) spec2 c (Vin2 m outs c)
  hentry c := by
    rw [Pipeline.ownSems0_none]
    have hsplit := Pipeline.arrays_of_unscopedBufs (p := 2) (pcfgs (F := F)) adm pdats launch2.win launch2.arr_whole c
      ((pdats 2 c).share_full fun _ => by rw [hp c]; rfl) (Vin2 m outs c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    iintro ⟨Hp, -, Hr⟩
    iapply (hin2 (Vin2 m outs) c)
    isplitl [Hp]; · iexact Hp
    iexact Hr
  hout c := by
    rw [Pipeline.ownSems0_none, hp c]
    iintro H
    ihave H' := (hout2 (Vin2 m outs) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c pdats ((pdats 2 c).share_full fun _ => by rw [hp c]; rfl)
      (Vin2 m outs c) (Vout2 m outs c) ((pdats 2 c).arrAt · cfg2.N) (by rw [hp c]; exact hF2 ho c) (hrest2 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion3.lean ====
/- The body half of region 3 of @main (custom_call 3, `cc3_kernel`, pipeline 3), at ANY float instance `F` and at a
   PARAMETER `V` — the TensorCore's buffer contents when the region is entered.

   The body is pointwise: it loads the tile of window 0 and the two row vectors of windows 1 and 2, computes a payload
   (`k3_pay1`: the tile times the first row plus the second row, each row broadcast down the tile; then rounded,
   clamped and cast), and stores it over the whole staging buffer of window 3. So what the body leaves in the output
   buffer is a closed function of the three input blocks at the point (`out3_3`), and what it finds in each input buffer
   is that window's block at the point, fetched there or not: windows 1 and 2 are fetched at the first point only, and at
   every later point their block index has not moved, so the buffer still holds the same block.

   Delivered: the blocks `iblk3`, the input-side lemmas `before3_W_of`, the output buffer's contents `out3_3` and its
   cover `cover3_3`, the body's triple `sound_kernel3`, the proof data `dat3`, and the body obligation
   `body_obligation3`. -/
import proofs.«117354_j7189775254092_1_alg».proof.Proof.Gen.Kernel.Launch
import proofs.«117354_j7189775254092_1_alg».proof.Proof.Gen.Kernel.Skeleton
import proofs.«117354_j7189775254092_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for ANY proof data whose array is `V`'s
    (`hA`) and whose body leaves the block in place (`hafter`): the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not: it is fetched at the
    first point only, and where it is not fetched its block index has not moved, so the buffer still holds the
    previous point's block, which is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (as window 1's). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole tile: what the body loads of window 0's buffer and stores over window 3's. -/
abbrev r3_0 : Rect S256x2048 := Rect.unit (s := S256x2048) ![0, 0] S256x2048.size inb_S256x2048_S256x2048_0_0
/-- The whole row vector: what the body loads of window 1's and of window 2's buffer. -/
abbrev r3_1 : Rect S1x2048 := Rect.unit (s := S1x2048) ![0, 0] S1x2048.size inb_S1x2048_S1x2048_0_0

/-! ## What the body leaves in the output window's buffer -/

/-- Window 3's staging buffer after the body, from the input windows' blocks: its one store as a piece, the payload
    the skeleton's over what the three loads read. -/
def out3_3 (x0 : Vec F S256x2048 .f32) (x1 : Vec F S1x2048 .f32) (x2 : Vec F S1x2048 .f32) : Vec F S256x2048 .bf16 :=
  View.canon [⟨r3_0, k3_pay1 (View.ld x0 r3_0) (View.ld x1 r3_1) (View.ld x2 r3_1)⟩]

/-- The store is over the whole buffer, so it covers it (one block, checked by evaluation). -/
theorem cover3_3 (p0 : Vec F S256x2048 .bf16) (y : S256x2048.Idx) :
    ∃ pc ∈ ([⟨r3_0, p0⟩] : List (View.Piece (Elt F) S256x2048 .bf16)), y ∈ pc.1.set :=
  View.cover_of_tiled [⟨r3_0, p0⟩] S256x2048.size (by rfl) y

/-! ## The body's triple -/

set_option maxHeartbeats 1000000 in
/-- The kernel body on whole staging memrefs, the inputs' at read contents `xW` and the output's at anything, runs to
    the continuation holding the inputs' as they were and the output's at `out3_3` of the inputs'. The body also loads
    the output buffer before it stores over all of it; the value loaded is not used, so the buffer's prior contents do
    not matter. -/
theorem sound_kernel3 (c : Dev nD) (E : Set ℕ) (i : grid3.Coords) (arg1 : Memref sig .tc .vmem S256x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S256x2048 .bf16) (harg4 : arg4.IsWhole)
    (x0 : Vec F S256x2048 .f32) (x1 : Vec F S1x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand
-- ==== Proof.KSeg3.lean ====
/-
  Region 3 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.KRunRegs
import proofs.«117354_j7189775254092_1_alg».proof.Proof.KRegion3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 3 is entered from, read at the TensorCore's references. -/
abbrev Vin3 : (c : Dev nD) → (b : Ref sig .tc) → Buf (Elt F) ((c : Thread nD τ).loc b) := fun c b => V6 m outs c b
/-- The buffer contents region 3 is left at, read at the TensorCore's references. -/
abbrev Vout3 : (c : Dev nD) → (b : Ref sig .tc) → Buf (Elt F) ((c : Thread nD τ).loc b) := fun c b => V7 m outs c b

/-- What `outs` must hold for region 3: each output array at what the pipeline's write-backs leave. -/
def OutsOk3 : Prop := ∀ c : Dev nD, (outs 7 main_v32 c = (dat3 (Vin3 m outs) c).arrAt 3 cfg3.N)

/-- The valuation after the region holds `outs`' value at `main_v32`. -/
theorem Vafter_at_3_3 (c : Dev nD) : Vout3 m outs c main_v32 = outs 7 main_v32 c := by
  show V7 m outs c (Proc.devRef .tc main_v32) = _
  simp only [V7, Function.update_self]

variable {m outs}

/-- At the region's exit each of its arrays holds what the pipeline leaves. -/
theorem hF3 (ho : OutsOk3 m outs) (c : Dev nD) (w : Fin cfg3.W) :
    (dat3 (Vin3 m outs) c).arrAt w cfg3.N = Vout3 m outs c (Pipeline.arrRef spec3 w) := by
  match w with
  | ⟨0, _⟩ => exact ((dat3 (Vin3 m outs) c).arrAt_in ⟨0, by decide⟩ rfl cfg3.N).trans ((A_eq3 (Vin3 m outs) c ⟨0, by decide⟩).trans (V7_of m outs c _ (by decide)).symm)
  | ⟨1, _⟩ => exact ((dat3 (Vin3 m outs) c).arrAt_in ⟨1, by decide⟩ rfl cfg3.N).trans ((A_eq3 (Vin3 m outs) c ⟨1, by decide⟩).trans (V7_of m outs c _ (by decide)).symm)
  | ⟨2, _⟩ => exact ((dat3 (Vin3 m outs) c).arrAt_in ⟨2, by decide⟩ rfl cfg3.N).trans ((A_eq3 (Vin3 m outs) c ⟨2, by decide⟩).trans (V7_of m outs c _ (by decide)).symm)
  | ⟨3, _⟩ => exact (((ho c)).symm.trans (Vafter_at_3_3 m outs c).symm : _ = Vout3 m outs c main_v32)

/-- Every other buffer is left as entered. -/
theorem hrest3 (c : Dev nD) : ∀ b, b ∉ Finset.univ.image (Pipeline.arrRef spec3) → Vout3 m outs c b = Vin3 m outs c b :=
  fun b hb => V7_of m outs c b (fun h => hb (by
    simp only [List.mem_cons, List.mem_nil_iff, _root_.or_false] at h
    subst h
    exact Finset.mem_image.mpr ⟨⟨3, by decide⟩, Finset.mem_univ _, rfl⟩))

set_option backward.isDefEq.respectTransparency.types false in
/-- Region 3 as a segment, for any family of proof data whose component here is `dat3` at the entry contents. -/
def seg3 (pdats : (p : Fin 8) → (c : Dev nD) → Dat τ (Elt F) Unit ℕ (UR sig nD τ) ℕ (cfgs p) c)
    (hp : ∀ c, pdats 3 c = dat3 (Vin3 m outs) c) (ho : OutsOk3 m outs) :
    RegionSeg (pcfgs (F := F)) adm pdats () defs₀ Variants.none L0 lv0 3 where
  win := launch3.win.to₀
  block_pos := launch3.block_pos
  stage_whole := launch3.stage_whole
  K := PEmpty
  osem k := k.elim
  ho := Pipeline.OwnSemFacts.none _
  hbody c := by rw [hp c]; exact (body_obligation3 (Vin3 m outs) c).loose
  hwaits := Pipeline.hwaits_of_owed_zero _ _ _ _ L0 lv0 3 fun c t => by rw [hp c]; rfl
  pre c := iprop(StableHlo.held (c : Thread nD τ) (Pipeline.ucRefs τ sig) (V6 m outs c) ∗ Rest (F := F) c)
  post c := iprop(StableHlo.held (c : Thread nD τ) (Pipeline.ucRefs τ sig) (V7 m outs c) ∗ Rest (F := F) c)
  X c := iprop(∃ r, prngReg c r)
  Y c := iprop(∃ r, prngReg c r)
  Z c := Pipeline.unscopedRest (Ix := Unit) (Name := ℕ) (U := UR sig nD τ) (Lvl := ℕ) spec3 c (Vin3 m outs c)
  hentry c := by
    rw [Pipeline.ownSems0_none]
    have hsplit := Pipeline.arrays_of_unscopedBufs (p := 3) (pcfgs (F := F)) adm pdats launch3.win launch3.arr_whole c
      ((pdats 3 c).share_full fun _ => by rw [hp c]; rfl) (Vin3 m outs c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    show iprop((∃ r, prngReg c r) ∗ Pipeline.prefHeld (pcfgs (F := F) 3).pre c (fun _ => fullShare) ((adm (F := F) 3).1) ∗ Pipeline.scopedRest (Ix := Unit) (Name := ℕ) (U := UR sig nD τ) (Lvl := ℕ) (Val := Elt F) spec3 c) ⊢ (Pipeline.ΦA spec3 c : sProp 𝕄)
    unfold Pipeline.ΦA
    iintro ⟨Hp, -, Hr⟩
    isplitl [Hr]; · iexact Hr
    iexact Hp
  hout c := by
    rw [Pipeline.ownSems0_none, hp c]
    show (Pipeline.ΦA spec3 c : sProp 𝕄) ⊢ iprop((∃ r, prngReg c r) ∗ emp ∗ Pipeline.scopedRest (Ix := Unit) (Name := ℕ) (U := UR sig nD τ) (Lvl := ℕ) (Val := Elt F) spec3 c)
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c pdats ((pdats 3 c).share_full fun _ => by rw [hp c]; rfl)
      (Vin3 m outs c) (Vout3 m outs c) ((pdats 3 c).arrAt · cfg3.N) (by rw [hp c]; exact hF3 ho c) (hrest3 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion4Runs.lean ====
import proofs.«117354_j7189775254092_1_alg».proof.Proof.Gen.Kernel.Launch
import proofs.«117354_j7189775254092_1_alg».proof.Proof.Gen.Kernel.Skeleton
import proofs.«117354_j7189775254092_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 4, `cc4__matmul_stats_kernel`): the body's conditions over the grid and its three runs

The body zeroes the two accumulators under its first condition (the first grid point), adds the tile's column sums
and column sums of squares to them at every point, and under its second condition (the last grid point) copies them
to the two `[1, N]` outputs. Three control cases meet the grid: A (first point), B (the points between), C (last). -/

/-- The zero offsets of a rank-two rectangle, as a constant function. -/
theorem hzero4 : (![0, 0] : Fin 2 → Nat) = fun _ => 0 := funext fun a => by fin_cases a <;> rfl

section Whole

variable {Val : EltTy → Type} [∀ e, Nonempty (Val e)] {sg : RefSig} {κ : Kind} {sp : Space} {S : Shape} {e : EltTy}

/-- A store through the whole-shape rectangle, last, leaves its payload in the buffer whatever was stored before. -/
theorem read_writes_cons_whole4 (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through the whole-shape rectangle reads the buffer's contents. -/
theorem readAt_whole4 (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end Whole

/-! ## The body's two conditions -/

/-- The first condition (`program_id == 0`), from the grid coordinates. -/
abbrev cond4_0 (i : grid4.Coords) : Prop := (Scalar.cmpi .ne (Scalar.extui (Scalar.cmpi .eq (BitVec.ofNat 32 (i 0).val) 0#32)) 0#32) = 1#1
/-- The second condition (`program_id == num_programs - 1`), from the grid coordinates. -/
abbrev cond4_1 (i : grid4.Coords) : Prop := k4_cond2 i = 1#1

/-- The first condition holds at the first point only. -/
theorem hcond4_0 : ∀ t : Fin cfg4.N, cond4_0 (grid4.coords t) ↔ t.val = 0 :=
  (by decide +kernel : ∀ t : Fin grid4.N, cond4_0 (grid4.coords t) ↔ t.val = 0)
/-- The second condition holds at the last point only. -/
theorem hcond4_1 : ∀ t : Fin cfg4.N, cond4_1 (grid4.coords t) ↔ t.val + 1 = cfg4.N :=
  (by decide +kernel : ∀ t : Fin grid4.N, cond4_1 (grid4.coords t) ↔ t.val + 1 = grid4.N)

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
/-- Off the last point the two `[1, N]` outputs are idle (nothing is stored into them) and are not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
/-- At the last point they are live. -/
theorem liveAt4_3 : ∀ t : Fin cfg4.N, cond4_1 (grid4.coords t) → cfg4.idle 3 (grid4.coords t) = false := by decide +kernel
theorem liveAt4_4 : ∀ t : Fin cfg4.N, cond4_1 (grid4.coords t) → cfg4.idle 4 (grid4.coords t) = false := by decide +kernel

/-! ## The scratch operands -/

/-- The two accumulators: whole scoped buffers of the kernel's own, passed beside the windows. -/
abbrev scM4_0 : Memref sig .tc .vmem S1x2048 .f32 := Memref.whole cc4_scratch0
abbrev scM4_1 : Memref sig .tc .vmem S1x2048 .f32 := Memref.whole cc4_scratch1

/-! ## The three runs of the body

On whole memrefs: the two inputs at contents `x0` (the row tile) and `x1` (the weights) are left as they were; the
product's output holds the product `k4_pay1 x1 x0`; the accumulators hold `k4_pay4 x1 x0 s` and `k4_pay5 x1 x0 s'`,
where `s`, `s'` are what they held when the sums were added (zeros at the first point, else what the point before
left); the two `[1, N]` outputs are untouched off the last point and hold the accumulators' new contents at it. -/

set_option maxHeartbeats 1000000 in
/-- Case A, the first point: the accumulators are zeroed, then added to. -/
theorem run4_A (c : Dev nD) (i : grid4.Coords) (arg1 : Memref sig .tc .vmem S256x2048 .bf16) (harg1 : arg1.IsWhole) (arg2 : Memref sig .tc .vmem S2048x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : cond4_0 i) (hc1 : ¬cond4_1 i)
    (x0 : Vec F S256x2048 .bf16) (x1 : Vec F S2048x2048 .f32) (xi3 xi4 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k4_pay1 x1 x0)
            ∗ owns (c : Thread nD τ) arg4 fullShare xi3 ∗ owns (c : Thread nD τ) arg5 fullShare xi4
            ∗ owns (c : Thread nD τ) arg6 fullShare (k4_pay4 x1 x0 (k4_pay2 (F := F))) ∗ owns (c : Thread nD τ) arg7 fullShare (k4_pay5 x1 x0 (k4_pay3 (F := F)))) -∗ K ⟨⟩))
      ⊢ wp frame (wpE (defs₀ (F := F)) Variants.none c none) E (cc4__matmul_stats_kernel i arg1 harg1 arg2 harg2 arg3 harg3 arg4 harg4 arg5 harg5 arg6 harg6 arg7 harg7) K := by
  simp only [cc4__matmul_stats_kernel_eq_skeleton]; unfold cc4__matmul_stats_kernel_skel
  simp only [k4_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
  subst hf1; subst hf2; subst hf4; subst hf5
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole4 _ _ hzero4, readAt_whole4 _ _ hzero4, readAt_whole4 _ _ hzero4]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole4 _ _ hzero4, readAt_whole4 _ _ hzero4, readAt_whole4 _ _ hzero4, View.readCov_cons_toLoadRect]
  · iexists _; isplitr
    swap; · iexact H7
    ipureintro
    sl_unfold_run_names
    rw [read_writes_cons_whole4 _ _ hzero4, readAt_whole4 _ _ hzero4, readAt_whole4 _ _ hzero4, View.readCov_cons_toLoadRect]

set_option maxHeartbeats 1000000 in
/-- Case B, a point between the first and the last: the accumulators, at what the point before left, are added to. -/
theorem run4_B (c : Dev nD) (i : grid4.Coords) (arg1 : Memref sig .tc .vmem S256x2048 .bf16) (harg1 : arg1.IsWhole) (arg2 : Memref sig .tc .vmem S2048x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond4_0 i) (hc1 : ¬cond4_1 i)
    (x0 : Vec F S256x2048 .bf16) (x1 : Vec F S2048x2048 .f32) (xi3 xi4 xs0 xs1 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k4_pay1 x1 x0)
            ∗ owns (c : Thread nD τ) arg4 fullShare xi3 ∗ owns (c : Thread nD τ) arg5 fullShare xi4
            ∗ owns (c : Thread nD τ) arg6 fullShare (k4_pay4 x1 x0 xs0) ∗ owns (c : Thread nD τ) arg7 fullShare (k4_pay5 x1 x0 xs1)) -∗ K ⟨⟩))
      ⊢ wp frame (wpE (defs₀ (F := F)) Variants.none c none) E (cc4__matmul_stats_kernel i arg1 harg1 arg2 harg2 arg3 harg3 arg4 harg4 arg5 harg5 arg6 harg6 arg7 harg7) K := by
  simp only [cc4__matmul_stats_kernel_eq_skeleton]; unfold cc4__matmul_stats_kernel_skel
  simp only [k4_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  subst hf1; subst hf2; subst hf4; subst hf5; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole4 _ _ hzero4, readAt_whole4 _ _ hzero4, readAt_whole4 _ _ hzero4]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole4 _ _ hzero4, readAt_whole4 _ _ hzero4, readAt_whole4 _ _ hzero4, readAt_whole4 _ _ hzero4]
  · iexists _; isplitr
    swap; · iexact H7
    ipureintro
    sl_unfold_run_names
    rw [read_writes_cons_whole4 _ _ hzero4, readAt_whole4 _ _ hzero4, readAt_whole4 _ _ hzero4, readAt_whole4 _ _ hzero4]

set_option maxHeartbeats 1000000 in
/-- Case C, the last point: the accumulators are added to, then copied to the two `[1, N]` outputs. -/
theorem run4_C (c : Dev nD) (i : grid4.Coords) (arg1 : Memref sig .tc .vmem S256x2048 .bf16) (harg1 : arg1.IsWhole) (arg2 : Memref sig .tc .vmem S2048x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond4_0 i) (hc1 : cond4_1 i)
    (x0 : Vec F S256x2048 .bf16) (x1 : Vec F S2048x2048 .f32) (xs0 xs1 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k4_pay1 x1 x0)
            ∗ owns (c : Thread nD τ) arg4 fullShare (k4_pay4 x1 x0 xs0) ∗ owns (c : Thread nD τ) arg5 fullShare (k4_pay5 x1 x0 xs1)
            ∗ owns (c : Thread nD τ) arg6 fullShare (k4_pay4 x1 x0 xs0) ∗ owns (c : Thread nD τ) arg7 fullShare (k4_pay5 x1 x0 xs1)) -∗ K ⟨⟩))
      ⊢ wp frame (wpE (defs₀ (F := F)) Variants.none c none) E (cc4__matmul_stats_kernel i arg1 harg1 arg2 harg2 arg3 harg3 arg4 harg4 arg5 harg5 arg6 harg6 arg7 harg7) K := by
  simp only [cc4__matmul_stats_kernel_eq_skeleton]; unfold cc4__matmul_stats_kernel_skel
  simp only [k4_part1_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  subst hf1; subst hf2; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole4 _ _ hzero4, readAt_whole4 _ _ hzero4, readAt_whole4 _ _ hzero4]
  isplitl [H4]
  · iexists _; isplitr
    swap; · iexact H4
    ipureintro
    sl_unfold_run_names
    rw [read_writes_cons_whole4 _ _ hzero4, View.readCov_cons_toLoadRect, readAt_whole4 _ _ hzero4, readAt_whole4 _ _ hzero4, readAt_whole4 _ _ hzero4]
  isplitl [H5]
  · iexists _; isplitr
    swap; · iexact H5
    ipureintro
    sl_unfold_run_names
    rw [read_writes_cons_whole4 _ _ hzero4, View.readCov_cons_toLoadRect, readAt_whole4 _ _ hzero4, readAt_whole4 _ _ hzero4, readAt_whole4 _ _ hzero4]
  isplitl [H6]
  · iexists _; isplitr
    swap; · iexact H6
    ipureintro
    sl_unfold_run_names
    rw [read_writes_cons_whole4 _ _ hzero4, readAt_whole4 _ _ hzero4, readAt_whole4 _ _ hzero4, readAt_whole4 _ _ hzero4]
  · iexists _; isplitr
    swap; · iexact H7
    ipureintro
    sl_unfold_run_names
    rw [read_writes_cons_whole4 _ _ hzero4, readAt_whole4 _ _ hzero4, readAt_whole4 _ _ hzero4, readAt_whole4 _ _ hzero4]

end Cert.Kernel.Hand

end
-- ==== Proof.KRegion4.lean ====
import proofs.«117354_j7189775254092_1_alg».proof.Proof.KRegion4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 4, `cc4__matmul_stats_kernel`), at the entry contents `V`: proof data and body obligation

The tile's product is written back at every point; the two accumulators are carried between points in scratch, and
their contents after each point are stated by recursion on the point (`accSum4`, `accSq4`); the two `[1, N]` outputs
are stored (from the accumulators) and written back at the last point only. -/

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is `V`'s
    and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's (fetched at the first point only: its block index never moves) likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What the accumulators hold after each point -/

/-- The column-sum accumulator after point `n`: at the first point the zero row plus the tile's column sums, later
    what the point before left plus the tile's (`k4_pay4`: the body's own association). -/
def accSum4 (c : Dev nD) : (n : ℕ) → n < cfg4.N → Vec F S1x2048 .f32
  | 0, h => k4_pay4 (iblk4 V c 1 ⟨0, h⟩) (iblk4 V c 0 ⟨0, h⟩) (k4_pay2 (F := F))
  | n + 1, h => k4_pay4 (iblk4 V c 1 ⟨n + 1, h⟩) (iblk4 V c 0 ⟨n + 1, h⟩) (accSum4 c n (Nat.lt_of_succ_lt h))

/-- The accumulator of the column sums of squares after point `n`, likewise (`k4_pay5`). -/
def accSq4 (c : Dev nD) : (n : ℕ) → n < cfg4.N → Vec F S1x2048 .f32
  | 0, h => k4_pay5 (iblk4 V c 1 ⟨0, h⟩) (iblk4 V c 0 ⟨0, h⟩) (k4_pay3 (F := F))
  | n + 1, h => k4_pay5 (iblk4 V c 1 ⟨n + 1, h⟩) (iblk4 V c 0 ⟨n + 1, h⟩) (accSq4 c n (Nat.lt_of_succ_lt h))

theorem accSum4_zero (c : Dev nD) (t : Fin cfg4.N) (h : t.val = 0) :
    accSum4 V c t.val t.isLt = k4_pay4 (iblk4 V c 1 t) (iblk4 V c 0 t) (k4_pay2 (F := F)) := by
  obtain ⟨n, hn⟩ := t
  cases n with
  | zero => rfl
  | succ n => exact absurd h (Nat.succ_ne_zero n)

theorem accSum4_pos (c : Dev nD) (t : Fin cfg4.N) (h : t.val ≠ 0) :
    accSum4 V c t.val t.isLt = k4_pay4 (iblk4 V c 1 t) (iblk4 V c 0 t) (accSum4 V c (t.val - 1) (Nat.lt_of_le_of_lt (Nat.sub_le _ _) t.isLt)) := by
  obtain ⟨n, hn⟩ := t
  cases n with
  | zero => exact absurd rfl h
  | succ n => rfl

theorem accSq4_zero (c : Dev nD) (t : Fin cfg4.N) (h : t.val = 0) :
    accSq4 V c t.val t.isLt = k4_pay5 (iblk4 V c 1 t) (iblk4 V c 0 t) (k4_pay3 (F := F)) := by
  obtain ⟨n, hn⟩ := t
  cases n with
  | zero => rfl
  | succ n => exact absurd h (Nat.succ_ne_zero n)

theorem accSq4_pos (c : Dev nD) (t : Fin cfg4.N) (h : t.val ≠ 0) :
    accSq4 V c t.val t.isLt = k4_pay5 (iblk4 V c 1 t) (iblk4 V c 0 t) (accSq4 V c (t.val - 1) (Nat.lt_of_le_of_lt (Nat.sub_le _ _) t.isLt)) := by
  obtain ⟨n, hn⟩ := t
  cases n with
  | zero => exact absurd rfl h
  | succ n => rfl

/-! ## The region's invariant -/

/-- Before position `n`: the two accumulators — at anything before the first point, afterwards at what the point
    before left in them —, every other scoped buffer no window stages, and the generator register at some state. -/
def Phi4 (c : Dev nD) : (n : ℕ) → n ≤ cfg4.N → sProp 𝕄
  | 0, _ => iprop((∃ d, owns (c : Thread nD τ) scM4_0 fullShare d) ∗ (∃ d, owns (c : Thread nD τ) scM4_1 fullShare d)
      ∗ Pipeline.scopedRestBut (Ix := Unit) (Name := ℕ) (U := UR sig nD τ) (Lvl := ℕ) (Val := Elt F) spec4 c [cc4_scratch0, cc4_scratch1] ∗ (∃ r, prngReg c r))
  | n + 1, hn => iprop(owns (c : Thread nD τ) scM4_0 fullShare (accSum4 V c n hn) ∗ owns (c : Thread nD τ) scM4_1 fullShare (accSq4 V c n hn)
      ∗ Pipeline.scopedRestBut (Ix := Unit) (Name := ℕ) (U := UR sig nD τ) (Lvl := ℕ) (Val := Elt F) spec4 c [cc4_scratch0, cc4_scratch1] ∗ (∃ r, prngReg c r))

theorem Phi4_zero (c : Dev nD) (n : ℕ) (h : n ≤ cfg4.N) (hz : n = 0) :
    Phi4 V c n h = iprop((∃ d, owns (c : Thread nD τ) scM4_0 fullShare d) ∗ (∃ d, owns (c : Thread nD τ) scM4_1 fullShare d)
      ∗ Pipeline.scopedRestBut (Ix := Unit) (Name := ℕ) (U := UR sig nD τ) (Lvl := ℕ) (Val := Elt F) spec4 c [cc4_scratch0, cc4_scratch1] ∗ (∃ r, prngReg c r)) := by
  subst hz; rfl

theorem Phi4_succ (c : Dev nD) (n : ℕ) (hn : n < cfg4.N) :
    Phi4 V c (n + 1) hn = iprop(owns (c : Thread nD τ) scM4_0 fullShare (accSum4 V c n hn) ∗ owns (c : Thread nD τ) scM4_1 fullShare (accSq4 V c n hn)
      ∗ Pipeline.scopedRestBut (Ix := Unit) (Name := ℕ) (U := UR sig nD τ) (Lvl := ℕ) (Val := Elt F) spec4 c [cc4_scratch0, cc4_scratch1] ∗ (∃ r, prngReg c r)) := rfl

theorem Phi4_pos (c : Dev nD) (n : ℕ) (h : n ≤ cfg4.N) (hz : n ≠ 0) :
    Phi4 V c n h = iprop(owns (c : Thread nD τ) scM4_0 fullShare (accSum4 V c (n - 1) (by omega)) ∗ owns (c : Thread nD τ) scM4_1 fullShare (accSq4 V c (n - 1) (by omega))
      ∗ Pipeline.scopedRestBut (Ix := Unit) (Name := ℕ) (U := UR sig nD τ) (Lvl := ℕ) (Val := Elt F) spec4 c [cc4_scratch0, cc4_scratch1] ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block, the product's at the product of the blocks, the two `[1, N]` outputs' at the
    accumulators' contents after `t` (consulted at the last point only: elsewhere they are idle); the invariant
    `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay1 (iblk4 V c 1 t) (iblk4 V c 0 t)
    | ⟨3, _⟩ => accSum4 V c t.val t.isLt
    | ⟨4, _⟩ => accSq4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay1 (iblk4 V c 1 t) (iblk4 V c 0 t) := by dsimp only [dat4]
theorem after4_3 (c : Dev nD) (t : Fin cfg4.N) : (dat4 V c).after 3 t = accSum4 V c t.val t.isLt := by dsimp only [dat4]
theorem after4_4 (c : Dev nD) (t : Fin cfg4.N) : (dat4 V c).after 4 t = accSq4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4000000 in
/-- The body at any point: the closed forms of the two conditions say which case the point is in; the inputs' memrefs
    hold their blocks; the invariant hands the body the accumulators (at anything at the first point, else at what the
    point before left) and takes them back at this point's contents; off the last point the two `[1, N]` outputs'
    buffers are handed back as found. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  have hN : t.val < 32 := lt_of_lt_of_eq t.isLt (show cfg4.N = 32 from N_4)
  have hN' : cfg4.N = 32 := N_4
  by_cases h0 : t.val = 0
  · by_cases h1 : t.val + 1 = cfg4.N
    · exfalso; omega
    · have hc0 : cond4_0 (grid4.coords t) := (hcond4_0 t).mpr h0
      have hc1 : ¬cond4_1 (grid4.coords t) := fun h => h1 ((hcond4_1 t).mp h)
      rw [Dat.leavesExact_idle (dat4 V c) 3 t (idleAt4_3 t hc1) (noFlush4_3 t hc1)]
      rw [Dat.leavesExact_idle (dat4 V c) 4 t (idleAt4_4 t hc1) (noFlush4_4 t hc1)]
      rw [accSum4_zero V c t h0, accSq4_zero V c t h0]
      rw [Phi4_castSucc V c t, Phi4_zero V c _ _ h0]
      iintro ⟨⟨HS0, HS1, HR, Hg⟩, Ho, ⟨%d0, H0⟩, ⟨%d1, H1⟩, ⟨%d2, H2⟩, ⟨%d3, H3⟩, ⟨%d4, H4⟩⟩
      iapply (run4_A c (grid4.coords t) _ _ _ _ _ _ _ _ _ _ _ _ _ _ hc0 hc1 (iblk4 V c 0 t) (iblk4 V c 1 t) _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4
  · by_cases h1 : t.val + 1 = cfg4.N
    · have hc0 : ¬cond4_0 (grid4.coords t) := fun h => h0 ((hcond4_0 t).mp h)
      have hc1 : cond4_1 (grid4.coords t) := (hcond4_1 t).mpr h1
      rw [show (dat4 V c).leavesExact 3 t = owns (c : Thread nD τ) (st4_3 t) fullShare ((dat4 V c).after 3 t) from by
        unfold Dat.leavesExact; rw [liveAt4_3 t hc1], after4_3]
      rw [show (dat4 V c).leavesExact 4 t = owns (c : Thread nD τ) (st4_4 t) fullShare ((dat4 V c).after 4 t) from by
        unfold Dat.leavesExact; rw [liveAt4_4 t hc1], after4_4]
      rw [accSum4_pos V c t h0, accSq4_pos V c t h0]
      rw [Phi4_castSucc V c t, Phi4_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run4_C c (grid4.coords t) _ _ _ _ _ _ _ _ _ _ _ _ _ _ hc0 hc1 (iblk4 V c 0 t) (iblk4 V c 1 t) _ _ Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc0 : ¬cond4_0 (grid4.coords t) := fun h => h0 ((hcond4_0 t).mp h)
      have hc1 : ¬cond4_1 (grid4.coords t) := fun h => h1 ((hcond4_1 t).mp h)
      rw [Dat.leavesExact_idle (dat4 V c) 3 t (idleAt4_3 t hc1) (noFlush4_3 t hc1)]
      rw [Dat.leavesExact_idle (dat4 V c) 4 t (idleAt4_4 t hc1) (noFlush4_4 t hc1)]
      rw [accSum4_pos V c t h0, accSq4_pos V c t h0]
      rw [Phi4_castSucc V c t, Phi4_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run4_B c (grid4.coords t) _ _ _ _ _ _ _ _ _ _ _ _ _ _ hc0 hc1 (iblk4 V c 0 t) (iblk4 V c 1 t) _ _ _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the invariant -/

/-- The generator register and the scoped buffers no window stages make the invariant before the first point: the two
    accumulators are among those buffers, each whole at some contents. -/
theorem hin4 (c : Dev nD) : iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = Phi4 V c 0 (Nat.zero_le _) from rfl, Phi4_zero V c 0 _ rfl, scopedRest4_split]
  simp only [scM4_0, scM4_1, owns_whole]
  iintro ⟨Hg, ⟨HS0, HS1⟩, HR⟩
  isplitl [HS0]; · iexact HS0
  isplitl [HS1]; · iexact HS1
  isplitl [HR]; · iexact HR
  iexact Hg

/-- After the last point the invariant gives them back, the accumulators' named contents forgotten. -/
theorem hout4 (c : Dev nD) : (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 32 := N_4; omega), scopedRest4_split]
  simp only [scM4_0, scM4_1, owns_whole]
  iintro ⟨HS0, HS1, HR, Hg⟩
  isplitl [Hg]; · iexact Hg
  isplitl [HS0 HS1]
  · isplitl [HS0]; · iexists _; iexact HS0
    iexists _; iexact HS1
  iexact HR

end Cert.Kernel.Hand

end
-- ==== Proof.KSeg4.lean ====
/-
  Region 4 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.KRunRegs
import proofs.«117354_j7189775254092_1_alg».proof.Proof.KRegion4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 4 is entered from, read at the TensorCore's references. -/
abbrev Vin4 : (c : Dev nD) → (b : Ref sig .tc) → Buf (Elt F) ((c : Thread nD τ).loc b) := fun c b => V7 m outs c b
/-- The buffer contents region 4 is left at, read at the TensorCore's references. -/
abbrev Vout4 : (c : Dev nD) → (b : Ref sig .tc) → Buf (Elt F) ((c : Thread nD τ).loc b) := fun c b => V8 m outs c b

/-- What `outs` must hold for region 4: each output array at what the pipeline's write-backs leave. -/
def OutsOk4 : Prop := ∀ c : Dev nD, (outs 8 main_v33_0 c = (dat4 (Vin4 m outs) c).arrAt 2 cfg4.N) ∧ (outs 8 main_v33_1 c = (dat4 (Vin4 m outs) c).arrAt 3 cfg4.N) ∧ (outs 8 main_v33_2 c = (dat4 (Vin4 m outs) c).arrAt 4 cfg4.N)

/-- The valuation after the region holds `outs`' value at `main_v33_0`. -/
theorem Vafter_at_4_2 (c : Dev nD) : Vout4 m outs c main_v33_0 = outs 8 main_v33_0 c := by
  show V8 m outs c (Proc.devRef .tc main_v33_0) = _
  simp only [V8, Function.update_of_ne (StableHlo.devRef_ne_of_ne (by decide) : (Proc.devRef .tc main_v33_0 : DevRef τ sig) ≠ Proc.devRef .tc main_v33_2), Function.update_of_ne (StableHlo.devRef_ne_of_ne (by decide) : (Proc.devRef .tc main_v33_0 : DevRef τ sig) ≠ Proc.devRef .tc main_v33_1), Function.update_self]
/-- The valuation after the region holds `outs`' value at `main_v33_1`. -/
theorem Vafter_at_4_3 (c : Dev nD) : Vout4 m outs c main_v33_1 = outs 8 main_v33_1 c := by
  show V8 m outs c (Proc.devRef .tc main_v33_1) = _
  simp only [V8, Function.update_of_ne (StableHlo.devRef_ne_of_ne (by decide) : (Proc.devRef .tc main_v33_1 : DevRef τ sig) ≠ Proc.devRef .tc main_v33_2), Function.update_self]
/-- The valuation after the region holds `outs`' value at `main_v33_2`. -/
theorem Vafter_at_4_4 (c : Dev nD) : Vout4 m outs c main_v33_2 = outs 8 main_v33_2 c := by
  show V8 m outs c (Proc.devRef .tc main_v33_2) = _
  simp only [V8, Function.update_self]

variable {m outs}

/-- At the region's exit each of its arrays holds what the pipeline leaves. -/
theorem hF4 (ho : OutsOk4 m outs) (c : Dev nD) (w : Fin cfg4.W) :
    (dat4 (Vin4 m outs) c).arrAt w cfg4.N = Vout4 m outs c (Pipeline.arrRef spec4 w) := by
  match w with
  | ⟨0, _⟩ => exact ((dat4 (Vin4 m outs) c).arrAt_in ⟨0, by decide⟩ rfl cfg4.N).trans ((A_eq4 (Vin4 m outs) c ⟨0, by decide⟩).trans (V8_of m outs c _ (by decide)).symm)
  | ⟨1, _⟩ => exact ((dat4 (Vin4 m outs) c).arrAt_in ⟨1, by decide⟩ rfl cfg4.N).trans ((A_eq4 (Vin4 m outs) c ⟨1, by decide⟩).trans (V8_of m outs c _ (by decide)).symm)
  | ⟨2, _⟩ => exact (((ho c).1).symm.trans (Vafter_at_4_2 m outs c).symm : _ = Vout4 m outs c main_v33_0)
  | ⟨3, _⟩ => exact (((ho c).2.1).symm.trans (Vafter_at_4_3 m outs c).symm : _ = Vout4 m outs c main_v33_1)
  | ⟨4, _⟩ => exact (((ho c).2.2).symm.trans (Vafter_at_4_4 m outs c).symm : _ = Vout4 m outs c main_v33_2)

/-- Every other buffer is left as entered. -/
theorem hrest4 (c : Dev nD) : ∀ b, b ∉ Finset.univ.image (Pipeline.arrRef spec4) → Vout4 m outs c b = Vin4 m outs c b :=
  fun b hb => V8_of m outs c b (fun h => hb (by
    simp only [List.mem_cons, List.mem_nil_iff, _root_.or_false] at h
    rcases h with rfl | rfl | rfl
    · exact Finset.mem_image.mpr ⟨⟨2, by decide⟩, Finset.mem_univ _, rfl⟩
    · exact Finset.mem_image.mpr ⟨⟨3, by decide⟩, Finset.mem_univ _, rfl⟩
    · exact Finset.mem_image.mpr ⟨⟨4, by decide⟩, Finset.mem_univ _, rfl⟩))

set_option backward.isDefEq.respectTransparency.types false in
/-- Region 4 as a segment, for any family of proof data whose component here is `dat4` at the entry contents. -/
def seg4 (pdats : (p : Fin 8) → (c : Dev nD) → Dat τ (Elt F) Unit ℕ (UR sig nD τ) ℕ (cfgs p) c)
    (hp : ∀ c, pdats 4 c = dat4 (Vin4 m outs) c) (ho : OutsOk4 m outs) :
    RegionSeg (pcfgs (F := F)) adm pdats () defs₀ Variants.none L0 lv0 4 where
  win := launch4.win.to₀
  block_pos := launch4.block_pos
  stage_whole := launch4.stage_whole
  K := PEmpty
  osem k := k.elim
  ho := Pipeline.OwnSemFacts.none _
  hbody c := by rw [hp c]; exact (body_obligation4 (Vin4 m outs) c).loose
  hwaits := Pipeline.hwaits_of_owed_zero _ _ _ _ L0 lv0 4 fun c t => by rw [hp c]; rfl
  pre c := iprop(StableHlo.held (c : Thread nD τ) (Pipeline.ucRefs τ sig) (V7 m outs c) ∗ Rest (F := F) c)
  post c := iprop(StableHlo.held (c : Thread nD τ) (Pipeline.ucRefs τ sig) (V8 m outs c) ∗ Rest (F := F) c)
  X c := iprop(∃ r, prngReg c r)
  Y c := iprop(∃ r, prngReg c r)
  Z c := Pipeline.unscopedRest (Ix := Unit) (Name := ℕ) (U := UR sig nD τ) (Lvl := ℕ) spec4 c (Vin4 m outs c)
  hentry c := by
    rw [Pipeline.ownSems0_none]
    have hsplit := Pipeline.arrays_of_unscopedBufs (p := 4) (pcfgs (F := F)) adm pdats launch4.win launch4.arr_whole c
      ((pdats 4 c).share_full fun _ => by rw [hp c]; rfl) (Vin4 m outs c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    iintro ⟨Hp, -, Hr⟩
    iapply (hin4 (Vin4 m outs) c)
    isplitl [Hp]; · iexact Hp
    iexact Hr
  hout c := by
    rw [Pipeline.ownSems0_none, hp c]
    iintro H
    ihave H' := (hout4 (Vin4 m outs) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c pdats ((pdats 4 c).share_full fun _ => by rw [hp c]; rfl)
      (Vin4 m outs c) (Vout4 m outs c) ((pdats 4 c).arrAt · cfg4.N) (by rw [hp c]; exact hF4 ho c) (hrest4 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion5.lean ====
/- The body half of region 5 of @main (custom_call 5, `cc5_kernel`, pipeline 5), at ANY float instance `F` and at a
   PARAMETER `V` — the TensorCore's buffer contents when the region is entered.

   The body is pointwise: it loads the tile of window 0 and the two row vectors of windows 1 and 2, computes a payload
   (`k5_pay1`: the tile times the first row plus the second row, each row broadcast down the tile; then rounded,
   clamped and cast), and stores it over the whole staging buffer of window 3. So what the body leaves in the output
   buffer is a closed function of the three input blocks at the point (`out5_3`), and what it finds in each input buffer
   is that window's block at the point, fetched there or not: windows 1 and 2 are fetched at the first point only, and at
   every later point their block index has not moved, so the buffer still holds the same block.

   Delivered: the blocks `iblk5`, the input-side lemmas `before5_W_of`, the output buffer's contents `out5_3` and its
   cover `cover5_3`, the body's triple `sound_kernel5`, the proof data `dat5`, and the body obligation
   `body_obligation5`. -/
import proofs.«117354_j7189775254092_1_alg».proof.Proof.Gen.Kernel.Launch
import proofs.«117354_j7189775254092_1_alg».proof.Proof.Gen.Kernel.Skeleton
import proofs.«117354_j7189775254092_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for ANY proof data whose array is `V`'s
    (`hA`) and whose body leaves the block in place (`hafter`): the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not: it is fetched at the
    first point only, and where it is not fetched its block index has not moved, so the buffer still holds the
    previous point's block, which is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not (as window 1's). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole tile: what the body loads of window 0's buffer and stores over window 3's. -/
abbrev r5_0 : Rect S256x2048 := Rect.unit (s := S256x2048) ![0, 0] S256x2048.size inb_S256x2048_S256x2048_0_0
/-- The whole row vector: what the body loads of window 1's and of window 2's buffer. -/
abbrev r5_1 : Rect S1x2048 := Rect.unit (s := S1x2048) ![0, 0] S1x2048.size inb_S1x2048_S1x2048_0_0

/-! ## What the body leaves in the output window's buffer -/

/-- Window 3's staging buffer after the body, from the input windows' blocks: its one store as a piece, the payload
    the skeleton's over what the three loads read. -/
def out5_3 (x0 : Vec F S256x2048 .f32) (x1 : Vec F S1x2048 .f32) (x2 : Vec F S1x2048 .f32) : Vec F S256x2048 .bf16 :=
  View.canon [⟨r5_0, k5_pay1 (View.ld x0 r5_0) (View.ld x1 r5_1) (View.ld x2 r5_1)⟩]

/-- The store is over the whole buffer, so it covers it (one block, checked by evaluation). -/
theorem cover5_3 (p0 : Vec F S256x2048 .bf16) (y : S256x2048.Idx) :
    ∃ pc ∈ ([⟨r5_0, p0⟩] : List (View.Piece (Elt F) S256x2048 .bf16)), y ∈ pc.1.set :=
  View.cover_of_tiled [⟨r5_0, p0⟩] S256x2048.size (by rfl) y

/-! ## The body's triple -/

set_option maxHeartbeats 1000000 in
/-- The kernel body on whole staging memrefs, the inputs' at read contents `xW` and the output's at anything, runs to
    the continuation holding the inputs' as they were and the output's at `out5_3` of the inputs'. The body also loads
    the output buffer before it stores over all of it; the value loaded is not used, so the buffer's prior contents do
    not matter. -/
theorem sound_kernel5 (c : Dev nD) (E : Set ℕ) (i : grid5.Coords) (arg1 : Memref sig .tc .vmem S256x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S256x2048 .bf16) (harg4 : arg4.IsWhole)
    (x0 : Vec F S256x2048 .f32) (x1 : Vec F S1x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point `t`
    each input's buffer at its block and the output's at `out5_3` of the input blocks; the invariant the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Hand
-- ==== Proof.KSeg5.lean ====
/-
  Region 5 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.KRunRegs
import proofs.«117354_j7189775254092_1_alg».proof.Proof.KRegion5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 5 is entered from, read at the TensorCore's references. -/
abbrev Vin5 : (c : Dev nD) → (b : Ref sig .tc) → Buf (Elt F) ((c : Thread nD τ).loc b) := fun c b => V9 m outs c b
/-- The buffer contents region 5 is left at, read at the TensorCore's references. -/
abbrev Vout5 : (c : Dev nD) → (b : Ref sig .tc) → Buf (Elt F) ((c : Thread nD τ).loc b) := fun c b => V10 m outs c b

/-- What `outs` must hold for region 5: each output array at what the pipeline's write-backs leave. -/
def OutsOk5 : Prop := ∀ c : Dev nD, (outs 10 main_v48 c = (dat5 (Vin5 m outs) c).arrAt 3 cfg5.N)

/-- The valuation after the region holds `outs`' value at `main_v48`. -/
theorem Vafter_at_5_3 (c : Dev nD) : Vout5 m outs c main_v48 = outs 10 main_v48 c := by
  show V10 m outs c (Proc.devRef .tc main_v48) = _
  simp only [V10, Function.update_self]

variable {m outs}

/-- At the region's exit each of its arrays holds what the pipeline leaves. -/
theorem hF5 (ho : OutsOk5 m outs) (c : Dev nD) (w : Fin cfg5.W) :
    (dat5 (Vin5 m outs) c).arrAt w cfg5.N = Vout5 m outs c (Pipeline.arrRef spec5 w) := by
  match w with
  | ⟨0, _⟩ => exact ((dat5 (Vin5 m outs) c).arrAt_in ⟨0, by decide⟩ rfl cfg5.N).trans ((A_eq5 (Vin5 m outs) c ⟨0, by decide⟩).trans (V10_of m outs c _ (by decide)).symm)
  | ⟨1, _⟩ => exact ((dat5 (Vin5 m outs) c).arrAt_in ⟨1, by decide⟩ rfl cfg5.N).trans ((A_eq5 (Vin5 m outs) c ⟨1, by decide⟩).trans (V10_of m outs c _ (by decide)).symm)
  | ⟨2, _⟩ => exact ((dat5 (Vin5 m outs) c).arrAt_in ⟨2, by decide⟩ rfl cfg5.N).trans ((A_eq5 (Vin5 m outs) c ⟨2, by decide⟩).trans (V10_of m outs c _ (by decide)).symm)
  | ⟨3, _⟩ => exact (((ho c)).symm.trans (Vafter_at_5_3 m outs c).symm : _ = Vout5 m outs c main_v48)

/-- Every other buffer is left as entered. -/
theorem hrest5 (c : Dev nD) : ∀ b, b ∉ Finset.univ.image (Pipeline.arrRef spec5) → Vout5 m outs c b = Vin5 m outs c b :=
  fun b hb => V10_of m outs c b (fun h => hb (by
    simp only [List.mem_cons, List.mem_nil_iff, _root_.or_false] at h
    subst h
    exact Finset.mem_image.mpr ⟨⟨3, by decide⟩, Finset.mem_univ _, rfl⟩))

set_option backward.isDefEq.respectTransparency.types false in
/-- Region 5 as a segment, for any family of proof data whose component here is `dat5` at the entry contents. -/
def seg5 (pdats : (p : Fin 8) → (c : Dev nD) → Dat τ (Elt F) Unit ℕ (UR sig nD τ) ℕ (cfgs p) c)
    (hp : ∀ c, pdats 5 c = dat5 (Vin5 m outs) c) (ho : OutsOk5 m outs) :
    RegionSeg (pcfgs (F := F)) adm pdats () defs₀ Variants.none L0 lv0 5 where
  win := launch5.win.to₀
  block_pos := launch5.block_pos
  stage_whole := launch5.stage_whole
  K := PEmpty
  osem k := k.elim
  ho := Pipeline.OwnSemFacts.none _
  hbody c := by rw [hp c]; exact (body_obligation5 (Vin5 m outs) c).loose
  hwaits := Pipeline.hwaits_of_owed_zero _ _ _ _ L0 lv0 5 fun c t => by rw [hp c]; rfl
  pre c := iprop(StableHlo.held (c : Thread nD τ) (Pipeline.ucRefs τ sig) (V9 m outs c) ∗ Rest (F := F) c)
  post c := iprop(StableHlo.held (c : Thread nD τ) (Pipeline.ucRefs τ sig) (V10 m outs c) ∗ Rest (F := F) c)
  X c := iprop(∃ r, prngReg c r)
  Y c := iprop(∃ r, prngReg c r)
  Z c := Pipeline.unscopedRest (Ix := Unit) (Name := ℕ) (U := UR sig nD τ) (Lvl := ℕ) spec5 c (Vin5 m outs c)
  hentry c := by
    rw [Pipeline.ownSems0_none]
    have hsplit := Pipeline.arrays_of_unscopedBufs (p := 5) (pcfgs (F := F)) adm pdats launch5.win launch5.arr_whole c
      ((pdats 5 c).share_full fun _ => by rw [hp c]; rfl) (Vin5 m outs c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    show iprop((∃ r, prngReg c r) ∗ Pipeline.prefHeld (pcfgs (F := F) 5).pre c (fun _ => fullShare) ((adm (F := F) 5).1) ∗ Pipeline.scopedRest (Ix := Unit) (Name := ℕ) (U := UR sig nD τ) (Lvl := ℕ) (Val := Elt F) spec5 c) ⊢ (Pipeline.ΦA spec5 c : sProp 𝕄)
    unfold Pipeline.ΦA
    iintro ⟨Hp, -, Hr⟩
    isplitl [Hr]; · iexact Hr
    iexact Hp
  hout c := by
    rw [Pipeline.ownSems0_none, hp c]
    show (Pipeline.ΦA spec5 c : sProp 𝕄) ⊢ iprop((∃ r, prngReg c r) ∗ emp ∗ Pipeline.scopedRest (Ix := Unit) (Name := ℕ) (U := UR sig nD τ) (Lvl := ℕ) (Val := Elt F) spec5 c)
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c pdats ((pdats 5 c).share_full fun _ => by rw [hp c]; rfl)
      (Vin5 m outs c) (Vout5 m outs c) ((pdats 5 c).arrAt · cfg5.N) (by rw [hp c]; exact hF5 ho c) (hrest5 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion6Runs.lean ====
import proofs.«117354_j7189775254092_1_alg».proof.Proof.Gen.Kernel.Launch
import proofs.«117354_j7189775254092_1_alg».proof.Proof.Gen.Kernel.Skeleton
import proofs.«117354_j7189775254092_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 6, `cc6__matmul_stats_kernel`): the body's conditions over the grid and its three runs

The body zeroes the two accumulators under its first condition (the first grid point), adds the tile's column sums
and column sums of squares to them at every point, and under its second condition (the last grid point) copies them
to the two `[1, N]` outputs. Three control cases meet the grid: A (first point), B (the points between), C (last). -/

/-- The zero offsets of a rank-two rectangle, as a constant function. -/
theorem hzero6 : (![0, 0] : Fin 2 → Nat) = fun _ => 0 := funext fun a => by fin_cases a <;> rfl

section Whole

variable {Val : EltTy → Type} [∀ e, Nonempty (Val e)] {sg : RefSig} {κ : Kind} {sp : Space} {S : Shape} {e : EltTy}

/-- A store through the whole-shape rectangle, last, leaves its payload in the buffer whatever was stored before. -/
theorem read_writes_cons_whole6 (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through the whole-shape rectangle reads the buffer's contents. -/
theorem readAt_whole6 (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end Whole

/-! ## The body's two conditions -/

/-- The first condition (`program_id == 0`), from the grid coordinates. -/
abbrev cond6_0 (i : grid6.Coords) : Prop := (Scalar.cmpi .ne (Scalar.extui (Scalar.cmpi .eq (BitVec.ofNat 32 (i 0).val) 0#32)) 0#32) = 1#1
/-- The second condition (`program_id == num_programs - 1`), from the grid coordinates. -/
abbrev cond6_1 (i : grid6.Coords) : Prop := k6_cond2 i = 1#1

/-- The first condition holds at the first point only. -/
theorem hcond6_0 : ∀ t : Fin cfg6.N, cond6_0 (grid6.coords t) ↔ t.val = 0 :=
  (by decide +kernel : ∀ t : Fin grid6.N, cond6_0 (grid6.coords t) ↔ t.val = 0)
/-- The second condition holds at the last point only. -/
theorem hcond6_1 : ∀ t : Fin cfg6.N, cond6_1 (grid6.coords t) ↔ t.val + 1 = cfg6.N :=
  (by decide +kernel : ∀ t : Fin grid6.N, cond6_1 (grid6.coords t) ↔ t.val + 1 = grid6.N)

/-! ## Where the windows are idle -/

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
/-- Off the last point the two `[1, N]` outputs are idle (nothing is stored into them) and are not written back. -/
theorem idleAt6_3 : ∀ t : Fin cfg6.N, ¬cond6_1 (grid6.coords t) → cfg6.idle 3 (grid6.coords t) = true := by decide +kernel
theorem noFlush6_3 : ∀ t : Fin cfg6.N, ¬cond6_1 (grid6.coords t) → (cfg6.win 3).flush t = false := by decide +kernel
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
/-- At the last point they are live. -/
theorem liveAt6_3 : ∀ t : Fin cfg6.N, cond6_1 (grid6.coords t) → cfg6.idle 3 (grid6.coords t) = false := by decide +kernel
theorem liveAt6_4 : ∀ t : Fin cfg6.N, cond6_1 (grid6.coords t) → cfg6.idle 4 (grid6.coords t) = false := by decide +kernel

/-! ## The scratch operands -/

/-- The two accumulators: whole scoped buffers of the kernel's own, passed beside the windows. -/
abbrev scM6_0 : Memref sig .tc .vmem S1x10 .f32 := Memref.whole cc6_scratch0
abbrev scM6_1 : Memref sig .tc .vmem S1x10 .f32 := Memref.whole cc6_scratch1

/-! ## The three runs of the body

On whole memrefs: the two inputs at contents `x0` (the row tile) and `x1` (the weights) are left as they were; the
product's output holds the product `k6_pay1 x1 x0`; the accumulators hold `k6_pay4 x1 x0 s` and `k6_pay5 x1 x0 s'`,
where `s`, `s'` are what they held when the sums were added (zeros at the first point, else what the point before
left); the two `[1, N]` outputs are untouched off the last point and hold the accumulators' new contents at it. -/

set_option maxHeartbeats 1000000 in
/-- Case A, the first point: the accumulators are zeroed, then added to. -/
theorem run6_A (c : Dev nD) (i : grid6.Coords) (arg1 : Memref sig .tc .vmem S256x2048 .bf16) (harg1 : arg1.IsWhole) (arg2 : Memref sig .tc .vmem S10x2048 .f32) (harg2 : arg2.IsWhole) (arg3 : Memref sig .tc .vmem S256x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S1x10 .f32) (harg7 : arg7.IsWhole) (hc0 : cond6_0 i) (hc1 : ¬cond6_1 i)
    (x0 : Vec F S256x2048 .bf16) (x1 : Vec F S10x2048 .f32) (xi3 xi4 : Vec F S1x10 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k6_pay1 x1 x0)
            ∗ owns (c : Thread nD τ) arg4 fullShare xi3 ∗ owns (c : Thread nD τ) arg5 fullShare xi4
            ∗ owns (c : Thread nD τ) arg6 fullShare (k6_pay4 x1 x0 (k6_pay2 (F := F))) ∗ owns (c : Thread nD τ) arg7 fullShare (k6_pay5 x1 x0 (k6_pay3 (F := F)))) -∗ K ⟨⟩))
      ⊢ wp frame (wpE (defs₀ (F := F)) Variants.none c none) E (cc6__matmul_stats_kernel i arg1 harg1 arg2 harg2 arg3 harg3 arg4 harg4 arg5 harg5 arg6 harg6 arg7 harg7) K := by
  simp only [cc6__matmul_stats_kernel_eq_skeleton]; unfold cc6__matmul_stats_kernel_skel
  simp only [k6_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
  subst hf1; subst hf2; subst hf4; subst hf5
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole6 _ _ hzero6, readAt_whole6 _ _ hzero6, readAt_whole6 _ _ hzero6]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole6 _ _ hzero6, readAt_whole6 _ _ hzero6, readAt_whole6 _ _ hzero6, View.readCov_cons_toLoadRect]
  · iexists _; isplitr
    swap; · iexact H7
    ipureintro
    sl_unfold_run_names
    rw [read_writes_cons_whole6 _ _ hzero6, readAt_whole6 _ _ hzero6, readAt_whole6 _ _ hzero6, View.readCov_cons_toLoadRect]

set_option maxHeartbeats 1000000 in
/-- Case B, a point between the first and the last: the accumulators, at what the point before left, are added to. -/
theorem run6_B (c : Dev nD) (i : grid6.Coords) (arg1 : Memref sig .tc .vmem S256x2048 .bf16) (harg1 : arg1.IsWhole) (arg2 : Memref sig .tc .vmem S10x2048 .f32) (harg2 : arg2.IsWhole) (arg3 : Memref sig .tc .vmem S256x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S1x10 .f32) (harg7 : arg7.IsWhole) (hc0 : ¬cond6_0 i) (hc1 : ¬cond6_1 i)
    (x0 : Vec F S256x2048 .bf16) (x1 : Vec F S10x2048 .f32) (xi3 xi4 xs0 xs1 : Vec F S1x10 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k6_pay1 x1 x0)
            ∗ owns (c : Thread nD τ) arg4 fullShare xi3 ∗ owns (c : Thread nD τ) arg5 fullShare xi4
            ∗ owns (c : Thread nD τ) arg6 fullShare (k6_pay4 x1 x0 xs0) ∗ owns (c : Thread nD τ) arg7 fullShare (k6_pay5 x1 x0 xs1)) -∗ K ⟨⟩))
      ⊢ wp frame (wpE (defs₀ (F := F)) Variants.none c none) E (cc6__matmul_stats_kernel i arg1 harg1 arg2 harg2 arg3 harg3 arg4 harg4 arg5 harg5 arg6 harg6 arg7 harg7) K := by
  simp only [cc6__matmul_stats_kernel_eq_skeleton]; unfold cc6__matmul_stats_kernel_skel
  simp only [k6_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  subst hf1; subst hf2; subst hf4; subst hf5; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole6 _ _ hzero6, readAt_whole6 _ _ hzero6, readAt_whole6 _ _ hzero6]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole6 _ _ hzero6, readAt_whole6 _ _ hzero6, readAt_whole6 _ _ hzero6, readAt_whole6 _ _ hzero6]
  · iexists _; isplitr
    swap; · iexact H7
    ipureintro
    sl_unfold_run_names
    rw [read_writes_cons_whole6 _ _ hzero6, readAt_whole6 _ _ hzero6, readAt_whole6 _ _ hzero6, readAt_whole6 _ _ hzero6]

set_option maxHeartbeats 1000000 in
/-- Case C, the last point: the accumulators are added to, then copied to the two `[1, N]` outputs. -/
theorem run6_C (c : Dev nD) (i : grid6.Coords) (arg1 : Memref sig .tc .vmem S256x2048 .bf16) (harg1 : arg1.IsWhole) (arg2 : Memref sig .tc .vmem S10x2048 .f32) (harg2 : arg2.IsWhole) (arg3 : Memref sig .tc .vmem S256x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S1x10 .f32) (harg7 : arg7.IsWhole) (hc0 : ¬cond6_0 i) (hc1 : cond6_1 i)
    (x0 : Vec F S256x2048 .bf16) (x1 : Vec F S10x2048 .f32) (xs0 xs1 : Vec F S1x10 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k6_pay1 x1 x0)
            ∗ owns (c : Thread nD τ) arg4 fullShare (k6_pay4 x1 x0 xs0) ∗ owns (c : Thread nD τ) arg5 fullShare (k6_pay5 x1 x0 xs1)
            ∗ owns (c : Thread nD τ) arg6 fullShare (k6_pay4 x1 x0 xs0) ∗ owns (c : Thread nD τ) arg7 fullShare (k6_pay5 x1 x0 xs1)) -∗ K ⟨⟩))
      ⊢ wp frame (wpE (defs₀ (F := F)) Variants.none c none) E (cc6__matmul_stats_kernel i arg1 harg1 arg2 harg2 arg3 harg3 arg4 harg4 arg5 harg5 arg6 harg6 arg7 harg7) K := by
  simp only [cc6__matmul_stats_kernel_eq_skeleton]; unfold cc6__matmul_stats_kernel_skel
  simp only [k6_part1_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  subst hf1; subst hf2; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole6 _ _ hzero6, readAt_whole6 _ _ hzero6, readAt_whole6 _ _ hzero6]
  isplitl [H4]
  · iexists _; isplitr
    swap; · iexact H4
    ipureintro
    sl_unfold_run_names
    rw [read_writes_cons_whole6 _ _ hzero6, View.readCov_cons_toLoadRect, readAt_whole6 _ _ hzero6, readAt_whole6 _ _ hzero6, readAt_whole6 _ _ hzero6]
  isplitl [H5]
  · iexists _; isplitr
    swap; · iexact H5
    ipureintro
    sl_unfold_run_names
    rw [read_writes_cons_whole6 _ _ hzero6, View.readCov_cons_toLoadRect, readAt_whole6 _ _ hzero6, readAt_whole6 _ _ hzero6, readAt_whole6 _ _ hzero6]
  isplitl [H6]
  · iexists _; isplitr
    swap; · iexact H6
    ipureintro
    sl_unfold_run_names
    rw [read_writes_cons_whole6 _ _ hzero6, readAt_whole6 _ _ hzero6, readAt_whole6 _ _ hzero6, readAt_whole6 _ _ hzero6]
  · iexists _; isplitr
    swap; · iexact H7
    ipureintro
    sl_unfold_run_names
    rw [read_writes_cons_whole6 _ _ hzero6, readAt_whole6 _ _ hzero6, readAt_whole6 _ _ hzero6, readAt_whole6 _ _ hzero6]

end Cert.Kernel.Hand

end
-- ==== Proof.KRegion6.lean ====
import proofs.«117354_j7189775254092_1_alg».proof.Proof.KRegion6Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 6, `cc6__matmul_stats_kernel`), at the entry contents `V`: proof data and body obligation

The tile's product is written back at every point; the two accumulators are carried between points in scratch, and
their contents after each point are stated by recursion on the point (`accSum6`, `accSq6`); the two `[1, N]` outputs
are stored (from the accumulators) and written back at the last point only. -/

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for any proof data whose array is `V`'s
    and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's (fetched at the first point only: its block index never moves) likewise. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## What the accumulators hold after each point -/

/-- The column-sum accumulator after point `n`: at the first point the zero row plus the tile's column sums, later
    what the point before left plus the tile's (`k6_pay4`: the body's own association). -/
def accSum6 (c : Dev nD) : (n : ℕ) → n < cfg6.N → Vec F S1x10 .f32
  | 0, h => k6_pay4 (iblk6 V c 1 ⟨0, h⟩) (iblk6 V c 0 ⟨0, h⟩) (k6_pay2 (F := F))
  | n + 1, h => k6_pay4 (iblk6 V c 1 ⟨n + 1, h⟩) (iblk6 V c 0 ⟨n + 1, h⟩) (accSum6 c n (Nat.lt_of_succ_lt h))

/-- The accumulator of the column sums of squares after point `n`, likewise (`k6_pay5`). -/
def accSq6 (c : Dev nD) : (n : ℕ) → n < cfg6.N → Vec F S1x10 .f32
  | 0, h => k6_pay5 (iblk6 V c 1 ⟨0, h⟩) (iblk6 V c 0 ⟨0, h⟩) (k6_pay3 (F := F))
  | n + 1, h => k6_pay5 (iblk6 V c 1 ⟨n + 1, h⟩) (iblk6 V c 0 ⟨n + 1, h⟩) (accSq6 c n (Nat.lt_of_succ_lt h))

theorem accSum6_zero (c : Dev nD) (t : Fin cfg6.N) (h : t.val = 0) :
    accSum6 V c t.val t.isLt = k6_pay4 (iblk6 V c 1 t) (iblk6 V c 0 t) (k6_pay2 (F := F)) := by
  obtain ⟨n, hn⟩ := t
  cases n with
  | zero => rfl
  | succ n => exact absurd h (Nat.succ_ne_zero n)

theorem accSum6_pos (c : Dev nD) (t : Fin cfg6.N) (h : t.val ≠ 0) :
    accSum6 V c t.val t.isLt = k6_pay4 (iblk6 V c 1 t) (iblk6 V c 0 t) (accSum6 V c (t.val - 1) (Nat.lt_of_le_of_lt (Nat.sub_le _ _) t.isLt)) := by
  obtain ⟨n, hn⟩ := t
  cases n with
  | zero => exact absurd rfl h
  | succ n => rfl

theorem accSq6_zero (c : Dev nD) (t : Fin cfg6.N) (h : t.val = 0) :
    accSq6 V c t.val t.isLt = k6_pay5 (iblk6 V c 1 t) (iblk6 V c 0 t) (k6_pay3 (F := F)) := by
  obtain ⟨n, hn⟩ := t
  cases n with
  | zero => rfl
  | succ n => exact absurd h (Nat.succ_ne_zero n)

theorem accSq6_pos (c : Dev nD) (t : Fin cfg6.N) (h : t.val ≠ 0) :
    accSq6 V c t.val t.isLt = k6_pay5 (iblk6 V c 1 t) (iblk6 V c 0 t) (accSq6 V c (t.val - 1) (Nat.lt_of_le_of_lt (Nat.sub_le _ _) t.isLt)) := by
  obtain ⟨n, hn⟩ := t
  cases n with
  | zero => exact absurd rfl h
  | succ n => rfl

/-! ## The region's invariant -/

/-- Before position `n`: the two accumulators — at anything before the first point, afterwards at what the point
    before left in them —, every other scoped buffer no window stages, and the generator register at some state. -/
def Phi6 (c : Dev nD) : (n : ℕ) → n ≤ cfg6.N → sProp 𝕄
  | 0, _ => iprop((∃ d, owns (c : Thread nD τ) scM6_0 fullShare d) ∗ (∃ d, owns (c : Thread nD τ) scM6_1 fullShare d)
      ∗ Pipeline.scopedRestBut (Ix := Unit) (Name := ℕ) (U := UR sig nD τ) (Lvl := ℕ) (Val := Elt F) spec6 c [cc6_scratch0, cc6_scratch1] ∗ (∃ r, prngReg c r))
  | n + 1, hn => iprop(owns (c : Thread nD τ) scM6_0 fullShare (accSum6 V c n hn) ∗ owns (c : Thread nD τ) scM6_1 fullShare (accSq6 V c n hn)
      ∗ Pipeline.scopedRestBut (Ix := Unit) (Name := ℕ) (U := UR sig nD τ) (Lvl := ℕ) (Val := Elt F) spec6 c [cc6_scratch0, cc6_scratch1] ∗ (∃ r, prngReg c r))

theorem Phi6_zero (c : Dev nD) (n : ℕ) (h : n ≤ cfg6.N) (hz : n = 0) :
    Phi6 V c n h = iprop((∃ d, owns (c : Thread nD τ) scM6_0 fullShare d) ∗ (∃ d, owns (c : Thread nD τ) scM6_1 fullShare d)
      ∗ Pipeline.scopedRestBut (Ix := Unit) (Name := ℕ) (U := UR sig nD τ) (Lvl := ℕ) (Val := Elt F) spec6 c [cc6_scratch0, cc6_scratch1] ∗ (∃ r, prngReg c r)) := by
  subst hz; rfl

theorem Phi6_succ (c : Dev nD) (n : ℕ) (hn : n < cfg6.N) :
    Phi6 V c (n + 1) hn = iprop(owns (c : Thread nD τ) scM6_0 fullShare (accSum6 V c n hn) ∗ owns (c : Thread nD τ) scM6_1 fullShare (accSq6 V c n hn)
      ∗ Pipeline.scopedRestBut (Ix := Unit) (Name := ℕ) (U := UR sig nD τ) (Lvl := ℕ) (Val := Elt F) spec6 c [cc6_scratch0, cc6_scratch1] ∗ (∃ r, prngReg c r)) := rfl

theorem Phi6_pos (c : Dev nD) (n : ℕ) (h : n ≤ cfg6.N) (hz : n ≠ 0) :
    Phi6 V c n h = iprop(owns (c : Thread nD τ) scM6_0 fullShare (accSum6 V c (n - 1) (by omega)) ∗ owns (c : Thread nD τ) scM6_1 fullShare (accSq6 V c (n - 1) (by omega))
      ∗ Pipeline.scopedRestBut (Ix := Unit) (Name := ℕ) (U := UR sig nD τ) (Lvl := ℕ) (Val := Elt F) spec6 c [cc6_scratch0, cc6_scratch1] ∗ (∃ r, prngReg c r)) := by
  cases n with
  | zero => exact absurd rfl hz
  | succ n => rfl

/-! ## The pipeline's proof data -/

/-- The proof data of pipeline 6 on core `c`: the arrays as the region finds them (`V`); after the body at point `t`
    each input's buffer at its block, the product's at the product of the blocks, the two `[1, N]` outputs' at the
    accumulators' contents after `t` (consulted at the last point only: elsewhere they are idle); the invariant
    `Phi6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay1 (iblk6 V c 1 t) (iblk6 V c 0 t)
    | ⟨3, _⟩ => accSum6 V c t.val t.isLt
    | ⟨4, _⟩ => accSq6 V c t.val t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem Phi6_castSucc (c : Dev nD) (t : Fin cfg6.N) :
    (dat6 V c).Φ t.castSucc = Phi6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = k6_pay1 (iblk6 V c 1 t) (iblk6 V c 0 t) := by dsimp only [dat6]
theorem after6_3 (c : Dev nD) (t : Fin cfg6.N) : (dat6 V c).after 3 t = accSum6 V c t.val t.isLt := by dsimp only [dat6]
theorem after6_4 (c : Dev nD) (t : Fin cfg6.N) : (dat6 V c).after 4 t = accSq6 V c t.val t.isLt := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4000000 in
/-- The body at any point: the closed forms of the two conditions say which case the point is in; the inputs' memrefs
    hold their blocks; the invariant hands the body the accumulators (at anything at the first point, else at what the
    point before left) and takes them back at this point's contents; off the last point the two `[1, N]` outputs'
    buffers are handed back as found. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = Phi6 V c (t.val + 1) t.isLt from rfl, Phi6_succ]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  have hN : t.val < 32 := lt_of_lt_of_eq t.isLt (show cfg6.N = 32 from N_6)
  have hN' : cfg6.N = 32 := N_6
  by_cases h0 : t.val = 0
  · by_cases h1 : t.val + 1 = cfg6.N
    · exfalso; omega
    · have hc0 : cond6_0 (grid6.coords t) := (hcond6_0 t).mpr h0
      have hc1 : ¬cond6_1 (grid6.coords t) := fun h => h1 ((hcond6_1 t).mp h)
      rw [Dat.leavesExact_idle (dat6 V c) 3 t (idleAt6_3 t hc1) (noFlush6_3 t hc1)]
      rw [Dat.leavesExact_idle (dat6 V c) 4 t (idleAt6_4 t hc1) (noFlush6_4 t hc1)]
      rw [accSum6_zero V c t h0, accSq6_zero V c t h0]
      rw [Phi6_castSucc V c t, Phi6_zero V c _ _ h0]
      iintro ⟨⟨HS0, HS1, HR, Hg⟩, Ho, ⟨%d0, H0⟩, ⟨%d1, H1⟩, ⟨%d2, H2⟩, ⟨%d3, H3⟩, ⟨%d4, H4⟩⟩
      iapply (run6_A c (grid6.coords t) _ _ _ _ _ _ _ _ _ _ _ _ _ _ hc0 hc1 (iblk6 V c 0 t) (iblk6 V c 1 t) _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4
  · by_cases h1 : t.val + 1 = cfg6.N
    · have hc0 : ¬cond6_0 (grid6.coords t) := fun h => h0 ((hcond6_0 t).mp h)
      have hc1 : cond6_1 (grid6.coords t) := (hcond6_1 t).mpr h1
      rw [show (dat6 V c).leavesExact 3 t = owns (c : Thread nD τ) (st6_3 t) fullShare ((dat6 V c).after 3 t) from by
        unfold Dat.leavesExact; rw [liveAt6_3 t hc1], after6_3]
      rw [show (dat6 V c).leavesExact 4 t = owns (c : Thread nD τ) (st6_4 t) fullShare ((dat6 V c).after 4 t) from by
        unfold Dat.leavesExact; rw [liveAt6_4 t hc1], after6_4]
      rw [accSum6_pos V c t h0, accSq6_pos V c t h0]
      rw [Phi6_castSucc V c t, Phi6_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run6_C c (grid6.coords t) _ _ _ _ _ _ _ _ _ _ _ _ _ _ hc0 hc1 (iblk6 V c 0 t) (iblk6 V c 1 t) _ _ Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc0 : ¬cond6_0 (grid6.coords t) := fun h => h0 ((hcond6_0 t).mp h)
      have hc1 : ¬cond6_1 (grid6.coords t) := fun h => h1 ((hcond6_1 t).mp h)
      rw [Dat.leavesExact_idle (dat6 V c) 3 t (idleAt6_3 t hc1) (noFlush6_3 t hc1)]
      rw [Dat.leavesExact_idle (dat6 V c) 4 t (idleAt6_4 t hc1) (noFlush6_4 t hc1)]
      rw [accSum6_pos V c t h0, accSq6_pos V c t h0]
      rw [Phi6_castSucc V c t, Phi6_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run6_B c (grid6.coords t) _ _ _ _ _ _ _ _ _ _ _ _ _ _ hc0 hc1 (iblk6 V c 0 t) (iblk6 V c 1 t) _ _ _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Into and out of the invariant -/

/-- The generator register and the scoped buffers no window stages make the invariant before the first point: the two
    accumulators are among those buffers, each whole at some contents. -/
theorem hin6 (c : Dev nD) : iprop((∃ r, prngReg c r) ∗ Pipeline.scopedRest (Ix := Unit) (Name := ℕ) (U := UR sig nD τ) (Lvl := ℕ) (Val := Elt F) spec6 c) ⊢ (dat6 V c).Φ 0 := by
  rw [show (dat6 V c).Φ 0 = Phi6 V c 0 (Nat.zero_le _) from rfl, Phi6_zero V c 0 _ rfl, scopedRest6_split]
  simp only [scM6_0, scM6_1, owns_whole]
  iintro ⟨Hg, ⟨HS0, HS1⟩, HR⟩
  isplitl [HS0]; · iexact HS0
  isplitl [HS1]; · iexact HS1
  isplitl [HR]; · iexact HR
  iexact Hg

/-- After the last point the invariant gives them back, the accumulators' named contents forgotten. -/
theorem hout6 (c : Dev nD) : (dat6 V c).Φ (Fin.last cfg6.N) ⊢ iprop((∃ r, prngReg c r) ∗ Pipeline.scopedRest (Ix := Unit) (Name := ℕ) (U := UR sig nD τ) (Lvl := ℕ) (Val := Elt F) spec6 c) := by
  rw [show (dat6 V c).Φ (Fin.last cfg6.N) = Phi6 V c (Fin.last cfg6.N).val (Nat.le_of_lt_succ (Fin.last cfg6.N).isLt) from rfl,
    Phi6_pos V c _ _ (by rw [Fin.val_last]; have : cfg6.N = 32 := N_6; omega), scopedRest6_split]
  simp only [scM6_0, scM6_1, owns_whole]
  iintro ⟨HS0, HS1, HR, Hg⟩
  isplitl [Hg]; · iexact Hg
  isplitl [HS0 HS1]
  · isplitl [HS0]; · iexists _; iexact HS0
    iexists _; iexact HS1
  iexact HR

end Cert.Kernel.Hand

end
-- ==== Proof.KSeg6.lean ====
/-
  Region 6 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.KRunRegs
import proofs.«117354_j7189775254092_1_alg».proof.Proof.KRegion6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 6 is entered from, read at the TensorCore's references. -/
abbrev Vin6 : (c : Dev nD) → (b : Ref sig .tc) → Buf (Elt F) ((c : Thread nD τ).loc b) := fun c b => V10 m outs c b
/-- The buffer contents region 6 is left at, read at the TensorCore's references. -/
abbrev Vout6 : (c : Dev nD) → (b : Ref sig .tc) → Buf (Elt F) ((c : Thread nD τ).loc b) := fun c b => V11 m outs c b

/-- What `outs` must hold for region 6: each output array at what the pipeline's write-backs leave. -/
def OutsOk6 : Prop := ∀ c : Dev nD, (outs 11 main_v49_0 c = (dat6 (Vin6 m outs) c).arrAt 2 cfg6.N) ∧ (outs 11 main_v49_1 c = (dat6 (Vin6 m outs) c).arrAt 3 cfg6.N) ∧ (outs 11 main_v49_2 c = (dat6 (Vin6 m outs) c).arrAt 4 cfg6.N)

/-- The valuation after the region holds `outs`' value at `main_v49_0`. -/
theorem Vafter_at_6_2 (c : Dev nD) : Vout6 m outs c main_v49_0 = outs 11 main_v49_0 c := by
  show V11 m outs c (Proc.devRef .tc main_v49_0) = _
  simp only [V11, Function.update_of_ne (StableHlo.devRef_ne_of_ne (by decide) : (Proc.devRef .tc main_v49_0 : DevRef τ sig) ≠ Proc.devRef .tc main_v49_2), Function.update_of_ne (StableHlo.devRef_ne_of_ne (by decide) : (Proc.devRef .tc main_v49_0 : DevRef τ sig) ≠ Proc.devRef .tc main_v49_1), Function.update_self]
/-- The valuation after the region holds `outs`' value at `main_v49_1`. -/
theorem Vafter_at_6_3 (c : Dev nD) : Vout6 m outs c main_v49_1 = outs 11 main_v49_1 c := by
  show V11 m outs c (Proc.devRef .tc main_v49_1) = _
  simp only [V11, Function.update_of_ne (StableHlo.devRef_ne_of_ne (by decide) : (Proc.devRef .tc main_v49_1 : DevRef τ sig) ≠ Proc.devRef .tc main_v49_2), Function.update_self]
/-- The valuation after the region holds `outs`' value at `main_v49_2`. -/
theorem Vafter_at_6_4 (c : Dev nD) : Vout6 m outs c main_v49_2 = outs 11 main_v49_2 c := by
  show V11 m outs c (Proc.devRef .tc main_v49_2) = _
  simp only [V11, Function.update_self]

variable {m outs}

/-- At the region's exit each of its arrays holds what the pipeline leaves. -/
theorem hF6 (ho : OutsOk6 m outs) (c : Dev nD) (w : Fin cfg6.W) :
    (dat6 (Vin6 m outs) c).arrAt w cfg6.N = Vout6 m outs c (Pipeline.arrRef spec6 w) := by
  match w with
  | ⟨0, _⟩ => exact ((dat6 (Vin6 m outs) c).arrAt_in ⟨0, by decide⟩ rfl cfg6.N).trans ((A_eq6 (Vin6 m outs) c ⟨0, by decide⟩).trans (V11_of m outs c _ (by decide)).symm)
  | ⟨1, _⟩ => exact ((dat6 (Vin6 m outs) c).arrAt_in ⟨1, by decide⟩ rfl cfg6.N).trans ((A_eq6 (Vin6 m outs) c ⟨1, by decide⟩).trans (V11_of m outs c _ (by decide)).symm)
  | ⟨2, _⟩ => exact (((ho c).1).symm.trans (Vafter_at_6_2 m outs c).symm : _ = Vout6 m outs c main_v49_0)
  | ⟨3, _⟩ => exact (((ho c).2.1).symm.trans (Vafter_at_6_3 m outs c).symm : _ = Vout6 m outs c main_v49_1)
  | ⟨4, _⟩ => exact (((ho c).2.2).symm.trans (Vafter_at_6_4 m outs c).symm : _ = Vout6 m outs c main_v49_2)

/-- Every other buffer is left as entered. -/
theorem hrest6 (c : Dev nD) : ∀ b, b ∉ Finset.univ.image (Pipeline.arrRef spec6) → Vout6 m outs c b = Vin6 m outs c b :=
  fun b hb => V11_of m outs c b (fun h => hb (by
    simp only [List.mem_cons, List.mem_nil_iff, _root_.or_false] at h
    rcases h with rfl | rfl | rfl
    · exact Finset.mem_image.mpr ⟨⟨2, by decide⟩, Finset.mem_univ _, rfl⟩
    · exact Finset.mem_image.mpr ⟨⟨3, by decide⟩, Finset.mem_univ _, rfl⟩
    · exact Finset.mem_image.mpr ⟨⟨4, by decide⟩, Finset.mem_univ _, rfl⟩))

set_option backward.isDefEq.respectTransparency.types false in
/-- Region 6 as a segment, for any family of proof data whose component here is `dat6` at the entry contents. -/
def seg6 (pdats : (p : Fin 8) → (c : Dev nD) → Dat τ (Elt F) Unit ℕ (UR sig nD τ) ℕ (cfgs p) c)
    (hp : ∀ c, pdats 6 c = dat6 (Vin6 m outs) c) (ho : OutsOk6 m outs) :
    RegionSeg (pcfgs (F := F)) adm pdats () defs₀ Variants.none L0 lv0 6 where
  win := launch6.win.to₀
  block_pos := launch6.block_pos
  stage_whole := launch6.stage_whole
  K := PEmpty
  osem k := k.elim
  ho := Pipeline.OwnSemFacts.none _
  hbody c := by rw [hp c]; exact (body_obligation6 (Vin6 m outs) c).loose
  hwaits := Pipeline.hwaits_of_owed_zero _ _ _ _ L0 lv0 6 fun c t => by rw [hp c]; rfl
  pre c := iprop(StableHlo.held (c : Thread nD τ) (Pipeline.ucRefs τ sig) (V10 m outs c) ∗ Rest (F := F) c)
  post c := iprop(StableHlo.held (c : Thread nD τ) (Pipeline.ucRefs τ sig) (V11 m outs c) ∗ Rest (F := F) c)
  X c := iprop(∃ r, prngReg c r)
  Y c := iprop(∃ r, prngReg c r)
  Z c := Pipeline.unscopedRest (Ix := Unit) (Name := ℕ) (U := UR sig nD τ) (Lvl := ℕ) spec6 c (Vin6 m outs c)
  hentry c := by
    rw [Pipeline.ownSems0_none]
    have hsplit := Pipeline.arrays_of_unscopedBufs (p := 6) (pcfgs (F := F)) adm pdats launch6.win launch6.arr_whole c
      ((pdats 6 c).share_full fun _ => by rw [hp c]; rfl) (Vin6 m outs c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    iintro ⟨Hp, -, Hr⟩
    iapply (hin6 (Vin6 m outs) c)
    isplitl [Hp]; · iexact Hp
    iexact Hr
  hout c := by
    rw [Pipeline.ownSems0_none, hp c]
    iintro H
    ihave H' := (hout6 (Vin6 m outs) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c pdats ((pdats 6 c).share_full fun _ => by rw [hp c]; rfl)
      (Vin6 m outs c) (Vout6 m outs c) ((pdats 6 c).arrAt · cfg6.N) (by rw [hp c]; exact hF6 ho c) (hrest6 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion7.lean ====
/- The body half of region 7 of @main (custom_call 7, `cc7_kernel`, pipeline 7), at ANY float instance `F` and at a
   PARAMETER `V` — the TensorCore's buffer contents when the region is entered.

   The body is pointwise: it loads the tile of window 0 and the two row vectors of windows 1 and 2, computes a payload
   (`k7_pay1`: the tile times the first row plus the second row, each row broadcast down the tile; with no
   rounding or clamping on this last layer), and stores it over the whole staging buffer of window 3. So what the body leaves in the output
   buffer is a closed function of the three input blocks at the point (`out7_3`), and what it finds in each input buffer
   is that window's block at the point, fetched there or not: windows 1 and 2 are fetched at the first point only, and at
   every later point their block index has not moved, so the buffer still holds the same block.

   Delivered: the blocks `iblk7`, the input-side lemmas `before7_W_of`, the output buffer's contents `out7_3` and its
   cover `cover7_3`, the body's triple `sound_kernel7`, the proof data `dat7`, and the body obligation
   `body_obligation7`. -/
import proofs.«117354_j7189775254092_1_alg».proof.Proof.Gen.Kernel.Launch
import proofs.«117354_j7189775254092_1_alg».proof.Proof.Gen.Kernel.Skeleton
import proofs.«117354_j7189775254092_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, for ANY proof data whose array is `V`'s
    (`hA`) and whose body leaves the block in place (`hafter`): the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not: it is fetched at the
    first point only, and where it is not fetched its block index has not moved, so the buffer still holds the
    previous point's block, which is this point's. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, fetched there or not (as window 1's). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole tile: what the body loads of window 0's buffer and stores over window 3's. -/
abbrev r7_0 : Rect S256x10 := Rect.unit (s := S256x10) ![0, 0] S256x10.size inb_S256x10_S256x10_0_0
/-- The whole row vector: what the body loads of window 1's and of window 2's buffer. -/
abbrev r7_1 : Rect S1x10 := Rect.unit (s := S1x10) ![0, 0] S1x10.size inb_S1x10_S1x10_0_0

/-! ## What the body leaves in the output window's buffer -/

/-- Window 3's staging buffer after the body, from the input windows' blocks: its one store as a piece, the payload
    the skeleton's over what the three loads read. -/
def out7_3 (x0 : Vec F S256x10 .f32) (x1 : Vec F S1x10 .f32) (x2 : Vec F S1x10 .f32) : Vec F S256x10 .f32 :=
  View.canon [⟨r7_0, k7_pay1 (View.ld x0 r7_0) (View.ld x1 r7_1) (View.ld x2 r7_1)⟩]

/-- The store is over the whole buffer, so it covers it (one block, checked by evaluation). -/
theorem cover7_3 (p0 : Vec F S256x10 .f32) (y : S256x10.Idx) :
    ∃ pc ∈ ([⟨r7_0, p0⟩] : List (View.Piece (Elt F) S256x10 .f32)), y ∈ pc.1.set :=
  View.cover_of_tiled [⟨r7_0, p0⟩] S256x10.size (by rfl) y

/-! ## The body's triple -/

set_option maxHeartbeats 1000000 in
/-- The kernel body on whole staging memrefs, the inputs' at read contents `xW` and the output's at anything, runs to
    the continuation holding the inputs' as they were and the output's at `out7_3` of the inputs'. The body also loads
    the output buffer before it stores over all of it; the value loaded is not used, so the buffer's prior contents do
    not matter. -/
theorem sound_kernel7 (c : Dev nD) (E : Set ℕ) (i : grid7.Coords) (arg1 : Memref sig .tc .vmem S256x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S256x10 .f32) (harg4 : arg4.IsWhole)
    (x0 : Vec F S256x10 .f32) (x1 : Vec F S1x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7_kernel i arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them (`V`); after the body at point `t`
    each input's buffer at its block and the output's at `out7_3` of the input blocks; the invariant the scoped rest
    and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents (the definition projected). -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region7

end Cert.Kernel.Hand
-- ==== Proof.KSeg7.lean ====
/-
  Region 7 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.KRunRegs
import proofs.«117354_j7189775254092_1_alg».proof.Proof.KRegion7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 7 is entered from, read at the TensorCore's references. -/
abbrev Vin7 : (c : Dev nD) → (b : Ref sig .tc) → Buf (Elt F) ((c : Thread nD τ).loc b) := fun c b => V12 m outs c b
/-- The buffer contents region 7 is left at, read at the TensorCore's references. -/
abbrev Vout7 : (c : Dev nD) → (b : Ref sig .tc) → Buf (Elt F) ((c : Thread nD τ).loc b) := fun c b => V13 m outs c b

/-- What `outs` must hold for region 7: each output array at what the pipeline's write-backs leave. -/
def OutsOk7 : Prop := ∀ c : Dev nD, (outs 13 main_v64 c = (dat7 (Vin7 m outs) c).arrAt 3 cfg7.N)

/-- The valuation after the region holds `outs`' value at `main_v64`. -/
theorem Vafter_at_7_3 (c : Dev nD) : Vout7 m outs c main_v64 = outs 13 main_v64 c := by
  show V13 m outs c (Proc.devRef .tc main_v64) = _
  simp only [V13, Function.update_self]

variable {m outs}

/-- At the region's exit each of its arrays holds what the pipeline leaves. -/
theorem hF7 (ho : OutsOk7 m outs) (c : Dev nD) (w : Fin cfg7.W) :
    (dat7 (Vin7 m outs) c).arrAt w cfg7.N = Vout7 m outs c (Pipeline.arrRef spec7 w) := by
  match w with
  | ⟨0, _⟩ => exact ((dat7 (Vin7 m outs) c).arrAt_in ⟨0, by decide⟩ rfl cfg7.N).trans ((A_eq7 (Vin7 m outs) c ⟨0, by decide⟩).trans (V13_of m outs c _ (by decide)).symm)
  | ⟨1, _⟩ => exact ((dat7 (Vin7 m outs) c).arrAt_in ⟨1, by decide⟩ rfl cfg7.N).trans ((A_eq7 (Vin7 m outs) c ⟨1, by decide⟩).trans (V13_of m outs c _ (by decide)).symm)
  | ⟨2, _⟩ => exact ((dat7 (Vin7 m outs) c).arrAt_in ⟨2, by decide⟩ rfl cfg7.N).trans ((A_eq7 (Vin7 m outs) c ⟨2, by decide⟩).trans (V13_of m outs c _ (by decide)).symm)
  | ⟨3, _⟩ => exact (((ho c)).symm.trans (Vafter_at_7_3 m outs c).symm : _ = Vout7 m outs c main_v64)

/-- Every other buffer is left as entered. -/
theorem hrest7 (c : Dev nD) : ∀ b, b ∉ Finset.univ.image (Pipeline.arrRef spec7) → Vout7 m outs c b = Vin7 m outs c b :=
  fun b hb => V13_of m outs c b (fun h => hb (by
    simp only [List.mem_cons, List.mem_nil_iff, _root_.or_false] at h
    subst h
    exact Finset.mem_image.mpr ⟨⟨3, by decide⟩, Finset.mem_univ _, rfl⟩))

set_option backward.isDefEq.respectTransparency.types false in
/-- Region 7 as a segment, for any family of proof data whose component here is `dat7` at the entry contents. -/
def seg7 (pdats : (p : Fin 8) → (c : Dev nD) → Dat τ (Elt F) Unit ℕ (UR sig nD τ) ℕ (cfgs p) c)
    (hp : ∀ c, pdats 7 c = dat7 (Vin7 m outs) c) (ho : OutsOk7 m outs) :
    RegionSeg (pcfgs (F := F)) adm pdats () defs₀ Variants.none L0 lv0 7 where
  win := launch7.win.to₀
  block_pos := launch7.block_pos
  stage_whole := launch7.stage_whole
  K := PEmpty
  osem k := k.elim
  ho := Pipeline.OwnSemFacts.none _
  hbody c := by rw [hp c]; exact (body_obligation7 (Vin7 m outs) c).loose
  hwaits := Pipeline.hwaits_of_owed_zero _ _ _ _ L0 lv0 7 fun c t => by rw [hp c]; rfl
  pre c := iprop(StableHlo.held (c : Thread nD τ) (Pipeline.ucRefs τ sig) (V12 m outs c) ∗ Rest (F := F) c)
  post c := iprop(StableHlo.held (c : Thread nD τ) (Pipeline.ucRefs τ sig) (V13 m outs c) ∗ Rest (F := F) c)
  X c := iprop(∃ r, prngReg c r)
  Y c := iprop(∃ r, prngReg c r)
  Z c := Pipeline.unscopedRest (Ix := Unit) (Name := ℕ) (U := UR sig nD τ) (Lvl := ℕ) spec7 c (Vin7 m outs c)
  hentry c := by
    rw [Pipeline.ownSems0_none]
    have hsplit := Pipeline.arrays_of_unscopedBufs (p := 7) (pcfgs (F := F)) adm pdats launch7.win launch7.arr_whole c
      ((pdats 7 c).share_full fun _ => by rw [hp c]; rfl) (Vin7 m outs c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    show iprop((∃ r, prngReg c r) ∗ Pipeline.prefHeld (pcfgs (F := F) 7).pre c (fun _ => fullShare) ((adm (F := F) 7).1) ∗ Pipeline.scopedRest (Ix := Unit) (Name := ℕ) (U := UR sig nD τ) (Lvl := ℕ) (Val := Elt F) spec7 c) ⊢ (Pipeline.ΦA spec7 c : sProp 𝕄)
    unfold Pipeline.ΦA
    iintro ⟨Hp, -, Hr⟩
    isplitl [Hr]; · iexact Hr
    iexact Hp
  hout c := by
    rw [Pipeline.ownSems0_none, hp c]
    show (Pipeline.ΦA spec7 c : sProp 𝕄) ⊢ iprop((∃ r, prngReg c r) ∗ emp ∗ Pipeline.scopedRest (Ix := Unit) (Name := ℕ) (U := UR sig nD τ) (Lvl := ℕ) (Val := Elt F) spec7 c)
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c pdats ((pdats 7 c).share_full fun _ => by rw [hp c]; rfl)
      (Vin7 m outs c) (Vout7 m outs c) ((pdats 7 c).arrAt · cfg7.N) (by rw [hp c]; exact hF7 ho c) (hrest7 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KChainDefs.lean ====
/-
  The kernel's program run to its end: the buffers' contents at every boundary, and the run.

  The contents are a chain from the launch memory: a host stretch applies its operations; a region sets each of its output
  arrays to what its pipeline's write-backs leave (the proof datum's folded array at the last point) and leaves every other
  buffer alone. Reading `outs` off this chain makes the library's valuations, written over unknown `outs`, equal to the chain's
  step by step, and each region's requirement on `outs` hold by construction. The eight regions' segments then give the
  run: it terminates, the result array ends at the chain's last contents of it, every argument array as launched.
-/
import proofs.«117354_j7189775254092_1_alg».proof.Proof.KSeg0
import proofs.«117354_j7189775254092_1_alg».proof.Proof.KSeg1
import proofs.«117354_j7189775254092_1_alg».proof.Proof.KSeg2
import proofs.«117354_j7189775254092_1_alg».proof.Proof.KSeg3
import proofs.«117354_j7189775254092_1_alg».proof.Proof.KSeg4
import proofs.«117354_j7189775254092_1_alg».proof.Proof.KSeg5
import proofs.«117354_j7189775254092_1_alg».proof.Proof.KSeg6
import proofs.«117354_j7189775254092_1_alg».proof.Proof.KSeg7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

variable (m : (ℓ : Loc nD τ sig) → Buf (Elt F) ℓ)

/-! ## The chain of contents -/

/-- Core `c`'s unscoped buffers at launch. -/
abbrev Ct0 (c : Dev nD) : Valuation τ sig (Elt F) := fun b => m (c, b)
/-- After the host stretch `hostOps0`. -/
def Ct1 (c : Dev nD) : Valuation τ sig (Elt F) := StableHlo.after hostOps0 (Ct0 m c)
/-- After region 0: its output arrays at what the pipeline's write-backs leave, every other buffer as before. -/
def Ct2 (c : Dev nD) : Valuation τ sig (Elt F) :=
  Function.update (Function.update (Function.update (Ct1 m c) main_v1_0 ((dat0 (fun c b => Ct1 m c b) c).arrAt 2 cfg0.N)) main_v1_1 ((dat0 (fun c b => Ct1 m c b) c).arrAt 3 cfg0.N)) main_v1_2 ((dat0 (fun c b => Ct1 m c b) c).arrAt 4 cfg0.N)
/-- After the host stretch `hostOps1`. -/
def Ct3 (c : Dev nD) : Valuation τ sig (Elt F) := StableHlo.after hostOps1 (Ct2 m c)
/-- After region 1: its output array at what the pipeline's write-backs leave, every other buffer as before. -/
def Ct4 (c : Dev nD) : Valuation τ sig (Elt F) :=
  Function.update (Ct3 m c) main_v16 ((dat1 (fun c b => Ct3 m c b) c).arrAt 3 cfg1.N)
/-- After region 2: its output arrays at what the pipeline's write-backs leave, every other buffer as before. -/
def Ct5 (c : Dev nD) : Valuation τ sig (Elt F) :=
  Function.update (Function.update (Function.update (Ct4 m c) main_v17_0 ((dat2 (fun c b => Ct4 m c b) c).arrAt 2 cfg2.N)) main_v17_1 ((dat2 (fun c b => Ct4 m c b) c).arrAt 3 cfg2.N)) main_v17_2 ((dat2 (fun c b => Ct4 m c b) c).arrAt 4 cfg2.N)
/-- After the host stretch `hostOps3`. -/
def Ct6 (c : Dev nD) : Valuation τ sig (Elt F) := StableHlo.after hostOps3 (Ct5 m c)
/-- After region 3: its output array at what the pipeline's write-backs leave, every other buffer as before. -/
def Ct7 (c : Dev nD) : Valuation τ sig (Elt F) :=
  Function.update (Ct6 m c) main_v32 ((dat3 (fun c b => Ct6 m c b) c).arrAt 3 cfg3.N)
/-- After region 4: its output arrays at what the pipeline's write-backs leave, every other buffer as before. -/
def Ct8 (c : Dev nD) : Valuation τ sig (Elt F) :=
  Function.update (Function.update (Function.update (Ct7 m c) main_v33_0 ((dat4 (fun c b => Ct7 m c b) c).arrAt 2 cfg4.N)) main_v33_1 ((dat4 (fun c b => Ct7 m c b) c).arrAt 3 cfg4.N)) main_v33_2 ((dat4 (fun c b => Ct7 m c b) c).arrAt 4 cfg4.N)
/-- After the host stretch `hostOps5`. -/
def Ct9 (c : Dev nD) : Valuation τ sig (Elt F) := StableHlo.after hostOps5 (Ct8 m c)
/-- After region 5: its output array at what the pipeline's write-backs leave, every other buffer as before. -/
def Ct10 (c : Dev nD) : Valuation τ sig (Elt F) :=
  Function.update (Ct9 m c) main_v48 ((dat5 (fun c b => Ct9 m c b) c).arrAt 3 cfg5.N)
/-- After region 6: its output arrays at what the pipeline's write-backs leave, every other buffer as before. -/
def Ct11 (c : Dev nD) : Valuation τ sig (Elt F) :=
  Function.update (Function.update (Function.update (Ct10 m c) main_v49_0 ((dat6 (fun c b => Ct10 m c b) c).arrAt 2 cfg6.N)) main_v49_1 ((dat6 (fun c b => Ct10 m c b) c).arrAt 3 cfg6.N)) main_v49_2 ((dat6 (fun c b => Ct10 m c b) c).arrAt 4 cfg6.N)
/-- After the host stretch `hostOps7`. -/
def Ct12 (c : Dev nD) : Valuation τ sig (Elt F) := StableHlo.after hostOps7 (Ct11 m c)
/-- After region 7: its output array at what the pipeline's write-backs leave, every other buffer as before. -/
def Ct13 (c : Dev nD) : Valuation τ sig (Elt F) :=
  Function.update (Ct12 m c) main_v64 ((dat7 (fun c b => Ct12 m c b) c).arrAt 3 cfg7.N)

/-- What the regions leave, read off the chain: `outs J r c` is `r`'s contents after item J−1. -/
def outs : Outs (F := F) := fun J r c => match J with
  | 2 => Ct2 m c (Proc.devRef .tc r)
  | 4 => Ct4 m c (Proc.devRef .tc r)
  | 5 => Ct5 m c (Proc.devRef .tc r)
  | 7 => Ct7 m c (Proc.devRef .tc r)
  | 8 => Ct8 m c (Proc.devRef .tc r)
  | 10 => Ct10 m c (Proc.devRef .tc r)
  | 11 => Ct11 m c (Proc.devRef .tc r)
  | _ => Ct13 m c (Proc.devRef .tc r)
theorem outs_2 (r : Ref sig .tc) (c : Dev nD) : outs m 2 r c = Ct2 m c (Proc.devRef .tc r) := rfl
theorem outs_4 (r : Ref sig .tc) (c : Dev nD) : outs m 4 r c = Ct4 m c (Proc.devRef .tc r) := rfl
theorem outs_5 (r : Ref sig .tc) (c : Dev nD) : outs m 5 r c = Ct5 m c (Proc.devRef .tc r) := rfl
theorem outs_7 (r : Ref sig .tc) (c : Dev nD) : outs m 7 r c = Ct7 m c (Proc.devRef .tc r) := rfl
theorem outs_8 (r : Ref sig .tc) (c : Dev nD) : outs m 8 r c = Ct8 m c (Proc.devRef .tc r) := rfl
theorem outs_10 (r : Ref sig .tc) (c : Dev nD) : outs m 10 r c = Ct10 m c (Proc.devRef .tc r) := rfl
theorem outs_11 (r : Ref sig .tc) (c : Dev nD) : outs m 11 r c = Ct11 m c (Proc.devRef .tc r) := rfl
theorem outs_13 (r : Ref sig .tc) (c : Dev nD) : outs m 13 r c = Ct13 m c (Proc.devRef .tc r) := rfl

/-! ## The library's valuations at these `outs` are the chain -/

/-- Three updates of `f` by the values of `g` give `g`, when `g` agrees with `f` everywhere else. -/
theorem update3_eq_self {f g : Valuation τ sig (Elt F)} {a b d : DevRef τ sig}
    (h : ∀ x, x ≠ a → x ≠ b → x ≠ d → g x = f x) :
    Function.update (Function.update (Function.update f a (g a)) b (g b)) d (g d) = g := by
  funext x
  by_cases hd : x = d
  · subst hd; rw [Function.update_self]
  · rw [Function.update_of_ne hd]
    by_cases hb : x = b
    · subst hb; rw [Function.update_self]
    · rw [Function.update_of_ne hb]
      by_cases ha : x = a
      · subst ha; rw [Function.update_self]
      · rw [Function.update_of_ne ha]; exact (h x ha hb hd).symm

/-- One update of `f` by the value of `g` gives `g`, when `g` agrees with `f` everywhere else. -/
theorem update1_eq_self {f g : Valuation τ sig (Elt F)} {a : DevRef τ sig} (h : ∀ x, x ≠ a → g x = f x) :
    Function.update f a (g a) = g := by
  funext x
  by_cases ha : x = a
  · subst ha; rw [Function.update_self]
  · rw [Function.update_of_ne ha]; exact (h x ha).symm

theorem V1_eq (c : Dev nD) : V1 m c = Ct1 m c := rfl
theorem Ct2_at_main_v1_0 (c : Dev nD) : Ct2 m c (Proc.devRef .tc main_v1_0) = (dat0 (fun c b => Ct1 m c b) c).arrAt 2 cfg0.N := by
  simp only [Ct2, Function.update_of_ne (StableHlo.devRef_ne_of_ne (by decide) : (Proc.devRef .tc main_v1_0 : DevRef τ sig) ≠ Proc.devRef .tc main_v1_2), Function.update_of_ne (StableHlo.devRef_ne_of_ne (by decide) : (Proc.devRef .tc main_v1_0 : DevRef τ sig) ≠ Proc.devRef .tc main_v1_1), Function.update_self]
theorem Ct2_at_main_v1_1 (c : Dev nD) : Ct2 m c (Proc.devRef .tc main_v1_1) = (dat0 (fun c b => Ct1 m c b) c).arrAt 3 cfg0.N := by
  simp only [Ct2, Function.update_of_ne (StableHlo.devRef_ne_of_ne (by decide) : (Proc.devRef .tc main_v1_1 : DevRef τ sig) ≠ Proc.devRef .tc main_v1_2), Function.update_self]
theorem Ct2_at_main_v1_2 (c : Dev nD) : Ct2 m c (Proc.devRef .tc main_v1_2) = (dat0 (fun c b => Ct1 m c b) c).arrAt 4 cfg0.N := by
  simp only [Ct2, Function.update_self]
theorem V2_eq (c : Dev nD) : V2 m (outs m) c = Ct2 m c := by
  unfold V2
  rw [outs_2, outs_2, outs_2]
  refine update3_eq_self fun x ha hb hd => ?_
  unfold Ct2
  rw [Function.update_of_ne hd, Function.update_of_ne hb, Function.update_of_ne ha]
  rfl
theorem V3_eq (c : Dev nD) : V3 m (outs m) c = Ct3 m c := by
  show StableHlo.after hostOps1 (V2 m (outs m) c) = StableHlo.after hostOps1 (Ct2 m c)
  rw [V2_eq]
theorem Ct4_at_main_v16 (c : Dev nD) : Ct4 m c (Proc.devRef .tc main_v16) = (dat1 (fun c b => Ct3 m c b) c).arrAt 3 cfg1.N := by
  simp only [Ct4, Function.update_self]
theorem V4_eq (c : Dev nD) : V4 m (outs m) c = Ct4 m c := by
  unfold V4
  rw [outs_4, V3_eq]
  refine update1_eq_self fun x ha => ?_
  unfold Ct4
  rw [Function.update_of_ne ha]
theorem Ct5_at_main_v17_0 (c : Dev nD) : Ct5 m c (Proc.devRef .tc main_v17_0) = (dat2 (fun c b => Ct4 m c b) c).arrAt 2 cfg2.N := by
  simp only [Ct5, Function.update_of_ne (StableHlo.devRef_ne_of_ne (by decide) : (Proc.devRef .tc main_v17_0 : DevRef τ sig) ≠ Proc.devRef .tc main_v17_2), Function.update_of_ne (StableHlo.devRef_ne_of_ne (by decide) : (Proc.devRef .tc main_v17_0 : DevRef τ sig) ≠ Proc.devRef .tc main_v17_1), Function.update_self]
theorem Ct5_at_main_v17_1 (c : Dev nD) : Ct5 m c (Proc.devRef .tc main_v17_1) = (dat2 (fun c b => Ct4 m c b) c).arrAt 3 cfg2.N := by
  simp only [Ct5, Function.update_of_ne (StableHlo.devRef_ne_of_ne (by decide) : (Proc.devRef .tc main_v17_1 : DevRef τ sig) ≠ Proc.devRef .tc main_v17_2), Function.update_self]
theorem Ct5_at_main_v17_2 (c : Dev nD) : Ct5 m c (Proc.devRef .tc main_v17_2) = (dat2 (fun c b => Ct4 m c b) c).arrAt 4 cfg2.N := by
  simp only [Ct5, Function.update_self]
theorem V5_eq (c : Dev nD) : V5 m (outs m) c = Ct5 m c := by
  unfold V5
  rw [outs_5, outs_5, outs_5, V4_eq]
  refine update3_eq_self fun x ha hb hd => ?_
  unfold Ct5
  rw [Function.update_of_ne hd, Function.update_of_ne hb, Function.update_of_ne ha]
theorem V6_eq (c : Dev nD) : V6 m (outs m) c = Ct6 m c := by
  show StableHlo.after hostOps3 (V5 m (outs m) c) = StableHlo.after hostOps3 (Ct5 m c)
  rw [V5_eq]
theorem Ct7_at_main_v32 (c : Dev nD) : Ct7 m c (Proc.devRef .tc main_v32) = (dat3 (fun c b => Ct6 m c b) c).arrAt 3 cfg3.N := by
  simp only [Ct7, Function.update_self]
theorem V7_eq (c : Dev nD) : V7 m (outs m) c = Ct7 m c := by
  unfold V7
  rw [outs_7, V6_eq]
  refine update1_eq_self fun x ha => ?_
  unfold Ct7
  rw [Function.update_of_ne ha]
theorem Ct8_at_main_v33_0 (c : Dev nD) : Ct8 m c (Proc.devRef .tc main_v33_0) = (dat4 (fun c b => Ct7 m c b) c).arrAt 2 cfg4.N := by
  simp only [Ct8, Function.update_of_ne (StableHlo.devRef_ne_of_ne (by decide) : (Proc.devRef .tc main_v33_0 : DevRef τ sig) ≠ Proc.devRef .tc main_v33_2), Function.update_of_ne (StableHlo.devRef_ne_of_ne (by decide) : (Proc.devRef .tc main_v33_0 : DevRef τ sig) ≠ Proc.devRef .tc main_v33_1), Function.update_self]
theorem Ct8_at_main_v33_1 (c : Dev nD) : Ct8 m c (Proc.devRef .tc main_v33_1) = (dat4 (fun c b => Ct7 m c b) c).arrAt 3 cfg4.N := by
  simp only [Ct8, Function.update_of_ne (StableHlo.devRef_ne_of_ne (by decide) : (Proc.devRef .tc main_v33_1 : DevRef τ sig) ≠ Proc.devRef .tc main_v33_2), Function.update_self]
theorem Ct8_at_main_v33_2 (c : Dev nD) : Ct8 m c (Proc.devRef .tc main_v33_2) = (dat4 (fun c b => Ct7 m c b) c).arrAt 4 cfg4.N := by
  simp only [Ct8, Function.update_self]
theorem V8_eq (c : Dev nD) : V8 m (outs m) c = Ct8 m c := by
  unfold V8
  rw [outs_8, outs_8, outs_8, V7_eq]
  refine update3_eq_self fun x ha hb hd => ?_
  unfold Ct8
  rw [Function.update_of_ne hd, Function.update_of_ne hb, Function.update_of_ne ha]
theorem V9_eq (c : Dev nD) : V9 m (outs m) c = Ct9 m c := by
  show StableHlo.after hostOps5 (V8 m (outs m) c) = StableHlo.after hostOps5 (Ct8 m c)
  rw [V8_eq]
theorem Ct10_at_main_v48 (c : Dev nD) : Ct10 m c (Proc.devRef .tc main_v48) = (dat5 (fun c b => Ct9 m c b) c).arrAt 3 cfg5.N := by
  simp only [Ct10, Function.update_self]
theorem V10_eq (c : Dev nD) : V10 m (outs m) c = Ct10 m c := by
  unfold V10
  rw [outs_10, V9_eq]
  refine update1_eq_self fun x ha => ?_
  unfold Ct10
  rw [Function.update_of_ne ha]
theorem Ct11_at_main_v49_0 (c : Dev nD) : Ct11 m c (Proc.devRef .tc main_v49_0) = (dat6 (fun c b => Ct10 m c b) c).arrAt 2 cfg6.N := by
  simp only [Ct11, Function.update_of_ne (StableHlo.devRef_ne_of_ne (by decide) : (Proc.devRef .tc main_v49_0 : DevRef τ sig) ≠ Proc.devRef .tc main_v49_2), Function.update_of_ne (StableHlo.devRef_ne_of_ne (by decide) : (Proc.devRef .tc main_v49_0 : DevRef τ sig) ≠ Proc.devRef .tc main_v49_1), Function.update_self]
theorem Ct11_at_main_v49_1 (c : Dev nD) : Ct11 m c (Proc.devRef .tc main_v49_1) = (dat6 (fun c b => Ct10 m c b) c).arrAt 3 cfg6.N := by
  simp only [Ct11, Function.update_of_ne (StableHlo.devRef_ne_of_ne (by decide) : (Proc.devRef .tc main_v49_1 : DevRef τ sig) ≠ Proc.devRef .tc main_v49_2), Function.update_self]
theorem Ct11_at_main_v49_2 (c : Dev nD) : Ct11 m c (Proc.devRef .tc main_v49_2) = (dat6 (fun c b => Ct10 m c b) c).arrAt 4 cfg6.N := by
  simp only [Ct11, Function.update_self]
theorem V11_eq (c : Dev nD) : V11 m (outs m) c = Ct11 m c := by
  unfold V11
  rw [outs_11, outs_11, outs_11, V10_eq]
  refine update3_eq_self fun x ha hb hd => ?_
  unfold Ct11
  rw [Function.update_of_ne hd, Function.update_of_ne hb, Function.update_of_ne ha]
theorem V12_eq (c : Dev nD) : V12 m (outs m) c = Ct12 m c := by
  show StableHlo.after hostOps7 (V11 m (outs m) c) = StableHlo.after hostOps7 (Ct11 m c)
  rw [V11_eq]
theorem Ct13_at_main_v64 (c : Dev nD) : Ct13 m c (Proc.devRef .tc main_v64) = (dat7 (fun c b => Ct12 m c b) c).arrAt 3 cfg7.N := by
  simp only [Ct13, Function.update_self]
theorem V13_eq (c : Dev nD) : V13 m (outs m) c = Ct13 m c := by
  unfold V13
  rw [outs_13, V12_eq]
  refine update1_eq_self fun x ha => ?_
  unfold Ct13
  rw [Function.update_of_ne ha]

/-! ## Each region's requirement on `outs` -/

theorem outsOk0 : OutsOk0 m (outs m) := by
  intro c
  exact ⟨by rw [outs_2]; exact Ct2_at_main_v1_0 m c, by rw [outs_2]; exact Ct2_at_main_v1_1 m c, by rw [outs_2]; exact Ct2_at_main_v1_2 m c⟩
theorem outsOk1 : OutsOk1 m (outs m) := by
  intro c
  have hV : Vin1 m (outs m) = fun c (b : Ref sig .tc) => Ct3 m c b := by funext c b; show V3 m (outs m) c b = _; rw [V3_eq]
  rw [hV]
  exact (by rw [outs_4]; exact Ct4_at_main_v16 m c)
theorem outsOk2 : OutsOk2 m (outs m) := by
  intro c
  have hV : Vin2 m (outs m) = fun c (b : Ref sig .tc) => Ct4 m c b := by funext c b; show V4 m (outs m) c b = _; rw [V4_eq]
  rw [hV]
  exact ⟨by rw [outs_5]; exact Ct5_at_main_v17_0 m c, by rw [outs_5]; exact Ct5_at_main_v17_1 m c, by rw [outs_5]; exact Ct5_at_main_v17_2 m c⟩
theorem outsOk3 : OutsOk3 m (outs m) := by
  intro c
  have hV : Vin3 m (outs m) = fun c (b : Ref sig .tc) => Ct6 m c b := by funext c b; show V6 m (outs m) c b = _; rw [V6_eq]
  rw [hV]
  exact (by rw [outs_7]; exact Ct7_at_main_v32 m c)
theorem outsOk4 : OutsOk4 m (outs m) := by
  intro c
  have hV : Vin4 m (outs m) = fun c (b : Ref sig .tc) => Ct7 m c b := by funext c b; show V7 m (outs m) c b = _; rw [V7_eq]
  rw [hV]
  exact ⟨by rw [outs_8]; exact Ct8_at_main_v33_0 m c, by rw [outs_8]; exact Ct8_at_main_v33_1 m c, by rw [outs_8]; exact Ct8_at_main_v33_2 m c⟩
theorem outsOk5 : OutsOk5 m (outs m) := by
  intro c
  have hV : Vin5 m (outs m) = fun c (b : Ref sig .tc) => Ct9 m c b := by funext c b; show V9 m (outs m) c b = _; rw [V9_eq]
  rw [hV]
  exact (by rw [outs_10]; exact Ct10_at_main_v48 m c)
theorem outsOk6 : OutsOk6 m (outs m) := by
  intro c
  have hV : Vin6 m (outs m) = fun c (b : Ref sig .tc) => Ct10 m c b := by funext c b; show V10 m (outs m) c b = _; rw [V10_eq]
  rw [hV]
  exact ⟨by rw [outs_11]; exact Ct11_at_main_v49_0 m c, by rw [outs_11]; exact Ct11_at_main_v49_1 m c, by rw [outs_11]; exact Ct11_at_main_v49_2 m c⟩
theorem outsOk7 : OutsOk7 m (outs m) := by
  intro c
  have hV : Vin7 m (outs m) = fun c (b : Ref sig .tc) => Ct12 m c b := by funext c b; show V12 m (outs m) c b = _; rw [V12_eq]
  rw [hV]
  exact (by rw [outs_13]; exact Ct13_at_main_v64 m c)

end Cert.Kernel.Hand

end
-- ==== Proof.KChain.lean ====
/-
  The kernel's program run to its end. With `outs` read off the chain of contents, each region's segment is entered from the
  chain's contents before it and left at those after it, so the eight segments give the run: it terminates, the result array
  ends at the chain's last contents of it, every argument array as launched.
-/
import proofs.«117354_j7189775254092_1_alg».proof.Proof.KChainDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

variable (m : (ℓ : Loc nD τ sig) → Buf (Elt F) ℓ)

/-! ## The run -/

/-- Every pipeline's proof data, each at its region's entry contents. -/
def pdats : (p : Fin 8) → (c : Dev nD) → Dat τ (Elt F) Unit ℕ (UR sig nD τ) ℕ (cfgs p) c
  | ⟨0, _⟩ => fun c => dat0 (Vin0 m) c
  | ⟨1, _⟩ => fun c => dat1 (Vin1 m (outs m)) c
  | ⟨2, _⟩ => fun c => dat2 (Vin2 m (outs m)) c
  | ⟨3, _⟩ => fun c => dat3 (Vin3 m (outs m)) c
  | ⟨4, _⟩ => fun c => dat4 (Vin4 m (outs m)) c
  | ⟨5, _⟩ => fun c => dat5 (Vin5 m (outs m)) c
  | ⟨6, _⟩ => fun c => dat6 (Vin6 m (outs m)) c
  | ⟨7, _⟩ => fun c => dat7 (Vin7 m (outs m)) c

/-- The kernel's program runs to its end: the result array at the chain's last contents, the arguments as launched. -/
theorem kernel_run (ρ : Dev nD → PrngReg) :
    θ_run defs (onTc (τ := τ) (main (F := F))) ⟨m, fun _ => 0, ρ⟩ (fun r => ∀ c : Dev nD,
      r.2.mem ((c.tc : Thread nD τ).loc main_v64) = Ct13 m c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  have h := run_of_regs m ρ (outs m) (pdats m)
    (seg0 (pdats m) (fun _ => rfl) (outsOk0 m))
    (seg1 (pdats m) (fun _ => rfl) (outsOk1 m))
    (seg2 (pdats m) (fun _ => rfl) (outsOk2 m))
    (seg3 (pdats m) (fun _ => rfl) (outsOk3 m))
    (seg4 (pdats m) (fun _ => rfl) (outsOk4 m))
    (seg5 (pdats m) (fun _ => rfl) (outsOk5 m))
    (seg6 (pdats m) (fun _ => rfl) (outsOk6 m))
    (seg7 (pdats m) (fun _ => rfl) (outsOk7 m))
    (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _)
  refine (θ_run defs _ _).mono (fun r hr c => ?_) h
  have := hr c
  rw [V13_eq] at this
  exact this

end Cert.Kernel.Hand

end
-- ==== Proof.RunCond.lean ====
/-
  The run of the kernel's program with its result named.

  @main is thirteen items: five stretches of host operations and eight kernel regions. Between two items every unscoped
  buffer of a core is held whole at a valuation: the launch contents, then each host stretch applied, then what each
  region leaves in the arrays it may change. Given one record per region, entered from the valuation before it and left at
  the one after it, every weakly fair execution terminates; the final memory holds the result array at the last
  valuation's contents and every argument array as launched.
-/
import proofs.«117354_j7189775254092_1_alg».proof.Proof.Gen.KernelIdeal.Regions

set_option maxRecDepth 1144

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The program's run, given the regions' records: every weakly fair execution of @main from memory `m` terminates, the
    result array ends at the last valuation's contents of it, and every argument array ends as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V7 m outs c) ∗ E 4 c) ⊢ R4.pre c)
    (hpost4 : ∀ c : Dev nD, R4.post c ⊢ iprop(StableHlo.held (c : Thread nD τ) (Pipeline.ucRefs τ sig) (V8 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V9 m outs c) ∗ E 5 c) ⊢ R5.pre c)
    (hpost5 : ∀ c : Dev nD, R5.post c ⊢ iprop(StableHlo.held (c : Thread nD τ) (Pipeline.ucRefs τ sig) (V10 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V10 m outs c) ∗ E 6 c) ⊢ R6.pre c)
    (hpost6 : ∀ c : Dev nD, R6.post c ⊢ iprop(StableHlo.held (c : Thread nD τ) (Pipeline.ucRefs τ sig) (V11 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V12 m outs c) ∗ E 7 c) ⊢ R7.pre c)
    (hpost7 : ∀ c : Dev nD, R7.post c ⊢ iprop(StableHlo.held (c : Thread nD τ) (Pipeline.ucRefs τ sig) (V13 m outs c) ∗ E 8 c)) :
    θ_run defs (onTc (τ := τ) (main (F := F))) ⟨m, fun _ => 0, ρ⟩ (fun r => ∀ c : Dev nD,
      r.2.mem ((c.tc : Thread nD τ).loc main_v64) = V13 m outs c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, hpre0 c, hpost0 c, hpre1 c, (hpost1 c).trans (hpre2 c), hpost2 c, hpre3 c, (hpost3 c).trans (hpre4 c), hpost4 c, hpre5 c, (hpost5 c).trans (hpre6 c), hpost6 c, hpre7 c, (hpost7 c).trans (sep_mono .rfl (hE8 c))⟩)
    (hinit := ?_) (QY := fun c s => s.mem ((c.tc : Thread nD τ).loc main_v64) = V13 m outs c main_v64 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact ⟨h (Proc.devRef .tc main_v64) (Finset.mem_filter.mpr ⟨StableHlo.devRef_mem_tcRefs main_v64, by decide⟩),
        (h (Proc.devRef .tc main_arg0) (Finset.mem_filter.mpr ⟨StableHlo.devRef_mem_tcRefs main_arg0, by decide⟩)).trans (V13_main_arg0 m outs c),
        (h (Proc.devRef .tc main_arg1) (Finset.mem_filter.mpr ⟨StableHlo.devRef_mem_tcRefs main_arg1, by decide⟩)).trans (V13_main_arg1 m outs c),
        (h (Proc.devRef .tc main_arg2) (Finset.mem_filter.mpr ⟨StableHlo.devRef_mem_tcRefs main_arg2, by decide⟩)).trans (V13_main_arg2 m outs c),
        (h (Proc.devRef .tc main_arg3) (Finset.mem_filter.mpr ⟨StableHlo.devRef_mem_tcRefs main_arg3, by decide⟩)).trans (V13_main_arg3 m outs c),
        (h (Proc.devRef .tc main_arg4) (Finset.mem_filter.mpr ⟨StableHlo.devRef_mem_tcRefs main_arg4, by decide⟩)).trans (V13_main_arg4 m outs c),
        (h (Proc.devRef .tc main_arg5) (Finset.mem_filter.mpr ⟨StableHlo.devRef_mem_tcRefs main_arg5, by decide⟩)).trans (V13_main_arg5 m outs c),
        (h (Proc.devRef .tc main_arg6) (Finset.mem_filter.mpr ⟨StableHlo.devRef_mem_tcRefs main_arg6, by decide⟩)).trans (V13_main_arg6 m outs c),
        (h (Proc.devRef .tc main_arg7) (Finset.mem_filter.mpr ⟨StableHlo.devRef_mem_tcRefs main_arg7, by decide⟩)).trans (V13_main_arg7 m outs c),
        (h (Proc.devRef .tc main_arg8) (Finset.mem_filter.mpr ⟨StableHlo.devRef_mem_tcRefs main_arg8, by decide⟩)).trans (V13_main_arg8 m outs c),
        (h (Proc.devRef .tc main_arg9) (Finset.mem_filter.mpr ⟨StableHlo.devRef_mem_tcRefs main_arg9, by decide⟩)).trans (V13_main_arg9 m outs c),
        (h (Proc.devRef .tc main_arg10) (Finset.mem_filter.mpr ⟨StableHlo.devRef_mem_tcRefs main_arg10, by decide⟩)).trans (V13_main_arg10 m outs c),
        (h (Proc.devRef .tc main_arg11) (Finset.mem_filter.mpr ⟨StableHlo.devRef_mem_tcRefs main_arg11, by decide⟩)).trans (V13_main_arg11 m outs c),
        (h (Proc.devRef .tc main_arg12) (Finset.mem_filter.mpr ⟨StableHlo.devRef_mem_tcRefs main_arg12, by decide⟩)).trans (V13_main_arg12 m outs c)⟩
    · iexact HSI

end Cert.KernelIdeal.Hand

end
-- ==== Proof.RunRegs.lean ====
/-
  The run of the kernel's program at the launch's own resources.

  Nothing is owed between cores and no level is assigned; beside the buffers each core carries only its generator
  register, at some state, and the fact that it owes nothing. With that rest state at every boundary, the eight regions'
  records (each entered from the valuation before it, left at the one after) give the run: it terminates, the result array
  ends at the last valuation's contents, every argument array as launched.
-/
import proofs.«117354_j7189775254092_1_alg».proof.Proof.RunCond
import Idealize.ShloMosaic.Lib.Pipeline.Kit
import Idealize.ShloMosaic.Lib.Pipeline.RegionsLoop

set_option maxRecDepth 1144

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- No core owes another anything: no level is assigned. -/
abbrev L0 : GSem nD τ sig → Finset Unit := fun _ => ∅
abbrev lv0 : GSem nD τ sig → Unit → ℕ := fun _ _ => 0

/-- What a core carries beside its buffers at every boundary: the generator register at some state, nothing owed. -/
abbrev Rest (c : Dev nD) : sProp 𝕄 :=
  iprop((∃ r, prngReg c r) ∗ ∃ W, owes (c : Thread nD τ) (0 : CellTallies nD τ sig Unit) W)

/-- What the launch hands one core beside its buffers — its staging semaphores, its dues (none), the generator register at
    its launch state — makes that core's rest state. -/
theorem rest_of_launch_core (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c) : sProp 𝕄) ⊢ Rest (F := F) c := by
  iintro ⟨-, HO, -, Hp, -⟩
  isplitl [Hp]; · iexists _; iexact Hp
  iexists ∅; iexact HO

/-- … and so on every core at once. -/
theorem rest_of_launch (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts L0 lv0)
      ⊢ (|={Set.univ}=> bigSep Finset.univ (fun c : Dev nD => Rest (F := F) c) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c))
      ⊢ (bigSep Finset.univ (fun c : Dev nD => Rest (F := F) c) : sProp 𝕄) :=
    bigSep_mono fun c _ => rest_of_launch_core ρ c
  iintro ⟨H, -⟩
  imodintro
  iapply hmono
  iexact H

variable (m : (ℓ : Loc nD τ sig) → Buf (Elt F) ℓ)

set_option backward.isDefEq.respectTransparency.types false in
/-- The run from the eight regions' records, at the launch's own resources. -/
theorem run_of_regs (ρ : Dev nD → PrngReg) (outs : Outs (F := F))
    (pdats : (p : Fin 8) → (c : Dev nD) → Dat τ (Elt F) Unit ℕ (UR sig nD τ) ℕ (cfgs p) c)
    (R0 : RegionSeg (pcfgs (F := F)) adm pdats () defs₀ Variants.none L0 lv0 0)
    (R1 : RegionSeg (pcfgs (F := F)) adm pdats () defs₀ Variants.none L0 lv0 1)
    (R2 : RegionSeg (pcfgs (F := F)) adm pdats () defs₀ Variants.none L0 lv0 2)
    (R3 : RegionSeg (pcfgs (F := F)) adm pdats () defs₀ Variants.none L0 lv0 3)
    (R4 : RegionSeg (pcfgs (F := F)) adm pdats () defs₀ Variants.none L0 lv0 4)
    (R5 : RegionSeg (pcfgs (F := F)) adm pdats () defs₀ Variants.none L0 lv0 5)
    (R6 : RegionSeg (pcfgs (F := F)) adm pdats () defs₀ Variants.none L0 lv0 6)
    (R7 : RegionSeg (pcfgs (F := F)) adm pdats () defs₀ Variants.none L0 lv0 7)
    (hpre0 : ∀ c : Dev nD, iprop(StableHlo.held (c : Thread nD τ) (Pipeline.ucRefs τ sig) (V1 m c) ∗ Rest (F := F) c) ⊢ R0.pre c)
    (hpost0 : ∀ c : Dev nD, R0.post c ⊢ iprop(StableHlo.held (c : Thread nD τ) (Pipeline.ucRefs τ sig) (V2 m outs c) ∗ Rest (F := F) c))
    (hpre1 : ∀ c : Dev nD, iprop(StableHlo.held (c : Thread nD τ) (Pipeline.ucRefs τ sig) (V3 m outs c) ∗ Rest (F := F) c) ⊢ R1.pre c)
    (hpost1 : ∀ c : Dev nD, R1.post c ⊢ iprop(StableHlo.held (c : Thread nD τ) (Pipeline.ucRefs τ sig) (V4 m outs c) ∗ Rest (F := F) c))
    (hpre2 : ∀ c : Dev nD, iprop(StableHlo.held (c : Thread nD τ) (Pipeline.ucRefs τ sig) (V4 m outs c) ∗ Rest (F := F) c) ⊢ R2.pre c)
    (hpost2 : ∀ c : Dev nD, R2.post c ⊢ iprop(StableHlo.held (c : Thread nD τ) (Pipeline.ucRefs τ sig) (V5 m outs c) ∗ Rest (F := F) c))
    (hpre3 : ∀ c : Dev nD, iprop(StableHlo.held (c : Thread nD τ) (Pipeline.ucRefs τ sig) (V6 m outs c) ∗ Rest (F := F) c) ⊢ R3.pre c)
    (hpost3 : ∀ c : Dev nD, R3.post c ⊢ iprop(StableHlo.held (c : Thread nD τ) (Pipeline.ucRefs τ sig) (V7 m outs c) ∗ Rest (F := F) c))
    (hpre4 : ∀ c : Dev nD, iprop(StableHlo.held (c : Thread nD τ) (Pipeline.ucRefs τ sig) (V7 m outs c) ∗ Rest (F := F) c) ⊢ R4.pre c)
    (hpost4 : ∀ c : Dev nD, R4.post c ⊢ iprop(StableHlo.held (c : Thread nD τ) (Pipeline.ucRefs τ sig) (V8 m outs c) ∗ Rest (F := F) c))
    (hpre5 : ∀ c : Dev nD, iprop(StableHlo.held (c : Thread nD τ) (Pipeline.ucRefs τ sig) (V9 m outs c) ∗ Rest (F := F) c) ⊢ R5.pre c)
    (hpost5 : ∀ c : Dev nD, R5.post c ⊢ iprop(StableHlo.held (c : Thread nD τ) (Pipeline.ucRefs τ sig) (V10 m outs c) ∗ Rest (F := F) c))
    (hpre6 : ∀ c : Dev nD, iprop(StableHlo.held (c : Thread nD τ) (Pipeline.ucRefs τ sig) (V10 m outs c) ∗ Rest (F := F) c) ⊢ R6.pre c)
    (hpost6 : ∀ c : Dev nD, R6.post c ⊢ iprop(StableHlo.held (c : Thread nD τ) (Pipeline.ucRefs τ sig) (V11 m outs c) ∗ Rest (F := F) c))
    (hpre7 : ∀ c : Dev nD, iprop(StableHlo.held (c : Thread nD τ) (Pipeline.ucRefs τ sig) (V12 m outs c) ∗ Rest (F := F) c) ⊢ R7.pre c)
    (hpost7 : ∀ c : Dev nD, R7.post c ⊢ iprop(StableHlo.held (c : Thread nD τ) (Pipeline.ucRefs τ sig) (V13 m outs c) ∗ Rest (F := F) c)) :
    θ_run defs (onTc (τ := τ) (main (F := F))) ⟨m, fun _ => 0, ρ⟩ (fun r => ∀ c : Dev nD,
      r.2.mem ((c.tc : Thread nD τ).loc main_v64) = V13 m outs c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_cond m emb₁ () Variants.none L0 lv0 (fun _ _ => rfl) ρ outs pdats (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := rest_of_launch ρ)
    (hE8 := fun c => by
      iintro ⟨-, HO⟩
      iexact HO)
    R0 hpre0 hpost0 R1 hpre1 hpost1 R2 hpre2 hpost2 R3 hpre3 hpost3 R4 hpre4 hpost4 R5 hpre5 hpost5 R6 hpre6 hpost6 R7 hpre7 hpost7

end Cert.KernelIdeal.Hand

end
-- ==== Proof.Region0Runs.lean ====
import proofs.«117354_j7189775254092_1_alg».proof.Proof.Gen.KernelIdeal.Launch
import proofs.«117354_j7189775254092_1_alg».proof.Proof.Gen.KernelIdeal.Skeleton
import proofs.«117354_j7189775254092_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 0, `cc0__matmul_stats_kernel`): the body's conditions over the grid and its three runs

The body zeroes the two accumulators under its first condition (the first grid point), adds the tile's column sums
and column sums of squares to them at every point, and under its second condition (the last grid point) copies them
to the two `[1, N]` outputs. Three control cases meet the grid: A (first point), B (the points between), C (last). -/

/-- The zero offsets of a rank-two rectangle, as a constant function. -/
theorem hzero0 : (![0, 0] : Fin 2 → Nat) = fun _ => 0 := funext fun a => by fin_cases a <;> rfl

section Whole

variable {Val : EltTy → Type} [∀ e, Nonempty (Val e)] {sg : RefSig} {κ : Kind} {sp : Space} {S : Shape} {e : EltTy}

/-- A store through the whole-shape rectangle, last, leaves its payload in the buffer whatever was stored before. -/
theorem read_writes_cons_whole0 (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through the whole-shape rectangle reads the buffer's contents. -/
theorem readAt_whole0 (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end Whole

/-! ## The body's two conditions -/

/-- The first condition (`program_id == 0`), from the grid coordinates. -/
abbrev cond0_0 (i : grid0.Coords) : Prop := (Scalar.cmpi .ne (Scalar.extui (Scalar.cmpi .eq (BitVec.ofNat 32 (i 0).val) 0#32)) 0#32) = 1#1
/-- The second condition (`program_id == num_programs - 1`), from the grid coordinates. -/
abbrev cond0_1 (i : grid0.Coords) : Prop := k0_cond2 i = 1#1

/-- The first condition holds at the first point only. -/
theorem hcond0_0 : ∀ t : Fin cfg0.N, cond0_0 (grid0.coords t) ↔ t.val = 0 :=
  (by decide +kernel : ∀ t : Fin grid0.N, cond0_0 (grid0.coords t) ↔ t.val = 0)
/-- The second condition holds at the last point only. -/
theorem hcond0_1 : ∀ t : Fin cfg0.N, cond0_1 (grid0.coords t) ↔ t.val + 1 = cfg0.N :=
  (by decide +kernel : ∀ t : Fin grid0.N, cond0_1 (grid0.coords t) ↔ t.val + 1 = grid0.N)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Off the last point the two `[1, N]` outputs are idle (nothing is stored into them) and are not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last point they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The scratch operands -/

/-- The two accumulators: whole scoped buffers of the kernel's own, passed beside the windows. -/
abbrev scM0_0 : Memref sig .tc .vmem S1x2048 .f32 := Memref.whole cc0_scratch0
abbrev scM0_1 : Memref sig .tc .vmem S1x2048 .f32 := Memref.whole cc0_scratch1

/-! ## The three runs of the body

On whole memrefs: the two inputs at contents `x0` (the row tile) and `x1` (the weights) are left as they were; the
product's output holds the product `k0_pay1 x1 x0`; the accumulators hold `k0_pay4 x1 x0 s` and `k0_pay5 x1 x0 s'`,
where `s`, `s'` are what they held when the sums were added (zeros at the first point, else what the point before
left); the two `[1, N]` outputs are untouched off the last point and hold the accumulators' new contents at it. -/

set_option maxHeartbeats 1000000 in
/-- Case A, the first point: the accumulators are zeroed, then added to. -/
theorem run0_A (c : Dev nD) (i : grid0.Coords) (arg1 : Memref sig .tc .vmem S256x784 .bf16) (harg1 : arg1.IsWhole) (arg2 : Memref sig .tc .vmem S2048x784 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i)
    (x0 : Vec F S256x784 .bf16) (x1 : Vec F S2048x784 .f32) (xi3 xi4 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k0_pay1 x1 x0)
            ∗ owns (c : Thread nD τ) arg4 fullShare xi3 ∗ owns (c : Thread nD τ) arg5 fullShare xi4
            ∗ owns (c : Thread nD τ) arg6 fullShare (k0_pay4 x1 x0 (k0_pay2 (F := F))) ∗ owns (c : Thread nD τ) arg7 fullShare (k0_pay5 x1 x0 (k0_pay3 (F := F)))) -∗ K ⟨⟩))
      ⊢ wp frame (wpE (defs₀ (F := F)) Variants.none c none) E (cc0__matmul_stats_kernel i arg1 harg1 arg2 harg2 arg3 harg3 arg4 harg4 arg5 harg5 arg6 harg6 arg7 harg7) K := by
  simp only [cc0__matmul_stats_kernel_eq_skeleton]; unfold cc0__matmul_stats_kernel_skel
  simp only [k0_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
  subst hf1; subst hf2; subst hf4; subst hf5
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole0 _ _ hzero0, readAt_whole0 _ _ hzero0, readAt_whole0 _ _ hzero0]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole0 _ _ hzero0, readAt_whole0 _ _ hzero0, readAt_whole0 _ _ hzero0, View.readCov_cons_toLoadRect]
  · iexists _; isplitr
    swap; · iexact H7
    ipureintro
    sl_unfold_run_names
    rw [read_writes_cons_whole0 _ _ hzero0, readAt_whole0 _ _ hzero0, readAt_whole0 _ _ hzero0, View.readCov_cons_toLoadRect]

set_option maxHeartbeats 1000000 in
/-- Case B, a point between the first and the last: the accumulators, at what the point before left, are added to. -/
theorem run0_B (c : Dev nD) (i : grid0.Coords) (arg1 : Memref sig .tc .vmem S256x784 .bf16) (harg1 : arg1.IsWhole) (arg2 : Memref sig .tc .vmem S2048x784 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : ¬cond0_1 i)
    (x0 : Vec F S256x784 .bf16) (x1 : Vec F S2048x784 .f32) (xi3 xi4 xs0 xs1 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k0_pay1 x1 x0)
            ∗ owns (c : Thread nD τ) arg4 fullShare xi3 ∗ owns (c : Thread nD τ) arg5 fullShare xi4
            ∗ owns (c : Thread nD τ) arg6 fullShare (k0_pay4 x1 x0 xs0) ∗ owns (c : Thread nD τ) arg7 fullShare (k0_pay5 x1 x0 xs1)) -∗ K ⟨⟩))
      ⊢ wp frame (wpE (defs₀ (F := F)) Variants.none c none) E (cc0__matmul_stats_kernel i arg1 harg1 arg2 harg2 arg3 harg3 arg4 harg4 arg5 harg5 arg6 harg6 arg7 harg7) K := by
  simp only [cc0__matmul_stats_kernel_eq_skeleton]; unfold cc0__matmul_stats_kernel_skel
  simp only [k0_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  subst hf1; subst hf2; subst hf4; subst hf5; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole0 _ _ hzero0, readAt_whole0 _ _ hzero0, readAt_whole0 _ _ hzero0]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole0 _ _ hzero0, readAt_whole0 _ _ hzero0, readAt_whole0 _ _ hzero0, readAt_whole0 _ _ hzero0]
  · iexists _; isplitr
    swap; · iexact H7
    ipureintro
    sl_unfold_run_names
    rw [read_writes_cons_whole0 _ _ hzero0, readAt_whole0 _ _ hzero0, readAt_whole0 _ _ hzero0, readAt_whole0 _ _ hzero0]

set_option maxHeartbeats 1000000 in
/-- Case C, the last point: the accumulators are added to, then copied to the two `[1, N]` outputs. -/
theorem run0_C (c : Dev nD) (i : grid0.Coords) (arg1 : Memref sig .tc .vmem S256x784 .bf16) (harg1 : arg1.IsWhole) (arg2 : Memref sig .tc .vmem S2048x784 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i)
    (x0 : Vec F S256x784 .bf16) (x1 : Vec F S2048x784 .f32) (xs0 xs1 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k0_pay1 x1 x0)
            ∗ owns (c : Thread nD τ) arg4 fullShare (k0_pay4 x1 x0 xs0) ∗ owns (c : Thread nD τ) arg5 fullShare (k0_pay5 x1 x0 xs1)
            ∗ owns (c : Thread nD τ) arg6 fullShare (k0_pay4 x1 x0 xs0) ∗ owns (c : Thread nD τ) arg7 fullShare (k0_pay5 x1 x0 xs1)) -∗ K ⟨⟩))
      ⊢ wp frame (wpE (defs₀ (F := F)) Variants.none c none) E (cc0__matmul_stats_kernel i arg1 harg1 arg2 harg2 arg3 harg3 arg4 harg4 arg5 harg5 arg6 harg6 arg7 harg7) K := by
  simp only [cc0__matmul_stats_kernel_eq_skeleton]; unfold cc0__matmul_stats_kernel_skel
  simp only [k0_part1_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  subst hf1; subst hf2; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole0 _ _ hzero0, readAt_whole0 _ _ hzero0, readAt_whole0 _ _ hzero0]
  isplitl [H4]
  · iexists _; isplitr
    swap; · iexact H4
    ipureintro
    sl_unfold_run_names
    rw [read_writes_cons_whole0 _ _ hzero0, View.readCov_cons_toLoadRect, readAt_whole0 _ _ hzero0, readAt_whole0 _ _ hzero0, readAt_whole0 _ _ hzero0]
  isplitl [H5]
  · iexists _; isplitr
    swap; · iexact H5
    ipureintro
    sl_unfold_run_names
    rw [read_writes_cons_whole0 _ _ hzero0, View.readCov_cons_toLoadRect, readAt_whole0 _ _ hzero0, readAt_whole0 _ _ hzero0, readAt_whole0 _ _ hzero0]
  isplitl [H6]
  · iexists _; isplitr
    swap; · iexact H6
    ipureintro
    sl_unfold_run_names
    rw [read_writes_cons_whole0 _ _ hzero0, readAt_whole0 _ _ hzero0, readAt_whole0 _ _ hzero0, readAt_whole0 _ _ hzero0]
  · iexists _; isplitr
    swap; · iexact H7
    ipureintro
    sl_unfold_run_names
    rw [read_writes_cons_whole0 _ _ hzero0, readAt_whole0 _ _ hzero0, readAt_whole0 _ _ hzero0, readAt_whole0 _ _ hzero0]

end Cert.KernelIdeal.Hand

end
-- ==== Proof.Region0.lean ====
import proofs.«117354_j7189775254092_1_alg».proof.Proof.Region0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 0, `cc0__matmul_stats_kernel`), at the entry contents `V`: proof data and body obligation

The tile's product is written back at every point; the two accumulators are carried between points in scratch, and
their contents after each point are stated by recursion on the point (`accSum0`, `accSq0`); the two `[1, N]` outputs
are stored (from the accumulators) and written back at the last point only. -/

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's (fetched at the first point only: its block index never moves) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the accumulators hold after each point -/

/-- The column-sum accumulator after point `n`: at the first point the zero row plus the tile's column sums, later
    what the point before left plus the tile's (`k0_pay4`: the body's own association). -/
def accSum0 (c : Dev nD) : (n : ℕ) → n < cfg0.N → Vec F S1x2048 .f32
  | 0, h => k0_pay4 (iblk0 V c 1 ⟨0, h⟩) (iblk0 V c 0 ⟨0, h⟩) (k0_pay2 (F := F))
  | n + 1, h => k0_pay4 (iblk0 V c 1 ⟨n + 1, h⟩) (iblk0 V c 0 ⟨n + 1, h⟩) (accSum0 c n (Nat.lt_of_succ_lt h))

/-- The accumulator of the column sums of squares after point `n`, likewise (`k0_pay5`). -/
def accSq0 (c : Dev nD) : (n : ℕ) → n < cfg0.N → Vec F S1x2048 .f32
  | 0, h => k0_pay5 (iblk0 V c 1 ⟨0, h⟩) (iblk0 V c 0 ⟨0, h⟩) (k0_pay3 (F := F))
  | n + 1, h => k0_pay5 (iblk0 V c 1 ⟨n + 1, h⟩) (iblk0 V c 0 ⟨n + 1, h⟩) (accSq0 c n (Nat.lt_of_succ_lt h))

theorem accSum0_zero (c : Dev nD) (t : Fin cfg0.N) (h : t.val = 0) :
    accSum0 V c t.val t.isLt = k0_pay4 (iblk0 V c 1 t) (iblk0 V c 0 t) (k0_pay2 (F := F)) := by
  obtain ⟨n, hn⟩ := t
  cases n with
  | zero => rfl
  | succ n => exact absurd h (Nat.succ_ne_zero n)

theorem accSum0_pos (c : Dev nD) (t : Fin cfg0.N) (h : t.val ≠ 0) :
    accSum0 V c t.val t.isLt = k0_pay4 (iblk0 V c 1 t) (iblk0 V c 0 t) (accSum0 V c (t.val - 1) (Nat.lt_of_le_of_lt (Nat.sub_le _ _) t.isLt)) := by
  obtain ⟨n, hn⟩ := t
  cases n with
  | zero => exact absurd rfl h
  | succ n => rfl

theorem accSq0_zero (c : Dev nD) (t : Fin cfg0.N) (h : t.val = 0) :
    accSq0 V c t.val t.isLt = k0_pay5 (iblk0 V c 1 t) (iblk0 V c 0 t) (k0_pay3 (F := F)) := by
  obtain ⟨n, hn⟩ := t
  cases n with
  | zero => rfl
  | succ n => exact absurd h (Nat.succ_ne_zero n)

theorem accSq0_pos (c : Dev nD) (t : Fin cfg0.N) (h : t.val ≠ 0) :
    accSq0 V c t.val t.isLt = k0_pay5 (iblk0 V c 1 t) (iblk0 V c 0 t) (accSq0 V c (t.val - 1) (Nat.lt_of_le_of_lt (Nat.sub_le _ _) t.isLt)) := by
  obtain ⟨n, hn⟩ := t
  cases n with
  | zero => exact absurd rfl h
  | succ n => rfl

/-! ## The region's invariant -/

/-- Before position `n`: the two accumulators — at anything before the first point, afterwards at what the point
    before left in them —, every other scoped buffer no window stages, and the generator register at some state. -/
def Phi0 (c : Dev nD) : (n : ℕ) → n ≤ cfg0.N → sProp 𝕄
  | 0, _ => iprop((∃ d, owns (c : Thread nD τ) scM0_0 fullShare d) ∗ (∃ d, owns (c : Thread nD τ) scM0_1 fullShare d)
      ∗ Pipeline.scopedRestBut (Ix := Unit) (Name := ℕ) (U := UR sig nD τ) (Lvl := ℕ) (Val := Elt F) spec0 c [cc0_scratch0, cc0_scratch1] ∗ (∃ r, prngReg c r))
  | n + 1, hn => iprop(owns (c : Thread nD τ) scM0_0 fullShare (accSum0 V c n hn) ∗ owns (c : Thread nD τ) scM0_1 fullShare (accSq0 V c n hn)
      ∗ Pipeline.scopedRestBut (Ix := Unit) (Name := ℕ) (U := UR sig nD τ) (Lvl := ℕ) (Val := Elt F) spec0 c [cc0_scratch0, cc0_scratch1] ∗ (∃ r, prngReg c r))

theorem Phi0_zero (c : Dev nD) (n : ℕ) (h : n ≤ cfg0.N) (hz : n = 0) :
    Phi0 V c n h = iprop((∃ d, owns (c : Thread nD τ) scM0_0 fullShare d) ∗ (∃ d, owns (c : Thread nD τ) scM0_1 fullShare d)
      ∗ Pipeline.scopedRestBut (Ix := Unit) (Name := ℕ) (U := UR sig nD τ) (Lvl := ℕ) (Val := Elt F) spec0 c [cc0_scratch0, cc0_scratch1] ∗ (∃ r, prngReg c r)) := by
  subst hz; rfl

theorem Phi0_succ (c : Dev nD) (n : ℕ) (hn : n < cfg0.N) :
    Phi0 V c (n + 1) hn = iprop(owns (c : Thread nD τ) scM0_0 fullShare (accSum0 V c n hn) ∗ owns (c : Thread nD τ) scM0_1 fullShare (accSq0 V c n hn)
      ∗ Pipeline.scopedRestBut (Ix := Unit) (Name := ℕ) (U := UR sig nD τ) (Lvl := ℕ) (Val := Elt F) spec0 c [cc0_scratch0, cc0_scratch1] ∗ (∃ r, prngReg c r)) := rfl

theorem Phi0_pos (c : Dev nD) (n : ℕ) (h : n ≤ cfg0.N) (hz : n ≠ 0) :
    Phi0 V c n h = iprop(owns (c : Thread nD τ) scM0_0 fullShare (accSum0 V c (n - 1) (by omega)) ∗ owns (c : Thread nD τ) scM0_1 fullShare (accSq0 V c (n - 1) (by omega))
      ∗ Pipeline.scopedRestBut (Ix := Unit) (Name := ℕ) (U := UR sig nD τ) (Lvl := ℕ) (Val := Elt F) spec0 c [cc0_scratch0, cc0_scratch1] ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block, the product's at the product of the blocks, the two `[1, N]` outputs' at the
    accumulators' contents after `t` (consulted at the last point only: elsewhere they are idle); the invariant
    `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 1 t) (iblk0 V c 0 t)
    | ⟨3, _⟩ => accSum0 V c t.val t.isLt
    | ⟨4, _⟩ => accSq0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 1 t) (iblk0 V c 0 t) := by dsimp only [dat0]
theorem after0_3 (c : Dev nD) (t : Fin cfg0.N) : (dat0 V c).after 3 t = accSum0 V c t.val t.isLt := by dsimp only [dat0]
theorem after0_4 (c : Dev nD) (t : Fin cfg0.N) : (dat0 V c).after 4 t = accSq0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
/-- The body at any point: the closed forms of the two conditions say which case the point is in; the inputs' memrefs
    hold their blocks; the invariant hands the body the accumulators (at anything at the first point, else at what the
    point before left) and takes them back at this point's contents; off the last point the two `[1, N]` outputs'
    buffers are handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  have hN : t.val < 32 := lt_of_lt_of_eq t.isLt (show cfg0.N = 32 from N_0)
  have hN' : cfg0.N = 32 := N_0
  by_cases h0 : t.val = 0
  · by_cases h1 : t.val + 1 = cfg0.N
    · exfalso; omega
    · have hc0 : cond0_0 (grid0.coords t) := (hcond0_0 t).mpr h0
      have hc1 : ¬cond0_1 (grid0.coords t) := fun h => h1 ((hcond0_1 t).mp h)
      rw [Dat.leavesExact_idle (dat0 V c) 3 t (idleAt0_3 t hc1) (noFlush0_3 t hc1)]
      rw [Dat.leavesExact_idle (dat0 V c) 4 t (idleAt0_4 t hc1) (noFlush0_4 t hc1)]
      rw [accSum0_zero V c t h0, accSq0_zero V c t h0]
      rw [Phi0_castSucc V c t, Phi0_zero V c _ _ h0]
      iintro ⟨⟨HS0, HS1, HR, Hg⟩, Ho, ⟨%d0, H0⟩, ⟨%d1, H1⟩, ⟨%d2, H2⟩, ⟨%d3, H3⟩, ⟨%d4, H4⟩⟩
      iapply (run0_A c (grid0.coords t) _ _ _ _ _ _ _ _ _ _ _ _ _ _ hc0 hc1 (iblk0 V c 0 t) (iblk0 V c 1 t) _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4
  · by_cases h1 : t.val + 1 = cfg0.N
    · have hc0 : ¬cond0_0 (grid0.coords t) := fun h => h0 ((hcond0_0 t).mp h)
      have hc1 : cond0_1 (grid0.coords t) := (hcond0_1 t).mpr h1
      rw [show (dat0 V c).leavesExact 3 t = owns (c : Thread nD τ) (st0_3 t) fullShare ((dat0 V c).after 3 t) from by
        unfold Dat.leavesExact; rw [liveAt0_3 t hc1], after0_3]
      rw [show (dat0 V c).leavesExact 4 t = owns (c : Thread nD τ) (st0_4 t) fullShare ((dat0 V c).after 4 t) from by
        unfold Dat.leavesExact; rw [liveAt0_4 t hc1], after0_4]
      rw [accSum0_pos V c t h0, accSq0_pos V c t h0]
      rw [Phi0_castSucc V c t, Phi0_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run0_C c (grid0.coords t) _ _ _ _ _ _ _ _ _ _ _ _ _ _ hc0 hc1 (iblk0 V c 0 t) (iblk0 V c 1 t) _ _ Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 3 t (idleAt0_3 t hc1) (noFlush0_3 t hc1)]
      rw [Dat.leavesExact_idle (dat0 V c) 4 t (idleAt0_4 t hc1) (noFlush0_4 t hc1)]
      rw [accSum0_pos V c t h0, accSq0_pos V c t h0]
      rw [Phi0_castSucc V c t, Phi0_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run0_B c (grid0.coords t) _ _ _ _ _ _ _ _ _ _ _ _ _ _ hc0 hc1 (iblk0 V c 0 t) (iblk0 V c 1 t) _ _ _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the invariant -/

/-- The generator register and the scoped buffers no window stages make the invariant before the first point: the two
    accumulators are among those buffers, each whole at some contents. -/
theorem hin0 (c : Dev nD) : iprop((∃ r, prngReg c r) ∗ Pipeline.scopedRest (Ix := Unit) (Name := ℕ) (U := UR sig nD τ) (Lvl := ℕ) (Val := Elt F) spec0 c) ⊢ (dat0 V c).Φ 0 := by
  rw [show (dat0 V c).Φ 0 = Phi0 V c 0 (Nat.zero_le _) from rfl, Phi0_zero V c 0 _ rfl, scopedRest0_split]
  simp only [scM0_0, scM0_1, owns_whole]
  iintro ⟨Hg, ⟨HS0, HS1⟩, HR⟩
  isplitl [HS0]; · iexact HS0
  isplitl [HS1]; · iexact HS1
  isplitl [HR]; · iexact HR
  iexact Hg

/-- After the last point the invariant gives them back, the accumulators' named contents forgotten. -/
theorem hout0 (c : Dev nD) : (dat0 V c).Φ (Fin.last cfg0.N) ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), scopedRest0_split]
  simp only [scM0_0, scM0_1, owns_whole]
  iintro ⟨HS0, HS1, HR, Hg⟩
  isplitl [Hg]; · iexact Hg
  isplitl [HS0 HS1]
  · isplitl [HS0]; · iexists _; iexact HS0
    iexists _; iexact HS1
  iexact HR

end Cert.KernelIdeal.Hand

end
-- ==== Proof.Seg0.lean ====
/-
  Region 0 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.RunRegs
import proofs.«117354_j7189775254092_1_alg».proof.Proof.Region0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 0 is entered from, read at the TensorCore's references. -/
abbrev Vin0 : (c : Dev nD) → (b : Ref sig .tc) → Buf (Elt F) ((c : Thread nD τ).loc b) := fun c b => V1 m c b
/-- The buffer contents region 0 is left at, read at the TensorCore's references. -/
abbrev Vout0 : (c : Dev nD) → (b : Ref sig .tc) → Buf (Elt F) ((c : Thread nD τ).loc b) := fun c b => V2 m outs c b

/-- What `outs` must hold for region 0: each output array at what the pipeline's write-backs leave. -/
def OutsOk0 : Prop := ∀ c : Dev nD, (outs 2 main_v1_0 c = (dat0 (Vin0 m) c).arrAt 2 cfg0.N) ∧ (outs 2 main_v1_1 c = (dat0 (Vin0 m) c).arrAt 3 cfg0.N) ∧ (outs 2 main_v1_2 c = (dat0 (Vin0 m) c).arrAt 4 cfg0.N)

/-- The valuation after the region holds `outs`' value at `main_v1_0`. -/
theorem Vafter_at_0_2 (c : Dev nD) : Vout0 m outs c main_v1_0 = outs 2 main_v1_0 c := by
  show V2 m outs c (Proc.devRef .tc main_v1_0) = _
  simp only [V2, Function.update_of_ne (StableHlo.devRef_ne_of_ne (by decide) : (Proc.devRef .tc main_v1_0 : DevRef τ sig) ≠ Proc.devRef .tc main_v1_2), Function.update_of_ne (StableHlo.devRef_ne_of_ne (by decide) : (Proc.devRef .tc main_v1_0 : DevRef τ sig) ≠ Proc.devRef .tc main_v1_1), Function.update_self]
/-- The valuation after the region holds `outs`' value at `main_v1_1`. -/
theorem Vafter_at_0_3 (c : Dev nD) : Vout0 m outs c main_v1_1 = outs 2 main_v1_1 c := by
  show V2 m outs c (Proc.devRef .tc main_v1_1) = _
  simp only [V2, Function.update_of_ne (StableHlo.devRef_ne_of_ne (by decide) : (Proc.devRef .tc main_v1_1 : DevRef τ sig) ≠ Proc.devRef .tc main_v1_2), Function.update_self]
/-- The valuation after the region holds `outs`' value at `main_v1_2`. -/
theorem Vafter_at_0_4 (c : Dev nD) : Vout0 m outs c main_v1_2 = outs 2 main_v1_2 c := by
  show V2 m outs c (Proc.devRef .tc main_v1_2) = _
  simp only [V2, Function.update_self]

variable {m outs}

/-- At the region's exit each of its arrays holds what the pipeline leaves. -/
theorem hF0 (ho : OutsOk0 m outs) (c : Dev nD) (w : Fin cfg0.W) :
    (dat0 (Vin0 m) c).arrAt w cfg0.N = Vout0 m outs c (Pipeline.arrRef spec0 w) := by
  match w with
  | ⟨0, _⟩ => exact ((dat0 (Vin0 m) c).arrAt_in ⟨0, by decide⟩ rfl cfg0.N).trans ((A_eq0 (Vin0 m) c ⟨0, by decide⟩).trans (V2_of m outs c _ (by decide)).symm)
  | ⟨1, _⟩ => exact ((dat0 (Vin0 m) c).arrAt_in ⟨1, by decide⟩ rfl cfg0.N).trans ((A_eq0 (Vin0 m) c ⟨1, by decide⟩).trans (V2_of m outs c _ (by decide)).symm)
  | ⟨2, _⟩ => exact (((ho c).1).symm.trans (Vafter_at_0_2 m outs c).symm : _ = Vout0 m outs c main_v1_0)
  | ⟨3, _⟩ => exact (((ho c).2.1).symm.trans (Vafter_at_0_3 m outs c).symm : _ = Vout0 m outs c main_v1_1)
  | ⟨4, _⟩ => exact (((ho c).2.2).symm.trans (Vafter_at_0_4 m outs c).symm : _ = Vout0 m outs c main_v1_2)

/-- Every other buffer is left as entered. -/
theorem hrest0 (c : Dev nD) : ∀ b, b ∉ Finset.univ.image (Pipeline.arrRef spec0) → Vout0 m outs c b = Vin0 m c b :=
  fun b hb => V2_of m outs c b (fun h => hb (by
    simp only [List.mem_cons, List.mem_nil_iff, _root_.or_false] at h
    rcases h with rfl | rfl | rfl
    · exact Finset.mem_image.mpr ⟨⟨2, by decide⟩, Finset.mem_univ _, rfl⟩
    · exact Finset.mem_image.mpr ⟨⟨3, by decide⟩, Finset.mem_univ _, rfl⟩
    · exact Finset.mem_image.mpr ⟨⟨4, by decide⟩, Finset.mem_univ _, rfl⟩))

set_option backward.isDefEq.respectTransparency.types false in
/-- Region 0 as a segment, for any family of proof data whose component here is `dat0` at the entry contents. -/
def seg0 (pdats : (p : Fin 8) → (c : Dev nD) → Dat τ (Elt F) Unit ℕ (UR sig nD τ) ℕ (cfgs p) c)
    (hp : ∀ c, pdats 0 c = dat0 (Vin0 m) c) (ho : OutsOk0 m outs) :
    RegionSeg (pcfgs (F := F)) adm pdats () defs₀ Variants.none L0 lv0 0 where
  win := launch0.win.to₀
  block_pos := launch0.block_pos
  stage_whole := launch0.stage_whole
  K := PEmpty
  osem k := k.elim
  ho := Pipeline.OwnSemFacts.none _
  hbody c := by rw [hp c]; exact (body_obligation0 (Vin0 m) c).loose
  hwaits := Pipeline.hwaits_of_owed_zero _ _ _ _ L0 lv0 0 fun c t => by rw [hp c]; rfl
  pre c := iprop(StableHlo.held (c : Thread nD τ) (Pipeline.ucRefs τ sig) (V1 m c) ∗ Rest (F := F) c)
  post c := iprop(StableHlo.held (c : Thread nD τ) (Pipeline.ucRefs τ sig) (V2 m outs c) ∗ Rest (F := F) c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm pdats launch0.win launch0.arr_whole c
      ((pdats 0 c).share_full fun _ => by rw [hp c]; rfl) (Vin0 m c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    iintro ⟨Hp, -, Hr⟩
    iapply (hin0 (Vin0 m) c)
    isplitl [Hp]; · iexact Hp
    iexact Hr
  hout c := by
    rw [Pipeline.ownSems0_none, hp c]
    iintro H
    ihave H' := (hout0 (Vin0 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats ((pdats 0 c).share_full fun _ => by rw [hp c]; rfl)
      (Vin0 m c) (Vout0 m outs c) ((pdats 0 c).arrAt · cfg0.N) (by rw [hp c]; exact hF0 ho c) (hrest0 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Region1.lean ====
/- The body half of region 1 of @main (custom_call 1, `cc1_kernel`, pipeline 1), at ANY float instance `F` and at a
   PARAMETER `V` — the TensorCore's buffer contents when the region is entered.

   The body is pointwise: it loads the tile of window 0 and the two row vectors of windows 1 and 2, computes a payload
   (`k1_pay1`: the tile times the first row plus the second row, each row broadcast down the tile; then rounded,
   clamped and cast), and stores it over the whole staging buffer of window 3. So what the body leaves in the output
   buffer is a closed function of the three input blocks at the point (`out1_3`), and what it finds in each input buffer
   is that window's block at the point, fetched there or not: windows 1 and 2 are fetched at the first point only, and at
   every later point their block index has not moved, so the buffer still holds the same block.

   Delivered: the blocks `iblk1`, the input-side lemmas `before1_W_of`, the output buffer's contents `out1_3` and its
   cover `cover1_3`, the body's triple `sound_kernel1`, the proof data `dat1`, and the body obligation
   `body_obligation1`. -/
import proofs.«117354_j7189775254092_1_alg».proof.Proof.Gen.KernelIdeal.Launch
import proofs.«117354_j7189775254092_1_alg».proof.Proof.Gen.KernelIdeal.Skeleton
import proofs.«117354_j7189775254092_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is `V`'s
    (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: it is fetched at the
    first point only, and where it is not fetched its block index has not moved, so the buffer still holds the
    previous point's block, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (as window 1's). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole tile: what the body loads of window 0's buffer and stores over window 3's. -/
abbrev r1_0 : Rect S256x2048 := Rect.unit (s := S256x2048) ![0, 0] S256x2048.size inb_S256x2048_S256x2048_0_0
/-- The whole row vector: what the body loads of window 1's and of window 2's buffer. -/
abbrev r1_1 : Rect S1x2048 := Rect.unit (s := S1x2048) ![0, 0] S1x2048.size inb_S1x2048_S1x2048_0_0

/-! ## What the body leaves in the output window's buffer -/

/-- Window 3's staging buffer after the body, from the input windows' blocks: its one store as a piece, the payload
    the skeleton's over what the three loads read. -/
def out1_3 (x0 : Vec F S256x2048 .f32) (x1 : Vec F S1x2048 .f32) (x2 : Vec F S1x2048 .f32) : Vec F S256x2048 .bf16 :=
  View.canon [⟨r1_0, k1_pay1 (View.ld x0 r1_0) (View.ld x1 r1_1) (View.ld x2 r1_1)⟩]

/-- The store is over the whole buffer, so it covers it (one block, checked by evaluation). -/
theorem cover1_3 (p0 : Vec F S256x2048 .bf16) (y : S256x2048.Idx) :
    ∃ pc ∈ ([⟨r1_0, p0⟩] : List (View.Piece (Elt F) S256x2048 .bf16)), y ∈ pc.1.set :=
  View.cover_of_tiled [⟨r1_0, p0⟩] S256x2048.size (by rfl) y

/-! ## The body's triple -/

set_option maxHeartbeats 1000000 in
/-- The kernel body on whole staging memrefs, the inputs' at read contents `xW` and the output's at anything, runs to
    the continuation holding the inputs' as they were and the output's at `out1_3` of the inputs'. The body also loads
    the output buffer before it stores over all of it; the value loaded is not used, so the buffer's prior contents do
    not matter. -/
theorem sound_kernel1 (c : Dev nD) (E : Set ℕ) (i : grid1.Coords) (arg1 : Memref sig .tc .vmem S256x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S256x2048 .bf16) (harg4 : arg4.IsWhole)
    (x0 : Vec F S256x2048 .f32) (x1 : Vec F S1x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
-- ==== Proof.Seg1.lean ====
/-
  Region 1 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.RunRegs
import proofs.«117354_j7189775254092_1_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 1 is entered from, read at the TensorCore's references. -/
abbrev Vin1 : (c : Dev nD) → (b : Ref sig .tc) → Buf (Elt F) ((c : Thread nD τ).loc b) := fun c b => V3 m outs c b
/-- The buffer contents region 1 is left at, read at the TensorCore's references. -/
abbrev Vout1 : (c : Dev nD) → (b : Ref sig .tc) → Buf (Elt F) ((c : Thread nD τ).loc b) := fun c b => V4 m outs c b

/-- What `outs` must hold for region 1: each output array at what the pipeline's write-backs leave. -/
def OutsOk1 : Prop := ∀ c : Dev nD, (outs 4 main_v16 c = (dat1 (Vin1 m outs) c).arrAt 3 cfg1.N)

/-- The valuation after the region holds `outs`' value at `main_v16`. -/
theorem Vafter_at_1_3 (c : Dev nD) : Vout1 m outs c main_v16 = outs 4 main_v16 c := by
  show V4 m outs c (Proc.devRef .tc main_v16) = _
  simp only [V4, Function.update_self]

variable {m outs}

/-- At the region's exit each of its arrays holds what the pipeline leaves. -/
theorem hF1 (ho : OutsOk1 m outs) (c : Dev nD) (w : Fin cfg1.W) :
    (dat1 (Vin1 m outs) c).arrAt w cfg1.N = Vout1 m outs c (Pipeline.arrRef spec1 w) := by
  match w with
  | ⟨0, _⟩ => exact ((dat1 (Vin1 m outs) c).arrAt_in ⟨0, by decide⟩ rfl cfg1.N).trans ((A_eq1 (Vin1 m outs) c ⟨0, by decide⟩).trans (V4_of m outs c _ (by decide)).symm)
  | ⟨1, _⟩ => exact ((dat1 (Vin1 m outs) c).arrAt_in ⟨1, by decide⟩ rfl cfg1.N).trans ((A_eq1 (Vin1 m outs) c ⟨1, by decide⟩).trans (V4_of m outs c _ (by decide)).symm)
  | ⟨2, _⟩ => exact ((dat1 (Vin1 m outs) c).arrAt_in ⟨2, by decide⟩ rfl cfg1.N).trans ((A_eq1 (Vin1 m outs) c ⟨2, by decide⟩).trans (V4_of m outs c _ (by decide)).symm)
  | ⟨3, _⟩ => exact (((ho c)).symm.trans (Vafter_at_1_3 m outs c).symm : _ = Vout1 m outs c main_v16)

/-- Every other buffer is left as entered. -/
theorem hrest1 (c : Dev nD) : ∀ b, b ∉ Finset.univ.image (Pipeline.arrRef spec1) → Vout1 m outs c b = Vin1 m outs c b :=
  fun b hb => V4_of m outs c b (fun h => hb (by
    simp only [List.mem_cons, List.mem_nil_iff, _root_.or_false] at h
    subst h
    exact Finset.mem_image.mpr ⟨⟨3, by decide⟩, Finset.mem_univ _, rfl⟩))

set_option backward.isDefEq.respectTransparency.types false in
/-- Region 1 as a segment, for any family of proof data whose component here is `dat1` at the entry contents. -/
def seg1 (pdats : (p : Fin 8) → (c : Dev nD) → Dat τ (Elt F) Unit ℕ (UR sig nD τ) ℕ (cfgs p) c)
    (hp : ∀ c, pdats 1 c = dat1 (Vin1 m outs) c) (ho : OutsOk1 m outs) :
    RegionSeg (pcfgs (F := F)) adm pdats () defs₀ Variants.none L0 lv0 1 where
  win := launch1.win.to₀
  block_pos := launch1.block_pos
  stage_whole := launch1.stage_whole
  K := PEmpty
  osem k := k.elim
  ho := Pipeline.OwnSemFacts.none _
  hbody c := by rw [hp c]; exact (body_obligation1 (Vin1 m outs) c).loose
  hwaits := Pipeline.hwaits_of_owed_zero _ _ _ _ L0 lv0 1 fun c t => by rw [hp c]; rfl
  pre c := iprop(StableHlo.held (c : Thread nD τ) (Pipeline.ucRefs τ sig) (V3 m outs c) ∗ Rest (F := F) c)
  post c := iprop(StableHlo.held (c : Thread nD τ) (Pipeline.ucRefs τ sig) (V4 m outs c) ∗ Rest (F := F) c)
  X c := iprop(∃ r, prngReg c r)
  Y c := iprop(∃ r, prngReg c r)
  Z c := Pipeline.unscopedRest (Ix := Unit) (Name := ℕ) (U := UR sig nD τ) (Lvl := ℕ) spec1 c (Vin1 m outs c)
  hentry c := by
    rw [Pipeline.ownSems0_none]
    have hsplit := Pipeline.arrays_of_unscopedBufs (p := 1) (pcfgs (F := F)) adm pdats launch1.win launch1.arr_whole c
      ((pdats 1 c).share_full fun _ => by rw [hp c]; rfl) (Vin1 m outs c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    show iprop((∃ r, prngReg c r) ∗ Pipeline.prefHeld (pcfgs (F := F) 1).pre c (fun _ => fullShare) ((adm (F := F) 1).1) ∗ Pipeline.scopedRest (Ix := Unit) (Name := ℕ) (U := UR sig nD τ) (Lvl := ℕ) (Val := Elt F) spec1 c) ⊢ (Pipeline.ΦA spec1 c : sProp 𝕄)
    unfold Pipeline.ΦA
    iintro ⟨Hp, -, Hr⟩
    isplitl [Hr]; · iexact Hr
    iexact Hp
  hout c := by
    rw [Pipeline.ownSems0_none, hp c]
    show (Pipeline.ΦA spec1 c : sProp 𝕄) ⊢ iprop((∃ r, prngReg c r) ∗ emp ∗ Pipeline.scopedRest (Ix := Unit) (Name := ℕ) (U := UR sig nD τ) (Lvl := ℕ) (Val := Elt F) spec1 c)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats ((pdats 1 c).share_full fun _ => by rw [hp c]; rfl)
      (Vin1 m outs c) (Vout1 m outs c) ((pdats 1 c).arrAt · cfg1.N) (by rw [hp c]; exact hF1 ho c) (hrest1 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Region2Runs.lean ====
import proofs.«117354_j7189775254092_1_alg».proof.Proof.Gen.KernelIdeal.Launch
import proofs.«117354_j7189775254092_1_alg».proof.Proof.Gen.KernelIdeal.Skeleton
import proofs.«117354_j7189775254092_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 2, `cc2__matmul_stats_kernel`): the body's conditions over the grid and its three runs

The body zeroes the two accumulators under its first condition (the first grid point), adds the tile's column sums
and column sums of squares to them at every point, and under its second condition (the last grid point) copies them
to the two `[1, N]` outputs. Three control cases meet the grid: A (first point), B (the points between), C (last). -/

/-- The zero offsets of a rank-two rectangle, as a constant function. -/
theorem hzero2 : (![0, 0] : Fin 2 → Nat) = fun _ => 0 := funext fun a => by fin_cases a <;> rfl

section Whole

variable {Val : EltTy → Type} [∀ e, Nonempty (Val e)] {sg : RefSig} {κ : Kind} {sp : Space} {S : Shape} {e : EltTy}

/-- A store through the whole-shape rectangle, last, leaves its payload in the buffer whatever was stored before. -/
theorem read_writes_cons_whole2 (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through the whole-shape rectangle reads the buffer's contents. -/
theorem readAt_whole2 (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end Whole

/-! ## The body's two conditions -/

/-- The first condition (`program_id == 0`), from the grid coordinates. -/
abbrev cond2_0 (i : grid2.Coords) : Prop := (Scalar.cmpi .ne (Scalar.extui (Scalar.cmpi .eq (BitVec.ofNat 32 (i 0).val) 0#32)) 0#32) = 1#1
/-- The second condition (`program_id == num_programs - 1`), from the grid coordinates. -/
abbrev cond2_1 (i : grid2.Coords) : Prop := k2_cond2 i = 1#1

/-- The first condition holds at the first point only. -/
theorem hcond2_0 : ∀ t : Fin cfg2.N, cond2_0 (grid2.coords t) ↔ t.val = 0 :=
  (by decide +kernel : ∀ t : Fin grid2.N, cond2_0 (grid2.coords t) ↔ t.val = 0)
/-- The second condition holds at the last point only. -/
theorem hcond2_1 : ∀ t : Fin cfg2.N, cond2_1 (grid2.coords t) ↔ t.val + 1 = cfg2.N :=
  (by decide +kernel : ∀ t : Fin grid2.N, cond2_1 (grid2.coords t) ↔ t.val + 1 = grid2.N)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Off the last point the two `[1, N]` outputs are idle (nothing is stored into them) and are not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last point they are live. -/
theorem liveAt2_3 : ∀ t : Fin cfg2.N, cond2_1 (grid2.coords t) → cfg2.idle 3 (grid2.coords t) = false := by decide +kernel
theorem liveAt2_4 : ∀ t : Fin cfg2.N, cond2_1 (grid2.coords t) → cfg2.idle 4 (grid2.coords t) = false := by decide +kernel

/-! ## The scratch operands -/

/-- The two accumulators: whole scoped buffers of the kernel's own, passed beside the windows. -/
abbrev scM2_0 : Memref sig .tc .vmem S1x2048 .f32 := Memref.whole cc2_scratch0
abbrev scM2_1 : Memref sig .tc .vmem S1x2048 .f32 := Memref.whole cc2_scratch1

/-! ## The three runs of the body

On whole memrefs: the two inputs at contents `x0` (the row tile) and `x1` (the weights) are left as they were; the
product's output holds the product `k2_pay1 x1 x0`; the accumulators hold `k2_pay4 x1 x0 s` and `k2_pay5 x1 x0 s'`,
where `s`, `s'` are what they held when the sums were added (zeros at the first point, else what the point before
left); the two `[1, N]` outputs are untouched off the last point and hold the accumulators' new contents at it. -/

set_option maxHeartbeats 1000000 in
/-- Case A, the first point: the accumulators are zeroed, then added to. -/
theorem run2_A (c : Dev nD) (i : grid2.Coords) (arg1 : Memref sig .tc .vmem S256x2048 .bf16) (harg1 : arg1.IsWhole) (arg2 : Memref sig .tc .vmem S2048x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : cond2_0 i) (hc1 : ¬cond2_1 i)
    (x0 : Vec F S256x2048 .bf16) (x1 : Vec F S2048x2048 .f32) (xi3 xi4 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k2_pay1 x1 x0)
            ∗ owns (c : Thread nD τ) arg4 fullShare xi3 ∗ owns (c : Thread nD τ) arg5 fullShare xi4
            ∗ owns (c : Thread nD τ) arg6 fullShare (k2_pay4 x1 x0 (k2_pay2 (F := F))) ∗ owns (c : Thread nD τ) arg7 fullShare (k2_pay5 x1 x0 (k2_pay3 (F := F)))) -∗ K ⟨⟩))
      ⊢ wp frame (wpE (defs₀ (F := F)) Variants.none c none) E (cc2__matmul_stats_kernel i arg1 harg1 arg2 harg2 arg3 harg3 arg4 harg4 arg5 harg5 arg6 harg6 arg7 harg7) K := by
  simp only [cc2__matmul_stats_kernel_eq_skeleton]; unfold cc2__matmul_stats_kernel_skel
  simp only [k2_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
  subst hf1; subst hf2; subst hf4; subst hf5
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole2 _ _ hzero2, readAt_whole2 _ _ hzero2, readAt_whole2 _ _ hzero2]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole2 _ _ hzero2, readAt_whole2 _ _ hzero2, readAt_whole2 _ _ hzero2, View.readCov_cons_toLoadRect]
  · iexists _; isplitr
    swap; · iexact H7
    ipureintro
    sl_unfold_run_names
    rw [read_writes_cons_whole2 _ _ hzero2, readAt_whole2 _ _ hzero2, readAt_whole2 _ _ hzero2, View.readCov_cons_toLoadRect]

set_option maxHeartbeats 1000000 in
/-- Case B, a point between the first and the last: the accumulators, at what the point before left, are added to. -/
theorem run2_B (c : Dev nD) (i : grid2.Coords) (arg1 : Memref sig .tc .vmem S256x2048 .bf16) (harg1 : arg1.IsWhole) (arg2 : Memref sig .tc .vmem S2048x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond2_0 i) (hc1 : ¬cond2_1 i)
    (x0 : Vec F S256x2048 .bf16) (x1 : Vec F S2048x2048 .f32) (xi3 xi4 xs0 xs1 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k2_pay1 x1 x0)
            ∗ owns (c : Thread nD τ) arg4 fullShare xi3 ∗ owns (c : Thread nD τ) arg5 fullShare xi4
            ∗ owns (c : Thread nD τ) arg6 fullShare (k2_pay4 x1 x0 xs0) ∗ owns (c : Thread nD τ) arg7 fullShare (k2_pay5 x1 x0 xs1)) -∗ K ⟨⟩))
      ⊢ wp frame (wpE (defs₀ (F := F)) Variants.none c none) E (cc2__matmul_stats_kernel i arg1 harg1 arg2 harg2 arg3 harg3 arg4 harg4 arg5 harg5 arg6 harg6 arg7 harg7) K := by
  simp only [cc2__matmul_stats_kernel_eq_skeleton]; unfold cc2__matmul_stats_kernel_skel
  simp only [k2_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  subst hf1; subst hf2; subst hf4; subst hf5; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole2 _ _ hzero2, readAt_whole2 _ _ hzero2, readAt_whole2 _ _ hzero2]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole2 _ _ hzero2, readAt_whole2 _ _ hzero2, readAt_whole2 _ _ hzero2, readAt_whole2 _ _ hzero2]
  · iexists _; isplitr
    swap; · iexact H7
    ipureintro
    sl_unfold_run_names
    rw [read_writes_cons_whole2 _ _ hzero2, readAt_whole2 _ _ hzero2, readAt_whole2 _ _ hzero2, readAt_whole2 _ _ hzero2]

set_option maxHeartbeats 1000000 in
/-- Case C, the last point: the accumulators are added to, then copied to the two `[1, N]` outputs. -/
theorem run2_C (c : Dev nD) (i : grid2.Coords) (arg1 : Memref sig .tc .vmem S256x2048 .bf16) (harg1 : arg1.IsWhole) (arg2 : Memref sig .tc .vmem S2048x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond2_0 i) (hc1 : cond2_1 i)
    (x0 : Vec F S256x2048 .bf16) (x1 : Vec F S2048x2048 .f32) (xs0 xs1 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k2_pay1 x1 x0)
            ∗ owns (c : Thread nD τ) arg4 fullShare (k2_pay4 x1 x0 xs0) ∗ owns (c : Thread nD τ) arg5 fullShare (k2_pay5 x1 x0 xs1)
            ∗ owns (c : Thread nD τ) arg6 fullShare (k2_pay4 x1 x0 xs0) ∗ owns (c : Thread nD τ) arg7 fullShare (k2_pay5 x1 x0 xs1)) -∗ K ⟨⟩))
      ⊢ wp frame (wpE (defs₀ (F := F)) Variants.none c none) E (cc2__matmul_stats_kernel i arg1 harg1 arg2 harg2 arg3 harg3 arg4 harg4 arg5 harg5 arg6 harg6 arg7 harg7) K := by
  simp only [cc2__matmul_stats_kernel_eq_skeleton]; unfold cc2__matmul_stats_kernel_skel
  simp only [k2_part1_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  subst hf1; subst hf2; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole2 _ _ hzero2, readAt_whole2 _ _ hzero2, readAt_whole2 _ _ hzero2]
  isplitl [H4]
  · iexists _; isplitr
    swap; · iexact H4
    ipureintro
    sl_unfold_run_names
    rw [read_writes_cons_whole2 _ _ hzero2, View.readCov_cons_toLoadRect, readAt_whole2 _ _ hzero2, readAt_whole2 _ _ hzero2, readAt_whole2 _ _ hzero2]
  isplitl [H5]
  · iexists _; isplitr
    swap; · iexact H5
    ipureintro
    sl_unfold_run_names
    rw [read_writes_cons_whole2 _ _ hzero2, View.readCov_cons_toLoadRect, readAt_whole2 _ _ hzero2, readAt_whole2 _ _ hzero2, readAt_whole2 _ _ hzero2]
  isplitl [H6]
  · iexists _; isplitr
    swap; · iexact H6
    ipureintro
    sl_unfold_run_names
    rw [read_writes_cons_whole2 _ _ hzero2, readAt_whole2 _ _ hzero2, readAt_whole2 _ _ hzero2, readAt_whole2 _ _ hzero2]
  · iexists _; isplitr
    swap; · iexact H7
    ipureintro
    sl_unfold_run_names
    rw [read_writes_cons_whole2 _ _ hzero2, readAt_whole2 _ _ hzero2, readAt_whole2 _ _ hzero2, readAt_whole2 _ _ hzero2]

end Cert.KernelIdeal.Hand

end
-- ==== Proof.Region2.lean ====
import proofs.«117354_j7189775254092_1_alg».proof.Proof.Region2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 2, `cc2__matmul_stats_kernel`), at the entry contents `V`: proof data and body obligation

The tile's product is written back at every point; the two accumulators are carried between points in scratch, and
their contents after each point are stated by recursion on the point (`accSum2`, `accSq2`); the two `[1, N]` outputs
are stored (from the accumulators) and written back at the last point only. -/

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is `V`'s
    and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's (fetched at the first point only: its block index never moves) likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the accumulators hold after each point -/

/-- The column-sum accumulator after point `n`: at the first point the zero row plus the tile's column sums, later
    what the point before left plus the tile's (`k2_pay4`: the body's own association). -/
def accSum2 (c : Dev nD) : (n : ℕ) → n < cfg2.N → Vec F S1x2048 .f32
  | 0, h => k2_pay4 (iblk2 V c 1 ⟨0, h⟩) (iblk2 V c 0 ⟨0, h⟩) (k2_pay2 (F := F))
  | n + 1, h => k2_pay4 (iblk2 V c 1 ⟨n + 1, h⟩) (iblk2 V c 0 ⟨n + 1, h⟩) (accSum2 c n (Nat.lt_of_succ_lt h))

/-- The accumulator of the column sums of squares after point `n`, likewise (`k2_pay5`). -/
def accSq2 (c : Dev nD) : (n : ℕ) → n < cfg2.N → Vec F S1x2048 .f32
  | 0, h => k2_pay5 (iblk2 V c 1 ⟨0, h⟩) (iblk2 V c 0 ⟨0, h⟩) (k2_pay3 (F := F))
  | n + 1, h => k2_pay5 (iblk2 V c 1 ⟨n + 1, h⟩) (iblk2 V c 0 ⟨n + 1, h⟩) (accSq2 c n (Nat.lt_of_succ_lt h))

theorem accSum2_zero (c : Dev nD) (t : Fin cfg2.N) (h : t.val = 0) :
    accSum2 V c t.val t.isLt = k2_pay4 (iblk2 V c 1 t) (iblk2 V c 0 t) (k2_pay2 (F := F)) := by
  obtain ⟨n, hn⟩ := t
  cases n with
  | zero => rfl
  | succ n => exact absurd h (Nat.succ_ne_zero n)

theorem accSum2_pos (c : Dev nD) (t : Fin cfg2.N) (h : t.val ≠ 0) :
    accSum2 V c t.val t.isLt = k2_pay4 (iblk2 V c 1 t) (iblk2 V c 0 t) (accSum2 V c (t.val - 1) (Nat.lt_of_le_of_lt (Nat.sub_le _ _) t.isLt)) := by
  obtain ⟨n, hn⟩ := t
  cases n with
  | zero => exact absurd rfl h
  | succ n => rfl

theorem accSq2_zero (c : Dev nD) (t : Fin cfg2.N) (h : t.val = 0) :
    accSq2 V c t.val t.isLt = k2_pay5 (iblk2 V c 1 t) (iblk2 V c 0 t) (k2_pay3 (F := F)) := by
  obtain ⟨n, hn⟩ := t
  cases n with
  | zero => rfl
  | succ n => exact absurd h (Nat.succ_ne_zero n)

theorem accSq2_pos (c : Dev nD) (t : Fin cfg2.N) (h : t.val ≠ 0) :
    accSq2 V c t.val t.isLt = k2_pay5 (iblk2 V c 1 t) (iblk2 V c 0 t) (accSq2 V c (t.val - 1) (Nat.lt_of_le_of_lt (Nat.sub_le _ _) t.isLt)) := by
  obtain ⟨n, hn⟩ := t
  cases n with
  | zero => exact absurd rfl h
  | succ n => rfl

/-! ## The region's invariant -/

/-- Before position `n`: the two accumulators — at anything before the first point, afterwards at what the point
    before left in them —, every other scoped buffer no window stages, and the generator register at some state. -/
def Phi2 (c : Dev nD) : (n : ℕ) → n ≤ cfg2.N → sProp 𝕄
  | 0, _ => iprop((∃ d, owns (c : Thread nD τ) scM2_0 fullShare d) ∗ (∃ d, owns (c : Thread nD τ) scM2_1 fullShare d)
      ∗ Pipeline.scopedRestBut (Ix := Unit) (Name := ℕ) (U := UR sig nD τ) (Lvl := ℕ) (Val := Elt F) spec2 c [cc2_scratch0, cc2_scratch1] ∗ (∃ r, prngReg c r))
  | n + 1, hn => iprop(owns (c : Thread nD τ) scM2_0 fullShare (accSum2 V c n hn) ∗ owns (c : Thread nD τ) scM2_1 fullShare (accSq2 V c n hn)
      ∗ Pipeline.scopedRestBut (Ix := Unit) (Name := ℕ) (U := UR sig nD τ) (Lvl := ℕ) (Val := Elt F) spec2 c [cc2_scratch0, cc2_scratch1] ∗ (∃ r, prngReg c r))

theorem Phi2_zero (c : Dev nD) (n : ℕ) (h : n ≤ cfg2.N) (hz : n = 0) :
    Phi2 V c n h = iprop((∃ d, owns (c : Thread nD τ) scM2_0 fullShare d) ∗ (∃ d, owns (c : Thread nD τ) scM2_1 fullShare d)
      ∗ Pipeline.scopedRestBut (Ix := Unit) (Name := ℕ) (U := UR sig nD τ) (Lvl := ℕ) (Val := Elt F) spec2 c [cc2_scratch0, cc2_scratch1] ∗ (∃ r, prngReg c r)) := by
  subst hz; rfl

theorem Phi2_succ (c : Dev nD) (n : ℕ) (hn : n < cfg2.N) :
    Phi2 V c (n + 1) hn = iprop(owns (c : Thread nD τ) scM2_0 fullShare (accSum2 V c n hn) ∗ owns (c : Thread nD τ) scM2_1 fullShare (accSq2 V c n hn)
      ∗ Pipeline.scopedRestBut (Ix := Unit) (Name := ℕ) (U := UR sig nD τ) (Lvl := ℕ) (Val := Elt F) spec2 c [cc2_scratch0, cc2_scratch1] ∗ (∃ r, prngReg c r)) := rfl

theorem Phi2_pos (c : Dev nD) (n : ℕ) (h : n ≤ cfg2.N) (hz : n ≠ 0) :
    Phi2 V c n h = iprop(owns (c : Thread nD τ) scM2_0 fullShare (accSum2 V c (n - 1) (by omega)) ∗ owns (c : Thread nD τ) scM2_1 fullShare (accSq2 V c (n - 1) (by omega))
      ∗ Pipeline.scopedRestBut (Ix := Unit) (Name := ℕ) (U := UR sig nD τ) (Lvl := ℕ) (Val := Elt F) spec2 c [cc2_scratch0, cc2_scratch1] ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, the product's at the product of the blocks, the two `[1, N]` outputs' at the
    accumulators' contents after `t` (consulted at the last point only: elsewhere they are idle); the invariant
    `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 1 t) (iblk2 V c 0 t)
    | ⟨3, _⟩ => accSum2 V c t.val t.isLt
    | ⟨4, _⟩ => accSq2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay1 (iblk2 V c 1 t) (iblk2 V c 0 t) := by dsimp only [dat2]
theorem after2_3 (c : Dev nD) (t : Fin cfg2.N) : (dat2 V c).after 3 t = accSum2 V c t.val t.isLt := by dsimp only [dat2]
theorem after2_4 (c : Dev nD) (t : Fin cfg2.N) : (dat2 V c).after 4 t = accSq2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any point: the closed forms of the two conditions say which case the point is in; the inputs' memrefs
    hold their blocks; the invariant hands the body the accumulators (at anything at the first point, else at what the
    point before left) and takes them back at this point's contents; off the last point the two `[1, N]` outputs'
    buffers are handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 32 := lt_of_lt_of_eq t.isLt (show cfg2.N = 32 from N_2)
  have hN' : cfg2.N = 32 := N_2
  by_cases h0 : t.val = 0
  · by_cases h1 : t.val + 1 = cfg2.N
    · exfalso; omega
    · have hc0 : cond2_0 (grid2.coords t) := (hcond2_0 t).mpr h0
      have hc1 : ¬cond2_1 (grid2.coords t) := fun h => h1 ((hcond2_1 t).mp h)
      rw [Dat.leavesExact_idle (dat2 V c) 3 t (idleAt2_3 t hc1) (noFlush2_3 t hc1)]
      rw [Dat.leavesExact_idle (dat2 V c) 4 t (idleAt2_4 t hc1) (noFlush2_4 t hc1)]
      rw [accSum2_zero V c t h0, accSq2_zero V c t h0]
      rw [Phi2_castSucc V c t, Phi2_zero V c _ _ h0]
      iintro ⟨⟨HS0, HS1, HR, Hg⟩, Ho, ⟨%d0, H0⟩, ⟨%d1, H1⟩, ⟨%d2, H2⟩, ⟨%d3, H3⟩, ⟨%d4, H4⟩⟩
      iapply (run2_A c (grid2.coords t) _ _ _ _ _ _ _ _ _ _ _ _ _ _ hc0 hc1 (iblk2 V c 0 t) (iblk2 V c 1 t) _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4
  · by_cases h1 : t.val + 1 = cfg2.N
    · have hc0 : ¬cond2_0 (grid2.coords t) := fun h => h0 ((hcond2_0 t).mp h)
      have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3]
      rw [show (dat2 V c).leavesExact 4 t = owns (c : Thread nD τ) (st2_4 t) fullShare ((dat2 V c).after 4 t) from by
        unfold Dat.leavesExact; rw [liveAt2_4 t hc1], after2_4]
      rw [accSum2_pos V c t h0, accSq2_pos V c t h0]
      rw [Phi2_castSucc V c t, Phi2_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run2_C c (grid2.coords t) _ _ _ _ _ _ _ _ _ _ _ _ _ _ hc0 hc1 (iblk2 V c 0 t) (iblk2 V c 1 t) _ _ Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc0 : ¬cond2_0 (grid2.coords t) := fun h => h0 ((hcond2_0 t).mp h)
      have hc1 : ¬cond2_1 (grid2.coords t) := fun h => h1 ((hcond2_1 t).mp h)
      rw [Dat.leavesExact_idle (dat2 V c) 3 t (idleAt2_3 t hc1) (noFlush2_3 t hc1)]
      rw [Dat.leavesExact_idle (dat2 V c) 4 t (idleAt2_4 t hc1) (noFlush2_4 t hc1)]
      rw [accSum2_pos V c t h0, accSq2_pos V c t h0]
      rw [Phi2_castSucc V c t, Phi2_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run2_B c (grid2.coords t) _ _ _ _ _ _ _ _ _ _ _ _ _ _ hc0 hc1 (iblk2 V c 0 t) (iblk2 V c 1 t) _ _ _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into and out of the invariant -/

/-- The generator register and the scoped buffers no window stages make the invariant before the first point: the two
    accumulators are among those buffers, each whole at some contents. -/
theorem hin2 (c : Dev nD) : iprop((∃ r, prngReg c r) ∗ Pipeline.scopedRest (Ix := Unit) (Name := ℕ) (U := UR sig nD τ) (Lvl := ℕ) (Val := Elt F) spec2 c) ⊢ (dat2 V c).Φ 0 := by
  rw [show (dat2 V c).Φ 0 = Phi2 V c 0 (Nat.zero_le _) from rfl, Phi2_zero V c 0 _ rfl, scopedRest2_split]
  simp only [scM2_0, scM2_1, owns_whole]
  iintro ⟨Hg, ⟨HS0, HS1⟩, HR⟩
  isplitl [HS0]; · iexact HS0
  isplitl [HS1]; · iexact HS1
  isplitl [HR]; · iexact HR
  iexact Hg

/-- After the last point the invariant gives them back, the accumulators' named contents forgotten. -/
theorem hout2 (c : Dev nD) : (dat2 V c).Φ (Fin.last cfg2.N) ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 32 := N_2; omega), scopedRest2_split]
  simp only [scM2_0, scM2_1, owns_whole]
  iintro ⟨HS0, HS1, HR, Hg⟩
  isplitl [Hg]; · iexact Hg
  isplitl [HS0 HS1]
  · isplitl [HS0]; · iexists _; iexact HS0
    iexists _; iexact HS1
  iexact HR

end Cert.KernelIdeal.Hand

end
-- ==== Proof.Seg2.lean ====
/-
  Region 2 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.RunRegs
import proofs.«117354_j7189775254092_1_alg».proof.Proof.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 2 is entered from, read at the TensorCore's references. -/
abbrev Vin2 : (c : Dev nD) → (b : Ref sig .tc) → Buf (Elt F) ((c : Thread nD τ).loc b) := fun c b => V4 m outs c b
/-- The buffer contents region 2 is left at, read at the TensorCore's references. -/
abbrev Vout2 : (c : Dev nD) → (b : Ref sig .tc) → Buf (Elt F) ((c : Thread nD τ).loc b) := fun c b => V5 m outs c b

/-- What `outs` must hold for region 2: each output array at what the pipeline's write-backs leave. -/
def OutsOk2 : Prop := ∀ c : Dev nD, (outs 5 main_v17_0 c = (dat2 (Vin2 m outs) c).arrAt 2 cfg2.N) ∧ (outs 5 main_v17_1 c = (dat2 (Vin2 m outs) c).arrAt 3 cfg2.N) ∧ (outs 5 main_v17_2 c = (dat2 (Vin2 m outs) c).arrAt 4 cfg2.N)

/-- The valuation after the region holds `outs`' value at `main_v17_0`. -/
theorem Vafter_at_2_2 (c : Dev nD) : Vout2 m outs c main_v17_0 = outs 5 main_v17_0 c := by
  show V5 m outs c (Proc.devRef .tc main_v17_0) = _
  simp only [V5, Function.update_of_ne (StableHlo.devRef_ne_of_ne (by decide) : (Proc.devRef .tc main_v17_0 : DevRef τ sig) ≠ Proc.devRef .tc main_v17_2), Function.update_of_ne (StableHlo.devRef_ne_of_ne (by decide) : (Proc.devRef .tc main_v17_0 : DevRef τ sig) ≠ Proc.devRef .tc main_v17_1), Function.update_self]
/-- The valuation after the region holds `outs`' value at `main_v17_1`. -/
theorem Vafter_at_2_3 (c : Dev nD) : Vout2 m outs c main_v17_1 = outs 5 main_v17_1 c := by
  show V5 m outs c (Proc.devRef .tc main_v17_1) = _
  simp only [V5, Function.update_of_ne (StableHlo.devRef_ne_of_ne (by decide) : (Proc.devRef .tc main_v17_1 : DevRef τ sig) ≠ Proc.devRef .tc main_v17_2), Function.update_self]
/-- The valuation after the region holds `outs`' value at `main_v17_2`. -/
theorem Vafter_at_2_4 (c : Dev nD) : Vout2 m outs c main_v17_2 = outs 5 main_v17_2 c := by
  show V5 m outs c (Proc.devRef .tc main_v17_2) = _
  simp only [V5, Function.update_self]

variable {m outs}

/-- At the region's exit each of its arrays holds what the pipeline leaves. -/
theorem hF2 (ho : OutsOk2 m outs) (c : Dev nD) (w : Fin cfg2.W) :
    (dat2 (Vin2 m outs) c).arrAt w cfg2.N = Vout2 m outs c (Pipeline.arrRef spec2 w) := by
  match w with
  | ⟨0, _⟩ => exact ((dat2 (Vin2 m outs) c).arrAt_in ⟨0, by decide⟩ rfl cfg2.N).trans ((A_eq2 (Vin2 m outs) c ⟨0, by decide⟩).trans (V5_of m outs c _ (by decide)).symm)
  | ⟨1, _⟩ => exact ((dat2 (Vin2 m outs) c).arrAt_in ⟨1, by decide⟩ rfl cfg2.N).trans ((A_eq2 (Vin2 m outs) c ⟨1, by decide⟩).trans (V5_of m outs c _ (by decide)).symm)
  | ⟨2, _⟩ => exact (((ho c).1).symm.trans (Vafter_at_2_2 m outs c).symm : _ = Vout2 m outs c main_v17_0)
  | ⟨3, _⟩ => exact (((ho c).2.1).symm.trans (Vafter_at_2_3 m outs c).symm : _ = Vout2 m outs c main_v17_1)
  | ⟨4, _⟩ => exact (((ho c).2.2).symm.trans (Vafter_at_2_4 m outs c).symm : _ = Vout2 m outs c main_v17_2)

/-- Every other buffer is left as entered. -/
theorem hrest2 (c : Dev nD) : ∀ b, b ∉ Finset.univ.image (Pipeline.arrRef spec2) → Vout2 m outs c b = Vin2 m outs c b :=
  fun b hb => V5_of m outs c b (fun h => hb (by
    simp only [List.mem_cons, List.mem_nil_iff, _root_.or_false] at h
    rcases h with rfl | rfl | rfl
    · exact Finset.mem_image.mpr ⟨⟨2, by decide⟩, Finset.mem_univ _, rfl⟩
    · exact Finset.mem_image.mpr ⟨⟨3, by decide⟩, Finset.mem_univ _, rfl⟩
    · exact Finset.mem_image.mpr ⟨⟨4, by decide⟩, Finset.mem_univ _, rfl⟩))

set_option backward.isDefEq.respectTransparency.types false in
/-- Region 2 as a segment, for any family of proof data whose component here is `dat2` at the entry contents. -/
def seg2 (pdats : (p : Fin 8) → (c : Dev nD) → Dat τ (Elt F) Unit ℕ (UR sig nD τ) ℕ (cfgs p) c)
    (hp : ∀ c, pdats 2 c = dat2 (Vin2 m outs) c) (ho : OutsOk2 m outs) :
    RegionSeg (pcfgs (F := F)) adm pdats () defs₀ Variants.none L0 lv0 2 where
  win := launch2.win.to₀
  block_pos := launch2.block_pos
  stage_whole := launch2.stage_whole
  K := PEmpty
  osem k := k.elim
  ho := Pipeline.OwnSemFacts.none _
  hbody c := by rw [hp c]; exact (body_obligation2 (Vin2 m outs) c).loose
  hwaits := Pipeline.hwaits_of_owed_zero _ _ _ _ L0 lv0 2 fun c t => by rw [hp c]; rfl
  pre c := iprop(StableHlo.held (c : Thread nD τ) (Pipeline.ucRefs τ sig) (V4 m outs c) ∗ Rest (F := F) c)
  post c := iprop(StableHlo.held (c : Thread nD τ) (Pipeline.ucRefs τ sig) (V5 m outs c) ∗ Rest (F := F) c)
  X c := iprop(∃ r, prngReg c r)
  Y c := iprop(∃ r, prngReg c r)
  Z c := Pipeline.unscopedRest (Ix := Unit) (Name := ℕ) (U := UR sig nD τ) (Lvl := ℕ) spec2 c (Vin2 m outs c)
  hentry c := by
    rw [Pipeline.ownSems0_none]
    have hsplit := Pipeline.arrays_of_unscopedBufs (p := 2) (pcfgs (F := F)) adm pdats launch2.win launch2.arr_whole c
      ((pdats 2 c).share_full fun _ => by rw [hp c]; rfl) (Vin2 m outs c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    iintro ⟨Hp, -, Hr⟩
    iapply (hin2 (Vin2 m outs) c)
    isplitl [Hp]; · iexact Hp
    iexact Hr
  hout c := by
    rw [Pipeline.ownSems0_none, hp c]
    iintro H
    ihave H' := (hout2 (Vin2 m outs) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c pdats ((pdats 2 c).share_full fun _ => by rw [hp c]; rfl)
      (Vin2 m outs c) (Vout2 m outs c) ((pdats 2 c).arrAt · cfg2.N) (by rw [hp c]; exact hF2 ho c) (hrest2 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Region3.lean ====
/- The body half of region 3 of @main (custom_call 3, `cc3_kernel`, pipeline 3), at ANY float instance `F` and at a
   PARAMETER `V` — the TensorCore's buffer contents when the region is entered.

   The body is pointwise: it loads the tile of window 0 and the two row vectors of windows 1 and 2, computes a payload
   (`k3_pay1`: the tile times the first row plus the second row, each row broadcast down the tile; then rounded,
   clamped and cast), and stores it over the whole staging buffer of window 3. So what the body leaves in the output
   buffer is a closed function of the three input blocks at the point (`out3_3`), and what it finds in each input buffer
   is that window's block at the point, fetched there or not: windows 1 and 2 are fetched at the first point only, and at
   every later point their block index has not moved, so the buffer still holds the same block.

   Delivered: the blocks `iblk3`, the input-side lemmas `before3_W_of`, the output buffer's contents `out3_3` and its
   cover `cover3_3`, the body's triple `sound_kernel3`, the proof data `dat3`, and the body obligation
   `body_obligation3`. -/
import proofs.«117354_j7189775254092_1_alg».proof.Proof.Gen.KernelIdeal.Launch
import proofs.«117354_j7189775254092_1_alg».proof.Proof.Gen.KernelIdeal.Skeleton
import proofs.«117354_j7189775254092_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for ANY proof data whose array is `V`'s
    (`hA`) and whose body leaves the block in place (`hafter`): the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not: it is fetched at the
    first point only, and where it is not fetched its block index has not moved, so the buffer still holds the
    previous point's block, which is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (as window 1's). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole tile: what the body loads of window 0's buffer and stores over window 3's. -/
abbrev r3_0 : Rect S256x2048 := Rect.unit (s := S256x2048) ![0, 0] S256x2048.size inb_S256x2048_S256x2048_0_0
/-- The whole row vector: what the body loads of window 1's and of window 2's buffer. -/
abbrev r3_1 : Rect S1x2048 := Rect.unit (s := S1x2048) ![0, 0] S1x2048.size inb_S1x2048_S1x2048_0_0

/-! ## What the body leaves in the output window's buffer -/

/-- Window 3's staging buffer after the body, from the input windows' blocks: its one store as a piece, the payload
    the skeleton's over what the three loads read. -/
def out3_3 (x0 : Vec F S256x2048 .f32) (x1 : Vec F S1x2048 .f32) (x2 : Vec F S1x2048 .f32) : Vec F S256x2048 .bf16 :=
  View.canon [⟨r3_0, k3_pay1 (View.ld x0 r3_0) (View.ld x1 r3_1) (View.ld x2 r3_1)⟩]

/-- The store is over the whole buffer, so it covers it (one block, checked by evaluation). -/
theorem cover3_3 (p0 : Vec F S256x2048 .bf16) (y : S256x2048.Idx) :
    ∃ pc ∈ ([⟨r3_0, p0⟩] : List (View.Piece (Elt F) S256x2048 .bf16)), y ∈ pc.1.set :=
  View.cover_of_tiled [⟨r3_0, p0⟩] S256x2048.size (by rfl) y

/-! ## The body's triple -/

set_option maxHeartbeats 1000000 in
/-- The kernel body on whole staging memrefs, the inputs' at read contents `xW` and the output's at anything, runs to
    the continuation holding the inputs' as they were and the output's at `out3_3` of the inputs'. The body also loads
    the output buffer before it stores over all of it; the value loaded is not used, so the buffer's prior contents do
    not matter. -/
theorem sound_kernel3 (c : Dev nD) (E : Set ℕ) (i : grid3.Coords) (arg1 : Memref sig .tc .vmem S256x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S256x2048 .bf16) (harg4 : arg4.IsWhole)
    (x0 : Vec F S256x2048 .f32) (x1 : Vec F S1x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand
-- ==== Proof.Seg3.lean ====
/-
  Region 3 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.RunRegs
import proofs.«117354_j7189775254092_1_alg».proof.Proof.Region3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 3 is entered from, read at the TensorCore's references. -/
abbrev Vin3 : (c : Dev nD) → (b : Ref sig .tc) → Buf (Elt F) ((c : Thread nD τ).loc b) := fun c b => V6 m outs c b
/-- The buffer contents region 3 is left at, read at the TensorCore's references. -/
abbrev Vout3 : (c : Dev nD) → (b : Ref sig .tc) → Buf (Elt F) ((c : Thread nD τ).loc b) := fun c b => V7 m outs c b

/-- What `outs` must hold for region 3: each output array at what the pipeline's write-backs leave. -/
def OutsOk3 : Prop := ∀ c : Dev nD, (outs 7 main_v32 c = (dat3 (Vin3 m outs) c).arrAt 3 cfg3.N)

/-- The valuation after the region holds `outs`' value at `main_v32`. -/
theorem Vafter_at_3_3 (c : Dev nD) : Vout3 m outs c main_v32 = outs 7 main_v32 c := by
  show V7 m outs c (Proc.devRef .tc main_v32) = _
  simp only [V7, Function.update_self]

variable {m outs}

/-- At the region's exit each of its arrays holds what the pipeline leaves. -/
theorem hF3 (ho : OutsOk3 m outs) (c : Dev nD) (w : Fin cfg3.W) :
    (dat3 (Vin3 m outs) c).arrAt w cfg3.N = Vout3 m outs c (Pipeline.arrRef spec3 w) := by
  match w with
  | ⟨0, _⟩ => exact ((dat3 (Vin3 m outs) c).arrAt_in ⟨0, by decide⟩ rfl cfg3.N).trans ((A_eq3 (Vin3 m outs) c ⟨0, by decide⟩).trans (V7_of m outs c _ (by decide)).symm)
  | ⟨1, _⟩ => exact ((dat3 (Vin3 m outs) c).arrAt_in ⟨1, by decide⟩ rfl cfg3.N).trans ((A_eq3 (Vin3 m outs) c ⟨1, by decide⟩).trans (V7_of m outs c _ (by decide)).symm)
  | ⟨2, _⟩ => exact ((dat3 (Vin3 m outs) c).arrAt_in ⟨2, by decide⟩ rfl cfg3.N).trans ((A_eq3 (Vin3 m outs) c ⟨2, by decide⟩).trans (V7_of m outs c _ (by decide)).symm)
  | ⟨3, _⟩ => exact (((ho c)).symm.trans (Vafter_at_3_3 m outs c).symm : _ = Vout3 m outs c main_v32)

/-- Every other buffer is left as entered. -/
theorem hrest3 (c : Dev nD) : ∀ b, b ∉ Finset.univ.image (Pipeline.arrRef spec3) → Vout3 m outs c b = Vin3 m outs c b :=
  fun b hb => V7_of m outs c b (fun h => hb (by
    simp only [List.mem_cons, List.mem_nil_iff, _root_.or_false] at h
    subst h
    exact Finset.mem_image.mpr ⟨⟨3, by decide⟩, Finset.mem_univ _, rfl⟩))

set_option backward.isDefEq.respectTransparency.types false in
/-- Region 3 as a segment, for any family of proof data whose component here is `dat3` at the entry contents. -/
def seg3 (pdats : (p : Fin 8) → (c : Dev nD) → Dat τ (Elt F) Unit ℕ (UR sig nD τ) ℕ (cfgs p) c)
    (hp : ∀ c, pdats 3 c = dat3 (Vin3 m outs) c) (ho : OutsOk3 m outs) :
    RegionSeg (pcfgs (F := F)) adm pdats () defs₀ Variants.none L0 lv0 3 where
  win := launch3.win.to₀
  block_pos := launch3.block_pos
  stage_whole := launch3.stage_whole
  K := PEmpty
  osem k := k.elim
  ho := Pipeline.OwnSemFacts.none _
  hbody c := by rw [hp c]; exact (body_obligation3 (Vin3 m outs) c).loose
  hwaits := Pipeline.hwaits_of_owed_zero _ _ _ _ L0 lv0 3 fun c t => by rw [hp c]; rfl
  pre c := iprop(StableHlo.held (c : Thread nD τ) (Pipeline.ucRefs τ sig) (V6 m outs c) ∗ Rest (F := F) c)
  post c := iprop(StableHlo.held (c : Thread nD τ) (Pipeline.ucRefs τ sig) (V7 m outs c) ∗ Rest (F := F) c)
  X c := iprop(∃ r, prngReg c r)
  Y c := iprop(∃ r, prngReg c r)
  Z c := Pipeline.unscopedRest (Ix := Unit) (Name := ℕ) (U := UR sig nD τ) (Lvl := ℕ) spec3 c (Vin3 m outs c)
  hentry c := by
    rw [Pipeline.ownSems0_none]
    have hsplit := Pipeline.arrays_of_unscopedBufs (p := 3) (pcfgs (F := F)) adm pdats launch3.win launch3.arr_whole c
      ((pdats 3 c).share_full fun _ => by rw [hp c]; rfl) (Vin3 m outs c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    show iprop((∃ r, prngReg c r) ∗ Pipeline.prefHeld (pcfgs (F := F) 3).pre c (fun _ => fullShare) ((adm (F := F) 3).1) ∗ Pipeline.scopedRest (Ix := Unit) (Name := ℕ) (U := UR sig nD τ) (Lvl := ℕ) (Val := Elt F) spec3 c) ⊢ (Pipeline.ΦA spec3 c : sProp 𝕄)
    unfold Pipeline.ΦA
    iintro ⟨Hp, -, Hr⟩
    isplitl [Hr]; · iexact Hr
    iexact Hp
  hout c := by
    rw [Pipeline.ownSems0_none, hp c]
    show (Pipeline.ΦA spec3 c : sProp 𝕄) ⊢ iprop((∃ r, prngReg c r) ∗ emp ∗ Pipeline.scopedRest (Ix := Unit) (Name := ℕ) (U := UR sig nD τ) (Lvl := ℕ) (Val := Elt F) spec3 c)
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c pdats ((pdats 3 c).share_full fun _ => by rw [hp c]; rfl)
      (Vin3 m outs c) (Vout3 m outs c) ((pdats 3 c).arrAt · cfg3.N) (by rw [hp c]; exact hF3 ho c) (hrest3 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Region4Runs.lean ====
import proofs.«117354_j7189775254092_1_alg».proof.Proof.Gen.KernelIdeal.Launch
import proofs.«117354_j7189775254092_1_alg».proof.Proof.Gen.KernelIdeal.Skeleton
import proofs.«117354_j7189775254092_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 4, `cc4__matmul_stats_kernel`): the body's conditions over the grid and its three runs

The body zeroes the two accumulators under its first condition (the first grid point), adds the tile's column sums
and column sums of squares to them at every point, and under its second condition (the last grid point) copies them
to the two `[1, N]` outputs. Three control cases meet the grid: A (first point), B (the points between), C (last). -/

/-- The zero offsets of a rank-two rectangle, as a constant function. -/
theorem hzero4 : (![0, 0] : Fin 2 → Nat) = fun _ => 0 := funext fun a => by fin_cases a <;> rfl

section Whole

variable {Val : EltTy → Type} [∀ e, Nonempty (Val e)] {sg : RefSig} {κ : Kind} {sp : Space} {S : Shape} {e : EltTy}

/-- A store through the whole-shape rectangle, last, leaves its payload in the buffer whatever was stored before. -/
theorem read_writes_cons_whole4 (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through the whole-shape rectangle reads the buffer's contents. -/
theorem readAt_whole4 (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end Whole

/-! ## The body's two conditions -/

/-- The first condition (`program_id == 0`), from the grid coordinates. -/
abbrev cond4_0 (i : grid4.Coords) : Prop := (Scalar.cmpi .ne (Scalar.extui (Scalar.cmpi .eq (BitVec.ofNat 32 (i 0).val) 0#32)) 0#32) = 1#1
/-- The second condition (`program_id == num_programs - 1`), from the grid coordinates. -/
abbrev cond4_1 (i : grid4.Coords) : Prop := k4_cond2 i = 1#1

/-- The first condition holds at the first point only. -/
theorem hcond4_0 : ∀ t : Fin cfg4.N, cond4_0 (grid4.coords t) ↔ t.val = 0 :=
  (by decide +kernel : ∀ t : Fin grid4.N, cond4_0 (grid4.coords t) ↔ t.val = 0)
/-- The second condition holds at the last point only. -/
theorem hcond4_1 : ∀ t : Fin cfg4.N, cond4_1 (grid4.coords t) ↔ t.val + 1 = cfg4.N :=
  (by decide +kernel : ∀ t : Fin grid4.N, cond4_1 (grid4.coords t) ↔ t.val + 1 = grid4.N)

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
/-- Off the last point the two `[1, N]` outputs are idle (nothing is stored into them) and are not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
/-- At the last point they are live. -/
theorem liveAt4_3 : ∀ t : Fin cfg4.N, cond4_1 (grid4.coords t) → cfg4.idle 3 (grid4.coords t) = false := by decide +kernel
theorem liveAt4_4 : ∀ t : Fin cfg4.N, cond4_1 (grid4.coords t) → cfg4.idle 4 (grid4.coords t) = false := by decide +kernel

/-! ## The scratch operands -/

/-- The two accumulators: whole scoped buffers of the kernel's own, passed beside the windows. -/
abbrev scM4_0 : Memref sig .tc .vmem S1x2048 .f32 := Memref.whole cc4_scratch0
abbrev scM4_1 : Memref sig .tc .vmem S1x2048 .f32 := Memref.whole cc4_scratch1

/-! ## The three runs of the body

On whole memrefs: the two inputs at contents `x0` (the row tile) and `x1` (the weights) are left as they were; the
product's output holds the product `k4_pay1 x1 x0`; the accumulators hold `k4_pay4 x1 x0 s` and `k4_pay5 x1 x0 s'`,
where `s`, `s'` are what they held when the sums were added (zeros at the first point, else what the point before
left); the two `[1, N]` outputs are untouched off the last point and hold the accumulators' new contents at it. -/

set_option maxHeartbeats 1000000 in
/-- Case A, the first point: the accumulators are zeroed, then added to. -/
theorem run4_A (c : Dev nD) (i : grid4.Coords) (arg1 : Memref sig .tc .vmem S256x2048 .bf16) (harg1 : arg1.IsWhole) (arg2 : Memref sig .tc .vmem S2048x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : cond4_0 i) (hc1 : ¬cond4_1 i)
    (x0 : Vec F S256x2048 .bf16) (x1 : Vec F S2048x2048 .f32) (xi3 xi4 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k4_pay1 x1 x0)
            ∗ owns (c : Thread nD τ) arg4 fullShare xi3 ∗ owns (c : Thread nD τ) arg5 fullShare xi4
            ∗ owns (c : Thread nD τ) arg6 fullShare (k4_pay4 x1 x0 (k4_pay2 (F := F))) ∗ owns (c : Thread nD τ) arg7 fullShare (k4_pay5 x1 x0 (k4_pay3 (F := F)))) -∗ K ⟨⟩))
      ⊢ wp frame (wpE (defs₀ (F := F)) Variants.none c none) E (cc4__matmul_stats_kernel i arg1 harg1 arg2 harg2 arg3 harg3 arg4 harg4 arg5 harg5 arg6 harg6 arg7 harg7) K := by
  simp only [cc4__matmul_stats_kernel_eq_skeleton]; unfold cc4__matmul_stats_kernel_skel
  simp only [k4_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
  subst hf1; subst hf2; subst hf4; subst hf5
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole4 _ _ hzero4, readAt_whole4 _ _ hzero4, readAt_whole4 _ _ hzero4]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole4 _ _ hzero4, readAt_whole4 _ _ hzero4, readAt_whole4 _ _ hzero4, View.readCov_cons_toLoadRect]
  · iexists _; isplitr
    swap; · iexact H7
    ipureintro
    sl_unfold_run_names
    rw [read_writes_cons_whole4 _ _ hzero4, readAt_whole4 _ _ hzero4, readAt_whole4 _ _ hzero4, View.readCov_cons_toLoadRect]

set_option maxHeartbeats 1000000 in
/-- Case B, a point between the first and the last: the accumulators, at what the point before left, are added to. -/
theorem run4_B (c : Dev nD) (i : grid4.Coords) (arg1 : Memref sig .tc .vmem S256x2048 .bf16) (harg1 : arg1.IsWhole) (arg2 : Memref sig .tc .vmem S2048x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond4_0 i) (hc1 : ¬cond4_1 i)
    (x0 : Vec F S256x2048 .bf16) (x1 : Vec F S2048x2048 .f32) (xi3 xi4 xs0 xs1 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k4_pay1 x1 x0)
            ∗ owns (c : Thread nD τ) arg4 fullShare xi3 ∗ owns (c : Thread nD τ) arg5 fullShare xi4
            ∗ owns (c : Thread nD τ) arg6 fullShare (k4_pay4 x1 x0 xs0) ∗ owns (c : Thread nD τ) arg7 fullShare (k4_pay5 x1 x0 xs1)) -∗ K ⟨⟩))
      ⊢ wp frame (wpE (defs₀ (F := F)) Variants.none c none) E (cc4__matmul_stats_kernel i arg1 harg1 arg2 harg2 arg3 harg3 arg4 harg4 arg5 harg5 arg6 harg6 arg7 harg7) K := by
  simp only [cc4__matmul_stats_kernel_eq_skeleton]; unfold cc4__matmul_stats_kernel_skel
  simp only [k4_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  subst hf1; subst hf2; subst hf4; subst hf5; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole4 _ _ hzero4, readAt_whole4 _ _ hzero4, readAt_whole4 _ _ hzero4]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole4 _ _ hzero4, readAt_whole4 _ _ hzero4, readAt_whole4 _ _ hzero4, readAt_whole4 _ _ hzero4]
  · iexists _; isplitr
    swap; · iexact H7
    ipureintro
    sl_unfold_run_names
    rw [read_writes_cons_whole4 _ _ hzero4, readAt_whole4 _ _ hzero4, readAt_whole4 _ _ hzero4, readAt_whole4 _ _ hzero4]

set_option maxHeartbeats 1000000 in
/-- Case C, the last point: the accumulators are added to, then copied to the two `[1, N]` outputs. -/
theorem run4_C (c : Dev nD) (i : grid4.Coords) (arg1 : Memref sig .tc .vmem S256x2048 .bf16) (harg1 : arg1.IsWhole) (arg2 : Memref sig .tc .vmem S2048x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond4_0 i) (hc1 : cond4_1 i)
    (x0 : Vec F S256x2048 .bf16) (x1 : Vec F S2048x2048 .f32) (xs0 xs1 : Vec F S1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k4_pay1 x1 x0)
            ∗ owns (c : Thread nD τ) arg4 fullShare (k4_pay4 x1 x0 xs0) ∗ owns (c : Thread nD τ) arg5 fullShare (k4_pay5 x1 x0 xs1)
            ∗ owns (c : Thread nD τ) arg6 fullShare (k4_pay4 x1 x0 xs0) ∗ owns (c : Thread nD τ) arg7 fullShare (k4_pay5 x1 x0 xs1)) -∗ K ⟨⟩))
      ⊢ wp frame (wpE (defs₀ (F := F)) Variants.none c none) E (cc4__matmul_stats_kernel i arg1 harg1 arg2 harg2 arg3 harg3 arg4 harg4 arg5 harg5 arg6 harg6 arg7 harg7) K := by
  simp only [cc4__matmul_stats_kernel_eq_skeleton]; unfold cc4__matmul_stats_kernel_skel
  simp only [k4_part1_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  subst hf1; subst hf2; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole4 _ _ hzero4, readAt_whole4 _ _ hzero4, readAt_whole4 _ _ hzero4]
  isplitl [H4]
  · iexists _; isplitr
    swap; · iexact H4
    ipureintro
    sl_unfold_run_names
    rw [read_writes_cons_whole4 _ _ hzero4, View.readCov_cons_toLoadRect, readAt_whole4 _ _ hzero4, readAt_whole4 _ _ hzero4, readAt_whole4 _ _ hzero4]
  isplitl [H5]
  · iexists _; isplitr
    swap; · iexact H5
    ipureintro
    sl_unfold_run_names
    rw [read_writes_cons_whole4 _ _ hzero4, View.readCov_cons_toLoadRect, readAt_whole4 _ _ hzero4, readAt_whole4 _ _ hzero4, readAt_whole4 _ _ hzero4]
  isplitl [H6]
  · iexists _; isplitr
    swap; · iexact H6
    ipureintro
    sl_unfold_run_names
    rw [read_writes_cons_whole4 _ _ hzero4, readAt_whole4 _ _ hzero4, readAt_whole4 _ _ hzero4, readAt_whole4 _ _ hzero4]
  · iexists _; isplitr
    swap; · iexact H7
    ipureintro
    sl_unfold_run_names
    rw [read_writes_cons_whole4 _ _ hzero4, readAt_whole4 _ _ hzero4, readAt_whole4 _ _ hzero4, readAt_whole4 _ _ hzero4]

end Cert.KernelIdeal.Hand

end
-- ==== Proof.Region4.lean ====
import proofs.«117354_j7189775254092_1_alg».proof.Proof.Region4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 4, `cc4__matmul_stats_kernel`), at the entry contents `V`: proof data and body obligation

The tile's product is written back at every point; the two accumulators are carried between points in scratch, and
their contents after each point are stated by recursion on the point (`accSum4`, `accSq4`); the two `[1, N]` outputs
are stored (from the accumulators) and written back at the last point only. -/

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is `V`'s
    and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's (fetched at the first point only: its block index never moves) likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What the accumulators hold after each point -/

/-- The column-sum accumulator after point `n`: at the first point the zero row plus the tile's column sums, later
    what the point before left plus the tile's (`k4_pay4`: the body's own association). -/
def accSum4 (c : Dev nD) : (n : ℕ) → n < cfg4.N → Vec F S1x2048 .f32
  | 0, h => k4_pay4 (iblk4 V c 1 ⟨0, h⟩) (iblk4 V c 0 ⟨0, h⟩) (k4_pay2 (F := F))
  | n + 1, h => k4_pay4 (iblk4 V c 1 ⟨n + 1, h⟩) (iblk4 V c 0 ⟨n + 1, h⟩) (accSum4 c n (Nat.lt_of_succ_lt h))

/-- The accumulator of the column sums of squares after point `n`, likewise (`k4_pay5`). -/
def accSq4 (c : Dev nD) : (n : ℕ) → n < cfg4.N → Vec F S1x2048 .f32
  | 0, h => k4_pay5 (iblk4 V c 1 ⟨0, h⟩) (iblk4 V c 0 ⟨0, h⟩) (k4_pay3 (F := F))
  | n + 1, h => k4_pay5 (iblk4 V c 1 ⟨n + 1, h⟩) (iblk4 V c 0 ⟨n + 1, h⟩) (accSq4 c n (Nat.lt_of_succ_lt h))

theorem accSum4_zero (c : Dev nD) (t : Fin cfg4.N) (h : t.val = 0) :
    accSum4 V c t.val t.isLt = k4_pay4 (iblk4 V c 1 t) (iblk4 V c 0 t) (k4_pay2 (F := F)) := by
  obtain ⟨n, hn⟩ := t
  cases n with
  | zero => rfl
  | succ n => exact absurd h (Nat.succ_ne_zero n)

theorem accSum4_pos (c : Dev nD) (t : Fin cfg4.N) (h : t.val ≠ 0) :
    accSum4 V c t.val t.isLt = k4_pay4 (iblk4 V c 1 t) (iblk4 V c 0 t) (accSum4 V c (t.val - 1) (Nat.lt_of_le_of_lt (Nat.sub_le _ _) t.isLt)) := by
  obtain ⟨n, hn⟩ := t
  cases n with
  | zero => exact absurd rfl h
  | succ n => rfl

theorem accSq4_zero (c : Dev nD) (t : Fin cfg4.N) (h : t.val = 0) :
    accSq4 V c t.val t.isLt = k4_pay5 (iblk4 V c 1 t) (iblk4 V c 0 t) (k4_pay3 (F := F)) := by
  obtain ⟨n, hn⟩ := t
  cases n with
  | zero => rfl
  | succ n => exact absurd h (Nat.succ_ne_zero n)

theorem accSq4_pos (c : Dev nD) (t : Fin cfg4.N) (h : t.val ≠ 0) :
    accSq4 V c t.val t.isLt = k4_pay5 (iblk4 V c 1 t) (iblk4 V c 0 t) (accSq4 V c (t.val - 1) (Nat.lt_of_le_of_lt (Nat.sub_le _ _) t.isLt)) := by
  obtain ⟨n, hn⟩ := t
  cases n with
  | zero => exact absurd rfl h
  | succ n => rfl

/-! ## The region's invariant -/

/-- Before position `n`: the two accumulators — at anything before the first point, afterwards at what the point
    before left in them —, every other scoped buffer no window stages, and the generator register at some state. -/
def Phi4 (c : Dev nD) : (n : ℕ) → n ≤ cfg4.N → sProp 𝕄
  | 0, _ => iprop((∃ d, owns (c : Thread nD τ) scM4_0 fullShare d) ∗ (∃ d, owns (c : Thread nD τ) scM4_1 fullShare d)
      ∗ Pipeline.scopedRestBut (Ix := Unit) (Name := ℕ) (U := UR sig nD τ) (Lvl := ℕ) (Val := Elt F) spec4 c [cc4_scratch0, cc4_scratch1] ∗ (∃ r, prngReg c r))
  | n + 1, hn => iprop(owns (c : Thread nD τ) scM4_0 fullShare (accSum4 V c n hn) ∗ owns (c : Thread nD τ) scM4_1 fullShare (accSq4 V c n hn)
      ∗ Pipeline.scopedRestBut (Ix := Unit) (Name := ℕ) (U := UR sig nD τ) (Lvl := ℕ) (Val := Elt F) spec4 c [cc4_scratch0, cc4_scratch1] ∗ (∃ r, prngReg c r))

theorem Phi4_zero (c : Dev nD) (n : ℕ) (h : n ≤ cfg4.N) (hz : n = 0) :
    Phi4 V c n h = iprop((∃ d, owns (c : Thread nD τ) scM4_0 fullShare d) ∗ (∃ d, owns (c : Thread nD τ) scM4_1 fullShare d)
      ∗ Pipeline.scopedRestBut (Ix := Unit) (Name := ℕ) (U := UR sig nD τ) (Lvl := ℕ) (Val := Elt F) spec4 c [cc4_scratch0, cc4_scratch1] ∗ (∃ r, prngReg c r)) := by
  subst hz; rfl

theorem Phi4_succ (c : Dev nD) (n : ℕ) (hn : n < cfg4.N) :
    Phi4 V c (n + 1) hn = iprop(owns (c : Thread nD τ) scM4_0 fullShare (accSum4 V c n hn) ∗ owns (c : Thread nD τ) scM4_1 fullShare (accSq4 V c n hn)
      ∗ Pipeline.scopedRestBut (Ix := Unit) (Name := ℕ) (U := UR sig nD τ) (Lvl := ℕ) (Val := Elt F) spec4 c [cc4_scratch0, cc4_scratch1] ∗ (∃ r, prngReg c r)) := rfl

theorem Phi4_pos (c : Dev nD) (n : ℕ) (h : n ≤ cfg4.N) (hz : n ≠ 0) :
    Phi4 V c n h = iprop(owns (c : Thread nD τ) scM4_0 fullShare (accSum4 V c (n - 1) (by omega)) ∗ owns (c : Thread nD τ) scM4_1 fullShare (accSq4 V c (n - 1) (by omega))
      ∗ Pipeline.scopedRestBut (Ix := Unit) (Name := ℕ) (U := UR sig nD τ) (Lvl := ℕ) (Val := Elt F) spec4 c [cc4_scratch0, cc4_scratch1] ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block, the product's at the product of the blocks, the two `[1, N]` outputs' at the
    accumulators' contents after `t` (consulted at the last point only: elsewhere they are idle); the invariant
    `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay1 (iblk4 V c 1 t) (iblk4 V c 0 t)
    | ⟨3, _⟩ => accSum4 V c t.val t.isLt
    | ⟨4, _⟩ => accSq4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay1 (iblk4 V c 1 t) (iblk4 V c 0 t) := by dsimp only [dat4]
theorem after4_3 (c : Dev nD) (t : Fin cfg4.N) : (dat4 V c).after 3 t = accSum4 V c t.val t.isLt := by dsimp only [dat4]
theorem after4_4 (c : Dev nD) (t : Fin cfg4.N) : (dat4 V c).after 4 t = accSq4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4000000 in
/-- The body at any point: the closed forms of the two conditions say which case the point is in; the inputs' memrefs
    hold their blocks; the invariant hands the body the accumulators (at anything at the first point, else at what the
    point before left) and takes them back at this point's contents; off the last point the two `[1, N]` outputs'
    buffers are handed back as found. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  have hN : t.val < 32 := lt_of_lt_of_eq t.isLt (show cfg4.N = 32 from N_4)
  have hN' : cfg4.N = 32 := N_4
  by_cases h0 : t.val = 0
  · by_cases h1 : t.val + 1 = cfg4.N
    · exfalso; omega
    · have hc0 : cond4_0 (grid4.coords t) := (hcond4_0 t).mpr h0
      have hc1 : ¬cond4_1 (grid4.coords t) := fun h => h1 ((hcond4_1 t).mp h)
      rw [Dat.leavesExact_idle (dat4 V c) 3 t (idleAt4_3 t hc1) (noFlush4_3 t hc1)]
      rw [Dat.leavesExact_idle (dat4 V c) 4 t (idleAt4_4 t hc1) (noFlush4_4 t hc1)]
      rw [accSum4_zero V c t h0, accSq4_zero V c t h0]
      rw [Phi4_castSucc V c t, Phi4_zero V c _ _ h0]
      iintro ⟨⟨HS0, HS1, HR, Hg⟩, Ho, ⟨%d0, H0⟩, ⟨%d1, H1⟩, ⟨%d2, H2⟩, ⟨%d3, H3⟩, ⟨%d4, H4⟩⟩
      iapply (run4_A c (grid4.coords t) _ _ _ _ _ _ _ _ _ _ _ _ _ _ hc0 hc1 (iblk4 V c 0 t) (iblk4 V c 1 t) _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4
  · by_cases h1 : t.val + 1 = cfg4.N
    · have hc0 : ¬cond4_0 (grid4.coords t) := fun h => h0 ((hcond4_0 t).mp h)
      have hc1 : cond4_1 (grid4.coords t) := (hcond4_1 t).mpr h1
      rw [show (dat4 V c).leavesExact 3 t = owns (c : Thread nD τ) (st4_3 t) fullShare ((dat4 V c).after 3 t) from by
        unfold Dat.leavesExact; rw [liveAt4_3 t hc1], after4_3]
      rw [show (dat4 V c).leavesExact 4 t = owns (c : Thread nD τ) (st4_4 t) fullShare ((dat4 V c).after 4 t) from by
        unfold Dat.leavesExact; rw [liveAt4_4 t hc1], after4_4]
      rw [accSum4_pos V c t h0, accSq4_pos V c t h0]
      rw [Phi4_castSucc V c t, Phi4_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run4_C c (grid4.coords t) _ _ _ _ _ _ _ _ _ _ _ _ _ _ hc0 hc1 (iblk4 V c 0 t) (iblk4 V c 1 t) _ _ Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc0 : ¬cond4_0 (grid4.coords t) := fun h => h0 ((hcond4_0 t).mp h)
      have hc1 : ¬cond4_1 (grid4.coords t) := fun h => h1 ((hcond4_1 t).mp h)
      rw [Dat.leavesExact_idle (dat4 V c) 3 t (idleAt4_3 t hc1) (noFlush4_3 t hc1)]
      rw [Dat.leavesExact_idle (dat4 V c) 4 t (idleAt4_4 t hc1) (noFlush4_4 t hc1)]
      rw [accSum4_pos V c t h0, accSq4_pos V c t h0]
      rw [Phi4_castSucc V c t, Phi4_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run4_B c (grid4.coords t) _ _ _ _ _ _ _ _ _ _ _ _ _ _ hc0 hc1 (iblk4 V c 0 t) (iblk4 V c 1 t) _ _ _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the invariant -/

/-- The generator register and the scoped buffers no window stages make the invariant before the first point: the two
    accumulators are among those buffers, each whole at some contents. -/
theorem hin4 (c : Dev nD) : iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = Phi4 V c 0 (Nat.zero_le _) from rfl, Phi4_zero V c 0 _ rfl, scopedRest4_split]
  simp only [scM4_0, scM4_1, owns_whole]
  iintro ⟨Hg, ⟨HS0, HS1⟩, HR⟩
  isplitl [HS0]; · iexact HS0
  isplitl [HS1]; · iexact HS1
  isplitl [HR]; · iexact HR
  iexact Hg

/-- After the last point the invariant gives them back, the accumulators' named contents forgotten. -/
theorem hout4 (c : Dev nD) : (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 32 := N_4; omega), scopedRest4_split]
  simp only [scM4_0, scM4_1, owns_whole]
  iintro ⟨HS0, HS1, HR, Hg⟩
  isplitl [Hg]; · iexact Hg
  isplitl [HS0 HS1]
  · isplitl [HS0]; · iexists _; iexact HS0
    iexists _; iexact HS1
  iexact HR

end Cert.KernelIdeal.Hand

end
-- ==== Proof.Seg4.lean ====
/-
  Region 4 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.RunRegs
import proofs.«117354_j7189775254092_1_alg».proof.Proof.Region4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 4 is entered from, read at the TensorCore's references. -/
abbrev Vin4 : (c : Dev nD) → (b : Ref sig .tc) → Buf (Elt F) ((c : Thread nD τ).loc b) := fun c b => V7 m outs c b
/-- The buffer contents region 4 is left at, read at the TensorCore's references. -/
abbrev Vout4 : (c : Dev nD) → (b : Ref sig .tc) → Buf (Elt F) ((c : Thread nD τ).loc b) := fun c b => V8 m outs c b

/-- What `outs` must hold for region 4: each output array at what the pipeline's write-backs leave. -/
def OutsOk4 : Prop := ∀ c : Dev nD, (outs 8 main_v33_0 c = (dat4 (Vin4 m outs) c).arrAt 2 cfg4.N) ∧ (outs 8 main_v33_1 c = (dat4 (Vin4 m outs) c).arrAt 3 cfg4.N) ∧ (outs 8 main_v33_2 c = (dat4 (Vin4 m outs) c).arrAt 4 cfg4.N)

/-- The valuation after the region holds `outs`' value at `main_v33_0`. -/
theorem Vafter_at_4_2 (c : Dev nD) : Vout4 m outs c main_v33_0 = outs 8 main_v33_0 c := by
  show V8 m outs c (Proc.devRef .tc main_v33_0) = _
  simp only [V8, Function.update_of_ne (StableHlo.devRef_ne_of_ne (by decide) : (Proc.devRef .tc main_v33_0 : DevRef τ sig) ≠ Proc.devRef .tc main_v33_2), Function.update_of_ne (StableHlo.devRef_ne_of_ne (by decide) : (Proc.devRef .tc main_v33_0 : DevRef τ sig) ≠ Proc.devRef .tc main_v33_1), Function.update_self]
/-- The valuation after the region holds `outs`' value at `main_v33_1`. -/
theorem Vafter_at_4_3 (c : Dev nD) : Vout4 m outs c main_v33_1 = outs 8 main_v33_1 c := by
  show V8 m outs c (Proc.devRef .tc main_v33_1) = _
  simp only [V8, Function.update_of_ne (StableHlo.devRef_ne_of_ne (by decide) : (Proc.devRef .tc main_v33_1 : DevRef τ sig) ≠ Proc.devRef .tc main_v33_2), Function.update_self]
/-- The valuation after the region holds `outs`' value at `main_v33_2`. -/
theorem Vafter_at_4_4 (c : Dev nD) : Vout4 m outs c main_v33_2 = outs 8 main_v33_2 c := by
  show V8 m outs c (Proc.devRef .tc main_v33_2) = _
  simp only [V8, Function.update_self]

variable {m outs}

/-- At the region's exit each of its arrays holds what the pipeline leaves. -/
theorem hF4 (ho : OutsOk4 m outs) (c : Dev nD) (w : Fin cfg4.W) :
    (dat4 (Vin4 m outs) c).arrAt w cfg4.N = Vout4 m outs c (Pipeline.arrRef spec4 w) := by
  match w with
  | ⟨0, _⟩ => exact ((dat4 (Vin4 m outs) c).arrAt_in ⟨0, by decide⟩ rfl cfg4.N).trans ((A_eq4 (Vin4 m outs) c ⟨0, by decide⟩).trans (V8_of m outs c _ (by decide)).symm)
  | ⟨1, _⟩ => exact ((dat4 (Vin4 m outs) c).arrAt_in ⟨1, by decide⟩ rfl cfg4.N).trans ((A_eq4 (Vin4 m outs) c ⟨1, by decide⟩).trans (V8_of m outs c _ (by decide)).symm)
  | ⟨2, _⟩ => exact (((ho c).1).symm.trans (Vafter_at_4_2 m outs c).symm : _ = Vout4 m outs c main_v33_0)
  | ⟨3, _⟩ => exact (((ho c).2.1).symm.trans (Vafter_at_4_3 m outs c).symm : _ = Vout4 m outs c main_v33_1)
  | ⟨4, _⟩ => exact (((ho c).2.2).symm.trans (Vafter_at_4_4 m outs c).symm : _ = Vout4 m outs c main_v33_2)

/-- Every other buffer is left as entered. -/
theorem hrest4 (c : Dev nD) : ∀ b, b ∉ Finset.univ.image (Pipeline.arrRef spec4) → Vout4 m outs c b = Vin4 m outs c b :=
  fun b hb => V8_of m outs c b (fun h => hb (by
    simp only [List.mem_cons, List.mem_nil_iff, _root_.or_false] at h
    rcases h with rfl | rfl | rfl
    · exact Finset.mem_image.mpr ⟨⟨2, by decide⟩, Finset.mem_univ _, rfl⟩
    · exact Finset.mem_image.mpr ⟨⟨3, by decide⟩, Finset.mem_univ _, rfl⟩
    · exact Finset.mem_image.mpr ⟨⟨4, by decide⟩, Finset.mem_univ _, rfl⟩))

set_option backward.isDefEq.respectTransparency.types false in
/-- Region 4 as a segment, for any family of proof data whose component here is `dat4` at the entry contents. -/
def seg4 (pdats : (p : Fin 8) → (c : Dev nD) → Dat τ (Elt F) Unit ℕ (UR sig nD τ) ℕ (cfgs p) c)
    (hp : ∀ c, pdats 4 c = dat4 (Vin4 m outs) c) (ho : OutsOk4 m outs) :
    RegionSeg (pcfgs (F := F)) adm pdats () defs₀ Variants.none L0 lv0 4 where
  win := launch4.win.to₀
  block_pos := launch4.block_pos
  stage_whole := launch4.stage_whole
  K := PEmpty
  osem k := k.elim
  ho := Pipeline.OwnSemFacts.none _
  hbody c := by rw [hp c]; exact (body_obligation4 (Vin4 m outs) c).loose
  hwaits := Pipeline.hwaits_of_owed_zero _ _ _ _ L0 lv0 4 fun c t => by rw [hp c]; rfl
  pre c := iprop(StableHlo.held (c : Thread nD τ) (Pipeline.ucRefs τ sig) (V7 m outs c) ∗ Rest (F := F) c)
  post c := iprop(StableHlo.held (c : Thread nD τ) (Pipeline.ucRefs τ sig) (V8 m outs c) ∗ Rest (F := F) c)
  X c := iprop(∃ r, prngReg c r)
  Y c := iprop(∃ r, prngReg c r)
  Z c := Pipeline.unscopedRest (Ix := Unit) (Name := ℕ) (U := UR sig nD τ) (Lvl := ℕ) spec4 c (Vin4 m outs c)
  hentry c := by
    rw [Pipeline.ownSems0_none]
    have hsplit := Pipeline.arrays_of_unscopedBufs (p := 4) (pcfgs (F := F)) adm pdats launch4.win launch4.arr_whole c
      ((pdats 4 c).share_full fun _ => by rw [hp c]; rfl) (Vin4 m outs c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    iintro ⟨Hp, -, Hr⟩
    iapply (hin4 (Vin4 m outs) c)
    isplitl [Hp]; · iexact Hp
    iexact Hr
  hout c := by
    rw [Pipeline.ownSems0_none, hp c]
    iintro H
    ihave H' := (hout4 (Vin4 m outs) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c pdats ((pdats 4 c).share_full fun _ => by rw [hp c]; rfl)
      (Vin4 m outs c) (Vout4 m outs c) ((pdats 4 c).arrAt · cfg4.N) (by rw [hp c]; exact hF4 ho c) (hrest4 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Region5.lean ====
/- The body half of region 5 of @main (custom_call 5, `cc5_kernel`, pipeline 5), at ANY float instance `F` and at a
   PARAMETER `V` — the TensorCore's buffer contents when the region is entered.

   The body is pointwise: it loads the tile of window 0 and the two row vectors of windows 1 and 2, computes a payload
   (`k5_pay1`: the tile times the first row plus the second row, each row broadcast down the tile; then rounded,
   clamped and cast), and stores it over the whole staging buffer of window 3. So what the body leaves in the output
   buffer is a closed function of the three input blocks at the point (`out5_3`), and what it finds in each input buffer
   is that window's block at the point, fetched there or not: windows 1 and 2 are fetched at the first point only, and at
   every later point their block index has not moved, so the buffer still holds the same block.

   Delivered: the blocks `iblk5`, the input-side lemmas `before5_W_of`, the output buffer's contents `out5_3` and its
   cover `cover5_3`, the body's triple `sound_kernel5`, the proof data `dat5`, and the body obligation
   `body_obligation5`. -/
import proofs.«117354_j7189775254092_1_alg».proof.Proof.Gen.KernelIdeal.Launch
import proofs.«117354_j7189775254092_1_alg».proof.Proof.Gen.KernelIdeal.Skeleton
import proofs.«117354_j7189775254092_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for ANY proof data whose array is `V`'s
    (`hA`) and whose body leaves the block in place (`hafter`): the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not: it is fetched at the
    first point only, and where it is not fetched its block index has not moved, so the buffer still holds the
    previous point's block, which is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not (as window 1's). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole tile: what the body loads of window 0's buffer and stores over window 3's. -/
abbrev r5_0 : Rect S256x2048 := Rect.unit (s := S256x2048) ![0, 0] S256x2048.size inb_S256x2048_S256x2048_0_0
/-- The whole row vector: what the body loads of window 1's and of window 2's buffer. -/
abbrev r5_1 : Rect S1x2048 := Rect.unit (s := S1x2048) ![0, 0] S1x2048.size inb_S1x2048_S1x2048_0_0

/-! ## What the body leaves in the output window's buffer -/

/-- Window 3's staging buffer after the body, from the input windows' blocks: its one store as a piece, the payload
    the skeleton's over what the three loads read. -/
def out5_3 (x0 : Vec F S256x2048 .f32) (x1 : Vec F S1x2048 .f32) (x2 : Vec F S1x2048 .f32) : Vec F S256x2048 .bf16 :=
  View.canon [⟨r5_0, k5_pay1 (View.ld x0 r5_0) (View.ld x1 r5_1) (View.ld x2 r5_1)⟩]

/-- The store is over the whole buffer, so it covers it (one block, checked by evaluation). -/
theorem cover5_3 (p0 : Vec F S256x2048 .bf16) (y : S256x2048.Idx) :
    ∃ pc ∈ ([⟨r5_0, p0⟩] : List (View.Piece (Elt F) S256x2048 .bf16)), y ∈ pc.1.set :=
  View.cover_of_tiled [⟨r5_0, p0⟩] S256x2048.size (by rfl) y

/-! ## The body's triple -/

set_option maxHeartbeats 1000000 in
/-- The kernel body on whole staging memrefs, the inputs' at read contents `xW` and the output's at anything, runs to
    the continuation holding the inputs' as they were and the output's at `out5_3` of the inputs'. The body also loads
    the output buffer before it stores over all of it; the value loaded is not used, so the buffer's prior contents do
    not matter. -/
theorem sound_kernel5 (c : Dev nD) (E : Set ℕ) (i : grid5.Coords) (arg1 : Memref sig .tc .vmem S256x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S256x2048 .bf16) (harg4 : arg4.IsWhole)
    (x0 : Vec F S256x2048 .f32) (x1 : Vec F S1x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point `t`
    each input's buffer at its block and the output's at `out5_3` of the input blocks; the invariant the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Hand
-- ==== Proof.Seg5.lean ====
/-
  Region 5 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.RunRegs
import proofs.«117354_j7189775254092_1_alg».proof.Proof.Region5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 5 is entered from, read at the TensorCore's references. -/
abbrev Vin5 : (c : Dev nD) → (b : Ref sig .tc) → Buf (Elt F) ((c : Thread nD τ).loc b) := fun c b => V9 m outs c b
/-- The buffer contents region 5 is left at, read at the TensorCore's references. -/
abbrev Vout5 : (c : Dev nD) → (b : Ref sig .tc) → Buf (Elt F) ((c : Thread nD τ).loc b) := fun c b => V10 m outs c b

/-- What `outs` must hold for region 5: each output array at what the pipeline's write-backs leave. -/
def OutsOk5 : Prop := ∀ c : Dev nD, (outs 10 main_v48 c = (dat5 (Vin5 m outs) c).arrAt 3 cfg5.N)

/-- The valuation after the region holds `outs`' value at `main_v48`. -/
theorem Vafter_at_5_3 (c : Dev nD) : Vout5 m outs c main_v48 = outs 10 main_v48 c := by
  show V10 m outs c (Proc.devRef .tc main_v48) = _
  simp only [V10, Function.update_self]

variable {m outs}

/-- At the region's exit each of its arrays holds what the pipeline leaves. -/
theorem hF5 (ho : OutsOk5 m outs) (c : Dev nD) (w : Fin cfg5.W) :
    (dat5 (Vin5 m outs) c).arrAt w cfg5.N = Vout5 m outs c (Pipeline.arrRef spec5 w) := by
  match w with
  | ⟨0, _⟩ => exact ((dat5 (Vin5 m outs) c).arrAt_in ⟨0, by decide⟩ rfl cfg5.N).trans ((A_eq5 (Vin5 m outs) c ⟨0, by decide⟩).trans (V10_of m outs c _ (by decide)).symm)
  | ⟨1, _⟩ => exact ((dat5 (Vin5 m outs) c).arrAt_in ⟨1, by decide⟩ rfl cfg5.N).trans ((A_eq5 (Vin5 m outs) c ⟨1, by decide⟩).trans (V10_of m outs c _ (by decide)).symm)
  | ⟨2, _⟩ => exact ((dat5 (Vin5 m outs) c).arrAt_in ⟨2, by decide⟩ rfl cfg5.N).trans ((A_eq5 (Vin5 m outs) c ⟨2, by decide⟩).trans (V10_of m outs c _ (by decide)).symm)
  | ⟨3, _⟩ => exact (((ho c)).symm.trans (Vafter_at_5_3 m outs c).symm : _ = Vout5 m outs c main_v48)

/-- Every other buffer is left as entered. -/
theorem hrest5 (c : Dev nD) : ∀ b, b ∉ Finset.univ.image (Pipeline.arrRef spec5) → Vout5 m outs c b = Vin5 m outs c b :=
  fun b hb => V10_of m outs c b (fun h => hb (by
    simp only [List.mem_cons, List.mem_nil_iff, _root_.or_false] at h
    subst h
    exact Finset.mem_image.mpr ⟨⟨3, by decide⟩, Finset.mem_univ _, rfl⟩))

set_option backward.isDefEq.respectTransparency.types false in
/-- Region 5 as a segment, for any family of proof data whose component here is `dat5` at the entry contents. -/
def seg5 (pdats : (p : Fin 8) → (c : Dev nD) → Dat τ (Elt F) Unit ℕ (UR sig nD τ) ℕ (cfgs p) c)
    (hp : ∀ c, pdats 5 c = dat5 (Vin5 m outs) c) (ho : OutsOk5 m outs) :
    RegionSeg (pcfgs (F := F)) adm pdats () defs₀ Variants.none L0 lv0 5 where
  win := launch5.win.to₀
  block_pos := launch5.block_pos
  stage_whole := launch5.stage_whole
  K := PEmpty
  osem k := k.elim
  ho := Pipeline.OwnSemFacts.none _
  hbody c := by rw [hp c]; exact (body_obligation5 (Vin5 m outs) c).loose
  hwaits := Pipeline.hwaits_of_owed_zero _ _ _ _ L0 lv0 5 fun c t => by rw [hp c]; rfl
  pre c := iprop(StableHlo.held (c : Thread nD τ) (Pipeline.ucRefs τ sig) (V9 m outs c) ∗ Rest (F := F) c)
  post c := iprop(StableHlo.held (c : Thread nD τ) (Pipeline.ucRefs τ sig) (V10 m outs c) ∗ Rest (F := F) c)
  X c := iprop(∃ r, prngReg c r)
  Y c := iprop(∃ r, prngReg c r)
  Z c := Pipeline.unscopedRest (Ix := Unit) (Name := ℕ) (U := UR sig nD τ) (Lvl := ℕ) spec5 c (Vin5 m outs c)
  hentry c := by
    rw [Pipeline.ownSems0_none]
    have hsplit := Pipeline.arrays_of_unscopedBufs (p := 5) (pcfgs (F := F)) adm pdats launch5.win launch5.arr_whole c
      ((pdats 5 c).share_full fun _ => by rw [hp c]; rfl) (Vin5 m outs c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    show iprop((∃ r, prngReg c r) ∗ Pipeline.prefHeld (pcfgs (F := F) 5).pre c (fun _ => fullShare) ((adm (F := F) 5).1) ∗ Pipeline.scopedRest (Ix := Unit) (Name := ℕ) (U := UR sig nD τ) (Lvl := ℕ) (Val := Elt F) spec5 c) ⊢ (Pipeline.ΦA spec5 c : sProp 𝕄)
    unfold Pipeline.ΦA
    iintro ⟨Hp, -, Hr⟩
    isplitl [Hr]; · iexact Hr
    iexact Hp
  hout c := by
    rw [Pipeline.ownSems0_none, hp c]
    show (Pipeline.ΦA spec5 c : sProp 𝕄) ⊢ iprop((∃ r, prngReg c r) ∗ emp ∗ Pipeline.scopedRest (Ix := Unit) (Name := ℕ) (U := UR sig nD τ) (Lvl := ℕ) (Val := Elt F) spec5 c)
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c pdats ((pdats 5 c).share_full fun _ => by rw [hp c]; rfl)
      (Vin5 m outs c) (Vout5 m outs c) ((pdats 5 c).arrAt · cfg5.N) (by rw [hp c]; exact hF5 ho c) (hrest5 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Region6Runs.lean ====
import proofs.«117354_j7189775254092_1_alg».proof.Proof.Gen.KernelIdeal.Launch
import proofs.«117354_j7189775254092_1_alg».proof.Proof.Gen.KernelIdeal.Skeleton
import proofs.«117354_j7189775254092_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 6, `cc6__matmul_stats_kernel`): the body's conditions over the grid and its three runs

The body zeroes the two accumulators under its first condition (the first grid point), adds the tile's column sums
and column sums of squares to them at every point, and under its second condition (the last grid point) copies them
to the two `[1, N]` outputs. Three control cases meet the grid: A (first point), B (the points between), C (last). -/

/-- The zero offsets of a rank-two rectangle, as a constant function. -/
theorem hzero6 : (![0, 0] : Fin 2 → Nat) = fun _ => 0 := funext fun a => by fin_cases a <;> rfl

section Whole

variable {Val : EltTy → Type} [∀ e, Nonempty (Val e)] {sg : RefSig} {κ : Kind} {sp : Space} {S : Shape} {e : EltTy}

/-- A store through the whole-shape rectangle, last, leaves its payload in the buffer whatever was stored before. -/
theorem read_writes_cons_whole6 (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through the whole-shape rectangle reads the buffer's contents. -/
theorem readAt_whole6 (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end Whole

/-! ## The body's two conditions -/

/-- The first condition (`program_id == 0`), from the grid coordinates. -/
abbrev cond6_0 (i : grid6.Coords) : Prop := (Scalar.cmpi .ne (Scalar.extui (Scalar.cmpi .eq (BitVec.ofNat 32 (i 0).val) 0#32)) 0#32) = 1#1
/-- The second condition (`program_id == num_programs - 1`), from the grid coordinates. -/
abbrev cond6_1 (i : grid6.Coords) : Prop := k6_cond2 i = 1#1

/-- The first condition holds at the first point only. -/
theorem hcond6_0 : ∀ t : Fin cfg6.N, cond6_0 (grid6.coords t) ↔ t.val = 0 :=
  (by decide +kernel : ∀ t : Fin grid6.N, cond6_0 (grid6.coords t) ↔ t.val = 0)
/-- The second condition holds at the last point only. -/
theorem hcond6_1 : ∀ t : Fin cfg6.N, cond6_1 (grid6.coords t) ↔ t.val + 1 = cfg6.N :=
  (by decide +kernel : ∀ t : Fin grid6.N, cond6_1 (grid6.coords t) ↔ t.val + 1 = grid6.N)

/-! ## Where the windows are idle -/

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
/-- Off the last point the two `[1, N]` outputs are idle (nothing is stored into them) and are not written back. -/
theorem idleAt6_3 : ∀ t : Fin cfg6.N, ¬cond6_1 (grid6.coords t) → cfg6.idle 3 (grid6.coords t) = true := by decide +kernel
theorem noFlush6_3 : ∀ t : Fin cfg6.N, ¬cond6_1 (grid6.coords t) → (cfg6.win 3).flush t = false := by decide +kernel
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
/-- At the last point they are live. -/
theorem liveAt6_3 : ∀ t : Fin cfg6.N, cond6_1 (grid6.coords t) → cfg6.idle 3 (grid6.coords t) = false := by decide +kernel
theorem liveAt6_4 : ∀ t : Fin cfg6.N, cond6_1 (grid6.coords t) → cfg6.idle 4 (grid6.coords t) = false := by decide +kernel

/-! ## The scratch operands -/

/-- The two accumulators: whole scoped buffers of the kernel's own, passed beside the windows. -/
abbrev scM6_0 : Memref sig .tc .vmem S1x10 .f32 := Memref.whole cc6_scratch0
abbrev scM6_1 : Memref sig .tc .vmem S1x10 .f32 := Memref.whole cc6_scratch1

/-! ## The three runs of the body

On whole memrefs: the two inputs at contents `x0` (the row tile) and `x1` (the weights) are left as they were; the
product's output holds the product `k6_pay1 x1 x0`; the accumulators hold `k6_pay4 x1 x0 s` and `k6_pay5 x1 x0 s'`,
where `s`, `s'` are what they held when the sums were added (zeros at the first point, else what the point before
left); the two `[1, N]` outputs are untouched off the last point and hold the accumulators' new contents at it. -/

set_option maxHeartbeats 1000000 in
/-- Case A, the first point: the accumulators are zeroed, then added to. -/
theorem run6_A (c : Dev nD) (i : grid6.Coords) (arg1 : Memref sig .tc .vmem S256x2048 .bf16) (harg1 : arg1.IsWhole) (arg2 : Memref sig .tc .vmem S10x2048 .f32) (harg2 : arg2.IsWhole) (arg3 : Memref sig .tc .vmem S256x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S1x10 .f32) (harg7 : arg7.IsWhole) (hc0 : cond6_0 i) (hc1 : ¬cond6_1 i)
    (x0 : Vec F S256x2048 .bf16) (x1 : Vec F S10x2048 .f32) (xi3 xi4 : Vec F S1x10 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k6_pay1 x1 x0)
            ∗ owns (c : Thread nD τ) arg4 fullShare xi3 ∗ owns (c : Thread nD τ) arg5 fullShare xi4
            ∗ owns (c : Thread nD τ) arg6 fullShare (k6_pay4 x1 x0 (k6_pay2 (F := F))) ∗ owns (c : Thread nD τ) arg7 fullShare (k6_pay5 x1 x0 (k6_pay3 (F := F)))) -∗ K ⟨⟩))
      ⊢ wp frame (wpE (defs₀ (F := F)) Variants.none c none) E (cc6__matmul_stats_kernel i arg1 harg1 arg2 harg2 arg3 harg3 arg4 harg4 arg5 harg5 arg6 harg6 arg7 harg7) K := by
  simp only [cc6__matmul_stats_kernel_eq_skeleton]; unfold cc6__matmul_stats_kernel_skel
  simp only [k6_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
  subst hf1; subst hf2; subst hf4; subst hf5
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole6 _ _ hzero6, readAt_whole6 _ _ hzero6, readAt_whole6 _ _ hzero6]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole6 _ _ hzero6, readAt_whole6 _ _ hzero6, readAt_whole6 _ _ hzero6, View.readCov_cons_toLoadRect]
  · iexists _; isplitr
    swap; · iexact H7
    ipureintro
    sl_unfold_run_names
    rw [read_writes_cons_whole6 _ _ hzero6, readAt_whole6 _ _ hzero6, readAt_whole6 _ _ hzero6, View.readCov_cons_toLoadRect]

set_option maxHeartbeats 1000000 in
/-- Case B, a point between the first and the last: the accumulators, at what the point before left, are added to. -/
theorem run6_B (c : Dev nD) (i : grid6.Coords) (arg1 : Memref sig .tc .vmem S256x2048 .bf16) (harg1 : arg1.IsWhole) (arg2 : Memref sig .tc .vmem S10x2048 .f32) (harg2 : arg2.IsWhole) (arg3 : Memref sig .tc .vmem S256x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S1x10 .f32) (harg7 : arg7.IsWhole) (hc0 : ¬cond6_0 i) (hc1 : ¬cond6_1 i)
    (x0 : Vec F S256x2048 .bf16) (x1 : Vec F S10x2048 .f32) (xi3 xi4 xs0 xs1 : Vec F S1x10 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k6_pay1 x1 x0)
            ∗ owns (c : Thread nD τ) arg4 fullShare xi3 ∗ owns (c : Thread nD τ) arg5 fullShare xi4
            ∗ owns (c : Thread nD τ) arg6 fullShare (k6_pay4 x1 x0 xs0) ∗ owns (c : Thread nD τ) arg7 fullShare (k6_pay5 x1 x0 xs1)) -∗ K ⟨⟩))
      ⊢ wp frame (wpE (defs₀ (F := F)) Variants.none c none) E (cc6__matmul_stats_kernel i arg1 harg1 arg2 harg2 arg3 harg3 arg4 harg4 arg5 harg5 arg6 harg6 arg7 harg7) K := by
  simp only [cc6__matmul_stats_kernel_eq_skeleton]; unfold cc6__matmul_stats_kernel_skel
  simp only [k6_part1_eq_skeleton]
  unfold owns
  iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  subst hf1; subst hf2; subst hf4; subst hf5; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole6 _ _ hzero6, readAt_whole6 _ _ hzero6, readAt_whole6 _ _ hzero6]
  isplitl [H4]; · iexists _; isplitr; · ipureintro; rfl
                  iexact H4
  isplitl [H5]; · iexists _; isplitr; · ipureintro; rfl
                  iexact H5
  isplitl [H6]
  · iexists _; isplitr
    swap; · iexact H6
    ipureintro
    sl_unfold_run_names
    rw [read_writes_cons_whole6 _ _ hzero6, readAt_whole6 _ _ hzero6, readAt_whole6 _ _ hzero6, readAt_whole6 _ _ hzero6]
  · iexists _; isplitr
    swap; · iexact H7
    ipureintro
    sl_unfold_run_names
    rw [read_writes_cons_whole6 _ _ hzero6, readAt_whole6 _ _ hzero6, readAt_whole6 _ _ hzero6, readAt_whole6 _ _ hzero6]

set_option maxHeartbeats 1000000 in
/-- Case C, the last point: the accumulators are added to, then copied to the two `[1, N]` outputs. -/
theorem run6_C (c : Dev nD) (i : grid6.Coords) (arg1 : Memref sig .tc .vmem S256x2048 .bf16) (harg1 : arg1.IsWhole) (arg2 : Memref sig .tc .vmem S10x2048 .f32) (harg2 : arg2.IsWhole) (arg3 : Memref sig .tc .vmem S256x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S1x10 .f32) (harg7 : arg7.IsWhole) (hc0 : ¬cond6_0 i) (hc1 : cond6_1 i)
    (x0 : Vec F S256x2048 .bf16) (x1 : Vec F S10x2048 .f32) (xs0 xs1 : Vec F S1x10 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k6_pay1 x1 x0)
            ∗ owns (c : Thread nD τ) arg4 fullShare (k6_pay4 x1 x0 xs0) ∗ owns (c : Thread nD τ) arg5 fullShare (k6_pay5 x1 x0 xs1)
            ∗ owns (c : Thread nD τ) arg6 fullShare (k6_pay4 x1 x0 xs0) ∗ owns (c : Thread nD τ) arg7 fullShare (k6_pay5 x1 x0 xs1)) -∗ K ⟨⟩))
      ⊢ wp frame (wpE (defs₀ (F := F)) Variants.none c none) E (cc6__matmul_stats_kernel i arg1 harg1 arg2 harg2 arg3 harg3 arg4 harg4 arg5 harg5 arg6 harg6 arg7 harg7) K := by
  simp only [cc6__matmul_stats_kernel_eq_skeleton]; unfold cc6__matmul_stats_kernel_skel
  simp only [k6_part1_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  subst hf1; subst hf2; subst hf6; subst hf7
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]
  · iexists _; isplitr
    swap; · iexact H3
    ipureintro
    rw [read_writes_cons_whole6 _ _ hzero6, readAt_whole6 _ _ hzero6, readAt_whole6 _ _ hzero6]
  isplitl [H4]
  · iexists _; isplitr
    swap; · iexact H4
    ipureintro
    sl_unfold_run_names
    rw [read_writes_cons_whole6 _ _ hzero6, View.readCov_cons_toLoadRect, readAt_whole6 _ _ hzero6, readAt_whole6 _ _ hzero6, readAt_whole6 _ _ hzero6]
  isplitl [H5]
  · iexists _; isplitr
    swap; · iexact H5
    ipureintro
    sl_unfold_run_names
    rw [read_writes_cons_whole6 _ _ hzero6, View.readCov_cons_toLoadRect, readAt_whole6 _ _ hzero6, readAt_whole6 _ _ hzero6, readAt_whole6 _ _ hzero6]
  isplitl [H6]
  · iexists _; isplitr
    swap; · iexact H6
    ipureintro
    sl_unfold_run_names
    rw [read_writes_cons_whole6 _ _ hzero6, readAt_whole6 _ _ hzero6, readAt_whole6 _ _ hzero6, readAt_whole6 _ _ hzero6]
  · iexists _; isplitr
    swap; · iexact H7
    ipureintro
    sl_unfold_run_names
    rw [read_writes_cons_whole6 _ _ hzero6, readAt_whole6 _ _ hzero6, readAt_whole6 _ _ hzero6, readAt_whole6 _ _ hzero6]

end Cert.KernelIdeal.Hand

end
-- ==== Proof.Region6.lean ====
import proofs.«117354_j7189775254092_1_alg».proof.Proof.Region6Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (custom_call 6, `cc6__matmul_stats_kernel`), at the entry contents `V`: proof data and body obligation

The tile's product is written back at every point; the two accumulators are carried between points in scratch, and
their contents after each point are stated by recursion on the point (`accSum6`, `accSq6`); the two `[1, N]` outputs
are stored (from the accumulators) and written back at the last point only. -/

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for any proof data whose array is `V`'s
    and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's (fetched at the first point only: its block index never moves) likewise. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## What the accumulators hold after each point -/

/-- The column-sum accumulator after point `n`: at the first point the zero row plus the tile's column sums, later
    what the point before left plus the tile's (`k6_pay4`: the body's own association). -/
def accSum6 (c : Dev nD) : (n : ℕ) → n < cfg6.N → Vec F S1x10 .f32
  | 0, h => k6_pay4 (iblk6 V c 1 ⟨0, h⟩) (iblk6 V c 0 ⟨0, h⟩) (k6_pay2 (F := F))
  | n + 1, h => k6_pay4 (iblk6 V c 1 ⟨n + 1, h⟩) (iblk6 V c 0 ⟨n + 1, h⟩) (accSum6 c n (Nat.lt_of_succ_lt h))

/-- The accumulator of the column sums of squares after point `n`, likewise (`k6_pay5`). -/
def accSq6 (c : Dev nD) : (n : ℕ) → n < cfg6.N → Vec F S1x10 .f32
  | 0, h => k6_pay5 (iblk6 V c 1 ⟨0, h⟩) (iblk6 V c 0 ⟨0, h⟩) (k6_pay3 (F := F))
  | n + 1, h => k6_pay5 (iblk6 V c 1 ⟨n + 1, h⟩) (iblk6 V c 0 ⟨n + 1, h⟩) (accSq6 c n (Nat.lt_of_succ_lt h))

theorem accSum6_zero (c : Dev nD) (t : Fin cfg6.N) (h : t.val = 0) :
    accSum6 V c t.val t.isLt = k6_pay4 (iblk6 V c 1 t) (iblk6 V c 0 t) (k6_pay2 (F := F)) := by
  obtain ⟨n, hn⟩ := t
  cases n with
  | zero => rfl
  | succ n => exact absurd h (Nat.succ_ne_zero n)

theorem accSum6_pos (c : Dev nD) (t : Fin cfg6.N) (h : t.val ≠ 0) :
    accSum6 V c t.val t.isLt = k6_pay4 (iblk6 V c 1 t) (iblk6 V c 0 t) (accSum6 V c (t.val - 1) (Nat.lt_of_le_of_lt (Nat.sub_le _ _) t.isLt)) := by
  obtain ⟨n, hn⟩ := t
  cases n with
  | zero => exact absurd rfl h
  | succ n => rfl

theorem accSq6_zero (c : Dev nD) (t : Fin cfg6.N) (h : t.val = 0) :
    accSq6 V c t.val t.isLt = k6_pay5 (iblk6 V c 1 t) (iblk6 V c 0 t) (k6_pay3 (F := F)) := by
  obtain ⟨n, hn⟩ := t
  cases n with
  | zero => rfl
  | succ n => exact absurd h (Nat.succ_ne_zero n)

theorem accSq6_pos (c : Dev nD) (t : Fin cfg6.N) (h : t.val ≠ 0) :
    accSq6 V c t.val t.isLt = k6_pay5 (iblk6 V c 1 t) (iblk6 V c 0 t) (accSq6 V c (t.val - 1) (Nat.lt_of_le_of_lt (Nat.sub_le _ _) t.isLt)) := by
  obtain ⟨n, hn⟩ := t
  cases n with
  | zero => exact absurd rfl h
  | succ n => rfl

/-! ## The region's invariant -/

/-- Before position `n`: the two accumulators — at anything before the first point, afterwards at what the point
    before left in them —, every other scoped buffer no window stages, and the generator register at some state. -/
def Phi6 (c : Dev nD) : (n : ℕ) → n ≤ cfg6.N → sProp 𝕄
  | 0, _ => iprop((∃ d, owns (c : Thread nD τ) scM6_0 fullShare d) ∗ (∃ d, owns (c : Thread nD τ) scM6_1 fullShare d)
      ∗ Pipeline.scopedRestBut (Ix := Unit) (Name := ℕ) (U := UR sig nD τ) (Lvl := ℕ) (Val := Elt F) spec6 c [cc6_scratch0, cc6_scratch1] ∗ (∃ r, prngReg c r))
  | n + 1, hn => iprop(owns (c : Thread nD τ) scM6_0 fullShare (accSum6 V c n hn) ∗ owns (c : Thread nD τ) scM6_1 fullShare (accSq6 V c n hn)
      ∗ Pipeline.scopedRestBut (Ix := Unit) (Name := ℕ) (U := UR sig nD τ) (Lvl := ℕ) (Val := Elt F) spec6 c [cc6_scratch0, cc6_scratch1] ∗ (∃ r, prngReg c r))

theorem Phi6_zero (c : Dev nD) (n : ℕ) (h : n ≤ cfg6.N) (hz : n = 0) :
    Phi6 V c n h = iprop((∃ d, owns (c : Thread nD τ) scM6_0 fullShare d) ∗ (∃ d, owns (c : Thread nD τ) scM6_1 fullShare d)
      ∗ Pipeline.scopedRestBut (Ix := Unit) (Name := ℕ) (U := UR sig nD τ) (Lvl := ℕ) (Val := Elt F) spec6 c [cc6_scratch0, cc6_scratch1] ∗ (∃ r, prngReg c r)) := by
  subst hz; rfl

theorem Phi6_succ (c : Dev nD) (n : ℕ) (hn : n < cfg6.N) :
    Phi6 V c (n + 1) hn = iprop(owns (c : Thread nD τ) scM6_0 fullShare (accSum6 V c n hn) ∗ owns (c : Thread nD τ) scM6_1 fullShare (accSq6 V c n hn)
      ∗ Pipeline.scopedRestBut (Ix := Unit) (Name := ℕ) (U := UR sig nD τ) (Lvl := ℕ) (Val := Elt F) spec6 c [cc6_scratch0, cc6_scratch1] ∗ (∃ r, prngReg c r)) := rfl

theorem Phi6_pos (c : Dev nD) (n : ℕ) (h : n ≤ cfg6.N) (hz : n ≠ 0) :
    Phi6 V c n h = iprop(owns (c : Thread nD τ) scM6_0 fullShare (accSum6 V c (n - 1) (by omega)) ∗ owns (c : Thread nD τ) scM6_1 fullShare (accSq6 V c (n - 1) (by omega))
      ∗ Pipeline.scopedRestBut (Ix := Unit) (Name := ℕ) (U := UR sig nD τ) (Lvl := ℕ) (Val := Elt F) spec6 c [cc6_scratch0, cc6_scratch1] ∗ (∃ r, prngReg c r)) := by
  cases n with
  | zero => exact absurd rfl hz
  | succ n => rfl

/-! ## The pipeline's proof data -/

/-- The proof data of pipeline 6 on core `c`: the arrays as the region finds them (`V`); after the body at point `t`
    each input's buffer at its block, the product's at the product of the blocks, the two `[1, N]` outputs' at the
    accumulators' contents after `t` (consulted at the last point only: elsewhere they are idle); the invariant
    `Phi6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay1 (iblk6 V c 1 t) (iblk6 V c 0 t)
    | ⟨3, _⟩ => accSum6 V c t.val t.isLt
    | ⟨4, _⟩ => accSq6 V c t.val t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem Phi6_castSucc (c : Dev nD) (t : Fin cfg6.N) :
    (dat6 V c).Φ t.castSucc = Phi6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = k6_pay1 (iblk6 V c 1 t) (iblk6 V c 0 t) := by dsimp only [dat6]
theorem after6_3 (c : Dev nD) (t : Fin cfg6.N) : (dat6 V c).after 3 t = accSum6 V c t.val t.isLt := by dsimp only [dat6]
theorem after6_4 (c : Dev nD) (t : Fin cfg6.N) : (dat6 V c).after 4 t = accSq6 V c t.val t.isLt := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4000000 in
/-- The body at any point: the closed forms of the two conditions say which case the point is in; the inputs' memrefs
    hold their blocks; the invariant hands the body the accumulators (at anything at the first point, else at what the
    point before left) and takes them back at this point's contents; off the last point the two `[1, N]` outputs'
    buffers are handed back as found. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = Phi6 V c (t.val + 1) t.isLt from rfl, Phi6_succ]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  have hN : t.val < 32 := lt_of_lt_of_eq t.isLt (show cfg6.N = 32 from N_6)
  have hN' : cfg6.N = 32 := N_6
  by_cases h0 : t.val = 0
  · by_cases h1 : t.val + 1 = cfg6.N
    · exfalso; omega
    · have hc0 : cond6_0 (grid6.coords t) := (hcond6_0 t).mpr h0
      have hc1 : ¬cond6_1 (grid6.coords t) := fun h => h1 ((hcond6_1 t).mp h)
      rw [Dat.leavesExact_idle (dat6 V c) 3 t (idleAt6_3 t hc1) (noFlush6_3 t hc1)]
      rw [Dat.leavesExact_idle (dat6 V c) 4 t (idleAt6_4 t hc1) (noFlush6_4 t hc1)]
      rw [accSum6_zero V c t h0, accSq6_zero V c t h0]
      rw [Phi6_castSucc V c t, Phi6_zero V c _ _ h0]
      iintro ⟨⟨HS0, HS1, HR, Hg⟩, Ho, ⟨%d0, H0⟩, ⟨%d1, H1⟩, ⟨%d2, H2⟩, ⟨%d3, H3⟩, ⟨%d4, H4⟩⟩
      iapply (run6_A c (grid6.coords t) _ _ _ _ _ _ _ _ _ _ _ _ _ _ hc0 hc1 (iblk6 V c 0 t) (iblk6 V c 1 t) _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4
  · by_cases h1 : t.val + 1 = cfg6.N
    · have hc0 : ¬cond6_0 (grid6.coords t) := fun h => h0 ((hcond6_0 t).mp h)
      have hc1 : cond6_1 (grid6.coords t) := (hcond6_1 t).mpr h1
      rw [show (dat6 V c).leavesExact 3 t = owns (c : Thread nD τ) (st6_3 t) fullShare ((dat6 V c).after 3 t) from by
        unfold Dat.leavesExact; rw [liveAt6_3 t hc1], after6_3]
      rw [show (dat6 V c).leavesExact 4 t = owns (c : Thread nD τ) (st6_4 t) fullShare ((dat6 V c).after 4 t) from by
        unfold Dat.leavesExact; rw [liveAt6_4 t hc1], after6_4]
      rw [accSum6_pos V c t h0, accSq6_pos V c t h0]
      rw [Phi6_castSucc V c t, Phi6_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run6_C c (grid6.coords t) _ _ _ _ _ _ _ _ _ _ _ _ _ _ hc0 hc1 (iblk6 V c 0 t) (iblk6 V c 1 t) _ _ Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc0 : ¬cond6_0 (grid6.coords t) := fun h => h0 ((hcond6_0 t).mp h)
      have hc1 : ¬cond6_1 (grid6.coords t) := fun h => h1 ((hcond6_1 t).mp h)
      rw [Dat.leavesExact_idle (dat6 V c) 3 t (idleAt6_3 t hc1) (noFlush6_3 t hc1)]
      rw [Dat.leavesExact_idle (dat6 V c) 4 t (idleAt6_4 t hc1) (noFlush6_4 t hc1)]
      rw [accSum6_pos V c t h0, accSq6_pos V c t h0]
      rw [Phi6_castSucc V c t, Phi6_pos V c _ _ h0]
      iintro ⟨⟨HS0, HS1, HR, Hg⟩, Ho, ⟨%d0, H0⟩, ⟨%d1, H1⟩, ⟨%d2, H2⟩, ⟨%d3, H3⟩, ⟨%d4, H4⟩⟩
      iapply (run6_B c (grid6.coords t) _ _ _ _ _ _ _ _ _ _ _ _ _ _ hc0 hc1 (iblk6 V c 0 t) (iblk6 V c 1 t) _ _ _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Into and out of the invariant -/

/-- The generator register and the scoped buffers no window stages make the invariant before the first point: the two
    accumulators are among those buffers, each whole at some contents. -/
theorem hin6 (c : Dev nD) : iprop((∃ r, prngReg c r) ∗ Pipeline.scopedRest (Ix := Unit) (Name := ℕ) (U := UR sig nD τ) (Lvl := ℕ) (Val := Elt F) spec6 c) ⊢ (dat6 V c).Φ 0 := by
  rw [show (dat6 V c).Φ 0 = Phi6 V c 0 (Nat.zero_le _) from rfl, Phi6_zero V c 0 _ rfl, scopedRest6_split]
  simp only [scM6_0, scM6_1, owns_whole]
  iintro ⟨Hg, ⟨HS0, HS1⟩, HR⟩
  isplitl [HS0]; · iexact HS0
  isplitl [HS1]; · iexact HS1
  isplitl [HR]; · iexact HR
  iexact Hg

/-- After the last point the invariant gives them back, the accumulators' named contents forgotten. -/
theorem hout6 (c : Dev nD) : (dat6 V c).Φ (Fin.last cfg6.N) ⊢ iprop((∃ r, prngReg c r) ∗ Pipeline.scopedRest (Ix := Unit) (Name := ℕ) (U := UR sig nD τ) (Lvl := ℕ) (Val := Elt F) spec6 c) := by
  rw [show (dat6 V c).Φ (Fin.last cfg6.N) = Phi6 V c (Fin.last cfg6.N).val (Nat.le_of_lt_succ (Fin.last cfg6.N).isLt) from rfl,
    Phi6_pos V c _ _ (by rw [Fin.val_last]; have : cfg6.N = 32 := N_6; omega), scopedRest6_split]
  simp only [scM6_0, scM6_1, owns_whole]
  iintro ⟨HS0, HS1, HR, Hg⟩
  isplitl [Hg]; · iexact Hg
  isplitl [HS0 HS1]
  · isplitl [HS0]; · iexists _; iexact HS0
    iexists _; iexact HS1
  iexact HR

end Cert.KernelIdeal.Hand

end
-- ==== Proof.Seg6.lean ====
/-
  Region 6 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.RunRegs
import proofs.«117354_j7189775254092_1_alg».proof.Proof.Region6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 6 is entered from, read at the TensorCore's references. -/
abbrev Vin6 : (c : Dev nD) → (b : Ref sig .tc) → Buf (Elt F) ((c : Thread nD τ).loc b) := fun c b => V10 m outs c b
/-- The buffer contents region 6 is left at, read at the TensorCore's references. -/
abbrev Vout6 : (c : Dev nD) → (b : Ref sig .tc) → Buf (Elt F) ((c : Thread nD τ).loc b) := fun c b => V11 m outs c b

/-- What `outs` must hold for region 6: each output array at what the pipeline's write-backs leave. -/
def OutsOk6 : Prop := ∀ c : Dev nD, (outs 11 main_v49_0 c = (dat6 (Vin6 m outs) c).arrAt 2 cfg6.N) ∧ (outs 11 main_v49_1 c = (dat6 (Vin6 m outs) c).arrAt 3 cfg6.N) ∧ (outs 11 main_v49_2 c = (dat6 (Vin6 m outs) c).arrAt 4 cfg6.N)

/-- The valuation after the region holds `outs`' value at `main_v49_0`. -/
theorem Vafter_at_6_2 (c : Dev nD) : Vout6 m outs c main_v49_0 = outs 11 main_v49_0 c := by
  show V11 m outs c (Proc.devRef .tc main_v49_0) = _
  simp only [V11, Function.update_of_ne (StableHlo.devRef_ne_of_ne (by decide) : (Proc.devRef .tc main_v49_0 : DevRef τ sig) ≠ Proc.devRef .tc main_v49_2), Function.update_of_ne (StableHlo.devRef_ne_of_ne (by decide) : (Proc.devRef .tc main_v49_0 : DevRef τ sig) ≠ Proc.devRef .tc main_v49_1), Function.update_self]
/-- The valuation after the region holds `outs`' value at `main_v49_1`. -/
theorem Vafter_at_6_3 (c : Dev nD) : Vout6 m outs c main_v49_1 = outs 11 main_v49_1 c := by
  show V11 m outs c (Proc.devRef .tc main_v49_1) = _
  simp only [V11, Function.update_of_ne (StableHlo.devRef_ne_of_ne (by decide) : (Proc.devRef .tc main_v49_1 : DevRef τ sig) ≠ Proc.devRef .tc main_v49_2), Function.update_self]
/-- The valuation after the region holds `outs`' value at `main_v49_2`. -/
theorem Vafter_at_6_4 (c : Dev nD) : Vout6 m outs c main_v49_2 = outs 11 main_v49_2 c := by
  show V11 m outs c (Proc.devRef .tc main_v49_2) = _
  simp only [V11, Function.update_self]

variable {m outs}

/-- At the region's exit each of its arrays holds what the pipeline leaves. -/
theorem hF6 (ho : OutsOk6 m outs) (c : Dev nD) (w : Fin cfg6.W) :
    (dat6 (Vin6 m outs) c).arrAt w cfg6.N = Vout6 m outs c (Pipeline.arrRef spec6 w) := by
  match w with
  | ⟨0, _⟩ => exact ((dat6 (Vin6 m outs) c).arrAt_in ⟨0, by decide⟩ rfl cfg6.N).trans ((A_eq6 (Vin6 m outs) c ⟨0, by decide⟩).trans (V11_of m outs c _ (by decide)).symm)
  | ⟨1, _⟩ => exact ((dat6 (Vin6 m outs) c).arrAt_in ⟨1, by decide⟩ rfl cfg6.N).trans ((A_eq6 (Vin6 m outs) c ⟨1, by decide⟩).trans (V11_of m outs c _ (by decide)).symm)
  | ⟨2, _⟩ => exact (((ho c).1).symm.trans (Vafter_at_6_2 m outs c).symm : _ = Vout6 m outs c main_v49_0)
  | ⟨3, _⟩ => exact (((ho c).2.1).symm.trans (Vafter_at_6_3 m outs c).symm : _ = Vout6 m outs c main_v49_1)
  | ⟨4, _⟩ => exact (((ho c).2.2).symm.trans (Vafter_at_6_4 m outs c).symm : _ = Vout6 m outs c main_v49_2)

/-- Every other buffer is left as entered. -/
theorem hrest6 (c : Dev nD) : ∀ b, b ∉ Finset.univ.image (Pipeline.arrRef spec6) → Vout6 m outs c b = Vin6 m outs c b :=
  fun b hb => V11_of m outs c b (fun h => hb (by
    simp only [List.mem_cons, List.mem_nil_iff, _root_.or_false] at h
    rcases h with rfl | rfl | rfl
    · exact Finset.mem_image.mpr ⟨⟨2, by decide⟩, Finset.mem_univ _, rfl⟩
    · exact Finset.mem_image.mpr ⟨⟨3, by decide⟩, Finset.mem_univ _, rfl⟩
    · exact Finset.mem_image.mpr ⟨⟨4, by decide⟩, Finset.mem_univ _, rfl⟩))

set_option backward.isDefEq.respectTransparency.types false in
/-- Region 6 as a segment, for any family of proof data whose component here is `dat6` at the entry contents. -/
def seg6 (pdats : (p : Fin 8) → (c : Dev nD) → Dat τ (Elt F) Unit ℕ (UR sig nD τ) ℕ (cfgs p) c)
    (hp : ∀ c, pdats 6 c = dat6 (Vin6 m outs) c) (ho : OutsOk6 m outs) :
    RegionSeg (pcfgs (F := F)) adm pdats () defs₀ Variants.none L0 lv0 6 where
  win := launch6.win.to₀
  block_pos := launch6.block_pos
  stage_whole := launch6.stage_whole
  K := PEmpty
  osem k := k.elim
  ho := Pipeline.OwnSemFacts.none _
  hbody c := by rw [hp c]; exact (body_obligation6 (Vin6 m outs) c).loose
  hwaits := Pipeline.hwaits_of_owed_zero _ _ _ _ L0 lv0 6 fun c t => by rw [hp c]; rfl
  pre c := iprop(StableHlo.held (c : Thread nD τ) (Pipeline.ucRefs τ sig) (V10 m outs c) ∗ Rest (F := F) c)
  post c := iprop(StableHlo.held (c : Thread nD τ) (Pipeline.ucRefs τ sig) (V11 m outs c) ∗ Rest (F := F) c)
  X c := iprop(∃ r, prngReg c r)
  Y c := iprop(∃ r, prngReg c r)
  Z c := Pipeline.unscopedRest (Ix := Unit) (Name := ℕ) (U := UR sig nD τ) (Lvl := ℕ) spec6 c (Vin6 m outs c)
  hentry c := by
    rw [Pipeline.ownSems0_none]
    have hsplit := Pipeline.arrays_of_unscopedBufs (p := 6) (pcfgs (F := F)) adm pdats launch6.win launch6.arr_whole c
      ((pdats 6 c).share_full fun _ => by rw [hp c]; rfl) (Vin6 m outs c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    iintro ⟨Hp, -, Hr⟩
    iapply (hin6 (Vin6 m outs) c)
    isplitl [Hp]; · iexact Hp
    iexact Hr
  hout c := by
    rw [Pipeline.ownSems0_none, hp c]
    iintro H
    ihave H' := (hout6 (Vin6 m outs) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c pdats ((pdats 6 c).share_full fun _ => by rw [hp c]; rfl)
      (Vin6 m outs c) (Vout6 m outs c) ((pdats 6 c).arrAt · cfg6.N) (by rw [hp c]; exact hF6 ho c) (hrest6 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Region7.lean ====
/- The body half of region 7 of @main (custom_call 7, `cc7_kernel`, pipeline 7), at ANY float instance `F` and at a
   PARAMETER `V` — the TensorCore's buffer contents when the region is entered.

   The body is pointwise: it loads the tile of window 0 and the two row vectors of windows 1 and 2, computes a payload
   (`k7_pay1`: the tile times the first row plus the second row, each row broadcast down the tile; with no
   rounding or clamping on this last layer), and stores it over the whole staging buffer of window 3. So what the body leaves in the output
   buffer is a closed function of the three input blocks at the point (`out7_3`), and what it finds in each input buffer
   is that window's block at the point, fetched there or not: windows 1 and 2 are fetched at the first point only, and at
   every later point their block index has not moved, so the buffer still holds the same block.

   Delivered: the blocks `iblk7`, the input-side lemmas `before7_W_of`, the output buffer's contents `out7_3` and its
   cover `cover7_3`, the body's triple `sound_kernel7`, the proof data `dat7`, and the body obligation
   `body_obligation7`. -/
import proofs.«117354_j7189775254092_1_alg».proof.Proof.Gen.KernelIdeal.Launch
import proofs.«117354_j7189775254092_1_alg».proof.Proof.Gen.KernelIdeal.Skeleton
import proofs.«117354_j7189775254092_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, for ANY proof data whose array is `V`'s
    (`hA`) and whose body leaves the block in place (`hafter`): the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not: it is fetched at the
    first point only, and where it is not fetched its block index has not moved, so the buffer still holds the
    previous point's block, which is this point's. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, fetched there or not (as window 1's). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole tile: what the body loads of window 0's buffer and stores over window 3's. -/
abbrev r7_0 : Rect S256x10 := Rect.unit (s := S256x10) ![0, 0] S256x10.size inb_S256x10_S256x10_0_0
/-- The whole row vector: what the body loads of window 1's and of window 2's buffer. -/
abbrev r7_1 : Rect S1x10 := Rect.unit (s := S1x10) ![0, 0] S1x10.size inb_S1x10_S1x10_0_0

/-! ## What the body leaves in the output window's buffer -/

/-- Window 3's staging buffer after the body, from the input windows' blocks: its one store as a piece, the payload
    the skeleton's over what the three loads read. -/
def out7_3 (x0 : Vec F S256x10 .f32) (x1 : Vec F S1x10 .f32) (x2 : Vec F S1x10 .f32) : Vec F S256x10 .f32 :=
  View.canon [⟨r7_0, k7_pay1 (View.ld x0 r7_0) (View.ld x1 r7_1) (View.ld x2 r7_1)⟩]

/-- The store is over the whole buffer, so it covers it (one block, checked by evaluation). -/
theorem cover7_3 (p0 : Vec F S256x10 .f32) (y : S256x10.Idx) :
    ∃ pc ∈ ([⟨r7_0, p0⟩] : List (View.Piece (Elt F) S256x10 .f32)), y ∈ pc.1.set :=
  View.cover_of_tiled [⟨r7_0, p0⟩] S256x10.size (by rfl) y

/-! ## The body's triple -/

set_option maxHeartbeats 1000000 in
/-- The kernel body on whole staging memrefs, the inputs' at read contents `xW` and the output's at anything, runs to
    the continuation holding the inputs' as they were and the output's at `out7_3` of the inputs'. The body also loads
    the output buffer before it stores over all of it; the value loaded is not used, so the buffer's prior contents do
    not matter. -/
theorem sound_kernel7 (c : Dev nD) (E : Set ℕ) (i : grid7.Coords) (arg1 : Memref sig .tc .vmem S256x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S256x10 .f32) (harg4 : arg4.IsWhole)
    (x0 : Vec F S256x10 .f32) (x1 : Vec F S1x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7_kernel i arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them (`V`); after the body at point `t`
    each input's buffer at its block and the output's at `out7_3` of the input blocks; the invariant the scoped rest
    and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents (the definition projected). -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region7

end Cert.KernelIdeal.Hand
-- ==== Proof.Seg7.lean ====
/-
  Region 7 of @main as a segment of the run.

  The region is entered with every unscoped buffer held at the valuation before it and left with them held at the valuation
  after it. On entry its windows' arrays are split out of the unscoped buffers; on exit they are put back at what the
  pipeline leaves: an input window's array as entered, each output window's at the folded write-backs, which is what the
  valuation after the region holds there. The generator register goes into the invariant and comes back; nothing is owed;
  the kernel has no semaphore of its own.
-/
import proofs.«117354_j7189775254092_1_alg».proof.Proof.RunRegs
import proofs.«117354_j7189775254092_1_alg».proof.Proof.Region7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents region 7 is entered from, read at the TensorCore's references. -/
abbrev Vin7 : (c : Dev nD) → (b : Ref sig .tc) → Buf (Elt F) ((c : Thread nD τ).loc b) := fun c b => V12 m outs c b
/-- The buffer contents region 7 is left at, read at the TensorCore's references. -/
abbrev Vout7 : (c : Dev nD) → (b : Ref sig .tc) → Buf (Elt F) ((c : Thread nD τ).loc b) := fun c b => V13 m outs c b

/-- What `outs` must hold for region 7: each output array at what the pipeline's write-backs leave. -/
def OutsOk7 : Prop := ∀ c : Dev nD, (outs 13 main_v64 c = (dat7 (Vin7 m outs) c).arrAt 3 cfg7.N)

/-- The valuation after the region holds `outs`' value at `main_v64`. -/
theorem Vafter_at_7_3 (c : Dev nD) : Vout7 m outs c main_v64 = outs 13 main_v64 c := by
  show V13 m outs c (Proc.devRef .tc main_v64) = _
  simp only [V13, Function.update_self]

variable {m outs}

/-- At the region's exit each of its arrays holds what the pipeline leaves. -/
theorem hF7 (ho : OutsOk7 m outs) (c : Dev nD) (w : Fin cfg7.W) :
    (dat7 (Vin7 m outs) c).arrAt w cfg7.N = Vout7 m outs c (Pipeline.arrRef spec7 w) := by
  match w with
  | ⟨0, _⟩ => exact ((dat7 (Vin7 m outs) c).arrAt_in ⟨0, by decide⟩ rfl cfg7.N).trans ((A_eq7 (Vin7 m outs) c ⟨0, by decide⟩).trans (V13_of m outs c _ (by decide)).symm)
  | ⟨1, _⟩ => exact ((dat7 (Vin7 m outs) c).arrAt_in ⟨1, by decide⟩ rfl cfg7.N).trans ((A_eq7 (Vin7 m outs) c ⟨1, by decide⟩).trans (V13_of m outs c _ (by decide)).symm)
  | ⟨2, _⟩ => exact ((dat7 (Vin7 m outs) c).arrAt_in ⟨2, by decide⟩ rfl cfg7.N).trans ((A_eq7 (Vin7 m outs) c ⟨2, by decide⟩).trans (V13_of m outs c _ (by decide)).symm)
  | ⟨3, _⟩ => exact (((ho c)).symm.trans (Vafter_at_7_3 m outs c).symm : _ = Vout7 m outs c main_v64)

/-- Every other buffer is left as entered. -/
theorem hrest7 (c : Dev nD) : ∀ b, b ∉ Finset.univ.image (Pipeline.arrRef spec7) → Vout7 m outs c b = Vin7 m outs c b :=
  fun b hb => V13_of m outs c b (fun h => hb (by
    simp only [List.mem_cons, List.mem_nil_iff, _root_.or_false] at h
    subst h
    exact Finset.mem_image.mpr ⟨⟨3, by decide⟩, Finset.mem_univ _, rfl⟩))

set_option backward.isDefEq.respectTransparency.types false in
/-- Region 7 as a segment, for any family of proof data whose component here is `dat7` at the entry contents. -/
def seg7 (pdats : (p : Fin 8) → (c : Dev nD) → Dat τ (Elt F) Unit ℕ (UR sig nD τ) ℕ (cfgs p) c)
    (hp : ∀ c, pdats 7 c = dat7 (Vin7 m outs) c) (ho : OutsOk7 m outs) :
    RegionSeg (pcfgs (F := F)) adm pdats () defs₀ Variants.none L0 lv0 7 where
  win := launch7.win.to₀
  block_pos := launch7.block_pos
  stage_whole := launch7.stage_whole
  K := PEmpty
  osem k := k.elim
  ho := Pipeline.OwnSemFacts.none _
  hbody c := by rw [hp c]; exact (body_obligation7 (Vin7 m outs) c).loose
  hwaits := Pipeline.hwaits_of_owed_zero _ _ _ _ L0 lv0 7 fun c t => by rw [hp c]; rfl
  pre c := iprop(StableHlo.held (c : Thread nD τ) (Pipeline.ucRefs τ sig) (V12 m outs c) ∗ Rest (F := F) c)
  post c := iprop(StableHlo.held (c : Thread nD τ) (Pipeline.ucRefs τ sig) (V13 m outs c) ∗ Rest (F := F) c)
  X c := iprop(∃ r, prngReg c r)
  Y c := iprop(∃ r, prngReg c r)
  Z c := Pipeline.unscopedRest (Ix := Unit) (Name := ℕ) (U := UR sig nD τ) (Lvl := ℕ) spec7 c (Vin7 m outs c)
  hentry c := by
    rw [Pipeline.ownSems0_none]
    have hsplit := Pipeline.arrays_of_unscopedBufs (p := 7) (pcfgs (F := F)) adm pdats launch7.win launch7.arr_whole c
      ((pdats 7 c).share_full fun _ => by rw [hp c]; rfl) (Vin7 m outs c) fun w => by rw [hp c]; rfl
    rw [Pipeline.unscopedBufs_held, hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    show iprop((∃ r, prngReg c r) ∗ Pipeline.prefHeld (pcfgs (F := F) 7).pre c (fun _ => fullShare) ((adm (F := F) 7).1) ∗ Pipeline.scopedRest (Ix := Unit) (Name := ℕ) (U := UR sig nD τ) (Lvl := ℕ) (Val := Elt F) spec7 c) ⊢ (Pipeline.ΦA spec7 c : sProp 𝕄)
    unfold Pipeline.ΦA
    iintro ⟨Hp, -, Hr⟩
    isplitl [Hr]; · iexact Hr
    iexact Hp
  hout c := by
    rw [Pipeline.ownSems0_none, hp c]
    show (Pipeline.ΦA spec7 c : sProp 𝕄) ⊢ iprop((∃ r, prngReg c r) ∗ emp ∗ Pipeline.scopedRest (Ix := Unit) (Name := ℕ) (U := UR sig nD τ) (Lvl := ℕ) (Val := Elt F) spec7 c)
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c pdats ((pdats 7 c).share_full fun _ => by rw [hp c]; rfl)
      (Vin7 m outs c) (Vout7 m outs c) ((pdats 7 c).arrAt · cfg7.N) (by rw [hp c]; exact hF7 ho c) (hrest7 c)
    rw [Pipeline.unscopedBufs_held, hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.ChainDefs.lean ====
/-
  The kernel's program run to its end: the buffers' contents at every boundary, and the run.

  The contents are a chain from the launch memory: a host stretch applies its operations; a region sets each of its output
  arrays to what its pipeline's write-backs leave (the proof datum's folded array at the last point) and leaves every other
  buffer alone. Reading `outs` off this chain makes the library's valuations, written over unknown `outs`, equal to the chain's
  step by step, and each region's requirement on `outs` hold by construction. The eight regions' segments then give the
  run: it terminates, the result array ends at the chain's last contents of it, every argument array as launched.
-/
import proofs.«117354_j7189775254092_1_alg».proof.Proof.Seg0
import proofs.«117354_j7189775254092_1_alg».proof.Proof.Seg1
import proofs.«117354_j7189775254092_1_alg».proof.Proof.Seg2
import proofs.«117354_j7189775254092_1_alg».proof.Proof.Seg3
import proofs.«117354_j7189775254092_1_alg».proof.Proof.Seg4
import proofs.«117354_j7189775254092_1_alg».proof.Proof.Seg5
import proofs.«117354_j7189775254092_1_alg».proof.Proof.Seg6
import proofs.«117354_j7189775254092_1_alg».proof.Proof.Seg7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

variable (m : (ℓ : Loc nD τ sig) → Buf (Elt F) ℓ)

/-! ## The chain of contents -/

/-- Core `c`'s unscoped buffers at launch. -/
abbrev Ct0 (c : Dev nD) : Valuation τ sig (Elt F) := fun b => m (c, b)
/-- After the host stretch `hostOps0`. -/
def Ct1 (c : Dev nD) : Valuation τ sig (Elt F) := StableHlo.after hostOps0 (Ct0 m c)
/-- After region 0: its output arrays at what the pipeline's write-backs leave, every other buffer as before. -/
def Ct2 (c : Dev nD) : Valuation τ sig (Elt F) :=
  Function.update (Function.update (Function.update (Ct1 m c) main_v1_0 ((dat0 (fun c b => Ct1 m c b) c).arrAt 2 cfg0.N)) main_v1_1 ((dat0 (fun c b => Ct1 m c b) c).arrAt 3 cfg0.N)) main_v1_2 ((dat0 (fun c b => Ct1 m c b) c).arrAt 4 cfg0.N)
/-- After the host stretch `hostOps1`. -/
def Ct3 (c : Dev nD) : Valuation τ sig (Elt F) := StableHlo.after hostOps1 (Ct2 m c)
/-- After region 1: its output array at what the pipeline's write-backs leave, every other buffer as before. -/
def Ct4 (c : Dev nD) : Valuation τ sig (Elt F) :=
  Function.update (Ct3 m c) main_v16 ((dat1 (fun c b => Ct3 m c b) c).arrAt 3 cfg1.N)
/-- After region 2: its output arrays at what the pipeline's write-backs leave, every other buffer as before. -/
def Ct5 (c : Dev nD) : Valuation τ sig (Elt F) :=
  Function.update (Function.update (Function.update (Ct4 m c) main_v17_0 ((dat2 (fun c b => Ct4 m c b) c).arrAt 2 cfg2.N)) main_v17_1 ((dat2 (fun c b => Ct4 m c b) c).arrAt 3 cfg2.N)) main_v17_2 ((dat2 (fun c b => Ct4 m c b) c).arrAt 4 cfg2.N)
/-- After the host stretch `hostOps3`. -/
def Ct6 (c : Dev nD) : Valuation τ sig (Elt F) := StableHlo.after hostOps3 (Ct5 m c)
/-- After region 3: its output array at what the pipeline's write-backs leave, every other buffer as before. -/
def Ct7 (c : Dev nD) : Valuation τ sig (Elt F) :=
  Function.update (Ct6 m c) main_v32 ((dat3 (fun c b => Ct6 m c b) c).arrAt 3 cfg3.N)
/-- After region 4: its output arrays at what the pipeline's write-backs leave, every other buffer as before. -/
def Ct8 (c : Dev nD) : Valuation τ sig (Elt F) :=
  Function.update (Function.update (Function.update (Ct7 m c) main_v33_0 ((dat4 (fun c b => Ct7 m c b) c).arrAt 2 cfg4.N)) main_v33_1 ((dat4 (fun c b => Ct7 m c b) c).arrAt 3 cfg4.N)) main_v33_2 ((dat4 (fun c b => Ct7 m c b) c).arrAt 4 cfg4.N)
/-- After the host stretch `hostOps5`. -/
def Ct9 (c : Dev nD) : Valuation τ sig (Elt F) := StableHlo.after hostOps5 (Ct8 m c)
/-- After region 5: its output array at what the pipeline's write-backs leave, every other buffer as before. -/
def Ct10 (c : Dev nD) : Valuation τ sig (Elt F) :=
  Function.update (Ct9 m c) main_v48 ((dat5 (fun c b => Ct9 m c b) c).arrAt 3 cfg5.N)
/-- After region 6: its output arrays at what the pipeline's write-backs leave, every other buffer as before. -/
def Ct11 (c : Dev nD) : Valuation τ sig (Elt F) :=
  Function.update (Function.update (Function.update (Ct10 m c) main_v49_0 ((dat6 (fun c b => Ct10 m c b) c).arrAt 2 cfg6.N)) main_v49_1 ((dat6 (fun c b => Ct10 m c b) c).arrAt 3 cfg6.N)) main_v49_2 ((dat6 (fun c b => Ct10 m c b) c).arrAt 4 cfg6.N)
/-- After the host stretch `hostOps7`. -/
def Ct12 (c : Dev nD) : Valuation τ sig (Elt F) := StableHlo.after hostOps7 (Ct11 m c)
/-- After region 7: its output array at what the pipeline's write-backs leave, every other buffer as before. -/
def Ct13 (c : Dev nD) : Valuation τ sig (Elt F) :=
  Function.update (Ct12 m c) main_v64 ((dat7 (fun c b => Ct12 m c b) c).arrAt 3 cfg7.N)

/-- What the regions leave, read off the chain: `outs J r c` is `r`'s contents after item J−1. -/
def outs : Outs (F := F) := fun J r c => match J with
  | 2 => Ct2 m c (Proc.devRef .tc r)
  | 4 => Ct4 m c (Proc.devRef .tc r)
  | 5 => Ct5 m c (Proc.devRef .tc r)
  | 7 => Ct7 m c (Proc.devRef .tc r)
  | 8 => Ct8 m c (Proc.devRef .tc r)
  | 10 => Ct10 m c (Proc.devRef .tc r)
  | 11 => Ct11 m c (Proc.devRef .tc r)
  | _ => Ct13 m c (Proc.devRef .tc r)
theorem outs_2 (r : Ref sig .tc) (c : Dev nD) : outs m 2 r c = Ct2 m c (Proc.devRef .tc r) := rfl
theorem outs_4 (r : Ref sig .tc) (c : Dev nD) : outs m 4 r c = Ct4 m c (Proc.devRef .tc r) := rfl
theorem outs_5 (r : Ref sig .tc) (c : Dev nD) : outs m 5 r c = Ct5 m c (Proc.devRef .tc r) := rfl
theorem outs_7 (r : Ref sig .tc) (c : Dev nD) : outs m 7 r c = Ct7 m c (Proc.devRef .tc r) := rfl
theorem outs_8 (r : Ref sig .tc) (c : Dev nD) : outs m 8 r c = Ct8 m c (Proc.devRef .tc r) := rfl
theorem outs_10 (r : Ref sig .tc) (c : Dev nD) : outs m 10 r c = Ct10 m c (Proc.devRef .tc r) := rfl
theorem outs_11 (r : Ref sig .tc) (c : Dev nD) : outs m 11 r c = Ct11 m c (Proc.devRef .tc r) := rfl
theorem outs_13 (r : Ref sig .tc) (c : Dev nD) : outs m 13 r c = Ct13 m c (Proc.devRef .tc r) := rfl

/-! ## The library's valuations at these `outs` are the chain -/

/-- Three updates of `f` by the values of `g` give `g`, when `g` agrees with `f` everywhere else. -/
theorem update3_eq_self {f g : Valuation τ sig (Elt F)} {a b d : DevRef τ sig}
    (h : ∀ x, x ≠ a → x ≠ b → x ≠ d → g x = f x) :
    Function.update (Function.update (Function.update f a (g a)) b (g b)) d (g d) = g := by
  funext x
  by_cases hd : x = d
  · subst hd; rw [Function.update_self]
  · rw [Function.update_of_ne hd]
    by_cases hb : x = b
    · subst hb; rw [Function.update_self]
    · rw [Function.update_of_ne hb]
      by_cases ha : x = a
      · subst ha; rw [Function.update_self]
      · rw [Function.update_of_ne ha]; exact (h x ha hb hd).symm

/-- One update of `f` by the value of `g` gives `g`, when `g` agrees with `f` everywhere else. -/
theorem update1_eq_self {f g : Valuation τ sig (Elt F)} {a : DevRef τ sig} (h : ∀ x, x ≠ a → g x = f x) :
    Function.update f a (g a) = g := by
  funext x
  by_cases ha : x = a
  · subst ha; rw [Function.update_self]
  · rw [Function.update_of_ne ha]; exact (h x ha).symm

theorem V1_eq (c : Dev nD) : V1 m c = Ct1 m c := rfl
theorem Ct2_at_main_v1_0 (c : Dev nD) : Ct2 m c (Proc.devRef .tc main_v1_0) = (dat0 (fun c b => Ct1 m c b) c).arrAt 2 cfg0.N := by
  simp only [Ct2, Function.update_of_ne (StableHlo.devRef_ne_of_ne (by decide) : (Proc.devRef .tc main_v1_0 : DevRef τ sig) ≠ Proc.devRef .tc main_v1_2), Function.update_of_ne (StableHlo.devRef_ne_of_ne (by decide) : (Proc.devRef .tc main_v1_0 : DevRef τ sig) ≠ Proc.devRef .tc main_v1_1), Function.update_self]
theorem Ct2_at_main_v1_1 (c : Dev nD) : Ct2 m c (Proc.devRef .tc main_v1_1) = (dat0 (fun c b => Ct1 m c b) c).arrAt 3 cfg0.N := by
  simp only [Ct2, Function.update_of_ne (StableHlo.devRef_ne_of_ne (by decide) : (Proc.devRef .tc main_v1_1 : DevRef τ sig) ≠ Proc.devRef .tc main_v1_2), Function.update_self]
theorem Ct2_at_main_v1_2 (c : Dev nD) : Ct2 m c (Proc.devRef .tc main_v1_2) = (dat0 (fun c b => Ct1 m c b) c).arrAt 4 cfg0.N := by
  simp only [Ct2, Function.update_self]
theorem V2_eq (c : Dev nD) : V2 m (outs m) c = Ct2 m c := by
  unfold V2
  rw [outs_2, outs_2, outs_2]
  refine update3_eq_self fun x ha hb hd => ?_
  unfold Ct2
  rw [Function.update_of_ne hd, Function.update_of_ne hb, Function.update_of_ne ha]
  rfl
theorem V3_eq (c : Dev nD) : V3 m (outs m) c = Ct3 m c := by
  show StableHlo.after hostOps1 (V2 m (outs m) c) = StableHlo.after hostOps1 (Ct2 m c)
  rw [V2_eq]
theorem Ct4_at_main_v16 (c : Dev nD) : Ct4 m c (Proc.devRef .tc main_v16) = (dat1 (fun c b => Ct3 m c b) c).arrAt 3 cfg1.N := by
  simp only [Ct4, Function.update_self]
theorem V4_eq (c : Dev nD) : V4 m (outs m) c = Ct4 m c := by
  unfold V4
  rw [outs_4, V3_eq]
  refine update1_eq_self fun x ha => ?_
  unfold Ct4
  rw [Function.update_of_ne ha]
theorem Ct5_at_main_v17_0 (c : Dev nD) : Ct5 m c (Proc.devRef .tc main_v17_0) = (dat2 (fun c b => Ct4 m c b) c).arrAt 2 cfg2.N := by
  simp only [Ct5, Function.update_of_ne (StableHlo.devRef_ne_of_ne (by decide) : (Proc.devRef .tc main_v17_0 : DevRef τ sig) ≠ Proc.devRef .tc main_v17_2), Function.update_of_ne (StableHlo.devRef_ne_of_ne (by decide) : (Proc.devRef .tc main_v17_0 : DevRef τ sig) ≠ Proc.devRef .tc main_v17_1), Function.update_self]
theorem Ct5_at_main_v17_1 (c : Dev nD) : Ct5 m c (Proc.devRef .tc main_v17_1) = (dat2 (fun c b => Ct4 m c b) c).arrAt 3 cfg2.N := by
  simp only [Ct5, Function.update_of_ne (StableHlo.devRef_ne_of_ne (by decide) : (Proc.devRef .tc main_v17_1 : DevRef τ sig) ≠ Proc.devRef .tc main_v17_2), Function.update_self]
theorem Ct5_at_main_v17_2 (c : Dev nD) : Ct5 m c (Proc.devRef .tc main_v17_2) = (dat2 (fun c b => Ct4 m c b) c).arrAt 4 cfg2.N := by
  simp only [Ct5, Function.update_self]
theorem V5_eq (c : Dev nD) : V5 m (outs m) c = Ct5 m c := by
  unfold V5
  rw [outs_5, outs_5, outs_5, V4_eq]
  refine update3_eq_self fun x ha hb hd => ?_
  unfold Ct5
  rw [Function.update_of_ne hd, Function.update_of_ne hb, Function.update_of_ne ha]
theorem V6_eq (c : Dev nD) : V6 m (outs m) c = Ct6 m c := by
  show StableHlo.after hostOps3 (V5 m (outs m) c) = StableHlo.after hostOps3 (Ct5 m c)
  rw [V5_eq]
theorem Ct7_at_main_v32 (c : Dev nD) : Ct7 m c (Proc.devRef .tc main_v32) = (dat3 (fun c b => Ct6 m c b) c).arrAt 3 cfg3.N := by
  simp only [Ct7, Function.update_self]
theorem V7_eq (c : Dev nD) : V7 m (outs m) c = Ct7 m c := by
  unfold V7
  rw [outs_7, V6_eq]
  refine update1_eq_self fun x ha => ?_
  unfold Ct7
  rw [Function.update_of_ne ha]
theorem Ct8_at_main_v33_0 (c : Dev nD) : Ct8 m c (Proc.devRef .tc main_v33_0) = (dat4 (fun c b => Ct7 m c b) c).arrAt 2 cfg4.N := by
  simp only [Ct8, Function.update_of_ne (StableHlo.devRef_ne_of_ne (by decide) : (Proc.devRef .tc main_v33_0 : DevRef τ sig) ≠ Proc.devRef .tc main_v33_2), Function.update_of_ne (StableHlo.devRef_ne_of_ne (by decide) : (Proc.devRef .tc main_v33_0 : DevRef τ sig) ≠ Proc.devRef .tc main_v33_1), Function.update_self]
theorem Ct8_at_main_v33_1 (c : Dev nD) : Ct8 m c (Proc.devRef .tc main_v33_1) = (dat4 (fun c b => Ct7 m c b) c).arrAt 3 cfg4.N := by
  simp only [Ct8, Function.update_of_ne (StableHlo.devRef_ne_of_ne (by decide) : (Proc.devRef .tc main_v33_1 : DevRef τ sig) ≠ Proc.devRef .tc main_v33_2), Function.update_self]
theorem Ct8_at_main_v33_2 (c : Dev nD) : Ct8 m c (Proc.devRef .tc main_v33_2) = (dat4 (fun c b => Ct7 m c b) c).arrAt 4 cfg4.N := by
  simp only [Ct8, Function.update_self]
theorem V8_eq (c : Dev nD) : V8 m (outs m) c = Ct8 m c := by
  unfold V8
  rw [outs_8, outs_8, outs_8, V7_eq]
  refine update3_eq_self fun x ha hb hd => ?_
  unfold Ct8
  rw [Function.update_of_ne hd, Function.update_of_ne hb, Function.update_of_ne ha]
theorem V9_eq (c : Dev nD) : V9 m (outs m) c = Ct9 m c := by
  show StableHlo.after hostOps5 (V8 m (outs m) c) = StableHlo.after hostOps5 (Ct8 m c)
  rw [V8_eq]
theorem Ct10_at_main_v48 (c : Dev nD) : Ct10 m c (Proc.devRef .tc main_v48) = (dat5 (fun c b => Ct9 m c b) c).arrAt 3 cfg5.N := by
  simp only [Ct10, Function.update_self]
theorem V10_eq (c : Dev nD) : V10 m (outs m) c = Ct10 m c := by
  unfold V10
  rw [outs_10, V9_eq]
  refine update1_eq_self fun x ha => ?_
  unfold Ct10
  rw [Function.update_of_ne ha]
theorem Ct11_at_main_v49_0 (c : Dev nD) : Ct11 m c (Proc.devRef .tc main_v49_0) = (dat6 (fun c b => Ct10 m c b) c).arrAt 2 cfg6.N := by
  simp only [Ct11, Function.update_of_ne (StableHlo.devRef_ne_of_ne (by decide) : (Proc.devRef .tc main_v49_0 : DevRef τ sig) ≠ Proc.devRef .tc main_v49_2), Function.update_of_ne (StableHlo.devRef_ne_of_ne (by decide) : (Proc.devRef .tc main_v49_0 : DevRef τ sig) ≠ Proc.devRef .tc main_v49_1), Function.update_self]
theorem Ct11_at_main_v49_1 (c : Dev nD) : Ct11 m c (Proc.devRef .tc main_v49_1) = (dat6 (fun c b => Ct10 m c b) c).arrAt 3 cfg6.N := by
  simp only [Ct11, Function.update_of_ne (StableHlo.devRef_ne_of_ne (by decide) : (Proc.devRef .tc main_v49_1 : DevRef τ sig) ≠ Proc.devRef .tc main_v49_2), Function.update_self]
theorem Ct11_at_main_v49_2 (c : Dev nD) : Ct11 m c (Proc.devRef .tc main_v49_2) = (dat6 (fun c b => Ct10 m c b) c).arrAt 4 cfg6.N := by
  simp only [Ct11, Function.update_self]
theorem V11_eq (c : Dev nD) : V11 m (outs m) c = Ct11 m c := by
  unfold V11
  rw [outs_11, outs_11, outs_11, V10_eq]
  refine update3_eq_self fun x ha hb hd => ?_
  unfold Ct11
  rw [Function.update_of_ne hd, Function.update_of_ne hb, Function.update_of_ne ha]
theorem V12_eq (c : Dev nD) : V12 m (outs m) c = Ct12 m c := by
  show StableHlo.after hostOps7 (V11 m (outs m) c) = StableHlo.after hostOps7 (Ct11 m c)
  rw [V11_eq]
theorem Ct13_at_main_v64 (c : Dev nD) : Ct13 m c (Proc.devRef .tc main_v64) = (dat7 (fun c b => Ct12 m c b) c).arrAt 3 cfg7.N := by
  simp only [Ct13, Function.update_self]
theorem V13_eq (c : Dev nD) : V13 m (outs m) c = Ct13 m c := by
  unfold V13
  rw [outs_13, V12_eq]
  refine update1_eq_self fun x ha => ?_
  unfold Ct13
  rw [Function.update_of_ne ha]

/-! ## Each region's requirement on `outs` -/

theorem outsOk0 : OutsOk0 m (outs m) := by
  intro c
  exact ⟨by rw [outs_2]; exact Ct2_at_main_v1_0 m c, by rw [outs_2]; exact Ct2_at_main_v1_1 m c, by rw [outs_2]; exact Ct2_at_main_v1_2 m c⟩
theorem outsOk1 : OutsOk1 m (outs m) := by
  intro c
  have hV : Vin1 m (outs m) = fun c (b : Ref sig .tc) => Ct3 m c b := by funext c b; show V3 m (outs m) c b = _; rw [V3_eq]
  rw [hV]
  exact (by rw [outs_4]; exact Ct4_at_main_v16 m c)
theorem outsOk2 : OutsOk2 m (outs m) := by
  intro c
  have hV : Vin2 m (outs m) = fun c (b : Ref sig .tc) => Ct4 m c b := by funext c b; show V4 m (outs m) c b = _; rw [V4_eq]
  rw [hV]
  exact ⟨by rw [outs_5]; exact Ct5_at_main_v17_0 m c, by rw [outs_5]; exact Ct5_at_main_v17_1 m c, by rw [outs_5]; exact Ct5_at_main_v17_2 m c⟩
theorem outsOk3 : OutsOk3 m (outs m) := by
  intro c
  have hV : Vin3 m (outs m) = fun c (b : Ref sig .tc) => Ct6 m c b := by funext c b; show V6 m (outs m) c b = _; rw [V6_eq]
  rw [hV]
  exact (by rw [outs_7]; exact Ct7_at_main_v32 m c)
theorem outsOk4 : OutsOk4 m (outs m) := by
  intro c
  have hV : Vin4 m (outs m) = fun c (b : Ref sig .tc) => Ct7 m c b := by funext c b; show V7 m (outs m) c b = _; rw [V7_eq]
  rw [hV]
  exact ⟨by rw [outs_8]; exact Ct8_at_main_v33_0 m c, by rw [outs_8]; exact Ct8_at_main_v33_1 m c, by rw [outs_8]; exact Ct8_at_main_v33_2 m c⟩
theorem outsOk5 : OutsOk5 m (outs m) := by
  intro c
  have hV : Vin5 m (outs m) = fun c (b : Ref sig .tc) => Ct9 m c b := by funext c b; show V9 m (outs m) c b = _; rw [V9_eq]
  rw [hV]
  exact (by rw [outs_10]; exact Ct10_at_main_v48 m c)
theorem outsOk6 : OutsOk6 m (outs m) := by
  intro c
  have hV : Vin6 m (outs m) = fun c (b : Ref sig .tc) => Ct10 m c b := by funext c b; show V10 m (outs m) c b = _; rw [V10_eq]
  rw [hV]
  exact ⟨by rw [outs_11]; exact Ct11_at_main_v49_0 m c, by rw [outs_11]; exact Ct11_at_main_v49_1 m c, by rw [outs_11]; exact Ct11_at_main_v49_2 m c⟩
theorem outsOk7 : OutsOk7 m (outs m) := by
  intro c
  have hV : Vin7 m (outs m) = fun c (b : Ref sig .tc) => Ct12 m c b := by funext c b; show V12 m (outs m) c b = _; rw [V12_eq]
  rw [hV]
  exact (by rw [outs_13]; exact Ct13_at_main_v64 m c)

end Cert.KernelIdeal.Hand

end
-- ==== Proof.Chain.lean ====
/-
  The kernel's program run to its end. With `outs` read off the chain of contents, each region's segment is entered from the
  chain's contents before it and left at those after it, so the eight segments give the run: it terminates, the result array
  ends at the chain's last contents of it, every argument array as launched.
-/
import proofs.«117354_j7189775254092_1_alg».proof.Proof.ChainDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

variable (m : (ℓ : Loc nD τ sig) → Buf (Elt F) ℓ)

/-! ## The run -/

/-- Every pipeline's proof data, each at its region's entry contents. -/
def pdats : (p : Fin 8) → (c : Dev nD) → Dat τ (Elt F) Unit ℕ (UR sig nD τ) ℕ (cfgs p) c
  | ⟨0, _⟩ => fun c => dat0 (Vin0 m) c
  | ⟨1, _⟩ => fun c => dat1 (Vin1 m (outs m)) c
  | ⟨2, _⟩ => fun c => dat2 (Vin2 m (outs m)) c
  | ⟨3, _⟩ => fun c => dat3 (Vin3 m (outs m)) c
  | ⟨4, _⟩ => fun c => dat4 (Vin4 m (outs m)) c
  | ⟨5, _⟩ => fun c => dat5 (Vin5 m (outs m)) c
  | ⟨6, _⟩ => fun c => dat6 (Vin6 m (outs m)) c
  | ⟨7, _⟩ => fun c => dat7 (Vin7 m (outs m)) c

/-- The kernel's program runs to its end: the result array at the chain's last contents, the arguments as launched. -/
theorem kernel_run (ρ : Dev nD → PrngReg) :
    θ_run defs (onTc (τ := τ) (main (F := F))) ⟨m, fun _ => 0, ρ⟩ (fun r => ∀ c : Dev nD,
      r.2.mem ((c.tc : Thread nD τ).loc main_v64) = Ct13 m c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  have h := run_of_regs m ρ (outs m) (pdats m)
    (seg0 (pdats m) (fun _ => rfl) (outsOk0 m))
    (seg1 (pdats m) (fun _ => rfl) (outsOk1 m))
    (seg2 (pdats m) (fun _ => rfl) (outsOk2 m))
    (seg3 (pdats m) (fun _ => rfl) (outsOk3 m))
    (seg4 (pdats m) (fun _ => rfl) (outsOk4 m))
    (seg5 (pdats m) (fun _ => rfl) (outsOk5 m))
    (seg6 (pdats m) (fun _ => rfl) (outsOk6 m))
    (seg7 (pdats m) (fun _ => rfl) (outsOk7 m))
    (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _) (fun _ => BI.Entails.refl _)
  refine (θ_run defs _ _).mono (fun r hr c => ?_) h
  have := hr c
  rw [V13_eq] at this
  exact this

end Cert.KernelIdeal.Hand

end
-- ==== Proof.Spec.lean ====
/-
  The network both programs compute, as functions on the extended reals.

  One layer takes activations `a : ι → κ → EReal` (rows by input features), weights `w : ν → κ → EReal`
  (output features by input features), and per-feature `g`, `b`. The weights are quantised to {-1, 0, 1}
  (round half to even, then clamp to [lo, hi]); `h = a · tern(w)ᵀ`; the columns of `h` are normalised by their
  mean and (biased) variance over the rows; the first three layers quantise the result again.

  The two programs differ in three places, all inside one layer:
  * the variance: mean of squares minus squared mean (`varK`) against the mean of squared deviations (`varR`);
  * the affine step: `h · s + (b − m · s)` (`bnK`) against `(h − m) · s + b` (`bnR`);
  * the quantiser: `q(y)` against `y + (q(y) − y)` (`ternR`).
  Over the reals each pair is one function (the first needs the divisor to BE the number of rows); on the extended
  reals they agree wherever every entry involved is finite.

  The constants are parameters (`Consts`): the clamp bounds, the divisor, the variance offset and the sums' initial value,
  so that the same float word on both sides is never evaluated here.
-/
import Idealize.ShloMosaic.PureOps.Ideal
import Idealize.ShloMosaic.Lib.ValueIdx

noncomputable section

open scoped BigOperators
open Idealize.ShloMosaic

namespace Cert.Net

/-- The float constants of a layer, as extended reals. -/
structure Consts where
  lo : EReal
  hi : EReal
  nB : EReal
  eps : EReal
  zero : EReal

variable (C : Consts)

/-- Round half to even on the extended reals (the infinities fixed). -/
abbrev rnd (x : EReal) : EReal := Ideal.liftRound Ideal.roundHalfEven x

/-- The ternary quantiser: round, then clamp to `[lo, hi]`. -/
def tern (x : EReal) : EReal := min C.hi (max C.lo (rnd x))

/-- The reference's spelling of the quantiser: `x + (q(x) − x)`. -/
def ternR (x : EReal) : EReal := x + (tern C x - x)

section Layer

variable {ι κ ν : Type} [Fintype ι] [Fintype κ] [Fintype ν]

/-- Rows against quantised weight rows: `h r n = ∑ k, a r k · q(w n k)`. -/
def lin (q : EReal → EReal) (a : ι → κ → EReal) (w : ν → κ → EReal) : ι → ν → EReal :=
  fun r n => ∑ k, a r k * q (w n k)

/-- A column's sum over the rows, from the initial value. -/
def colSum (h : ι → ν → EReal) (n : ν) : EReal := C.zero + ∑ r, h r n

/-- A column's mean. -/
def mean (h : ι → ν → EReal) (n : ν) : EReal := Ideal.div (colSum C h n) C.nB

/-- The variance as the kernel's program forms it: mean of squares minus squared mean. -/
def varK (h : ι → ν → EReal) (n : ν) : EReal :=
  Ideal.div (colSum C (fun r n => h r n * h r n) n) C.nB - mean C h n * mean C h n

/-- The variance as the reference forms it: mean of squared deviations. -/
def varR (h : ι → ν → EReal) (n : ν) : EReal :=
  Ideal.div (colSum C (fun r n => (h r n - mean C h n) * (h r n - mean C h n)) n) C.nB

/-- The per-feature scale from a variance. -/
def scale (v : ν → EReal) (g : ν → EReal) (n : ν) : EReal := g n * Ideal.rsqrt (v n + C.eps)

/-- The kernel's normalisation: `h · s + (b − m · s)`. -/
def bnK (h : ι → ν → EReal) (g b : ν → EReal) : ι → ν → EReal :=
  fun r n => h r n * scale C (varK C h) g n + (b n - mean C h n * scale C (varK C h) g n)

/-- The reference's normalisation: `(h − m) · s + b`. -/
def bnR (h : ι → ν → EReal) (g b : ν → EReal) : ι → ν → EReal :=
  fun r n => (h r n - mean C h n) * scale C (varR C h) g n + b n

/-- One layer as the kernel's program computes it (`quant`: the activation quantiser, absent on the last layer). -/
def layerK (quant : Bool) (a : ι → κ → EReal) (w : ν → κ → EReal) (g b : ν → EReal) : ι → ν → EReal :=
  fun r n => let y := bnK C (lin (tern C) a w) g b r n; if quant then tern C y else y

/-- One layer as the reference computes it. -/
def layerR (quant : Bool) (a : ι → κ → EReal) (w : ν → κ → EReal) (g b : ν → EReal) : ι → ν → EReal :=
  fun r n => let y := bnR C (lin (ternR C) a w) g b r n; if quant then ternR C y else y

end Layer

/-! ## Arrays of the programs' literal shapes as functions of coordinates -/

/-- A rank-2 array read by its two coordinates. -/
abbrev at2 {n0 n1 : Nat} (x : (⟨2, ![n0, n1]⟩ : Shape).Idx → EReal) : Fin n0 → Fin n1 → EReal :=
  fun r k => x (ValueIdx.ix2 r k)

/-- A rank-1 array read by its coordinate. -/
abbrev at1 {n : Nat} (x : (⟨1, ![n]⟩ : Shape).Idx → EReal) : Fin n → EReal := fun k => x (ValueIdx.ix1 k)

/-- A function of two coordinates as a rank-2 array. -/
abbrev arr2 {n0 n1 : Nat} (f : Fin n0 → Fin n1 → EReal) : (⟨2, ![n0, n1]⟩ : Shape).Idx → EReal := fun i => f (i 0) (i 1)

/-- The four-layer network, either spelling (`L` is `layerK C` or `layerR C`), on the programs' shapes:
    8192 rows; 784 → 2048 → 2048 → 2048 → 10 features. -/
def net (L : ∀ {ι κ ν : Type} [Fintype ι] [Fintype κ] [Fintype ν], Bool → (ι → κ → EReal) → (ν → κ → EReal) → (ν → EReal) → (ν → EReal) → ι → ν → EReal)
    (x : Fin 8192 → Fin 784 → EReal) (w1 : Fin 2048 → Fin 784 → EReal) (g1 b1 : Fin 2048 → EReal)
    (w2 : Fin 2048 → Fin 2048 → EReal) (g2 b2 : Fin 2048 → EReal)
    (w3 : Fin 2048 → Fin 2048 → EReal) (g3 b3 : Fin 2048 → EReal)
    (w4 : Fin 10 → Fin 2048 → EReal) (g4 b4 : Fin 10 → EReal) : Fin 8192 → Fin 10 → EReal :=
  L false (L true (L true (L true x w1 g1 b1) w2 g2 b2) w3 g3 b3) w4 g4 b4

/-- The network as the kernel's program computes it. -/
def netK := net (fun {ι κ ν} [Fintype ι] [Fintype κ] [Fintype ν] => layerK (ι := ι) (κ := κ) (ν := ν) C)
/-- The network as the reference computes it. -/
def netR := net (fun {ι κ ν} [Fintype ι] [Fintype κ] [Fintype ν] => layerR (ι := ι) (κ := κ) (ν := ν) C)

/-- An extended real that is a real number. -/
def IsReal (x : EReal) : Prop := ∃ r : ℝ, x = (r : EReal)

/-- What the layer identity needs of the constants: real clamp bounds, the divisor the (positive) number of rows,
    a positive real offset, and the sums starting from zero. -/
structure Consts.Good (rows : ℕ) : Prop where
  lo : IsReal C.lo
  hi : IsReal C.hi
  rows_pos : 0 < rows
  nB : C.nB = ((rows : ℝ) : EReal)
  eps : ∃ e : ℝ, 0 < e ∧ C.eps = (e : EReal)
  zero : C.zero = 0

/-- The programs' constants as their float words: −1 and 1 (the clamp), 8192 (the divisor), the f32 nearest 1e-5
    (the variance offset) and 0 (where every sum starts). -/
def C0 : Consts :=
  ⟨Ideal.ofBits .f32 0xBF800000#32, Ideal.ofBits .f32 0x3F800000#32, Ideal.ofBits .f32 0x46000000#32,
   Ideal.ofBits .f32 0x3727C5AC#32, Ideal.ofBits .f32 0x00000000#32⟩

end Cert.Net

end
-- ==== Proof.LibSums.lean ====
/-
  Two re-indexings of finite sums, over any commutative monoid.

  * A sum over the indices of a rank-4 shape whose first two coordinates are fixed (the indices a reduction over
    the two trailing axes sends to one result index) is the double sum over the two trailing coordinates.
  * A sum over `Fin N` with `N = T * R` is the sum over `T` tiles of the sum over the `R` positions inside a tile,
    position `r` of tile `t` being `R * t + r`.
-/
import Idealize.ShloMosaic.Lib.ValueIdx
import Idealize.ShloMosaic.PureOps.Reduce

noncomputable section

open scoped BigOperators

namespace Cert.LibSums

open Idealize.ShloMosaic Idealize.ShloMosaic.ValueIdx

/-- Position `r` of tile `t` lies below `T * R`. -/
theorem tile_lt {T R N : Nat} (hN : T * R = N) (t : Fin T) (r : Fin R) : R * t.val + r.val < N := by
  have h1 : R * t.val + r.val < R * (t.val + 1) := by rw [Nat.mul_succ]; exact Nat.add_lt_add_left r.isLt _
  have h2 : R * (t.val + 1) ≤ R * T := Nat.mul_le_mul_left R (Nat.succ_le_of_lt t.isLt)
  rw [← hN, Nat.mul_comm T R]; exact Nat.lt_of_lt_of_le h1 h2

/-- A sum over `N = T * R` positions, tile by tile. -/
theorem sum_by_tiles {M : Type*} [AddCommMonoid M] {T R N : Nat} (hN : T * R = N) (f : Fin N → M) :
    ∑ h : Fin N, f h = ∑ t : Fin T, ∑ r : Fin R, f ⟨R * t.val + r.val, tile_lt hN t r⟩ := by
  subst hN
  rw [← Equiv.sum_comp (finProdFinEquiv (m := T) (n := R)) f, Fintype.sum_prod_type]
  refine Finset.sum_congr rfl fun t _ => Finset.sum_congr rfl fun r _ => congrArg f (Fin.ext ?_)
  show r.val + R * t.val = R * t.val + r.val
  omega

/-- The indices of a rank-4 shape that a reduction over axes 2 and 3 sends to `(p, q)`, summed, are the two
    trailing coordinates, summed. -/
theorem sum_filter_drop_last2 {M : Type*} [AddCommMonoid M] {n0 n1 A B : Nat}
    (h : (⟨4, ![n0, n1, A, B]⟩ : Shape).Reduces [2, 3] ⟨2, ![n0, n1]⟩)
    (x : (⟨4, ![n0, n1, A, B]⟩ : Shape).Idx → M) (p : Fin n0) (q : Fin n1) :
    ∑ i ∈ Finset.univ.filter (fun i => h.drop i = ix2 p q), x i = ∑ a : Fin A, ∑ b : Fin B, x (ix4 p q a b) := by
  have hd0 : ∀ i, ((h.drop i 0 : Fin n0) : Nat) = ((i 0 : Fin n0) : Nat) := fun i => rfl
  have hd1 : ∀ i, ((h.drop i 1 : Fin n1) : Nat) = ((i 1 : Fin n1) : Nat) := fun i => rfl
  rw [← Finset.sum_product']
  refine Finset.sum_nbij' (fun i => ((i 2 : Fin A), (i 3 : Fin B))) (fun ab => ix4 p q ab.1 ab.2) ?_ ?_ ?_ ?_ ?_
  · intro i _; exact Finset.mem_product.2 ⟨Finset.mem_univ _, Finset.mem_univ _⟩
  · intro ab _
    refine Finset.mem_filter.2 ⟨Finset.mem_univ _, funext fun b => Fin.ext ?_⟩
    match b with
    | ⟨0, _⟩ => exact hd0 _
    | ⟨1, _⟩ => exact hd1 _
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show ix4 p q (i 2) (i 3) = i
    rw [← e0, ← e1]; exact (eq_ix4 i).symm
  · intro ab _; rfl
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show x i = x (ix4 p q (i 2) (i 3))
    rw [← e0, ← e1]; exact congrArg x (eq_ix4 i)

end Cert.LibSums

end
-- ==== Proof.Value0.lean ====
import proofs.«117354_j7189775254092_1_alg».proof.Proof.Region0
import proofs.«117354_j7189775254092_1_alg».proof.Proof.Spec
import proofs.«117354_j7189775254092_1_alg».proof.Proof.LibSums
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # Region 0 at the extended reals: what its three output arrays hold after the region

With `X` the `[8192, 784]` activations and `W` the `[2048, 784]` weights as the region finds them, the product array
ends holding `h = X · tern(W)ᵀ`, and the two `[1, 2048]` arrays the column sums of `h` and of its squares: 32 tiles of
256 rows, each tile's column sums added in turn to an accumulator that starts from the zero word. -/

/-! ## A product of an `[m, k]` array by a `[k, n]` array over the shared axis, at an index -/

/-- The sum over the contraction index, re-indexed by the contracted axis's one coordinate. -/
theorem contract_sum_cols0 {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product of rows against columns into the zero accumulator, at `(p, e)`. -/
theorem matmul_zero_cols_apply0 {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum_cols0 D hr hs hl0 hl1 hr0 hr1 A B p e)

/-! ## The body's payloads at the extended reals -/

/-- The tile's product at `(p, e)`: the row of the tile against the quantised weight row. -/
theorem pay1_apply0 (w : Vec Ideal S2048x784 .f32) (x : Vec Ideal S256x784 .bf16) (p : Fin 256) (e : Fin 2048) :
    k0_pay1 (F := Ideal) w x (ix2 p e) = ∑ j : Fin 784, x (ix2 p j) * Cert.Net.tern Cert.Net.C0 (w (ix2 e j)) := by
  unfold k0_pay1
  dsimp only
  refine (matmul_zero_cols_apply0 (m := 256) (k := 784) (n := 2048) dot_S256x784_S784x2048_S256x2048_1_0_0_1_n_n rfl rfl
    (fun i q => by simp [DotDims.lhsIdx, dot_S256x784_S784x2048_S256x2048_1_0_0_1_n_n]; rfl) (fun i q => by simp [DotDims.lhsIdx, dot_S256x784_S784x2048_S256x2048_1_0_0_1_n_n]; rfl)
    (fun i q => by simp [DotDims.rhsIdx, dot_S256x784_S784x2048_S256x2048_1_0_0_1_n_n]; rfl) (fun i q => by simp [DotDims.rhsIdx, dot_S256x784_S784x2048_S256x2048_1_0_0_1_n_n]; rfl)
    none _ _ p e).trans ?_
  refine Finset.sum_congr rfl fun j _ => ?_
  rw [shapeCast_self, transpose_ix2_apply]
  rfl

/-- The zero row the accumulators start from. -/
theorem pay2_apply0 (i : S1x2048.Idx) : k0_pay2 (F := Ideal) i = Cert.Net.C0.zero := by
  unfold k0_pay2
  rw [shapeCast_self]
  rfl
theorem pay3_apply0 (i : S1x2048.Idx) : k0_pay3 (F := Ideal) i = Cert.Net.C0.zero := by
  unfold k0_pay3
  rw [shapeCast_self]
  rfl

/-- The column-sum accumulator's step: what it held plus the tile's column sum. -/
theorem pay4_apply0 (w : Vec Ideal S2048x784 .f32) (x : Vec Ideal S256x784 .bf16) (s : Vec Ideal S1x2048 .f32) (u : Fin 1) (e : Fin 2048) :
    k0_pay4 (F := Ideal) w x s (ix2 u e) = s (ix2 u e) + ∑ r : Fin 256, k0_pay1 (F := Ideal) w x (ix2 r e) := by
  unfold k0_pay4
  dsimp only
  rw [shapeCast_self, addf_apply, shapeCast_a_1a_apply]
  refine congrArg (s (ix2 u e) + ·) ?_
  refine (Ideal.multiReduction_add_single (k0_pay1 (F := Ideal) w x) _ reduces_S256x2048_S2048 (.inl rfl) rfl (ix1 e)).trans ?_
  refine Finset.sum_congr rfl fun r _ => congrArg _ ?_
  funext a; apply Fin.ext
  match a with
  | ⟨0, _⟩ => rfl
  | ⟨1, _⟩ => rfl

/-- The squares' accumulator's step: what it held plus the tile's column sum of squares. -/
theorem pay5_apply0 (w : Vec Ideal S2048x784 .f32) (x : Vec Ideal S256x784 .bf16) (s : Vec Ideal S1x2048 .f32) (u : Fin 1) (e : Fin 2048) :
    k0_pay5 (F := Ideal) w x s (ix2 u e) = s (ix2 u e) + ∑ r : Fin 256, k0_pay1 (F := Ideal) w x (ix2 r e) * k0_pay1 (F := Ideal) w x (ix2 r e) := by
  unfold k0_pay5
  dsimp only
  rw [shapeCast_self, addf_apply, shapeCast_a_1a_apply]
  refine congrArg (s (ix2 u e) + ·) ?_
  refine (Ideal.multiReduction_add_single (mulf (k0_pay1 (F := Ideal) w x) (k0_pay1 (F := Ideal) w x)) _ reduces_S256x2048_S2048 (.inl rfl) rfl (ix1 e)).trans ?_
  refine Finset.sum_congr rfl fun r _ => ?_
  rw [mulf_apply]
  have hi : reduces_S256x2048_S2048.lift (ix1 e) r = ix2 r e := by
    funext a; apply Fin.ext
    match a with
    | ⟨0, _⟩ => rfl
    | ⟨1, _⟩ => rfl
  rw [hi]
  rfl

/-! ## The windows' blocks as pieces of the arrays -/

-- the TensorCore's buffer contents when the region is entered
variable (V : (c : Dev nD) → (b : Ref sig .tc) → Buf (Elt Ideal) ((c : Thread nD τ).loc b))

/-- The activations and the weights as the region finds them. -/
abbrev X0 (c : Dev nD) : S8192x784.Idx → EReal := V c (Pipeline.arrRef spec0 0)
abbrev W0 (c : Dev nD) : S2048x784.Idx → EReal := V c (Pipeline.arrRef spec0 1)

/-- The product array: every activation row against every quantised weight row. -/
abbrev H0 (c : Dev nD) : Fin 8192 → Fin 2048 → EReal :=
  Cert.Net.lin (Cert.Net.tern Cert.Net.C0) (Cert.Net.at2 (X0 V c)) (Cert.Net.at2 (W0 V c))

/-- The printed index maps over the grid: the row tile moves with the point, everything else stays at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row `r` of tile `t` is row `256 t + r` of the activations. -/
theorem iblk0_0_apply (c : Dev nD) (t : Fin cfg0.N) (r : Fin 256) (j : Fin 784) (hR : 256 * t.val + r.val < 8192) :
    (iblk0 V c 0 t : Vec Ideal S256x784 .bf16) (ix2 r j) = X0 V c (ix2 ⟨256 * t.val + r.val, hR⟩ j) := by
  obtain ⟨e0, e1, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 256 + 1 * r.val = 256 * t.val + r.val; rw [e0]; omega
  | ⟨1, _⟩ => show win0_0.index t (1 : Fin 2) * 784 + 1 * j.val = j.val; rw [e1]; omega

/-- The weights' one block is the weights. -/
theorem iblk0_1_apply (c : Dev nD) (t : Fin cfg0.N) (e : Fin 2048) (j : Fin 784) :
    (iblk0 V c 1 t : Vec Ideal S2048x784 .f32) (ix2 e j) = W0 V c (ix2 e j) := by
  obtain ⟨-, -, e0, e1, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 2048 + 1 * e.val = e.val; rw [e0]; omega
  | ⟨1, _⟩ => show win0_1.index t (1 : Fin 2) * 784 + 1 * j.val = j.val; rw [e1]; omega

/-- The tile's product at point `t` is rows `256 t … 256 t + 255` of the product array. -/
theorem tile0_apply (c : Dev nD) (t : Fin cfg0.N) (r : Fin 256) (e : Fin 2048) (hR : 256 * t.val + r.val < 8192) :
    k0_pay1 (F := Ideal) (iblk0 V c 1 t) (iblk0 V c 0 t) (ix2 r e) = H0 V c ⟨256 * t.val + r.val, hR⟩ e := by
  rw [pay1_apply0]
  unfold H0 Cert.Net.lin
  refine Finset.sum_congr rfl fun j _ => ?_
  rw [iblk0_0_apply V c t r j hR, iblk0_1_apply V c t e j]

/-! ## The accumulators in closed form -/

/-- A row of the product array by its number (zero past the last row: never read). -/
def Hrow0 (c : Dev nD) (R : ℕ) (e : Fin 2048) : EReal := if h : R < 8192 then H0 V c ⟨R, h⟩ e else 0

theorem tile0_row (c : Dev nD) (t : Fin cfg0.N) (r : Fin 256) (e : Fin 2048) :
    k0_pay1 (F := Ideal) (iblk0 V c 1 t) (iblk0 V c 0 t) (ix2 r e) = Hrow0 V c (256 * t.val + r.val) e := by
  have hN : t.val < 32 := lt_of_lt_of_eq t.isLt (show cfg0.N = 32 from N_0)
  have hR : 256 * t.val + r.val < 8192 := by have := r.isLt; omega
  rw [tile0_apply V c t r e hR]; unfold Hrow0; rw [dif_pos hR]

/-- The column-sum accumulator after point `n`: the zero word, then the column sums of tiles `0 … n` added in turn. -/
theorem accSum0_apply (c : Dev nD) : ∀ (n : ℕ) (h : n < cfg0.N) (u : Fin 1) (e : Fin 2048),
    accSum0 V c n h (ix2 u e) = Cert.Net.C0.zero + ∑ s ∈ Finset.range (n + 1), ∑ r : Fin 256, Hrow0 V c (256 * s + r.val) e
  | 0, h, u, e => by
    show k0_pay4 (F := Ideal) _ _ _ (ix2 u e) = _
    rw [pay4_apply0, pay2_apply0, Finset.sum_range_one]
    refine congrArg (Cert.Net.C0.zero + ·) (Finset.sum_congr rfl fun r _ => ?_)
    exact tile0_row V c ⟨0, h⟩ r e
  | n + 1, h, u, e => by
    show k0_pay4 (F := Ideal) _ _ (accSum0 V c n _) (ix2 u e) = _
    rw [pay4_apply0, accSum0_apply c n _ u e, Finset.sum_range_succ _ (n + 1), add_assoc]
    refine congrArg (_ + ·) (congrArg (_ + ·) (Finset.sum_congr rfl fun r _ => ?_))
    exact tile0_row V c ⟨n + 1, h⟩ r e

/-- The squares' accumulator after point `n`, likewise. -/
theorem accSq0_apply (c : Dev nD) : ∀ (n : ℕ) (h : n < cfg0.N) (u : Fin 1) (e : Fin 2048),
    accSq0 V c n h (ix2 u e) = Cert.Net.C0.zero + ∑ s ∈ Finset.range (n + 1), ∑ r : Fin 256, Hrow0 V c (256 * s + r.val) e * Hrow0 V c (256 * s + r.val) e
  | 0, h, u, e => by
    show k0_pay5 (F := Ideal) _ _ _ (ix2 u e) = _
    rw [pay5_apply0, pay3_apply0, Finset.sum_range_one]
    refine congrArg (Cert.Net.C0.zero + ·) (Finset.sum_congr rfl fun r _ => ?_)
    rw [tile0_row V c ⟨0, h⟩ r e]
  | n + 1, h, u, e => by
    show k0_pay5 (F := Ideal) _ _ (accSq0 V c n _) (ix2 u e) = _
    rw [pay5_apply0, accSq0_apply c n _ u e, Finset.sum_range_succ _ (n + 1), add_assoc]
    refine congrArg (_ + ·) (congrArg (_ + ·) (Finset.sum_congr rfl fun r _ => ?_))
    rw [tile0_row V c ⟨n + 1, h⟩ r e]

/-- 32 tiles of 256 rows are the 8192 rows. -/
theorem sum_tiles0 (f : ℕ → EReal) (g : Fin 8192 → EReal) (hfg : ∀ R : Fin 8192, f R.val = g R) :
    ∑ s ∈ Finset.range (31 + 1), ∑ r : Fin 256, f (256 * s + r.val) = ∑ R : Fin 8192, g R := by
  rw [Finset.sum_range (fun s => ∑ r : Fin 256, f (256 * s + r.val)),
    Cert.LibSums.sum_by_tiles (T := 32) (R := 256) (N := 8192) rfl g]
  exact Finset.sum_congr rfl fun s _ => Finset.sum_congr rfl fun r _ => hfg ⟨256 * s.val + r.val, Cert.LibSums.tile_lt rfl s r⟩

theorem Hrow0_val (c : Dev nD) (R : Fin 8192) (e : Fin 2048) : Hrow0 V c R.val e = H0 V c R e := by
  unfold Hrow0; rw [dif_pos R.isLt]

/-- After the last point the accumulators hold the column sums over all 8192 rows. -/
theorem accSum0_last (c : Dev nD) (t : Fin cfg0.N) (ht : t.val = 31) (u : Fin 1) (e : Fin 2048) :
    accSum0 V c t.val t.isLt (ix2 u e) = Cert.Net.colSum Cert.Net.C0 (H0 V c) e := by
  obtain ⟨n, hn⟩ := t
  obtain rfl : n = 31 := ht
  rw [accSum0_apply]
  unfold Cert.Net.colSum
  exact congrArg (_ + ·) (sum_tiles0 (fun R => Hrow0 V c R e) (fun R => H0 V c R e) fun R => Hrow0_val V c R e)

theorem accSq0_last (c : Dev nD) (t : Fin cfg0.N) (ht : t.val = 31) (u : Fin 1) (e : Fin 2048) :
    accSq0 V c t.val t.isLt (ix2 u e) = Cert.Net.colSum Cert.Net.C0 (fun r n => H0 V c r n * H0 V c r n) e := by
  obtain ⟨n, hn⟩ := t
  obtain rfl : n = 31 := ht
  rw [accSq0_apply]
  unfold Cert.Net.colSum
  exact congrArg (_ + ·) (sum_tiles0 (fun R => Hrow0 V c R e * Hrow0 V c R e) (fun R => H0 V c R e * H0 V c R e) fun R => by
    show Hrow0 V c R.val e * Hrow0 V c R.val e = _
    rw [Hrow0_val])

/-! ## From blocks to the arrays -/

/-- What point `t` writes back to the product array is block `t` of `arr2 H0`. -/
theorem flushed0_2 (c : Dev nD) (t : Fin cfg0.N) :
    (dat0 V c).flushed 2 t = ((cfg0.win 2).blk t).view.read (Elt Ideal) (Cert.Net.arr2 (H0 V c)) := by
  obtain ⟨-, -, -, -, e0, e1, -⟩ := idx_facts0 t
  have hN : t.val < 32 := lt_of_lt_of_eq t.isLt (show cfg0.N = 32 from N_0)
  show (cfg0.win 2).cut (grid0.coords t) ((dat0 V c).after 2 t) = _
  rw [after0_2]
  funext y
  obtain ⟨r, e, rfl⟩ : ∃ (r : Fin 256) (e : Fin 2048), y = ix2 r e := ⟨y 0, y 1, eq_ix2 y⟩
  have hR : 256 * t.val + r.val < 8192 := by have := r.isLt; omega
  rw [View.read_apply]
  show k0_pay1 (F := Ideal) (iblk0 V c 1 t) (iblk0 V c 0 t) (ix2 r e) = H0 V c _ _
  rw [tile0_apply V c t r e hR]
  congr 1
  · apply Fin.ext; show 256 * t.val + r.val = win0_2.index t (0 : Fin 2) * 256 + 1 * r.val; rw [e0]; omega
  · apply Fin.ext; show e.val = win0_2.index t (1 : Fin 2) * 2048 + 1 * e.val; rw [e1]; omega

/-- An index of the product array is in point `t`'s block iff each coordinate is in the block's range on its axis. -/
theorem mem_blk0_2 (t : Fin cfg0.N) (i : S8192x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v1_0).slice (win0_2.rect t)).set ↔ _
  rw [View.set_slice_whole, Rect.mem_set_unit]
  exact Iff.rfl

/-- THE PRODUCT ARRAY after the region: `X · tern(W)ᵀ`. -/
theorem arrAt0_2 (c : Dev nD) : (dat0 (F := Ideal) V c).arrAt 2 cfg0.N
    = Cert.Net.arr2 (Cert.Net.lin (Cert.Net.tern Cert.Net.C0) (Cert.Net.at2 (X0 V c)) (Cert.Net.at2 (W0 V c))) :=
  (dat0 V c).arrAt_eq_of_cover 2 (Cert.Net.arr2 (H0 V c)) (fun t _ => flushed0_2 V c t) fun (i : S8192x2048.Idx) => by
    have hi0 : (i 0).val < 8192 := (i 0).isLt
    have hi1 : (i 1).val < 2048 := (i 1).isLt
    have hN : cfg0.N = 32 := N_0
    obtain ⟨t, ht⟩ : ∃ t : Fin cfg0.N, t.val = (i 0).val / 256 := ⟨⟨(i 0).val / 256, by rw [hN]; omega⟩, rfl⟩
    obtain ⟨-, -, -, -, e0, e1, -⟩ := idx_facts0 t
    refine ⟨t, flush0_2 t, ?_⟩
    rw [mem_blk0_2]
    intro a
    match a with
    | ⟨0, _⟩ => show win0_2.index t (0 : Fin 2) * 256 ≤ (i 0).val ∧ (i 0).val < win0_2.index t (0 : Fin 2) * 256 + 256; omega
    | ⟨1, _⟩ => show win0_2.index t (1 : Fin 2) * 2048 ≤ (i 1).val ∧ (i 1).val < win0_2.index t (1 : Fin 2) * 2048 + 2048; omega

/-- What the last point writes back to the column-sum array. -/
theorem flushed0_3 (c : Dev nD) (t : Fin cfg0.N) (hf : (cfg0.win 3).flush t = true) :
    (dat0 V c).flushed 3 t = ((cfg0.win 3).blk t).view.read (Elt Ideal) (fun i : S1x2048.Idx => Cert.Net.colSum Cert.Net.C0 (H0 V c) (i 1)) := by
  have hN : cfg0.N = 32 := N_0
  have h31 : t.val = 31 := by have := (flush0_3 t).mp hf; have := t.isLt; omega
  obtain ⟨-, -, -, -, -, -, e0, e1, -⟩ := idx_facts0 t
  show (cfg0.win 3).cut (grid0.coords t) ((dat0 V c).after 3 t) = _
  rw [after0_3]
  funext y
  obtain ⟨u, e, rfl⟩ : ∃ (u : Fin 1) (e : Fin 2048), y = ix2 u e := ⟨y 0, y 1, eq_ix2 y⟩
  rw [View.read_apply]
  show accSum0 V c t.val t.isLt (ix2 u e) = Cert.Net.colSum Cert.Net.C0 (H0 V c) _
  rw [accSum0_last V c t h31 u e]
  congr 1
  apply Fin.ext; show e.val = win0_3.index t (1 : Fin 2) * 2048 + 1 * e.val; rw [e1]; omega

theorem flushed0_4 (c : Dev nD) (t : Fin cfg0.N) (hf : (cfg0.win 4).flush t = true) :
    (dat0 V c).flushed 4 t = ((cfg0.win 4).blk t).view.read (Elt Ideal) (fun i : S1x2048.Idx => Cert.Net.colSum Cert.Net.C0 (fun r n => H0 V c r n * H0 V c r n) (i 1)) := by
  have hN : cfg0.N = 32 := N_0
  have h31 : t.val = 31 := by have := (flush0_4 t).mp hf; have := t.isLt; omega
  obtain ⟨-, -, -, -, -, -, -, -, e0, e1⟩ := idx_facts0 t
  show (cfg0.win 4).cut (grid0.coords t) ((dat0 V c).after 4 t) = _
  rw [after0_4]
  funext y
  obtain ⟨u, e, rfl⟩ : ∃ (u : Fin 1) (e : Fin 2048), y = ix2 u e := ⟨y 0, y 1, eq_ix2 y⟩
  rw [View.read_apply]
  show accSq0 V c t.val t.isLt (ix2 u e) = Cert.Net.colSum Cert.Net.C0 (fun r n => H0 V c r n * H0 V c r n) _
  rw [accSq0_last V c t h31 u e]
  congr 1
  apply Fin.ext; show e.val = win0_4.index t (1 : Fin 2) * 2048 + 1 * e.val; rw [e1]; omega

theorem mem_blk0_3 (t : Fin cfg0.N) (i : S1x2048.Idx) :
    i ∈ ((cfg0.win 3).blk t).view.set ↔ ∀ a : Fin 2, win0_3.index t a * S1x2048.size a ≤ (i a).val ∧ (i a).val < win0_3.index t a * S1x2048.size a + S1x2048.size a := by
  show i ∈ ((View.whole main_v1_1).slice (win0_3.rect t)).set ↔ _
  rw [View.set_slice_whole, Rect.mem_set_unit]
  exact Iff.rfl

theorem mem_blk0_4 (t : Fin cfg0.N) (i : S1x2048.Idx) :
    i ∈ ((cfg0.win 4).blk t).view.set ↔ ∀ a : Fin 2, win0_4.index t a * S1x2048.size a ≤ (i a).val ∧ (i a).val < win0_4.index t a * S1x2048.size a + S1x2048.size a := by
  show i ∈ ((View.whole main_v1_2).slice (win0_4.rect t)).set ↔ _
  rw [View.set_slice_whole, Rect.mem_set_unit]
  exact Iff.rfl

/-- THE COLUMN-SUM ARRAY after the region. -/
theorem arrAt0_3 (c : Dev nD) : (dat0 (F := Ideal) V c).arrAt 3 cfg0.N
    = fun i => Cert.Net.colSum Cert.Net.C0 (Cert.Net.lin (Cert.Net.tern Cert.Net.C0) (Cert.Net.at2 (X0 V c)) (Cert.Net.at2 (W0 V c))) (i 1) :=
  (dat0 V c).arrAt_eq_of_cover 3 (fun i : S1x2048.Idx => Cert.Net.colSum Cert.Net.C0 (H0 V c) (i 1)) (flushed0_3 V c) fun (i : S1x2048.Idx) => by
    have hi0 : (i 0).val < 1 := (i 0).isLt
    have hi1 : (i 1).val < 2048 := (i 1).isLt
    have hN : cfg0.N = 32 := N_0
    obtain ⟨t, ht⟩ : ∃ t : Fin cfg0.N, t.val = 31 := ⟨⟨31, by rw [hN]; omega⟩, rfl⟩
    obtain ⟨-, -, -, -, -, -, e0, e1, -⟩ := idx_facts0 t
    refine ⟨t, (flush0_3 t).mpr (by rw [ht]), ?_⟩
    rw [mem_blk0_3]
    intro a
    match a with
    | ⟨0, _⟩ => show win0_3.index t (0 : Fin 2) * 1 ≤ (i 0).val ∧ (i 0).val < win0_3.index t (0 : Fin 2) * 1 + 1; omega
    | ⟨1, _⟩ => show win0_3.index t (1 : Fin 2) * 2048 ≤ (i 1).val ∧ (i 1).val < win0_3.index t (1 : Fin 2) * 2048 + 2048; omega

/-- THE ARRAY OF COLUMN SUMS OF SQUARES after the region. -/
theorem arrAt0_4 (c : Dev nD) : (dat0 (F := Ideal) V c).arrAt 4 cfg0.N
    = fun i => Cert.Net.colSum Cert.Net.C0 (fun r n => Cert.Net.lin (Cert.Net.tern Cert.Net.C0) (Cert.Net.at2 (X0 V c)) (Cert.Net.at2 (W0 V c)) r n
        * Cert.Net.lin (Cert.Net.tern Cert.Net.C0) (Cert.Net.at2 (X0 V c)) (Cert.Net.at2 (W0 V c)) r n) (i 1) :=
  (dat0 V c).arrAt_eq_of_cover 4 (fun i : S1x2048.Idx => Cert.Net.colSum Cert.Net.C0 (fun r n => H0 V c r n * H0 V c r n) (i 1)) (flushed0_4 V c) fun (i : S1x2048.Idx) => by
    have hi0 : (i 0).val < 1 := (i 0).isLt
    have hi1 : (i 1).val < 2048 := (i 1).isLt
    have hN : cfg0.N = 32 := N_0
    obtain ⟨t, ht⟩ : ∃ t : Fin cfg0.N, t.val = 31 := ⟨⟨31, by rw [hN]; omega⟩, rfl⟩
    obtain ⟨-, -, -, -, -, -, -, -, e0, e1⟩ := idx_facts0 t
    refine ⟨t, (flush0_4 t).mpr (by rw [ht]), ?_⟩
    rw [mem_blk0_4]
    intro a
    match a with
    | ⟨0, _⟩ => show win0_4.index t (0 : Fin 2) * 1 ≤ (i 0).val ∧ (i 0).val < win0_4.index t (0 : Fin 2) * 1 + 1; omega
    | ⟨1, _⟩ => show win0_4.index t (1 : Fin 2) * 2048 ≤ (i 1).val ∧ (i 1).val < win0_4.index t (1 : Fin 2) * 2048 + 2048; omega

end Cert.KernelIdeal.Hand

end
-- ==== Proof.Value1.lean ====
/- What region 1 of @main (custom_call 1, pipeline 1) leaves in its output array, at the ideal instance: ONE whole-array
   function of the three input arrays as the region finds them (`V`).

   The body is pointwise. At tile index (p, q) its payload is the quantiser of `h · s + b`, where `h` is the tile of
   window 0 at (p, q) and `s`, `b` are the row vectors of windows 1 and 2 at column q (`pay1_apply`; the cast to the
   output's format is the identity on the extended reals). Point `t` of the grid stages rows 256 t … 256 t + 255 of window
   0's array and of the output's, and the whole of the two row vectors (`idx_facts1`, decided over the 32 points;
   `iblk1_W_apply`). So what point `t` writes back is block `t` of one function `G1_3` of the three arrays
   (`flushed1_3_eq`); row r of the output is covered by point r / 256 (`cover1`); hence the array ends at `G1_3`
   (`arrAt1_3`). -/
import proofs.«117354_j7189775254092_1_alg».proof.Proof.Region1
import proofs.«117354_j7189775254092_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Value1
-- the TensorCore's buffer contents when the region is entered, at the ideal instance
variable (V : (c : Dev nD) → (b : Ref sig .tc) → Buf (Elt Ideal) ((c : Thread nD τ).loc b))

/-- The zero offsets, however spelt. -/
theorem hz1 : (![0, 0] : Fin 2 → Nat) = fun _ => 0 := funext fun a => by fin_cases a <;> rfl

/-! ## The printed index maps, decided over the grid -/

/-- At point `t`: windows 0 and 3 stage row block `t` (column block 0); windows 1 and 2 stage block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The kernel's payload at an index -/

/-- The payload at tile index `j`: the quantiser of the tile's entry times the first row vector's entry at `j`'s
    column plus the second's (each row vector broadcast down the tile; the final cast is the identity). -/
theorem pay1_apply (v0 : Vec Ideal S256x2048 .f32) (v2 v6 : Vec Ideal S1x2048 .f32) (j : S256x2048.Idx) :
    k1_pay1 v0 v2 v6 j
      = Cert.Net.tern Cert.Net.C0 (v0 j * v2 (ix2 (0 : Fin 1) (j 1)) + v6 (ix2 (0 : Fin 1) (j 1))) := by
  obtain ⟨p, q, rfl⟩ : ∃ (p : Fin 256) (q : Fin 2048), j = ix2 p q := ⟨j 0, j 1, eq_ix2 j⟩
  unfold k1_pay1
  show min _ (max _ (Ideal.liftRound Ideal.roundHalfEven
      (shapeCast S256x2048 v0 shapeCasts_S256x2048_S256x2048 (ix2 p q)
        * broadcastTo S256x2048 (shapeCast S1x2048 v2 shapeCasts_S1x2048_S1x2048) broadcasts_S1x2048_S256x2048 (ix2 p q)
        + broadcastTo S256x2048 (shapeCast S1x2048 v6 shapeCasts_S1x2048_S1x2048) broadcasts_S1x2048_S256x2048 (ix2 p q)))) = _
  rw [shapeCast_self, shapeCast_self, shapeCast_self, broadcastTo_1b_ab_apply, broadcastTo_1b_ab_apply]
  rfl

/-! ## The input blocks as reads of their arrays -/

/-- Window 0's block at point `t` is rows 256 t … 256 t + 255 of its array. -/
theorem iblk1_0_apply (c : Dev nD) (t : Fin cfg1.N) (x : S256x2048.Idx) (k : S8192x2048.Idx)
    (hk0 : (k 0).val = 256 * t.val + (x 0).val) (hk1 : (k 1).val = (x 1).val) :
    (iblk1 V c 0 t : Vec Ideal S256x2048 .f32) x = (V c main_v1_0 : S8192x2048.Idx → EReal) k := by
  obtain ⟨e0, e1, -⟩ := idx_facts1 t
  unfold iblk1
  rw [View.read_apply]
  show V c main_v1_0 _ = V c main_v1_0 _
  congr 1
  funext a
  apply Fin.ext
  match a with
  | ⟨0, _⟩ => show win1_0.index t 0 * 256 + 1 * (x 0).val = (k 0).val; rw [e0, hk0]; omega
  | ⟨1, _⟩ => show win1_0.index t 1 * 2048 + 1 * (x 1).val = (k 1).val; rw [e1, hk1]; omega

/-- Window 1's block at every point is its whole array. -/
theorem iblk1_1_apply (c : Dev nD) (t : Fin cfg1.N) (x k : S1x2048.Idx) (hk1 : (k 1).val = (x 1).val) :
    (iblk1 V c 1 t : Vec Ideal S1x2048 .f32) x = (V c main_v12 : S1x2048.Idx → EReal) k := by
  obtain ⟨-, -, e2, e3, -⟩ := idx_facts1 t
  have hx0 : (x 0).val < 1 := (x 0).isLt
  have hk0 : (k 0).val < 1 := (k 0).isLt
  unfold iblk1
  rw [View.read_apply]
  show V c main_v12 _ = V c main_v12 _
  congr 1
  funext a
  apply Fin.ext
  match a with
  | ⟨0, _⟩ => show win1_1.index t 0 * 1 + 1 * (x 0).val = (k 0).val; rw [e2]; omega
  | ⟨1, _⟩ => show win1_1.index t 1 * 2048 + 1 * (x 1).val = (k 1).val; rw [e3, hk1]; omega

/-- Window 2's block at every point is its whole array. -/
theorem iblk1_2_apply (c : Dev nD) (t : Fin cfg1.N) (x k : S1x2048.Idx) (hk1 : (k 1).val = (x 1).val) :
    (iblk1 V c 2 t : Vec Ideal S1x2048 .f32) x = (V c main_v15 : S1x2048.Idx → EReal) k := by
  obtain ⟨-, -, -, -, e4, e5, -⟩ := idx_facts1 t
  have hx0 : (x 0).val < 1 := (x 0).isLt
  have hk0 : (k 0).val < 1 := (k 0).isLt
  unfold iblk1
  rw [View.read_apply]
  show V c main_v15 _ = V c main_v15 _
  congr 1
  funext a
  apply Fin.ext
  match a with
  | ⟨0, _⟩ => show win1_2.index t 0 * 1 + 1 * (x 0).val = (k 0).val; rw [e4]; omega
  | ⟨1, _⟩ => show win1_2.index t 1 * 2048 + 1 * (x 1).val = (k 1).val; rw [e5, hk1]; omega

/-! ## The output array as one function of the input arrays -/

/-- What the output array ends holding: at row r and column q, the quantiser of `a0 (r, q) · a1 (0, q) + a2 (0, q)`. -/
abbrev G1_3 (a0 : S8192x2048.Idx → EReal) (a1 a2 : S1x2048.Idx → EReal) : S8192x2048.Idx → EReal :=
  fun i => Cert.Net.tern Cert.Net.C0 (a0 i * a1 (ix2 (0 : Fin 1) (i 1)) + a2 (ix2 (0 : Fin 1) (i 1)))

/-- The body's payload of the three blocks at point `t`, at tile index `j`, is `G1_3` of the arrays at the array index
    `k` that `j` names in block `t` (row 256 t + j's row, j's column). -/
theorem block1_3 (c : Dev nD) (t : Fin cfg1.N) (j : S256x2048.Idx) (k : S8192x2048.Idx)
    (hk0 : (k 0).val = 256 * t.val + (j 0).val) (hk1 : (k 1).val = (j 1).val) :
    k1_pay1 (iblk1 V c 0 t) (iblk1 V c 1 t) (iblk1 V c 2 t) j = G1_3 (V c main_v1_0) (V c main_v12) (V c main_v15) k := by
  refine (pay1_apply (iblk1 V c 0 t) (iblk1 V c 1 t) (iblk1 V c 2 t) j).trans ?_
  rw [iblk1_0_apply V c t j k hk0 hk1,
    iblk1_1_apply V c t (ix2 (0 : Fin 1) (j 1)) (ix2 (0 : Fin 1) (k 1)) hk1,
    iblk1_2_apply V c t (ix2 (0 : Fin 1) (j 1)) (ix2 (0 : Fin 1) (k 1)) hk1]

/-- WHAT POINT `t` WRITES BACK is block `t` of `G1_3` of the input arrays as the region finds them. -/
theorem flushed1_3_eq (c : Dev nD) (t : Fin cfg1.N) :
    (dat1 V c).flushed 3 t = ((cfg1.win 3).blk t).view.read (Elt Ideal) (G1_3 (V c main_v1_0) (V c main_v12) (V c main_v15)) := by
  show (cfg1.win 3).cut (grid1.coords t) ((dat1 V c).after 3 t) = _
  rw [after1_3]
  unfold out1_3
  rw [View.canon_unit_zero hz1]
  simp only [View.ld_unit_zero (S := S256x2048) hz1, View.ld_unit_zero (S := S1x2048) hz1]
  obtain ⟨-, -, -, -, -, -, e6, e7⟩ := idx_facts1 t
  funext j
  refine block1_3 V c t j (((cfg1.win 3).blk t).view.emb j) ?_ ?_
  · show win1_3.index t 0 * 256 + 1 * (j 0).val = 256 * t.val + (j 0).val
    rw [e6]; omega
  · show win1_3.index t 1 * 2048 + 1 * (j 1).val = (j 1).val
    rw [e7]; omega

/-! ## The cover -/

/-- An index of the output array is in point `t`'s block iff each coordinate is in the block's range on its axis. -/
theorem mem_blk1_3 (t : Fin cfg1.N) (i : S8192x2048.Idx) :
    i ∈ ((cfg1.win 3).blk t).view.set ↔ ∀ a : Fin 2, win1_3.index t a * S256x2048.size a ≤ (i a).val ∧ (i a).val < win1_3.index t a * S256x2048.size a + S256x2048.size a := by
  show i ∈ ((View.whole main_v16).slice (win1_3.rect t)).set ↔ _
  rw [View.set_slice_whole, Rect.mem_set_unit]
  exact Iff.rfl

/-- Every index of the output array is in some point's block: row r is in the block of point r / 256, and every point
    writes back. -/
theorem cover1 (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  have hN : cfg1.N = 32 := N_1
  refine ⟨⟨(i 0).val / 256, by rw [hN]; omega⟩, flush1_3 _, ?_⟩
  rw [mem_blk1_3]
  obtain ⟨-, -, -, -, -, -, e6, e7⟩ := idx_facts1 ⟨(i 0).val / 256, by rw [hN]; omega⟩
  intro a
  match a with
  | ⟨0, _⟩ =>
    show win1_3.index _ (0 : Fin 2) * 256 ≤ (i 0).val ∧ (i 0).val < win1_3.index _ (0 : Fin 2) * 256 + 256
    rw [e6]; show (i 0).val / 256 * 256 ≤ (i 0).val ∧ (i 0).val < (i 0).val / 256 * 256 + 256; omega
  | ⟨1, _⟩ =>
    show win1_3.index _ (1 : Fin 2) * 2048 ≤ (i 1).val ∧ (i 1).val < win1_3.index _ (1 : Fin 2) * 2048 + 2048
    rw [e7]; omega

/-! ## The array after the region -/

/-- THE OUTPUT ARRAY after the region: at every index, the quantiser of window 0's array there times window 1's row
    vector at the index's column plus window 2's. -/
theorem arrAt1_3 (c : Dev nD) : ((dat1 V c).arrAt 3 cfg1.N : S8192x2048.Idx → EReal)
    = G1_3 (V c main_v1_0) (V c main_v12) (V c main_v15) :=
  (dat1 V c).arrAt_eq_of_cover 3 (G1_3 (V c main_v1_0) (V c main_v12) (V c main_v15)) (fun t _ => flushed1_3_eq V c t) cover1

/-- `G1_3` at an index. -/
theorem G1_3_apply (a0 : S8192x2048.Idx → EReal) (a1 a2 : S1x2048.Idx → EReal) (i : S8192x2048.Idx) :
    G1_3 a0 a1 a2 i = Cert.Net.tern Cert.Net.C0 (a0 i * a1 (ix2 (0 : Fin 1) (i 1)) + a2 (ix2 (0 : Fin 1) (i 1))) := rfl

end Value1

end Cert.KernelIdeal.Hand
-- ==== Proof.SpecStats.lean ====
/-
  The per-feature statistics as functions of the column sums.

  The kernel's program forms a column's mean, variance, scale and shift on the host from the two accumulated rows: the
  column sums `s` and the column sums of squares `q`. Stated over `s` and `q` these are the specification's `mean`,
  `varK` and `scale` at `s = colSum h`, `q = colSum (h · h)`, by unfolding.
-/
import proofs.«117354_j7189775254092_1_alg».proof.Proof.Spec

noncomputable section

open scoped BigOperators
open Idealize.ShloMosaic

namespace Cert.Net

variable (C : Consts) {ι ν : Type} [Fintype ι]

/-- A column's mean from its sum. -/
def meanOf (s : ν → EReal) (n : ν) : EReal := Ideal.div (s n) C.nB
/-- A column's variance from its sum and its sum of squares: mean of squares minus squared mean. -/
def varOf (s q : ν → EReal) (n : ν) : EReal := Ideal.div (q n) C.nB - meanOf C s n * meanOf C s n
/-- The per-feature scale `g · rsqrt(var + ε)`. -/
def scaleOf (s q g : ν → EReal) (n : ν) : EReal := g n * Ideal.rsqrt (varOf C s q n + C.eps)
/-- The per-feature shift `b − mean · scale`. -/
def shiftOf (s q g b : ν → EReal) (n : ν) : EReal := b n - meanOf C s n * scaleOf C s q g n

/-- The column sums of squares of `h`. -/
abbrev sqSum (h : ι → ν → EReal) : ν → EReal := colSum C (fun r n => h r n * h r n)

theorem mean_eq_meanOf (h : ι → ν → EReal) : mean C h = meanOf C (colSum C h) := rfl
theorem varK_eq_varOf (h : ι → ν → EReal) : varK C h = varOf C (colSum C h) (sqSum C h) := rfl
theorem scale_eq_scaleOf (h : ι → ν → EReal) (g : ν → EReal) :
    scale C (varK C h) g = scaleOf C (colSum C h) (sqSum C h) g := rfl

/-- The kernel's normalisation from the statistics: `h · scale + shift`. -/
theorem bnK_eq (h : ι → ν → EReal) (g b : ν → EReal) (r : ι) (n : ν) :
    bnK C h g b r n = h r n * scaleOf C (colSum C h) (sqSum C h) g n + shiftOf C (colSum C h) (sqSum C h) g b n := rfl

end Cert.Net

end
-- ==== Proof.HostStretch1.lean ====
/-
  The host's operations between a statistics region and the normalising region that follows it, read at an index.

  From the accumulated row of column sums `s` and the row of column sums of squares `q` (both `[1, n]`), the gain `g`
  and the bias `b` (both `[n]`), the seventeen operations form, column by column,
      mean = s / N,   var = q / N − mean · mean,   scale = g · rsqrt (var + ε),   shift = b − mean · scale,
  with `N` and `ε` the same float words as the specification's constants. Every operation is elementwise except the
  reshape of `g` and `b` from `[n]` to `[1, n]`, which reads at `(0, k)` the operand at `k`, and the broadcast of a
  scalar constant, which reads the constant everywhere. So the scale row and the shift row are the specification's
  `scaleOf` and `shiftOf` of the columns of `s` and `q`, whatever the buffers held before.
-/
import proofs.«117354_j7189775254092_1_alg».proof.Proof.Gen.KernelIdeal.Launch
import proofs.«117354_j7189775254092_1_alg».proof.Proof.SpecStats
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal Cert.KernelIdeal.Gen

/-! ## The two rows as functions of the sums, at any width -/

/-- The scale row: at `(0, k)` the specification's scale of column `k`. -/
abbrev ScaleRow {n : Nat} (s q : (⟨2, ![1, n]⟩ : Shape).Idx → EReal) (g : (⟨1, ![n]⟩ : Shape).Idx → EReal) :
    (⟨2, ![1, n]⟩ : Shape).Idx → EReal :=
  fun i => Cert.Net.scaleOf Cert.Net.C0 (fun k : Fin n => s (ix2 0 k)) (fun k => q (ix2 0 k)) (Cert.Net.at1 g) (i 1)

/-- The shift row: at `(0, k)` the specification's shift of column `k`. -/
abbrev ShiftRow {n : Nat} (s q : (⟨2, ![1, n]⟩ : Shape).Idx → EReal) (g b : (⟨1, ![n]⟩ : Shape).Idx → EReal) :
    (⟨2, ![1, n]⟩ : Shape).Idx → EReal :=
  fun i => Cert.Net.shiftOf Cert.Net.C0 (fun k : Fin n => s (ix2 0 k)) (fun k => q (ix2 0 k)) (Cert.Net.at1 g)
    (Cert.Net.at1 b) (i 1)

/-- An index of a one-row array is `(0, k)`: the row coordinate has one value. -/
theorem idx_row {n : Nat} (i : (⟨2, ![1, n]⟩ : Shape).Idx) : i = ix2 (0 : Fin 1) (i 1) := by
  have h := eq_ix2 i
  have h0 : (i 0 : Fin 1) = (0 : Fin 1) := Subsingleton.elim (α := Fin 1) _ _
  rw [h0] at h
  exact h

/-- The operations that form the scale row, read at an index: elementwise but for the reshape of the gain, which at
    `(0, k)` reads the gain at `k`. -/
theorem scale_read {n : Nat} (hb : S_.BroadcastsInDim ⟨2, ![1, n]⟩ (![] : Fin 0 → Fin 2))
    (hc : (⟨1, ![n]⟩ : Shape).ShapeCasts ⟨2, ![1, n]⟩)
    (s q : FVec Ideal ⟨2, ![1, n]⟩ .f32) (g : FVec Ideal ⟨1, ![n]⟩ .f32) :
    mulf (shapeCast ⟨2, ![1, n]⟩ g hc)
      (Host.rsqrt
        (addf
          (subf (Host.divf q (broadcastInDim ⟨2, ![1, n]⟩ ![] hb (constant S_ .f32 0x46000000#32)))
            (mulf (Host.divf s (broadcastInDim ⟨2, ![1, n]⟩ ![] hb (constant S_ .f32 0x46000000#32)))
              (Host.divf s (broadcastInDim ⟨2, ![1, n]⟩ ![] hb (constant S_ .f32 0x46000000#32)))))
          (broadcastInDim ⟨2, ![1, n]⟩ ![] hb (constant S_ .f32 0x3727C5AC#32))))
      = ScaleRow s q g := by
  funext i
  obtain ⟨k, rfl⟩ : ∃ k, i = ix2 (0 : Fin 1) k := ⟨i 1, idx_row i⟩
  show shapeCast ⟨2, ![1, n]⟩ g hc (ix2 0 k)
      * Ideal.rsqrt (Ideal.div (q (ix2 0 k)) (Ideal.ofBits .f32 0x46000000#32)
          - Ideal.div (s (ix2 0 k)) (Ideal.ofBits .f32 0x46000000#32)
            * Ideal.div (s (ix2 0 k)) (Ideal.ofBits .f32 0x46000000#32)
          + Ideal.ofBits .f32 0x3727C5AC#32)
    = g (ix1 k)
      * Ideal.rsqrt (Ideal.div (q (ix2 0 k)) (Ideal.ofBits .f32 0x46000000#32)
          - Ideal.div (s (ix2 0 k)) (Ideal.ofBits .f32 0x46000000#32)
            * Ideal.div (s (ix2 0 k)) (Ideal.ofBits .f32 0x46000000#32)
          + Ideal.ofBits .f32 0x3727C5AC#32)
  rw [shapeCast_a_1a_apply]

/-- The operations that form the shift row, read at an index: the reshaped bias minus the mean times the scale row. -/
theorem shift_read {n : Nat} (hb : S_.BroadcastsInDim ⟨2, ![1, n]⟩ (![] : Fin 0 → Fin 2))
    (hc : (⟨1, ![n]⟩ : Shape).ShapeCasts ⟨2, ![1, n]⟩)
    (s q : FVec Ideal ⟨2, ![1, n]⟩ .f32) (g b : FVec Ideal ⟨1, ![n]⟩ .f32) :
    subf (shapeCast ⟨2, ![1, n]⟩ b hc)
      (mulf (Host.divf s (broadcastInDim ⟨2, ![1, n]⟩ ![] hb (constant S_ .f32 0x46000000#32)))
        (mulf (shapeCast ⟨2, ![1, n]⟩ g hc)
          (Host.rsqrt
            (addf
              (subf (Host.divf q (broadcastInDim ⟨2, ![1, n]⟩ ![] hb (constant S_ .f32 0x46000000#32)))
                (mulf (Host.divf s (broadcastInDim ⟨2, ![1, n]⟩ ![] hb (constant S_ .f32 0x46000000#32)))
                  (Host.divf s (broadcastInDim ⟨2, ![1, n]⟩ ![] hb (constant S_ .f32 0x46000000#32)))))
              (broadcastInDim ⟨2, ![1, n]⟩ ![] hb (constant S_ .f32 0x3727C5AC#32))))))
      = ShiftRow s q g b := by
  rw [scale_read hb hc s q g]
  funext i
  obtain ⟨k, rfl⟩ : ∃ k, i = ix2 (0 : Fin 1) k := ⟨i 1, idx_row i⟩
  show shapeCast ⟨2, ![1, n]⟩ b hc (ix2 0 k)
      - Ideal.div (s (ix2 0 k)) (Ideal.ofBits .f32 0x46000000#32)
        * Cert.Net.scaleOf Cert.Net.C0 (fun k : Fin n => s (ix2 0 k)) (fun k => q (ix2 0 k)) (Cert.Net.at1 g) k
    = b (ix1 k)
      - Ideal.div (s (ix2 0 k)) (Ideal.ofBits .f32 0x46000000#32)
        * Cert.Net.scaleOf Cert.Net.C0 (fun k : Fin n => s (ix2 0 k)) (fun k => q (ix2 0 k)) (Cert.Net.at1 g) k
  rw [shapeCast_a_1a_apply]

/-! ## The stretch after the first statistics region -/

/-- After the stretch the scale buffer holds the scale row of the two accumulated rows and the gain, whatever the
    buffers held before. -/
theorem stretch1_scale (W : Valuation τ sig (Elt Ideal)) :
    (StableHlo.after (hostOps1 (F := Ideal)) W (Proc.devRef .tc main_v12) : S1x2048.Idx → EReal)
      = ScaleRow (n := 2048) (W (Proc.devRef .tc main_v1_1)) (W (Proc.devRef .tc main_v1_2)) (W (Proc.devRef .tc main_arg2)) := by
  show StableHlo.after hostOps1 W (Proc.devRef .tc main_v12) = _
  after_results_simp
  exact scale_read bcast_S_S1x2048 shapeCasts_S2048_S1x2048 _ _ _

/-- After the stretch the shift buffer holds the shift row of the two accumulated rows, the gain and the bias. -/
theorem stretch1_shift (W : Valuation τ sig (Elt Ideal)) :
    (StableHlo.after (hostOps1 (F := Ideal)) W (Proc.devRef .tc main_v15) : S1x2048.Idx → EReal)
      = ShiftRow (n := 2048) (W (Proc.devRef .tc main_v1_1)) (W (Proc.devRef .tc main_v1_2)) (W (Proc.devRef .tc main_arg2))
          (W (Proc.devRef .tc main_arg3)) := by
  show StableHlo.after hostOps1 W (Proc.devRef .tc main_v15) = _
  after_results_simp
  exact shift_read bcast_S_S1x2048 shapeCasts_S2048_S1x2048 _ _ _ _

end Cert.KernelIdeal.Hand

end
-- ==== Proof.KernelValue1.lean ====
/-
  The kernel's program's value, layer 1, and the chain's bookkeeping: which items leave which buffers alone, the
  launch-side cast of the input (the identity on the extended reals), and the first layer read off the chain.
-/
import proofs.«117354_j7189775254092_1_alg».proof.Proof.ChainDefs
import proofs.«117354_j7189775254092_1_alg».proof.Proof.Value0
import proofs.«117354_j7189775254092_1_alg».proof.Proof.Value1
import proofs.«117354_j7189775254092_1_alg».proof.Proof.HostStretch1

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Net (C0 tern lin colSum layerK netK at1 at2 arr2)

variable (m : (ℓ : Loc nD τ sig) → Buf (Elt Ideal) ℓ)

/-! ## What each item of the chain leaves alone

A host stretch changes only the buffers its operations write; a region only its output arrays. -/

/-- A function updated at one reference reads elsewhere as before. -/
theorem update1_keep {f : Valuation τ sig (Elt Ideal)} {a : Ref sig .tc} {va : (Proc.devRef (τ := τ) .tc a).ty.Contents (Elt Ideal)}
    (r : Ref sig .tc) (h : r ∉ ([a] : List (Ref sig .tc))) :
    Function.update f (Proc.devRef .tc a) va (Proc.devRef .tc r) = f (Proc.devRef .tc r) :=
  Function.update_of_ne (StableHlo.devRef_ne_of_ne (List.ne_of_not_mem_cons h)) _ _

/-- A function updated at three references reads elsewhere as before. -/
theorem update3_keep {f : Valuation τ sig (Elt Ideal)} {a b d : Ref sig .tc}
    {va : (Proc.devRef (τ := τ) .tc a).ty.Contents (Elt Ideal)} {vb : (Proc.devRef (τ := τ) .tc b).ty.Contents (Elt Ideal)}
    {vd : (Proc.devRef (τ := τ) .tc d).ty.Contents (Elt Ideal)}
    (r : Ref sig .tc) (h : r ∉ ([a, b, d] : List (Ref sig .tc))) :
    Function.update (Function.update (Function.update f (Proc.devRef .tc a) va) (Proc.devRef .tc b) vb) (Proc.devRef .tc d) vd
        (Proc.devRef .tc r) = f (Proc.devRef .tc r) := by
  have ha : r ≠ a := List.ne_of_not_mem_cons h
  have hb : r ≠ b := List.ne_of_not_mem_cons (List.not_mem_of_not_mem_cons h)
  have hd : r ≠ d := List.ne_of_not_mem_cons (List.not_mem_of_not_mem_cons (List.not_mem_of_not_mem_cons h))
  rw [Function.update_of_ne (StableHlo.devRef_ne_of_ne hd), Function.update_of_ne (StableHlo.devRef_ne_of_ne hb),
    Function.update_of_ne (StableHlo.devRef_ne_of_ne ha)]

/-- Item 0, a host stretch, leaves a buffer its operations do not write as it was. -/
theorem Ct1_keep (c : Dev nD) (r : Ref sig .tc) (h : r ∉ hostOps0_W) :
    Ct1 m c (Proc.devRef .tc r) = Ct0 m c (Proc.devRef .tc r) :=
  StableHlo.after_of_writes_sub hostOps0 (Ct0 m c) hostOps0_writes h

/-- Item 1, a region, leaves a buffer that is not one of its output arrays as it was. -/
theorem Ct2_keep (c : Dev nD) (r : Ref sig .tc) (h : r ∉ ([main_v1_0, main_v1_1, main_v1_2] : List (Ref sig .tc))) :
    Ct2 m c (Proc.devRef .tc r) = Ct1 m c (Proc.devRef .tc r) := by
  unfold Ct2
  exact update3_keep r h

/-- Item 2, a host stretch, leaves a buffer its operations do not write as it was. -/
theorem Ct3_keep (c : Dev nD) (r : Ref sig .tc) (h : r ∉ hostOps1_W) :
    Ct3 m c (Proc.devRef .tc r) = Ct2 m c (Proc.devRef .tc r) :=
  StableHlo.after_of_writes_sub hostOps1 (Ct2 m c) hostOps1_writes h

/-- Item 3, a region, leaves a buffer that is not one of its output arrays as it was. -/
theorem Ct4_keep (c : Dev nD) (r : Ref sig .tc) (h : r ∉ ([main_v16] : List (Ref sig .tc))) :
    Ct4 m c (Proc.devRef .tc r) = Ct3 m c (Proc.devRef .tc r) := by
  unfold Ct4
  exact update1_keep r h

/-- Item 4, a region, leaves a buffer that is not one of its output arrays as it was. -/
theorem Ct5_keep (c : Dev nD) (r : Ref sig .tc) (h : r ∉ ([main_v17_0, main_v17_1, main_v17_2] : List (Ref sig .tc))) :
    Ct5 m c (Proc.devRef .tc r) = Ct4 m c (Proc.devRef .tc r) := by
  unfold Ct5
  exact update3_keep r h

/-- Item 5, a host stretch, leaves a buffer its operations do not write as it was. -/
theorem Ct6_keep (c : Dev nD) (r : Ref sig .tc) (h : r ∉ hostOps3_W) :
    Ct6 m c (Proc.devRef .tc r) = Ct5 m c (Proc.devRef .tc r) :=
  StableHlo.after_of_writes_sub hostOps3 (Ct5 m c) hostOps3_writes h

/-- Item 6, a region, leaves a buffer that is not one of its output arrays as it was. -/
theorem Ct7_keep (c : Dev nD) (r : Ref sig .tc) (h : r ∉ ([main_v32] : List (Ref sig .tc))) :
    Ct7 m c (Proc.devRef .tc r) = Ct6 m c (Proc.devRef .tc r) := by
  unfold Ct7
  exact update1_keep r h

/-- Item 7, a region, leaves a buffer that is not one of its output arrays as it was. -/
theorem Ct8_keep (c : Dev nD) (r : Ref sig .tc) (h : r ∉ ([main_v33_0, main_v33_1, main_v33_2] : List (Ref sig .tc))) :
    Ct8 m c (Proc.devRef .tc r) = Ct7 m c (Proc.devRef .tc r) := by
  unfold Ct8
  exact update3_keep r h

/-- Item 8, a host stretch, leaves a buffer its operations do not write as it was. -/
theorem Ct9_keep (c : Dev nD) (r : Ref sig .tc) (h : r ∉ hostOps5_W) :
    Ct9 m c (Proc.devRef .tc r) = Ct8 m c (Proc.devRef .tc r) :=
  StableHlo.after_of_writes_sub hostOps5 (Ct8 m c) hostOps5_writes h

/-- Item 9, a region, leaves a buffer that is not one of its output arrays as it was. -/
theorem Ct10_keep (c : Dev nD) (r : Ref sig .tc) (h : r ∉ ([main_v48] : List (Ref sig .tc))) :
    Ct10 m c (Proc.devRef .tc r) = Ct9 m c (Proc.devRef .tc r) := by
  unfold Ct10
  exact update1_keep r h

/-- Item 10, a region, leaves a buffer that is not one of its output arrays as it was. -/
theorem Ct11_keep (c : Dev nD) (r : Ref sig .tc) (h : r ∉ ([main_v49_0, main_v49_1, main_v49_2] : List (Ref sig .tc))) :
    Ct11 m c (Proc.devRef .tc r) = Ct10 m c (Proc.devRef .tc r) := by
  unfold Ct11
  exact update3_keep r h

/-- Item 11, a host stretch, leaves a buffer its operations do not write as it was. -/
theorem Ct12_keep (c : Dev nD) (r : Ref sig .tc) (h : r ∉ hostOps7_W) :
    Ct12 m c (Proc.devRef .tc r) = Ct11 m c (Proc.devRef .tc r) :=
  StableHlo.after_of_writes_sub hostOps7 (Ct11 m c) hostOps7_writes h

/-- Item 12, a region, leaves a buffer that is not one of its output arrays as it was. -/
theorem Ct13_keep (c : Dev nD) (r : Ref sig .tc) (h : r ∉ ([main_v64] : List (Ref sig .tc))) :
    Ct13 m c (Proc.devRef .tc r) = Ct12 m c (Proc.devRef .tc r) := by
  unfold Ct13
  exact update1_keep r h

/-! ## A buffer no item writes holds its launch contents along the chain -/

/-- Through the first layer's three items after the first stretch. -/
theorem Ct4_launch (c : Dev nD) (r : Ref sig .tc) (h1 : r ∉ hostOps0_W) (h2 : r ∉ ([main_v1_0, main_v1_1, main_v1_2] : List (Ref sig .tc)))
    (h3 : r ∉ hostOps1_W) (h4 : r ∉ ([main_v16] : List (Ref sig .tc))) :
    Ct4 m c (Proc.devRef .tc r) = Ct0 m c (Proc.devRef .tc r) :=
  (Ct4_keep m c r h4).trans <| (Ct3_keep m c r h3).trans <| (Ct2_keep m c r h2).trans (Ct1_keep m c r h1)

/-- Through the second layer's three items. -/
theorem Ct7_keep3 (c : Dev nD) (r : Ref sig .tc) (h5 : r ∉ ([main_v17_0, main_v17_1, main_v17_2] : List (Ref sig .tc))) (h6 : r ∉ hostOps3_W)
    (h7 : r ∉ ([main_v32] : List (Ref sig .tc))) :
    Ct7 m c (Proc.devRef .tc r) = Ct4 m c (Proc.devRef .tc r) :=
  (Ct7_keep m c r h7).trans <| (Ct6_keep m c r h6).trans (Ct5_keep m c r h5)

/-- Through the third layer's three items. -/
theorem Ct10_keep3 (c : Dev nD) (r : Ref sig .tc) (h8 : r ∉ ([main_v33_0, main_v33_1, main_v33_2] : List (Ref sig .tc))) (h9 : r ∉ hostOps5_W)
    (h10 : r ∉ ([main_v48] : List (Ref sig .tc))) :
    Ct10 m c (Proc.devRef .tc r) = Ct7 m c (Proc.devRef .tc r) :=
  (Ct10_keep m c r h10).trans <| (Ct9_keep m c r h9).trans (Ct8_keep m c r h8)

/-! ## The launch side -/

/-- The first stretch is one change of float format of the input array: the identity on the extended reals. -/
theorem Ct1_v0 (c : Dev nD) :
    (Ct1 m c (Proc.devRef .tc main_v0) : S8192x784.Idx → EReal)
      = (m ((c.tc : Thread nD τ).loc main_arg0) : S8192x784.Idx → EReal) := by
  show StableHlo.after hostOps0 (Ct0 m c) (Proc.devRef .tc main_v0) = _
  after_results_simp
  rfl

/-- No item up to here writes argument 1. -/
theorem Ct1_arg1 (c : Dev nD) :
    Ct1 m c (Proc.devRef .tc main_arg1) = m ((c.tc : Thread nD τ).loc main_arg1) :=
  Ct1_keep m c main_arg1 (by decide)

/-- No item up to here writes argument 2. -/
theorem Ct1_arg2 (c : Dev nD) :
    Ct1 m c (Proc.devRef .tc main_arg2) = m ((c.tc : Thread nD τ).loc main_arg2) :=
  Ct1_keep m c main_arg2 (by decide)

/-- No item up to here writes argument 3. -/
theorem Ct1_arg3 (c : Dev nD) :
    Ct1 m c (Proc.devRef .tc main_arg3) = m ((c.tc : Thread nD τ).loc main_arg3) :=
  Ct1_keep m c main_arg3 (by decide)

/-! ## Layer 1 -/

/-- The first layer on the chain: the statistics region leaves the product array `h = a · q(w)ᵀ` and its column sums and
    sums of squares; the host stretch forms the scale and shift rows from them; the normalising region leaves
    `q(h · scale + shift)`, which is the specification's layer in the kernel's spelling. -/
theorem klayer1 (c : Dev nD) :
    (Ct4 m c (Proc.devRef .tc main_v16) : S8192x2048.Idx → EReal)
      = arr2 (layerK C0 true (at2 (n0 := 8192) (n1 := 784) (Ct1 m c (Proc.devRef .tc main_v0))) (at2 (n0 := 2048) (n1 := 784) (Ct1 m c (Proc.devRef .tc main_arg1)))
          (at1 (n := 2048) (Ct1 m c (Proc.devRef .tc main_arg2))) (at1 (n := 2048) (Ct1 m c (Proc.devRef .tc main_arg3)))) := by
  have hH : (Ct2 m c (Proc.devRef .tc main_v1_0) : S8192x2048.Idx → EReal) = arr2 (lin (tern C0) (at2 (n0 := 8192) (n1 := 784) (Ct1 m c (Proc.devRef .tc main_v0))) (at2 (n0 := 2048) (n1 := 784) (Ct1 m c (Proc.devRef .tc main_arg1)))) :=
    (Ct2_at_main_v1_0 m c).trans (arrAt0_2 (fun c b => Ct1 m c b) c)
  have hS : (Ct2 m c (Proc.devRef .tc main_v1_1) : S1x2048.Idx → EReal) = fun i => colSum C0 (lin (tern C0) (at2 (n0 := 8192) (n1 := 784) (Ct1 m c (Proc.devRef .tc main_v0))) (at2 (n0 := 2048) (n1 := 784) (Ct1 m c (Proc.devRef .tc main_arg1)))) (i 1) :=
    (Ct2_at_main_v1_1 m c).trans (arrAt0_3 (fun c b => Ct1 m c b) c)
  have hQ : (Ct2 m c (Proc.devRef .tc main_v1_2) : S1x2048.Idx → EReal)
      = fun i => colSum C0 (fun r n => lin (tern C0) (at2 (n0 := 8192) (n1 := 784) (Ct1 m c (Proc.devRef .tc main_v0))) (at2 (n0 := 2048) (n1 := 784) (Ct1 m c (Proc.devRef .tc main_arg1))) r n * lin (tern C0) (at2 (n0 := 8192) (n1 := 784) (Ct1 m c (Proc.devRef .tc main_v0))) (at2 (n0 := 2048) (n1 := 784) (Ct1 m c (Proc.devRef .tc main_arg1))) r n) (i 1) :=
    (Ct2_at_main_v1_2 m c).trans (arrAt0_4 (fun c b => Ct1 m c b) c)
  have hG : Ct2 m c (Proc.devRef .tc main_arg2) = Ct1 m c (Proc.devRef .tc main_arg2) := Ct2_keep m c main_arg2 (by decide)
  have hB : Ct2 m c (Proc.devRef .tc main_arg3) = Ct1 m c (Proc.devRef .tc main_arg3) := Ct2_keep m c main_arg3 (by decide)
  have h0 : Ct3 m c (Proc.devRef .tc main_v1_0) = Ct2 m c (Proc.devRef .tc main_v1_0) := Ct3_keep m c main_v1_0 (by decide)
  have hsc : (Ct3 m c (Proc.devRef .tc main_v12) : S1x2048.Idx → EReal)
      = ScaleRow (n := 2048) (Ct2 m c (Proc.devRef .tc main_v1_1)) (Ct2 m c (Proc.devRef .tc main_v1_2)) (Ct2 m c (Proc.devRef .tc main_arg2)) := stretch1_scale (Ct2 m c)
  have hsh : (Ct3 m c (Proc.devRef .tc main_v15) : S1x2048.Idx → EReal)
      = ShiftRow (n := 2048) (Ct2 m c (Proc.devRef .tc main_v1_1)) (Ct2 m c (Proc.devRef .tc main_v1_2)) (Ct2 m c (Proc.devRef .tc main_arg2)) (Ct2 m c (Proc.devRef .tc main_arg3)) := stretch1_shift (Ct2 m c)
  rw [Ct4_at_main_v16, arrAt1_3 (fun c b => Ct3 m c b) c, hsc, hsh, h0, hH, hS, hQ, hG, hB]
  rfl

end Cert.KernelIdeal.Hand

end
-- ==== Proof.Value2.lean ====
import proofs.«117354_j7189775254092_1_alg».proof.Proof.Region2
import proofs.«117354_j7189775254092_1_alg».proof.Proof.Spec
import proofs.«117354_j7189775254092_1_alg».proof.Proof.LibSums
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # Region 2 at the extended reals: what its three output arrays hold after the region

With `X` the `[8192, 2048]` activations and `W` the `[2048, 2048]` weights as the region finds them, the product array
ends holding `h = X · tern(W)ᵀ`, and the two `[1, 2048]` arrays the column sums of `h` and of its squares: 32 tiles of
256 rows, each tile's column sums added in turn to an accumulator that starts from the zero word. -/

/-! ## A product of an `[m, k]` array by a `[k, n]` array over the shared axis, at an index -/

/-- The sum over the contraction index, re-indexed by the contracted axis's one coordinate. -/
theorem contract_sum_cols2 {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product of rows against columns into the zero accumulator, at `(p, e)`. -/
theorem matmul_zero_cols_apply2 {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum_cols2 D hr hs hl0 hl1 hr0 hr1 A B p e)

/-! ## The body's payloads at the extended reals -/

/-- The tile's product at `(p, e)`: the row of the tile against the quantised weight row. -/
theorem pay1_apply2 (w : Vec Ideal S2048x2048 .f32) (x : Vec Ideal S256x2048 .bf16) (p : Fin 256) (e : Fin 2048) :
    k2_pay1 (F := Ideal) w x (ix2 p e) = ∑ j : Fin 2048, x (ix2 p j) * Cert.Net.tern Cert.Net.C0 (w (ix2 e j)) := by
  unfold k2_pay1
  dsimp only
  refine (matmul_zero_cols_apply2 (m := 256) (k := 2048) (n := 2048) dot_S256x2048_S2048x2048_S256x2048_1_0_0_1_n_n rfl rfl
    (fun i q => by simp [DotDims.lhsIdx, dot_S256x2048_S2048x2048_S256x2048_1_0_0_1_n_n]; rfl) (fun i q => by simp [DotDims.lhsIdx, dot_S256x2048_S2048x2048_S256x2048_1_0_0_1_n_n]; rfl)
    (fun i q => by simp [DotDims.rhsIdx, dot_S256x2048_S2048x2048_S256x2048_1_0_0_1_n_n]; rfl) (fun i q => by simp [DotDims.rhsIdx, dot_S256x2048_S2048x2048_S256x2048_1_0_0_1_n_n]; rfl)
    none _ _ p e).trans ?_
  refine Finset.sum_congr rfl fun j _ => ?_
  rw [shapeCast_self, transpose_ix2_apply]
  rfl

/-- The zero row the accumulators start from. -/
theorem pay2_apply2 (i : S1x2048.Idx) : k2_pay2 (F := Ideal) i = Cert.Net.C0.zero := by
  unfold k2_pay2
  rw [shapeCast_self]
  rfl
theorem pay3_apply2 (i : S1x2048.Idx) : k2_pay3 (F := Ideal) i = Cert.Net.C0.zero := by
  unfold k2_pay3
  rw [shapeCast_self]
  rfl

/-- The column-sum accumulator's step: what it held plus the tile's column sum. -/
theorem pay4_apply2 (w : Vec Ideal S2048x2048 .f32) (x : Vec Ideal S256x2048 .bf16) (s : Vec Ideal S1x2048 .f32) (u : Fin 1) (e : Fin 2048) :
    k2_pay4 (F := Ideal) w x s (ix2 u e) = s (ix2 u e) + ∑ r : Fin 256, k2_pay1 (F := Ideal) w x (ix2 r e) := by
  unfold k2_pay4
  dsimp only
  rw [shapeCast_self, addf_apply, shapeCast_a_1a_apply]
  refine congrArg (s (ix2 u e) + ·) ?_
  refine (Ideal.multiReduction_add_single (k2_pay1 (F := Ideal) w x) _ reduces_S256x2048_S2048 (.inl rfl) rfl (ix1 e)).trans ?_
  refine Finset.sum_congr rfl fun r _ => congrArg _ ?_
  funext a; apply Fin.ext
  match a with
  | ⟨0, _⟩ => rfl
  | ⟨1, _⟩ => rfl

/-- The squares' accumulator's step: what it held plus the tile's column sum of squares. -/
theorem pay5_apply2 (w : Vec Ideal S2048x2048 .f32) (x : Vec Ideal S256x2048 .bf16) (s : Vec Ideal S1x2048 .f32) (u : Fin 1) (e : Fin 2048) :
    k2_pay5 (F := Ideal) w x s (ix2 u e) = s (ix2 u e) + ∑ r : Fin 256, k2_pay1 (F := Ideal) w x (ix2 r e) * k2_pay1 (F := Ideal) w x (ix2 r e) := by
  unfold k2_pay5
  dsimp only
  rw [shapeCast_self, addf_apply, shapeCast_a_1a_apply]
  refine congrArg (s (ix2 u e) + ·) ?_
  refine (Ideal.multiReduction_add_single (mulf (k2_pay1 (F := Ideal) w x) (k2_pay1 (F := Ideal) w x)) _ reduces_S256x2048_S2048 (.inl rfl) rfl (ix1 e)).trans ?_
  refine Finset.sum_congr rfl fun r _ => ?_
  rw [mulf_apply]
  have hi : reduces_S256x2048_S2048.lift (ix1 e) r = ix2 r e := by
    funext a; apply Fin.ext
    match a with
    | ⟨0, _⟩ => rfl
    | ⟨1, _⟩ => rfl
  rw [hi]
  rfl

/-! ## The windows' blocks as pieces of the arrays -/

-- the TensorCore's buffer contents when the region is entered
variable (V : (c : Dev nD) → (b : Ref sig .tc) → Buf (Elt Ideal) ((c : Thread nD τ).loc b))

/-- The activations and the weights as the region finds them. -/
abbrev X2 (c : Dev nD) : S8192x2048.Idx → EReal := V c (Pipeline.arrRef spec2 0)
abbrev W2 (c : Dev nD) : S2048x2048.Idx → EReal := V c (Pipeline.arrRef spec2 1)

/-- The product array: every activation row against every quantised weight row. -/
abbrev H2 (c : Dev nD) : Fin 8192 → Fin 2048 → EReal :=
  Cert.Net.lin (Cert.Net.tern Cert.Net.C0) (Cert.Net.at2 (X2 V c)) (Cert.Net.at2 (W2 V c))

/-- The printed index maps over the grid: the row tile moves with the point, everything else stays at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row `r` of tile `t` is row `256 t + r` of the activations. -/
theorem iblk2_0_apply (c : Dev nD) (t : Fin cfg2.N) (r : Fin 256) (j : Fin 2048) (hR : 256 * t.val + r.val < 8192) :
    (iblk2 V c 0 t : Vec Ideal S256x2048 .bf16) (ix2 r j) = X2 V c (ix2 ⟨256 * t.val + r.val, hR⟩ j) := by
  obtain ⟨e0, e1, -⟩ := idx_facts2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 256 + 1 * r.val = 256 * t.val + r.val; rw [e0]; omega
  | ⟨1, _⟩ => show win2_0.index t (1 : Fin 2) * 2048 + 1 * j.val = j.val; rw [e1]; omega

/-- The weights' one block is the weights. -/
theorem iblk2_1_apply (c : Dev nD) (t : Fin cfg2.N) (e : Fin 2048) (j : Fin 2048) :
    (iblk2 V c 1 t : Vec Ideal S2048x2048 .f32) (ix2 e j) = W2 V c (ix2 e j) := by
  obtain ⟨-, -, e0, e1, -⟩ := idx_facts2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 2048 + 1 * e.val = e.val; rw [e0]; omega
  | ⟨1, _⟩ => show win2_1.index t (1 : Fin 2) * 2048 + 1 * j.val = j.val; rw [e1]; omega

/-- The tile's product at point `t` is rows `256 t … 256 t + 255` of the product array. -/
theorem tile2_apply (c : Dev nD) (t : Fin cfg2.N) (r : Fin 256) (e : Fin 2048) (hR : 256 * t.val + r.val < 8192) :
    k2_pay1 (F := Ideal) (iblk2 V c 1 t) (iblk2 V c 0 t) (ix2 r e) = H2 V c ⟨256 * t.val + r.val, hR⟩ e := by
  rw [pay1_apply2]
  unfold H2 Cert.Net.lin
  refine Finset.sum_congr rfl fun j _ => ?_
  rw [iblk2_0_apply V c t r j hR, iblk2_1_apply V c t e j]

/-! ## The accumulators in closed form -/

/-- A row of the product array by its number (zero past the last row: never read). -/
def Hrow2 (c : Dev nD) (R : ℕ) (e : Fin 2048) : EReal := if h : R < 8192 then H2 V c ⟨R, h⟩ e else 0

theorem tile2_row (c : Dev nD) (t : Fin cfg2.N) (r : Fin 256) (e : Fin 2048) :
    k2_pay1 (F := Ideal) (iblk2 V c 1 t) (iblk2 V c 0 t) (ix2 r e) = Hrow2 V c (256 * t.val + r.val) e := by
  have hN : t.val < 32 := lt_of_lt_of_eq t.isLt (show cfg2.N = 32 from N_2)
  have hR : 256 * t.val + r.val < 8192 := by have := r.isLt; omega
  rw [tile2_apply V c t r e hR]; unfold Hrow2; rw [dif_pos hR]

/-- The column-sum accumulator after point `n`: the zero word, then the column sums of tiles `0 … n` added in turn. -/
theorem accSum2_apply (c : Dev nD) : ∀ (n : ℕ) (h : n < cfg2.N) (u : Fin 1) (e : Fin 2048),
    accSum2 V c n h (ix2 u e) = Cert.Net.C0.zero + ∑ s ∈ Finset.range (n + 1), ∑ r : Fin 256, Hrow2 V c (256 * s + r.val) e
  | 0, h, u, e => by
    show k2_pay4 (F := Ideal) _ _ _ (ix2 u e) = _
    rw [pay4_apply2, pay2_apply2, Finset.sum_range_one]
    refine congrArg (Cert.Net.C0.zero + ·) (Finset.sum_congr rfl fun r _ => ?_)
    exact tile2_row V c ⟨0, h⟩ r e
  | n + 1, h, u, e => by
    show k2_pay4 (F := Ideal) _ _ (accSum2 V c n _) (ix2 u e) = _
    rw [pay4_apply2, accSum2_apply c n _ u e, Finset.sum_range_succ _ (n + 1), add_assoc]
    refine congrArg (_ + ·) (congrArg (_ + ·) (Finset.sum_congr rfl fun r _ => ?_))
    exact tile2_row V c ⟨n + 1, h⟩ r e

/-- The squares' accumulator after point `n`, likewise. -/
theorem accSq2_apply (c : Dev nD) : ∀ (n : ℕ) (h : n < cfg2.N) (u : Fin 1) (e : Fin 2048),
    accSq2 V c n h (ix2 u e) = Cert.Net.C0.zero + ∑ s ∈ Finset.range (n + 1), ∑ r : Fin 256, Hrow2 V c (256 * s + r.val) e * Hrow2 V c (256 * s + r.val) e
  | 0, h, u, e => by
    show k2_pay5 (F := Ideal) _ _ _ (ix2 u e) = _
    rw [pay5_apply2, pay3_apply2, Finset.sum_range_one]
    refine congrArg (Cert.Net.C0.zero + ·) (Finset.sum_congr rfl fun r _ => ?_)
    rw [tile2_row V c ⟨0, h⟩ r e]
  | n + 1, h, u, e => by
    show k2_pay5 (F := Ideal) _ _ (accSq2 V c n _) (ix2 u e) = _
    rw [pay5_apply2, accSq2_apply c n _ u e, Finset.sum_range_succ _ (n + 1), add_assoc]
    refine congrArg (_ + ·) (congrArg (_ + ·) (Finset.sum_congr rfl fun r _ => ?_))
    rw [tile2_row V c ⟨n + 1, h⟩ r e]

/-- 32 tiles of 256 rows are the 8192 rows. -/
theorem sum_tiles2 (f : ℕ → EReal) (g : Fin 8192 → EReal) (hfg : ∀ R : Fin 8192, f R.val = g R) :
    ∑ s ∈ Finset.range (31 + 1), ∑ r : Fin 256, f (256 * s + r.val) = ∑ R : Fin 8192, g R := by
  rw [Finset.sum_range (fun s => ∑ r : Fin 256, f (256 * s + r.val)),
    Cert.LibSums.sum_by_tiles (T := 32) (R := 256) (N := 8192) rfl g]
  exact Finset.sum_congr rfl fun s _ => Finset.sum_congr rfl fun r _ => hfg ⟨256 * s.val + r.val, Cert.LibSums.tile_lt rfl s r⟩

theorem Hrow2_val (c : Dev nD) (R : Fin 8192) (e : Fin 2048) : Hrow2 V c R.val e = H2 V c R e := by
  unfold Hrow2; rw [dif_pos R.isLt]

/-- After the last point the accumulators hold the column sums over all 8192 rows. -/
theorem accSum2_last (c : Dev nD) (t : Fin cfg2.N) (ht : t.val = 31) (u : Fin 1) (e : Fin 2048) :
    accSum2 V c t.val t.isLt (ix2 u e) = Cert.Net.colSum Cert.Net.C0 (H2 V c) e := by
  obtain ⟨n, hn⟩ := t
  obtain rfl : n = 31 := ht
  rw [accSum2_apply]
  unfold Cert.Net.colSum
  exact congrArg (_ + ·) (sum_tiles2 (fun R => Hrow2 V c R e) (fun R => H2 V c R e) fun R => Hrow2_val V c R e)

theorem accSq2_last (c : Dev nD) (t : Fin cfg2.N) (ht : t.val = 31) (u : Fin 1) (e : Fin 2048) :
    accSq2 V c t.val t.isLt (ix2 u e) = Cert.Net.colSum Cert.Net.C0 (fun r n => H2 V c r n * H2 V c r n) e := by
  obtain ⟨n, hn⟩ := t
  obtain rfl : n = 31 := ht
  rw [accSq2_apply]
  unfold Cert.Net.colSum
  exact congrArg (_ + ·) (sum_tiles2 (fun R => Hrow2 V c R e * Hrow2 V c R e) (fun R => H2 V c R e * H2 V c R e) fun R => by
    show Hrow2 V c R.val e * Hrow2 V c R.val e = _
    rw [Hrow2_val])

/-! ## From blocks to the arrays -/

/-- What point `t` writes back to the product array is block `t` of `arr2 H2`. -/
theorem flushed2_2 (c : Dev nD) (t : Fin cfg2.N) :
    (dat2 V c).flushed 2 t = ((cfg2.win 2).blk t).view.read (Elt Ideal) (Cert.Net.arr2 (H2 V c)) := by
  obtain ⟨-, -, -, -, e0, e1, -⟩ := idx_facts2 t
  have hN : t.val < 32 := lt_of_lt_of_eq t.isLt (show cfg2.N = 32 from N_2)
  show (cfg2.win 2).cut (grid2.coords t) ((dat2 V c).after 2 t) = _
  rw [after2_2]
  funext y
  obtain ⟨r, e, rfl⟩ : ∃ (r : Fin 256) (e : Fin 2048), y = ix2 r e := ⟨y 0, y 1, eq_ix2 y⟩
  have hR : 256 * t.val + r.val < 8192 := by have := r.isLt; omega
  rw [View.read_apply]
  show k2_pay1 (F := Ideal) (iblk2 V c 1 t) (iblk2 V c 0 t) (ix2 r e) = H2 V c _ _
  rw [tile2_apply V c t r e hR]
  congr 1
  · apply Fin.ext; show 256 * t.val + r.val = win2_2.index t (0 : Fin 2) * 256 + 1 * r.val; rw [e0]; omega
  · apply Fin.ext; show e.val = win2_2.index t (1 : Fin 2) * 2048 + 1 * e.val; rw [e1]; omega

/-- An index of the product array is in point `t`'s block iff each coordinate is in the block's range on its axis. -/
theorem mem_blk2_2 (t : Fin cfg2.N) (i : S8192x2048.Idx) :
    i ∈ ((cfg2.win 2).blk t).view.set ↔ ∀ a : Fin 2, win2_2.index t a * S256x2048.size a ≤ (i a).val ∧ (i a).val < win2_2.index t a * S256x2048.size a + S256x2048.size a := by
  show i ∈ ((View.whole main_v17_0).slice (win2_2.rect t)).set ↔ _
  rw [View.set_slice_whole, Rect.mem_set_unit]
  exact Iff.rfl

/-- THE PRODUCT ARRAY after the region: `X · tern(W)ᵀ`. -/
theorem arrAt2_2 (c : Dev nD) : (dat2 (F := Ideal) V c).arrAt 2 cfg2.N
    = Cert.Net.arr2 (Cert.Net.lin (Cert.Net.tern Cert.Net.C0) (Cert.Net.at2 (X2 V c)) (Cert.Net.at2 (W2 V c))) :=
  (dat2 V c).arrAt_eq_of_cover 2 (Cert.Net.arr2 (H2 V c)) (fun t _ => flushed2_2 V c t) fun (i : S8192x2048.Idx) => by
    have hi0 : (i 0).val < 8192 := (i 0).isLt
    have hi1 : (i 1).val < 2048 := (i 1).isLt
    have hN : cfg2.N = 32 := N_2
    obtain ⟨t, ht⟩ : ∃ t : Fin cfg2.N, t.val = (i 0).val / 256 := ⟨⟨(i 0).val / 256, by rw [hN]; omega⟩, rfl⟩
    obtain ⟨-, -, -, -, e0, e1, -⟩ := idx_facts2 t
    refine ⟨t, flush2_2 t, ?_⟩
    rw [mem_blk2_2]
    intro a
    match a with
    | ⟨0, _⟩ => show win2_2.index t (0 : Fin 2) * 256 ≤ (i 0).val ∧ (i 0).val < win2_2.index t (0 : Fin 2) * 256 + 256; omega
    | ⟨1, _⟩ => show win2_2.index t (1 : Fin 2) * 2048 ≤ (i 1).val ∧ (i 1).val < win2_2.index t (1 : Fin 2) * 2048 + 2048; omega

/-- What the last point writes back to the column-sum array. -/
theorem flushed2_3 (c : Dev nD) (t : Fin cfg2.N) (hf : (cfg2.win 3).flush t = true) :
    (dat2 V c).flushed 3 t = ((cfg2.win 3).blk t).view.read (Elt Ideal) (fun i : S1x2048.Idx => Cert.Net.colSum Cert.Net.C0 (H2 V c) (i 1)) := by
  have hN : cfg2.N = 32 := N_2
  have h31 : t.val = 31 := by have := (flush2_3 t).mp hf; have := t.isLt; omega
  obtain ⟨-, -, -, -, -, -, e0, e1, -⟩ := idx_facts2 t
  show (cfg2.win 3).cut (grid2.coords t) ((dat2 V c).after 3 t) = _
  rw [after2_3]
  funext y
  obtain ⟨u, e, rfl⟩ : ∃ (u : Fin 1) (e : Fin 2048), y = ix2 u e := ⟨y 0, y 1, eq_ix2 y⟩
  rw [View.read_apply]
  show accSum2 V c t.val t.isLt (ix2 u e) = Cert.Net.colSum Cert.Net.C0 (H2 V c) _
  rw [accSum2_last V c t h31 u e]
  congr 1
  apply Fin.ext; show e.val = win2_3.index t (1 : Fin 2) * 2048 + 1 * e.val; rw [e1]; omega

theorem flushed2_4 (c : Dev nD) (t : Fin cfg2.N) (hf : (cfg2.win 4).flush t = true) :
    (dat2 V c).flushed 4 t = ((cfg2.win 4).blk t).view.read (Elt Ideal) (fun i : S1x2048.Idx => Cert.Net.colSum Cert.Net.C0 (fun r n => H2 V c r n * H2 V c r n) (i 1)) := by
  have hN : cfg2.N = 32 := N_2
  have h31 : t.val = 31 := by have := (flush2_4 t).mp hf; have := t.isLt; omega
  obtain ⟨-, -, -, -, -, -, -, -, e0, e1⟩ := idx_facts2 t
  show (cfg2.win 4).cut (grid2.coords t) ((dat2 V c).after 4 t) = _
  rw [after2_4]
  funext y
  obtain ⟨u, e, rfl⟩ : ∃ (u : Fin 1) (e : Fin 2048), y = ix2 u e := ⟨y 0, y 1, eq_ix2 y⟩
  rw [View.read_apply]
  show accSq2 V c t.val t.isLt (ix2 u e) = Cert.Net.colSum Cert.Net.C0 (fun r n => H2 V c r n * H2 V c r n) _
  rw [accSq2_last V c t h31 u e]
  congr 1
  apply Fin.ext; show e.val = win2_4.index t (1 : Fin 2) * 2048 + 1 * e.val; rw [e1]; omega

theorem mem_blk2_3 (t : Fin cfg2.N) (i : S1x2048.Idx) :
    i ∈ ((cfg2.win 3).blk t).view.set ↔ ∀ a : Fin 2, win2_3.index t a * S1x2048.size a ≤ (i a).val ∧ (i a).val < win2_3.index t a * S1x2048.size a + S1x2048.size a := by
  show i ∈ ((View.whole main_v17_1).slice (win2_3.rect t)).set ↔ _
  rw [View.set_slice_whole, Rect.mem_set_unit]
  exact Iff.rfl

theorem mem_blk2_4 (t : Fin cfg2.N) (i : S1x2048.Idx) :
    i ∈ ((cfg2.win 4).blk t).view.set ↔ ∀ a : Fin 2, win2_4.index t a * S1x2048.size a ≤ (i a).val ∧ (i a).val < win2_4.index t a * S1x2048.size a + S1x2048.size a := by
  show i ∈ ((View.whole main_v17_2).slice (win2_4.rect t)).set ↔ _
  rw [View.set_slice_whole, Rect.mem_set_unit]
  exact Iff.rfl

/-- THE COLUMN-SUM ARRAY after the region. -/
theorem arrAt2_3 (c : Dev nD) : (dat2 (F := Ideal) V c).arrAt 3 cfg2.N
    = fun i => Cert.Net.colSum Cert.Net.C0 (Cert.Net.lin (Cert.Net.tern Cert.Net.C0) (Cert.Net.at2 (X2 V c)) (Cert.Net.at2 (W2 V c))) (i 1) :=
  (dat2 V c).arrAt_eq_of_cover 3 (fun i : S1x2048.Idx => Cert.Net.colSum Cert.Net.C0 (H2 V c) (i 1)) (flushed2_3 V c) fun (i : S1x2048.Idx) => by
    have hi0 : (i 0).val < 1 := (i 0).isLt
    have hi1 : (i 1).val < 2048 := (i 1).isLt
    have hN : cfg2.N = 32 := N_2
    obtain ⟨t, ht⟩ : ∃ t : Fin cfg2.N, t.val = 31 := ⟨⟨31, by rw [hN]; omega⟩, rfl⟩
    obtain ⟨-, -, -, -, -, -, e0, e1, -⟩ := idx_facts2 t
    refine ⟨t, (flush2_3 t).mpr (by rw [ht]), ?_⟩
    rw [mem_blk2_3]
    intro a
    match a with
    | ⟨0, _⟩ => show win2_3.index t (0 : Fin 2) * 1 ≤ (i 0).val ∧ (i 0).val < win2_3.index t (0 : Fin 2) * 1 + 1; omega
    | ⟨1, _⟩ => show win2_3.index t (1 : Fin 2) * 2048 ≤ (i 1).val ∧ (i 1).val < win2_3.index t (1 : Fin 2) * 2048 + 2048; omega

/-- THE ARRAY OF COLUMN SUMS OF SQUARES after the region. -/
theorem arrAt2_4 (c : Dev nD) : (dat2 (F := Ideal) V c).arrAt 4 cfg2.N
    = fun i => Cert.Net.colSum Cert.Net.C0 (fun r n => Cert.Net.lin (Cert.Net.tern Cert.Net.C0) (Cert.Net.at2 (X2 V c)) (Cert.Net.at2 (W2 V c)) r n
        * Cert.Net.lin (Cert.Net.tern Cert.Net.C0) (Cert.Net.at2 (X2 V c)) (Cert.Net.at2 (W2 V c)) r n) (i 1) :=
  (dat2 V c).arrAt_eq_of_cover 4 (fun i : S1x2048.Idx => Cert.Net.colSum Cert.Net.C0 (fun r n => H2 V c r n * H2 V c r n) (i 1)) (flushed2_4 V c) fun (i : S1x2048.Idx) => by
    have hi0 : (i 0).val < 1 := (i 0).isLt
    have hi1 : (i 1).val < 2048 := (i 1).isLt
    have hN : cfg2.N = 32 := N_2
    obtain ⟨t, ht⟩ : ∃ t : Fin cfg2.N, t.val = 31 := ⟨⟨31, by rw [hN]; omega⟩, rfl⟩
    obtain ⟨-, -, -, -, -, -, -, -, e0, e1⟩ := idx_facts2 t
    refine ⟨t, (flush2_4 t).mpr (by rw [ht]), ?_⟩
    rw [mem_blk2_4]
    intro a
    match a with
    | ⟨0, _⟩ => show win2_4.index t (0 : Fin 2) * 1 ≤ (i 0).val ∧ (i 0).val < win2_4.index t (0 : Fin 2) * 1 + 1; omega
    | ⟨1, _⟩ => show win2_4.index t (1 : Fin 2) * 2048 ≤ (i 1).val ∧ (i 1).val < win2_4.index t (1 : Fin 2) * 2048 + 2048; omega

end Cert.KernelIdeal.Hand

end
-- ==== Proof.Value3.lean ====
/- What region 3 of @main (custom_call 3, pipeline 3) leaves in its output array, at the ideal instance: ONE whole-array
   function of the three input arrays as the region finds them (`V`).

   The body is pointwise. At tile index (p, q) its payload is the quantiser of `h · s + b`, where `h` is the tile of
   window 0 at (p, q) and `s`, `b` are the row vectors of windows 1 and 2 at column q (`pay3_apply`; the cast to the
   output's format is the identity on the extended reals). Point `t` of the grid stages rows 256 t … 256 t + 255 of window
   0's array and of the output's, and the whole of the two row vectors (`idx_facts3`, decided over the 32 points;
   `iblk3_W_apply`). So what point `t` writes back is block `t` of one function `G3_3` of the three arrays
   (`flushed3_3_eq`); row r of the output is covered by point r / 256 (`cover3`); hence the array ends at `G3_3`
   (`arrAt3_3`). -/
import proofs.«117354_j7189775254092_1_alg».proof.Proof.Region3
import proofs.«117354_j7189775254092_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Value3
-- the TensorCore's buffer contents when the region is entered, at the ideal instance
variable (V : (c : Dev nD) → (b : Ref sig .tc) → Buf (Elt Ideal) ((c : Thread nD τ).loc b))

/-- The zero offsets, however spelt. -/
theorem hz3 : (![0, 0] : Fin 2 → Nat) = fun _ => 0 := funext fun a => by fin_cases a <;> rfl

/-! ## The printed index maps, decided over the grid -/

/-- At point `t`: windows 0 and 3 stage row block `t` (column block 0); windows 1 and 2 stage block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-! ## The kernel's payload at an index -/

/-- The payload at tile index `j`: the quantiser of the tile's entry times the first row vector's entry at `j`'s
    column plus the second's (each row vector broadcast down the tile; the final cast is the identity). -/
theorem pay3_apply (v0 : Vec Ideal S256x2048 .f32) (v2 v6 : Vec Ideal S1x2048 .f32) (j : S256x2048.Idx) :
    k3_pay1 v0 v2 v6 j
      = Cert.Net.tern Cert.Net.C0 (v0 j * v2 (ix2 (0 : Fin 1) (j 1)) + v6 (ix2 (0 : Fin 1) (j 1))) := by
  obtain ⟨p, q, rfl⟩ : ∃ (p : Fin 256) (q : Fin 2048), j = ix2 p q := ⟨j 0, j 1, eq_ix2 j⟩
  unfold k3_pay1
  show min _ (max _ (Ideal.liftRound Ideal.roundHalfEven
      (shapeCast S256x2048 v0 shapeCasts_S256x2048_S256x2048 (ix2 p q)
        * broadcastTo S256x2048 (shapeCast S1x2048 v2 shapeCasts_S1x2048_S1x2048) broadcasts_S1x2048_S256x2048 (ix2 p q)
        + broadcastTo S256x2048 (shapeCast S1x2048 v6 shapeCasts_S1x2048_S1x2048) broadcasts_S1x2048_S256x2048 (ix2 p q)))) = _
  rw [shapeCast_self, shapeCast_self, shapeCast_self, broadcastTo_1b_ab_apply, broadcastTo_1b_ab_apply]
  rfl

/-! ## The input blocks as reads of their arrays -/

/-- Window 0's block at point `t` is rows 256 t … 256 t + 255 of its array. -/
theorem iblk3_0_apply (c : Dev nD) (t : Fin cfg3.N) (x : S256x2048.Idx) (k : S8192x2048.Idx)
    (hk0 : (k 0).val = 256 * t.val + (x 0).val) (hk1 : (k 1).val = (x 1).val) :
    (iblk3 V c 0 t : Vec Ideal S256x2048 .f32) x = (V c main_v17_0 : S8192x2048.Idx → EReal) k := by
  obtain ⟨e0, e1, -⟩ := idx_facts3 t
  unfold iblk3
  rw [View.read_apply]
  show V c main_v17_0 _ = V c main_v17_0 _
  congr 1
  funext a
  apply Fin.ext
  match a with
  | ⟨0, _⟩ => show win3_0.index t 0 * 256 + 1 * (x 0).val = (k 0).val; rw [e0, hk0]; omega
  | ⟨1, _⟩ => show win3_0.index t 1 * 2048 + 1 * (x 1).val = (k 1).val; rw [e1, hk1]; omega

/-- Window 1's block at every point is its whole array. -/
theorem iblk3_1_apply (c : Dev nD) (t : Fin cfg3.N) (x k : S1x2048.Idx) (hk1 : (k 1).val = (x 1).val) :
    (iblk3 V c 1 t : Vec Ideal S1x2048 .f32) x = (V c main_v28 : S1x2048.Idx → EReal) k := by
  obtain ⟨-, -, e2, e3, -⟩ := idx_facts3 t
  have hx0 : (x 0).val < 1 := (x 0).isLt
  have hk0 : (k 0).val < 1 := (k 0).isLt
  unfold iblk3
  rw [View.read_apply]
  show V c main_v28 _ = V c main_v28 _
  congr 1
  funext a
  apply Fin.ext
  match a with
  | ⟨0, _⟩ => show win3_1.index t 0 * 1 + 1 * (x 0).val = (k 0).val; rw [e2]; omega
  | ⟨1, _⟩ => show win3_1.index t 1 * 2048 + 1 * (x 1).val = (k 1).val; rw [e3, hk1]; omega

/-- Window 2's block at every point is its whole array. -/
theorem iblk3_2_apply (c : Dev nD) (t : Fin cfg3.N) (x k : S1x2048.Idx) (hk1 : (k 1).val = (x 1).val) :
    (iblk3 V c 2 t : Vec Ideal S1x2048 .f32) x = (V c main_v31 : S1x2048.Idx → EReal) k := by
  obtain ⟨-, -, -, -, e4, e5, -⟩ := idx_facts3 t
  have hx0 : (x 0).val < 1 := (x 0).isLt
  have hk0 : (k 0).val < 1 := (k 0).isLt
  unfold iblk3
  rw [View.read_apply]
  show V c main_v31 _ = V c main_v31 _
  congr 1
  funext a
  apply Fin.ext
  match a with
  | ⟨0, _⟩ => show win3_2.index t 0 * 1 + 1 * (x 0).val = (k 0).val; rw [e4]; omega
  | ⟨1, _⟩ => show win3_2.index t 1 * 2048 + 1 * (x 1).val = (k 1).val; rw [e5, hk1]; omega

/-! ## The output array as one function of the input arrays -/

/-- What the output array ends holding: at row r and column q, the quantiser of `a0 (r, q) · a1 (0, q) + a2 (0, q)`. -/
abbrev G3_3 (a0 : S8192x2048.Idx → EReal) (a1 a2 : S1x2048.Idx → EReal) : S8192x2048.Idx → EReal :=
  fun i => Cert.Net.tern Cert.Net.C0 (a0 i * a1 (ix2 (0 : Fin 1) (i 1)) + a2 (ix2 (0 : Fin 1) (i 1)))

/-- The body's payload of the three blocks at point `t`, at tile index `j`, is `G3_3` of the arrays at the array index
    `k` that `j` names in block `t` (row 256 t + j's row, j's column). -/
theorem block3_3 (c : Dev nD) (t : Fin cfg3.N) (j : S256x2048.Idx) (k : S8192x2048.Idx)
    (hk0 : (k 0).val = 256 * t.val + (j 0).val) (hk1 : (k 1).val = (j 1).val) :
    k3_pay1 (iblk3 V c 0 t) (iblk3 V c 1 t) (iblk3 V c 2 t) j = G3_3 (V c main_v17_0) (V c main_v28) (V c main_v31) k := by
  refine (pay3_apply (iblk3 V c 0 t) (iblk3 V c 1 t) (iblk3 V c 2 t) j).trans ?_
  rw [iblk3_0_apply V c t j k hk0 hk1,
    iblk3_1_apply V c t (ix2 (0 : Fin 1) (j 1)) (ix2 (0 : Fin 1) (k 1)) hk1,
    iblk3_2_apply V c t (ix2 (0 : Fin 1) (j 1)) (ix2 (0 : Fin 1) (k 1)) hk1]

/-- WHAT POINT `t` WRITES BACK is block `t` of `G3_3` of the input arrays as the region finds them. -/
theorem flushed3_3_eq (c : Dev nD) (t : Fin cfg3.N) :
    (dat3 V c).flushed 3 t = ((cfg3.win 3).blk t).view.read (Elt Ideal) (G3_3 (V c main_v17_0) (V c main_v28) (V c main_v31)) := by
  show (cfg3.win 3).cut (grid3.coords t) ((dat3 V c).after 3 t) = _
  rw [after3_3]
  unfold out3_3
  rw [View.canon_unit_zero hz3]
  simp only [View.ld_unit_zero (S := S256x2048) hz3, View.ld_unit_zero (S := S1x2048) hz3]
  obtain ⟨-, -, -, -, -, -, e6, e7⟩ := idx_facts3 t
  funext j
  refine block3_3 V c t j (((cfg3.win 3).blk t).view.emb j) ?_ ?_
  · show win3_3.index t 0 * 256 + 1 * (j 0).val = 256 * t.val + (j 0).val
    rw [e6]; omega
  · show win3_3.index t 1 * 2048 + 1 * (j 1).val = (j 1).val
    rw [e7]; omega

/-! ## The cover -/

/-- An index of the output array is in point `t`'s block iff each coordinate is in the block's range on its axis. -/
theorem mem_blk3_3 (t : Fin cfg3.N) (i : S8192x2048.Idx) :
    i ∈ ((cfg3.win 3).blk t).view.set ↔ ∀ a : Fin 2, win3_3.index t a * S256x2048.size a ≤ (i a).val ∧ (i a).val < win3_3.index t a * S256x2048.size a + S256x2048.size a := by
  show i ∈ ((View.whole main_v32).slice (win3_3.rect t)).set ↔ _
  rw [View.set_slice_whole, Rect.mem_set_unit]
  exact Iff.rfl

/-- Every index of the output array is in some point's block: row r is in the block of point r / 256, and every point
    writes back. -/
theorem cover3 (i : S8192x2048.Idx) : ∃ t : Fin cfg3.N, (cfg3.win 3).flush t = true ∧ i ∈ ((cfg3.win 3).blk t).view.set := by
  have hi0 : (i 0).val < 8192 := (i 0).isLt
  have hi1 : (i 1).val < 2048 := (i 1).isLt
  have hN : cfg3.N = 32 := N_3
  refine ⟨⟨(i 0).val / 256, by rw [hN]; omega⟩, flush3_3 _, ?_⟩
  rw [mem_blk3_3]
  obtain ⟨-, -, -, -, -, -, e6, e7⟩ := idx_facts3 ⟨(i 0).val / 256, by rw [hN]; omega⟩
  intro a
  match a with
  | ⟨0, _⟩ =>
    show win3_3.index _ (0 : Fin 2) * 256 ≤ (i 0).val ∧ (i 0).val < win3_3.index _ (0 : Fin 2) * 256 + 256
    rw [e6]; show (i 0).val / 256 * 256 ≤ (i 0).val ∧ (i 0).val < (i 0).val / 256 * 256 + 256; omega
  | ⟨1, _⟩ =>
    show win3_3.index _ (1 : Fin 2) * 2048 ≤ (i 1).val ∧ (i 1).val < win3_3.index _ (1 : Fin 2) * 2048 + 2048
    rw [e7]; omega

/-! ## The array after the region -/

/-- THE OUTPUT ARRAY after the region: at every index, the quantiser of window 0's array there times window 1's row
    vector at the index's column plus window 2's. -/
theorem arrAt3_3 (c : Dev nD) : ((dat3 V c).arrAt 3 cfg3.N : S8192x2048.Idx → EReal)
    = G3_3 (V c main_v17_0) (V c main_v28) (V c main_v31) :=
  (dat3 V c).arrAt_eq_of_cover 3 (G3_3 (V c main_v17_0) (V c main_v28) (V c main_v31)) (fun t _ => flushed3_3_eq V c t) cover3

/-- `G3_3` at an index. -/
theorem G3_3_apply (a0 : S8192x2048.Idx → EReal) (a1 a2 : S1x2048.Idx → EReal) (i : S8192x2048.Idx) :
    G3_3 a0 a1 a2 i = Cert.Net.tern Cert.Net.C0 (a0 i * a1 (ix2 (0 : Fin 1) (i 1)) + a2 (ix2 (0 : Fin 1) (i 1))) := rfl

end Value3

end Cert.KernelIdeal.Hand
-- ==== Proof.HostStretch3.lean ====
/-
  The host's operations after the second statistics region, read at an index: the scale row and the shift row are the
  specification's `scaleOf` and `shiftOf` of the columns of the two accumulated rows (the first stretch's two reading
  lemmas, at this stretch's buffers).
-/
import proofs.«117354_j7189775254092_1_alg».proof.Proof.HostStretch1

noncomputable section

namespace Cert.KernelIdeal.Hand

open Idealize.ShloMosaic Idealize.ShloMosaic.ValueIdx
open Cert.KernelIdeal Cert.KernelIdeal.Gen

/-! ## The stretch after the second statistics region -/

/-- After the stretch the scale buffer holds the scale row of the two accumulated rows and the gain, whatever the
    buffers held before. -/
theorem stretch3_scale (W : Valuation τ sig (Elt Ideal)) :
    (StableHlo.after (hostOps3 (F := Ideal)) W (Proc.devRef .tc main_v28) : S1x2048.Idx → EReal)
      = ScaleRow (n := 2048) (W (Proc.devRef .tc main_v17_1)) (W (Proc.devRef .tc main_v17_2)) (W (Proc.devRef .tc main_arg5)) := by
  show StableHlo.after hostOps3 W (Proc.devRef .tc main_v28) = _
  after_results_simp
  exact scale_read bcast_S_S1x2048 shapeCasts_S2048_S1x2048 _ _ _

/-- After the stretch the shift buffer holds the shift row of the two accumulated rows, the gain and the bias. -/
theorem stretch3_shift (W : Valuation τ sig (Elt Ideal)) :
    (StableHlo.after (hostOps3 (F := Ideal)) W (Proc.devRef .tc main_v31) : S1x2048.Idx → EReal)
      = ShiftRow (n := 2048) (W (Proc.devRef .tc main_v17_1)) (W (Proc.devRef .tc main_v17_2)) (W (Proc.devRef .tc main_arg5))
          (W (Proc.devRef .tc main_arg6)) := by
  show StableHlo.after hostOps3 W (Proc.devRef .tc main_v31) = _
  after_results_simp
  exact shift_read bcast_S_S1x2048 shapeCasts_S2048_S1x2048 _ _ _ _

end Cert.KernelIdeal.Hand

end
-- ==== Proof.KernelValue2.lean ====
/-
  The kernel's program's value, layer 2: the second layer read off the chain, and its parameters' launch contents.
-/
import proofs.«117354_j7189775254092_1_alg».proof.Proof.KernelValue1
import proofs.«117354_j7189775254092_1_alg».proof.Proof.Value2
import proofs.«117354_j7189775254092_1_alg».proof.Proof.Value3
import proofs.«117354_j7189775254092_1_alg».proof.Proof.HostStretch3

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Net (C0 tern lin colSum layerK netK at1 at2 arr2)

variable (m : (ℓ : Loc nD τ sig) → Buf (Elt Ideal) ℓ)

/-- No item up to here writes argument 4. -/
theorem Ct4_arg4 (c : Dev nD) :
    Ct4 m c (Proc.devRef .tc main_arg4) = m ((c.tc : Thread nD τ).loc main_arg4) :=
  Ct4_launch m c main_arg4 (by decide) (by decide) (by decide) (by decide)

/-- No item up to here writes argument 5. -/
theorem Ct4_arg5 (c : Dev nD) :
    Ct4 m c (Proc.devRef .tc main_arg5) = m ((c.tc : Thread nD τ).loc main_arg5) :=
  Ct4_launch m c main_arg5 (by decide) (by decide) (by decide) (by decide)

/-- No item up to here writes argument 6. -/
theorem Ct4_arg6 (c : Dev nD) :
    Ct4 m c (Proc.devRef .tc main_arg6) = m ((c.tc : Thread nD τ).loc main_arg6) :=
  Ct4_launch m c main_arg6 (by decide) (by decide) (by decide) (by decide)

/-! ## Layer 2 -/

/-- The second layer on the chain: the statistics region leaves the product array `h = a · q(w)ᵀ` and its column sums and
    sums of squares; the host stretch forms the scale and shift rows from them; the normalising region leaves
    `q(h · scale + shift)`, which is the specification's layer in the kernel's spelling. -/
theorem klayer2 (c : Dev nD) :
    (Ct7 m c (Proc.devRef .tc main_v32) : S8192x2048.Idx → EReal)
      = arr2 (layerK C0 true (at2 (n0 := 8192) (n1 := 2048) (Ct4 m c (Proc.devRef .tc main_v16))) (at2 (n0 := 2048) (n1 := 2048) (Ct4 m c (Proc.devRef .tc main_arg4)))
          (at1 (n := 2048) (Ct4 m c (Proc.devRef .tc main_arg5))) (at1 (n := 2048) (Ct4 m c (Proc.devRef .tc main_arg6)))) := by
  have hH : (Ct5 m c (Proc.devRef .tc main_v17_0) : S8192x2048.Idx → EReal) = arr2 (lin (tern C0) (at2 (n0 := 8192) (n1 := 2048) (Ct4 m c (Proc.devRef .tc main_v16))) (at2 (n0 := 2048) (n1 := 2048) (Ct4 m c (Proc.devRef .tc main_arg4)))) :=
    (Ct5_at_main_v17_0 m c).trans (arrAt2_2 (fun c b => Ct4 m c b) c)
  have hS : (Ct5 m c (Proc.devRef .tc main_v17_1) : S1x2048.Idx → EReal) = fun i => colSum C0 (lin (tern C0) (at2 (n0 := 8192) (n1 := 2048) (Ct4 m c (Proc.devRef .tc main_v16))) (at2 (n0 := 2048) (n1 := 2048) (Ct4 m c (Proc.devRef .tc main_arg4)))) (i 1) :=
    (Ct5_at_main_v17_1 m c).trans (arrAt2_3 (fun c b => Ct4 m c b) c)
  have hQ : (Ct5 m c (Proc.devRef .tc main_v17_2) : S1x2048.Idx → EReal)
      = fun i => colSum C0 (fun r n => lin (tern C0) (at2 (n0 := 8192) (n1 := 2048) (Ct4 m c (Proc.devRef .tc main_v16))) (at2 (n0 := 2048) (n1 := 2048) (Ct4 m c (Proc.devRef .tc main_arg4))) r n * lin (tern C0) (at2 (n0 := 8192) (n1 := 2048) (Ct4 m c (Proc.devRef .tc main_v16))) (at2 (n0 := 2048) (n1 := 2048) (Ct4 m c (Proc.devRef .tc main_arg4))) r n) (i 1) :=
    (Ct5_at_main_v17_2 m c).trans (arrAt2_4 (fun c b => Ct4 m c b) c)
  have hG : Ct5 m c (Proc.devRef .tc main_arg5) = Ct4 m c (Proc.devRef .tc main_arg5) := Ct5_keep m c main_arg5 (by decide)
  have hB : Ct5 m c (Proc.devRef .tc main_arg6) = Ct4 m c (Proc.devRef .tc main_arg6) := Ct5_keep m c main_arg6 (by decide)
  have h0 : Ct6 m c (Proc.devRef .tc main_v17_0) = Ct5 m c (Proc.devRef .tc main_v17_0) := Ct6_keep m c main_v17_0 (by decide)
  have hsc : (Ct6 m c (Proc.devRef .tc main_v28) : S1x2048.Idx → EReal)
      = ScaleRow (n := 2048) (Ct5 m c (Proc.devRef .tc main_v17_1)) (Ct5 m c (Proc.devRef .tc main_v17_2)) (Ct5 m c (Proc.devRef .tc main_arg5)) := stretch3_scale (Ct5 m c)
  have hsh : (Ct6 m c (Proc.devRef .tc main_v31) : S1x2048.Idx → EReal)
      = ShiftRow (n := 2048) (Ct5 m c (Proc.devRef .tc main_v17_1)) (Ct5 m c (Proc.devRef .tc main_v17_2)) (Ct5 m c (Proc.devRef .tc main_arg5)) (Ct5 m c (Proc.devRef .tc main_arg6)) := stretch3_shift (Ct5 m c)
  rw [Ct7_at_main_v32, arrAt3_3 (fun c b => Ct6 m c b) c, hsc, hsh, h0, hH, hS, hQ, hG, hB]
  rfl

end Cert.KernelIdeal.Hand

end
-- ==== Proof.Value4.lean ====
import proofs.«117354_j7189775254092_1_alg».proof.Proof.Region4
import proofs.«117354_j7189775254092_1_alg».proof.Proof.Spec
import proofs.«117354_j7189775254092_1_alg».proof.Proof.LibSums
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # Region 4 at the extended reals: what its three output arrays hold after the region

With `X` the `[8192, 2048]` activations and `W` the `[2048, 2048]` weights as the region finds them, the product array
ends holding `h = X · tern(W)ᵀ`, and the two `[1, 2048]` arrays the column sums of `h` and of its squares: 32 tiles of
256 rows, each tile's column sums added in turn to an accumulator that starts from the zero word. -/

/-! ## A product of an `[m, k]` array by a `[k, n]` array over the shared axis, at an index -/

/-- The sum over the contraction index, re-indexed by the contracted axis's one coordinate. -/
theorem contract_sum_cols4 {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product of rows against columns into the zero accumulator, at `(p, e)`. -/
theorem matmul_zero_cols_apply4 {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum_cols4 D hr hs hl0 hl1 hr0 hr1 A B p e)

/-! ## The body's payloads at the extended reals -/

/-- The tile's product at `(p, e)`: the row of the tile against the quantised weight row. -/
theorem pay1_apply4 (w : Vec Ideal S2048x2048 .f32) (x : Vec Ideal S256x2048 .bf16) (p : Fin 256) (e : Fin 2048) :
    k4_pay1 (F := Ideal) w x (ix2 p e) = ∑ j : Fin 2048, x (ix2 p j) * Cert.Net.tern Cert.Net.C0 (w (ix2 e j)) := by
  unfold k4_pay1
  dsimp only
  refine (matmul_zero_cols_apply4 (m := 256) (k := 2048) (n := 2048) dot_S256x2048_S2048x2048_S256x2048_1_0_0_1_n_n rfl rfl
    (fun i q => by simp [DotDims.lhsIdx, dot_S256x2048_S2048x2048_S256x2048_1_0_0_1_n_n]; rfl) (fun i q => by simp [DotDims.lhsIdx, dot_S256x2048_S2048x2048_S256x2048_1_0_0_1_n_n]; rfl)
    (fun i q => by simp [DotDims.rhsIdx, dot_S256x2048_S2048x2048_S256x2048_1_0_0_1_n_n]; rfl) (fun i q => by simp [DotDims.rhsIdx, dot_S256x2048_S2048x2048_S256x2048_1_0_0_1_n_n]; rfl)
    none _ _ p e).trans ?_
  refine Finset.sum_congr rfl fun j _ => ?_
  rw [shapeCast_self, transpose_ix2_apply]
  rfl

/-- The zero row the accumulators start from. -/
theorem pay2_apply4 (i : S1x2048.Idx) : k4_pay2 (F := Ideal) i = Cert.Net.C0.zero := by
  unfold k4_pay2
  rw [shapeCast_self]
  rfl
theorem pay3_apply4 (i : S1x2048.Idx) : k4_pay3 (F := Ideal) i = Cert.Net.C0.zero := by
  unfold k4_pay3
  rw [shapeCast_self]
  rfl

/-- The column-sum accumulator's step: what it held plus the tile's column sum. -/
theorem pay4_apply4 (w : Vec Ideal S2048x2048 .f32) (x : Vec Ideal S256x2048 .bf16) (s : Vec Ideal S1x2048 .f32) (u : Fin 1) (e : Fin 2048) :
    k4_pay4 (F := Ideal) w x s (ix2 u e) = s (ix2 u e) + ∑ r : Fin 256, k4_pay1 (F := Ideal) w x (ix2 r e) := by
  unfold k4_pay4
  dsimp only
  rw [shapeCast_self, addf_apply, shapeCast_a_1a_apply]
  refine congrArg (s (ix2 u e) + ·) ?_
  refine (Ideal.multiReduction_add_single (k4_pay1 (F := Ideal) w x) _ reduces_S256x2048_S2048 (.inl rfl) rfl (ix1 e)).trans ?_
  refine Finset.sum_congr rfl fun r _ => congrArg _ ?_
  funext a; apply Fin.ext
  match a with
  | ⟨0, _⟩ => rfl
  | ⟨1, _⟩ => rfl

/-- The squares' accumulator's step: what it held plus the tile's column sum of squares. -/
theorem pay5_apply4 (w : Vec Ideal S2048x2048 .f32) (x : Vec Ideal S256x2048 .bf16) (s : Vec Ideal S1x2048 .f32) (u : Fin 1) (e : Fin 2048) :
    k4_pay5 (F := Ideal) w x s (ix2 u e) = s (ix2 u e) + ∑ r : Fin 256, k4_pay1 (F := Ideal) w x (ix2 r e) * k4_pay1 (F := Ideal) w x (ix2 r e) := by
  unfold k4_pay5
  dsimp only
  rw [shapeCast_self, addf_apply, shapeCast_a_1a_apply]
  refine congrArg (s (ix2 u e) + ·) ?_
  refine (Ideal.multiReduction_add_single (mulf (k4_pay1 (F := Ideal) w x) (k4_pay1 (F := Ideal) w x)) _ reduces_S256x2048_S2048 (.inl rfl) rfl (ix1 e)).trans ?_
  refine Finset.sum_congr rfl fun r _ => ?_
  rw [mulf_apply]
  have hi : reduces_S256x2048_S2048.lift (ix1 e) r = ix2 r e := by
    funext a; apply Fin.ext
    match a with
    | ⟨0, _⟩ => rfl
    | ⟨1, _⟩ => rfl
  rw [hi]
  rfl

/-! ## The windows' blocks as pieces of the arrays -/

-- the TensorCore's buffer contents when the region is entered
variable (V : (c : Dev nD) → (b : Ref sig .tc) → Buf (Elt Ideal) ((c : Thread nD τ).loc b))

/-- The activations and the weights as the region finds them. -/
abbrev X4 (c : Dev nD) : S8192x2048.Idx → EReal := V c (Pipeline.arrRef spec4 0)
abbrev W4 (c : Dev nD) : S2048x2048.Idx → EReal := V c (Pipeline.arrRef spec4 1)

/-- The product array: every activation row against every quantised weight row. -/
abbrev H4 (c : Dev nD) : Fin 8192 → Fin 2048 → EReal :=
  Cert.Net.lin (Cert.Net.tern Cert.Net.C0) (Cert.Net.at2 (X4 V c)) (Cert.Net.at2 (W4 V c))

/-- The printed index maps over the grid: the row tile moves with the point, everything else stays at block 0. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Row `r` of tile `t` is row `256 t + r` of the activations. -/
theorem iblk4_0_apply (c : Dev nD) (t : Fin cfg4.N) (r : Fin 256) (j : Fin 2048) (hR : 256 * t.val + r.val < 8192) :
    (iblk4 V c 0 t : Vec Ideal S256x2048 .bf16) (ix2 r j) = X4 V c (ix2 ⟨256 * t.val + r.val, hR⟩ j) := by
  obtain ⟨e0, e1, -⟩ := idx_facts4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 256 + 1 * r.val = 256 * t.val + r.val; rw [e0]; omega
  | ⟨1, _⟩ => show win4_0.index t (1 : Fin 2) * 2048 + 1 * j.val = j.val; rw [e1]; omega

/-- The weights' one block is the weights. -/
theorem iblk4_1_apply (c : Dev nD) (t : Fin cfg4.N) (e : Fin 2048) (j : Fin 2048) :
    (iblk4 V c 1 t : Vec Ideal S2048x2048 .f32) (ix2 e j) = W4 V c (ix2 e j) := by
  obtain ⟨-, -, e0, e1, -⟩ := idx_facts4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 2048 + 1 * e.val = e.val; rw [e0]; omega
  | ⟨1, _⟩ => show win4_1.index t (1 : Fin 2) * 2048 + 1 * j.val = j.val; rw [e1]; omega

/-- The tile's product at point `t` is rows `256 t … 256 t + 255` of the product array. -/
theorem tile4_apply (c : Dev nD) (t : Fin cfg4.N) (r : Fin 256) (e : Fin 2048) (hR : 256 * t.val + r.val < 8192) :
    k4_pay1 (F := Ideal) (iblk4 V c 1 t) (iblk4 V c 0 t) (ix2 r e) = H4 V c ⟨256 * t.val + r.val, hR⟩ e := by
  rw [pay1_apply4]
  unfold H4 Cert.Net.lin
  refine Finset.sum_congr rfl fun j _ => ?_
  rw [iblk4_0_apply V c t r j hR, iblk4_1_apply V c t e j]

/-! ## The accumulators in closed form -/

/-- A row of the product array by its number (zero past the last row: never read). -/
def Hrow4 (c : Dev nD) (R : ℕ) (e : Fin 2048) : EReal := if h : R < 8192 then H4 V c ⟨R, h⟩ e else 0

theorem tile4_row (c : Dev nD) (t : Fin cfg4.N) (r : Fin 256) (e : Fin 2048) :
    k4_pay1 (F := Ideal) (iblk4 V c 1 t) (iblk4 V c 0 t) (ix2 r e) = Hrow4 V c (256 * t.val + r.val) e := by
  have hN : t.val < 32 := lt_of_lt_of_eq t.isLt (show cfg4.N = 32 from N_4)
  have hR : 256 * t.val + r.val < 8192 := by have := r.isLt; omega
  rw [tile4_apply V c t r e hR]; unfold Hrow4; rw [dif_pos hR]

/-- The column-sum accumulator after point `n`: the zero word, then the column sums of tiles `0 … n` added in turn. -/
theorem accSum4_apply (c : Dev nD) : ∀ (n : ℕ) (h : n < cfg4.N) (u : Fin 1) (e : Fin 2048),
    accSum4 V c n h (ix2 u e) = Cert.Net.C0.zero + ∑ s ∈ Finset.range (n + 1), ∑ r : Fin 256, Hrow4 V c (256 * s + r.val) e
  | 0, h, u, e => by
    show k4_pay4 (F := Ideal) _ _ _ (ix2 u e) = _
    rw [pay4_apply4, pay2_apply4, Finset.sum_range_one]
    refine congrArg (Cert.Net.C0.zero + ·) (Finset.sum_congr rfl fun r _ => ?_)
    exact tile4_row V c ⟨0, h⟩ r e
  | n + 1, h, u, e => by
    show k4_pay4 (F := Ideal) _ _ (accSum4 V c n _) (ix2 u e) = _
    rw [pay4_apply4, accSum4_apply c n _ u e, Finset.sum_range_succ _ (n + 1), add_assoc]
    refine congrArg (_ + ·) (congrArg (_ + ·) (Finset.sum_congr rfl fun r _ => ?_))
    exact tile4_row V c ⟨n + 1, h⟩ r e

/-- The squares' accumulator after point `n`, likewise. -/
theorem accSq4_apply (c : Dev nD) : ∀ (n : ℕ) (h : n < cfg4.N) (u : Fin 1) (e : Fin 2048),
    accSq4 V c n h (ix2 u e) = Cert.Net.C0.zero + ∑ s ∈ Finset.range (n + 1), ∑ r : Fin 256, Hrow4 V c (256 * s + r.val) e * Hrow4 V c (256 * s + r.val) e
  | 0, h, u, e => by
    show k4_pay5 (F := Ideal) _ _ _ (ix2 u e) = _
    rw [pay5_apply4, pay3_apply4, Finset.sum_range_one]
    refine congrArg (Cert.Net.C0.zero + ·) (Finset.sum_congr rfl fun r _ => ?_)
    rw [tile4_row V c ⟨0, h⟩ r e]
  | n + 1, h, u, e => by
    show k4_pay5 (F := Ideal) _ _ (accSq4 V c n _) (ix2 u e) = _
    rw [pay5_apply4, accSq4_apply c n _ u e, Finset.sum_range_succ _ (n + 1), add_assoc]
    refine congrArg (_ + ·) (congrArg (_ + ·) (Finset.sum_congr rfl fun r _ => ?_))
    rw [tile4_row V c ⟨n + 1, h⟩ r e]

/-- 32 tiles of 256 rows are the 8192 rows. -/
theorem sum_tiles4 (f : ℕ → EReal) (g : Fin 8192 → EReal) (hfg : ∀ R : Fin 8192, f R.val = g R) :
    ∑ s ∈ Finset.range (31 + 1), ∑ r : Fin 256, f (256 * s + r.val) = ∑ R : Fin 8192, g R := by
  rw [Finset.sum_range (fun s => ∑ r : Fin 256, f (256 * s + r.val)),
    Cert.LibSums.sum_by_tiles (T := 32) (R := 256) (N := 8192) rfl g]
  exact Finset.sum_congr rfl fun s _ => Finset.sum_congr rfl fun r _ => hfg ⟨256 * s.val + r.val, Cert.LibSums.tile_lt rfl s r⟩

theorem Hrow4_val (c : Dev nD) (R : Fin 8192) (e : Fin 2048) : Hrow4 V c R.val e = H4 V c R e := by
  unfold Hrow4; rw [dif_pos R.isLt]

/-- After the last point the accumulators hold the column sums over all 8192 rows. -/
theorem accSum4_last (c : Dev nD) (t : Fin cfg4.N) (ht : t.val = 31) (u : Fin 1) (e : Fin 2048) :
    accSum4 V c t.val t.isLt (ix2 u e) = Cert.Net.colSum Cert.Net.C0 (H4 V c) e := by
  obtain ⟨n, hn⟩ := t
  obtain rfl : n = 31 := ht
  rw [accSum4_apply]
  unfold Cert.Net.colSum
  exact congrArg (_ + ·) (sum_tiles4 (fun R => Hrow4 V c R e) (fun R => H4 V c R e) fun R => Hrow4_val V c R e)

theorem accSq4_last (c : Dev nD) (t : Fin cfg4.N) (ht : t.val = 31) (u : Fin 1) (e : Fin 2048) :
    accSq4 V c t.val t.isLt (ix2 u e) = Cert.Net.colSum Cert.Net.C0 (fun r n => H4 V c r n * H4 V c r n) e := by
  obtain ⟨n, hn⟩ := t
  obtain rfl : n = 31 := ht
  rw [accSq4_apply]
  unfold Cert.Net.colSum
  exact congrArg (_ + ·) (sum_tiles4 (fun R => Hrow4 V c R e * Hrow4 V c R e) (fun R => H4 V c R e * H4 V c R e) fun R => by
    show Hrow4 V c R.val e * Hrow4 V c R.val e = _
    rw [Hrow4_val])

/-! ## From blocks to the arrays -/

/-- What point `t` writes back to the product array is block `t` of `arr2 H4`. -/
theorem flushed4_2 (c : Dev nD) (t : Fin cfg4.N) :
    (dat4 V c).flushed 2 t = ((cfg4.win 2).blk t).view.read (Elt Ideal) (Cert.Net.arr2 (H4 V c)) := by
  obtain ⟨-, -, -, -, e0, e1, -⟩ := idx_facts4 t
  have hN : t.val < 32 := lt_of_lt_of_eq t.isLt (show cfg4.N = 32 from N_4)
  show (cfg4.win 2).cut (grid4.coords t) ((dat4 V c).after 2 t) = _
  rw [after4_2]
  funext y
  obtain ⟨r, e, rfl⟩ : ∃ (r : Fin 256) (e : Fin 2048), y = ix2 r e := ⟨y 0, y 1, eq_ix2 y⟩
  have hR : 256 * t.val + r.val < 8192 := by have := r.isLt; omega
  rw [View.read_apply]
  show k4_pay1 (F := Ideal) (iblk4 V c 1 t) (iblk4 V c 0 t) (ix2 r e) = H4 V c _ _
  rw [tile4_apply V c t r e hR]
  congr 1
  · apply Fin.ext; show 256 * t.val + r.val = win4_2.index t (0 : Fin 2) * 256 + 1 * r.val; rw [e0]; omega
  · apply Fin.ext; show e.val = win4_2.index t (1 : Fin 2) * 2048 + 1 * e.val; rw [e1]; omega

/-- An index of the product array is in point `t`'s block iff each coordinate is in the block's range on its axis. -/
theorem mem_blk4_2 (t : Fin cfg4.N) (i : S8192x2048.Idx) :
    i ∈ ((cfg4.win 2).blk t).view.set ↔ ∀ a : Fin 2, win4_2.index t a * S256x2048.size a ≤ (i a).val ∧ (i a).val < win4_2.index t a * S256x2048.size a + S256x2048.size a := by
  show i ∈ ((View.whole main_v33_0).slice (win4_2.rect t)).set ↔ _
  rw [View.set_slice_whole, Rect.mem_set_unit]
  exact Iff.rfl

/-- THE PRODUCT ARRAY after the region: `X · tern(W)ᵀ`. -/
theorem arrAt4_2 (c : Dev nD) : (dat4 (F := Ideal) V c).arrAt 2 cfg4.N
    = Cert.Net.arr2 (Cert.Net.lin (Cert.Net.tern Cert.Net.C0) (Cert.Net.at2 (X4 V c)) (Cert.Net.at2 (W4 V c))) :=
  (dat4 V c).arrAt_eq_of_cover 2 (Cert.Net.arr2 (H4 V c)) (fun t _ => flushed4_2 V c t) fun (i : S8192x2048.Idx) => by
    have hi0 : (i 0).val < 8192 := (i 0).isLt
    have hi1 : (i 1).val < 2048 := (i 1).isLt
    have hN : cfg4.N = 32 := N_4
    obtain ⟨t, ht⟩ : ∃ t : Fin cfg4.N, t.val = (i 0).val / 256 := ⟨⟨(i 0).val / 256, by rw [hN]; omega⟩, rfl⟩
    obtain ⟨-, -, -, -, e0, e1, -⟩ := idx_facts4 t
    refine ⟨t, flush4_2 t, ?_⟩
    rw [mem_blk4_2]
    intro a
    match a with
    | ⟨0, _⟩ => show win4_2.index t (0 : Fin 2) * 256 ≤ (i 0).val ∧ (i 0).val < win4_2.index t (0 : Fin 2) * 256 + 256; omega
    | ⟨1, _⟩ => show win4_2.index t (1 : Fin 2) * 2048 ≤ (i 1).val ∧ (i 1).val < win4_2.index t (1 : Fin 2) * 2048 + 2048; omega

/-- What the last point writes back to the column-sum array. -/
theorem flushed4_3 (c : Dev nD) (t : Fin cfg4.N) (hf : (cfg4.win 3).flush t = true) :
    (dat4 V c).flushed 3 t = ((cfg4.win 3).blk t).view.read (Elt Ideal) (fun i : S1x2048.Idx => Cert.Net.colSum Cert.Net.C0 (H4 V c) (i 1)) := by
  have hN : cfg4.N = 32 := N_4
  have h31 : t.val = 31 := by have := (flush4_3 t).mp hf; have := t.isLt; omega
  obtain ⟨-, -, -, -, -, -, e0, e1, -⟩ := idx_facts4 t
  show (cfg4.win 3).cut (grid4.coords t) ((dat4 V c).after 3 t) = _
  rw [after4_3]
  funext y
  obtain ⟨u, e, rfl⟩ : ∃ (u : Fin 1) (e : Fin 2048), y = ix2 u e := ⟨y 0, y 1, eq_ix2 y⟩
  rw [View.read_apply]
  show accSum4 V c t.val t.isLt (ix2 u e) = Cert.Net.colSum Cert.Net.C0 (H4 V c) _
  rw [accSum4_last V c t h31 u e]
  congr 1
  apply Fin.ext; show e.val = win4_3.index t (1 : Fin 2) * 2048 + 1 * e.val; rw [e1]; omega

theorem flushed4_4 (c : Dev nD) (t : Fin cfg4.N) (hf : (cfg4.win 4).flush t = true) :
    (dat4 V c).flushed 4 t = ((cfg4.win 4).blk t).view.read (Elt Ideal) (fun i : S1x2048.Idx => Cert.Net.colSum Cert.Net.C0 (fun r n => H4 V c r n * H4 V c r n) (i 1)) := by
  have hN : cfg4.N = 32 := N_4
  have h31 : t.val = 31 := by have := (flush4_4 t).mp hf; have := t.isLt; omega
  obtain ⟨-, -, -, -, -, -, -, -, e0, e1⟩ := idx_facts4 t
  show (cfg4.win 4).cut (grid4.coords t) ((dat4 V c).after 4 t) = _
  rw [after4_4]
  funext y
  obtain ⟨u, e, rfl⟩ : ∃ (u : Fin 1) (e : Fin 2048), y = ix2 u e := ⟨y 0, y 1, eq_ix2 y⟩
  rw [View.read_apply]
  show accSq4 V c t.val t.isLt (ix2 u e) = Cert.Net.colSum Cert.Net.C0 (fun r n => H4 V c r n * H4 V c r n) _
  rw [accSq4_last V c t h31 u e]
  congr 1
  apply Fin.ext; show e.val = win4_4.index t (1 : Fin 2) * 2048 + 1 * e.val; rw [e1]; omega

theorem mem_blk4_3 (t : Fin cfg4.N) (i : S1x2048.Idx) :
    i ∈ ((cfg4.win 3).blk t).view.set ↔ ∀ a : Fin 2, win4_3.index t a * S1x2048.size a ≤ (i a).val ∧ (i a).val < win4_3.index t a * S1x2048.size a + S1x2048.size a := by
  show i ∈ ((View.whole main_v33_1).slice (win4_3.rect t)).set ↔ _
  rw [View.set_slice_whole, Rect.mem_set_unit]
  exact Iff.rfl

theorem mem_blk4_4 (t : Fin cfg4.N) (i : S1x2048.Idx) :
    i ∈ ((cfg4.win 4).blk t).view.set ↔ ∀ a : Fin 2, win4_4.index t a * S1x2048.size a ≤ (i a).val ∧ (i a).val < win4_4.index t a * S1x2048.size a + S1x2048.size a := by
  show i ∈ ((View.whole main_v33_2).slice (win4_4.rect t)).set ↔ _
  rw [View.set_slice_whole, Rect.mem_set_unit]
  exact Iff.rfl

/-- THE COLUMN-SUM ARRAY after the region. -/
theorem arrAt4_3 (c : Dev nD) : (dat4 (F := Ideal) V c).arrAt 3 cfg4.N
    = fun i => Cert.Net.colSum Cert.Net.C0 (Cert.Net.lin (Cert.Net.tern Cert.Net.C0) (Cert.Net.at2 (X4 V c)) (Cert.Net.at2 (W4 V c))) (i 1) :=
  (dat4 V c).arrAt_eq_of_cover 3 (fun i : S1x2048.Idx => Cert.Net.colSum Cert.Net.C0 (H4 V c) (i 1)) (flushed4_3 V c) fun (i : S1x2048.Idx) => by
    have hi0 : (i 0).val < 1 := (i 0).isLt
    have hi1 : (i 1).val < 2048 := (i 1).isLt
    have hN : cfg4.N = 32 := N_4
    obtain ⟨t, ht⟩ : ∃ t : Fin cfg4.N, t.val = 31 := ⟨⟨31, by rw [hN]; omega⟩, rfl⟩
    obtain ⟨-, -, -, -, -, -, e0, e1, -⟩ := idx_facts4 t
    refine ⟨t, (flush4_3 t).mpr (by rw [ht]), ?_⟩
    rw [mem_blk4_3]
    intro a
    match a with
    | ⟨0, _⟩ => show win4_3.index t (0 : Fin 2) * 1 ≤ (i 0).val ∧ (i 0).val < win4_3.index t (0 : Fin 2) * 1 + 1; omega
    | ⟨1, _⟩ => show win4_3.index t (1 : Fin 2) * 2048 ≤ (i 1).val ∧ (i 1).val < win4_3.index t (1 : Fin 2) * 2048 + 2048; omega

/-- THE ARRAY OF COLUMN SUMS OF SQUARES after the region. -/
theorem arrAt4_4 (c : Dev nD) : (dat4 (F := Ideal) V c).arrAt 4 cfg4.N
    = fun i => Cert.Net.colSum Cert.Net.C0 (fun r n => Cert.Net.lin (Cert.Net.tern Cert.Net.C0) (Cert.Net.at2 (X4 V c)) (Cert.Net.at2 (W4 V c)) r n
        * Cert.Net.lin (Cert.Net.tern Cert.Net.C0) (Cert.Net.at2 (X4 V c)) (Cert.Net.at2 (W4 V c)) r n) (i 1) :=
  (dat4 V c).arrAt_eq_of_cover 4 (fun i : S1x2048.Idx => Cert.Net.colSum Cert.Net.C0 (fun r n => H4 V c r n * H4 V c r n) (i 1)) (flushed4_4 V c) fun (i : S1x2048.Idx) => by
    have hi0 : (i 0).val < 1 := (i 0).isLt
    have hi1 : (i 1).val < 2048 := (i 1).isLt
    have hN : cfg4.N = 32 := N_4
    obtain ⟨t, ht⟩ : ∃ t : Fin cfg4.N, t.val = 31 := ⟨⟨31, by rw [hN]; omega⟩, rfl⟩
    obtain ⟨-, -, -, -, -, -, -, -, e0, e1⟩ := idx_facts4 t
    refine ⟨t, (flush4_4 t).mpr (by rw [ht]), ?_⟩
    rw [mem_blk4_4]
    intro a
    match a with
    | ⟨0, _⟩ => show win4_4.index t (0 : Fin 2) * 1 ≤ (i 0).val ∧ (i 0).val < win4_4.index t (0 : Fin 2) * 1 + 1; omega
    | ⟨1, _⟩ => show win4_4.index t (1 : Fin 2) * 2048 ≤ (i 1).val ∧ (i 1).val < win4_4.index t (1 : Fin 2) * 2048 + 2048; omega

end Cert.KernelIdeal.Hand

end
-- ==== Proof.Value5.lean ====
/- What region 5 of @main (custom_call 5, pipeline 5) leaves in its output array, at the ideal instance: ONE whole-array
   function of the three input arrays as the region finds them (`V`).

   The body is pointwise. At tile index (p, q) its payload is the quantiser of `h · s + b`, where `h` is the tile of
   window 0 at (p, q) and `s`, `b` are the row vectors of windows 1 and 2 at column q (`pay5_apply`; the cast to the
   output's format is the identity on the extended reals). Point `t` of the grid stages rows 256 t … 256 t + 255 of window
   0's array and of the output's, and the whole of the two row vectors (`idx_facts5`, decided over the 32 points;
   `iblk5_W_apply`). So what point `t` writes back is block `t` of one function `G5_3` of the three arrays
   (`flushed5_3_eq`); row r of the output is covered by point r / 256 (`cover5`); hence the array ends at `G5_3`
   (`arrAt5_3`). -/
import proofs.«117354_j7189775254092_1_alg».proof.Proof.Region5
import proofs.«117354_j7189775254092_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Value5
-- the TensorCore's buffer contents when the region is entered, at the ideal instance
variable (V : (c : Dev nD) → (b : Ref sig .tc) → Buf (Elt Ideal) ((c : Thread nD τ).loc b))

/-- The zero offsets, however spelt. -/
theorem hz5 : (![0, 0] : Fin 2 → Nat) = fun _ => 0 := funext fun a => by fin_cases a <;> rfl

/-! ## The printed index maps, decided over the grid -/

/-- At point `t`: windows 0 and 3 stage row block `t` (column block 0); windows 1 and 2 stage block (0, 0). -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-! ## The kernel's payload at an index -/

/-- The payload at tile index `j`: the quantiser of the tile's entry times the first row vector's entry at `j`'s
    column plus the second's (each row vector broadcast down the tile; the final cast is the identity). -/
theorem pay5_apply (v0 : Vec Ideal S256x2048 .f32) (v2 v6 : Vec Ideal S1x2048 .f32) (j : S256x2048.Idx) :
    k5_pay1 v0 v2 v6 j
      = Cert.Net.tern Cert.Net.C0 (v0 j * v2 (ix2 (0 : Fin 1) (j 1)) + v6 (ix2 (0 : Fin 1) (j 1))) := by
  obtain ⟨p, q, rfl⟩ : ∃ (p : Fin 256) (q : Fin 2048), j = ix2 p q := ⟨j 0, j 1, eq_ix2 j⟩
  unfold k5_pay1
  show min _ (max _ (Ideal.liftRound Ideal.roundHalfEven
      (shapeCast S256x2048 v0 shapeCasts_S256x2048_S256x2048 (ix2 p q)
        * broadcastTo S256x2048 (shapeCast S1x2048 v2 shapeCasts_S1x2048_S1x2048) broadcasts_S1x2048_S256x2048 (ix2 p q)
        + broadcastTo S256x2048 (shapeCast S1x2048 v6 shapeCasts_S1x2048_S1x2048) broadcasts_S1x2048_S256x2048 (ix2 p q)))) = _
  rw [shapeCast_self, shapeCast_self, shapeCast_self, broadcastTo_1b_ab_apply, broadcastTo_1b_ab_apply]
  rfl

/-! ## The input blocks as reads of their arrays -/

/-- Window 0's block at point `t` is rows 256 t … 256 t + 255 of its array. -/
theorem iblk5_0_apply (c : Dev nD) (t : Fin cfg5.N) (x : S256x2048.Idx) (k : S8192x2048.Idx)
    (hk0 : (k 0).val = 256 * t.val + (x 0).val) (hk1 : (k 1).val = (x 1).val) :
    (iblk5 V c 0 t : Vec Ideal S256x2048 .f32) x = (V c main_v33_0 : S8192x2048.Idx → EReal) k := by
  obtain ⟨e0, e1, -⟩ := idx_facts5 t
  unfold iblk5
  rw [View.read_apply]
  show V c main_v33_0 _ = V c main_v33_0 _
  congr 1
  funext a
  apply Fin.ext
  match a with
  | ⟨0, _⟩ => show win5_0.index t 0 * 256 + 1 * (x 0).val = (k 0).val; rw [e0, hk0]; omega
  | ⟨1, _⟩ => show win5_0.index t 1 * 2048 + 1 * (x 1).val = (k 1).val; rw [e1, hk1]; omega

/-- Window 1's block at every point is its whole array. -/
theorem iblk5_1_apply (c : Dev nD) (t : Fin cfg5.N) (x k : S1x2048.Idx) (hk1 : (k 1).val = (x 1).val) :
    (iblk5 V c 1 t : Vec Ideal S1x2048 .f32) x = (V c main_v44 : S1x2048.Idx → EReal) k := by
  obtain ⟨-, -, e2, e3, -⟩ := idx_facts5 t
  have hx0 : (x 0).val < 1 := (x 0).isLt
  have hk0 : (k 0).val < 1 := (k 0).isLt
  unfold iblk5
  rw [View.read_apply]
  show V c main_v44 _ = V c main_v44 _
  congr 1
  funext a
  apply Fin.ext
  match a with
  | ⟨0, _⟩ => show win5_1.index t 0 * 1 + 1 * (x 0).val = (k 0).val; rw [e2]; omega
  | ⟨1, _⟩ => show win5_1.index t 1 * 2048 + 1 * (x 1).val = (k 1).val; rw [e3, hk1]; omega

/-- Window 2's block at every point is its whole array. -/
theorem iblk5_2_apply (c : Dev nD) (t : Fin cfg5.N) (x k : S1x2048.Idx) (hk1 : (k 1).val = (x 1).val) :
    (iblk5 V c 2 t : Vec Ideal S1x2048 .f32) x = (V c main_v47 : S1x2048.Idx → EReal) k := by
  obtain ⟨-, -, -, -, e4, e5, -⟩ := idx_facts5 t
  have hx0 : (x 0).val < 1 := (x 0).isLt
  have hk0 : (k 0).val < 1 := (k 0).isLt
  unfold iblk5
  rw [View.read_apply]
  show V c main_v47 _ = V c main_v47 _
  congr 1
  funext a
  apply Fin.ext
  match a with
  | ⟨0, _⟩ => show win5_2.index t 0 * 1 + 1 * (x 0).val = (k 0).val; rw [e4]; omega
  | ⟨1, _⟩ => show win5_2.index t 1 * 2048 + 1 * (x 1).val = (k 1).val; rw [e5, hk1]; omega

/-! ## The output array as one function of the input arrays -/

/-- What the output array ends holding: at row r and column q, the quantiser of `a0 (r, q) · a1 (0, q) + a2 (0, q)`. -/
abbrev G5_3 (a0 : S8192x2048.Idx → EReal) (a1 a2 : S1x2048.Idx → EReal) : S8192x2048.Idx → EReal :=
  fun i => Cert.Net.tern Cert.Net.C0 (a0 i * a1 (ix2 (0 : Fin 1) (i 1)) + a2 (ix2 (0 : Fin 1) (i 1)))

/-- The body's payload of the three blocks at point `t`, at tile index `j`, is `G5_3` of the arrays at the array index
    `k` that `j` names in block `t` (row 256 t + j's row, j's column). -/
theorem block5_3 (c : Dev nD) (t : Fin cfg5.N) (j : S256x2048.Idx) (k : S8192x2048.Idx)
    (hk0 : (k 0).val = 256 * t.val + (j 0).val) (hk1 : (k 1).val = (j 1).val) :
    k5_pay1 (iblk5 V c 0 t) (iblk5 V c 1 t) (iblk5 V c 2 t) j = G5_3 (V c main_v33_0) (V c main_v44) (V c main_v47) k := by
  refine (pay5_apply (iblk5 V c 0 t) (iblk5 V c 1 t) (iblk5 V c 2 t) j).trans ?_
  rw [iblk5_0_apply V c t j k hk0 hk1,
    iblk5_1_apply V c t (ix2 (0 : Fin 1) (j 1)) (ix2 (0 : Fin 1) (k 1)) hk1,
    iblk5_2_apply V c t (ix2 (0 : Fin 1) (j 1)) (ix2 (0 : Fin 1) (k 1)) hk1]

/-- WHAT POINT `t` WRITES BACK is block `t` of `G5_3` of the input arrays as the region finds them. -/
theorem flushed5_3_eq (c : Dev nD) (t : Fin cfg5.N) :
    (dat5 V c).flushed 3 t = ((cfg5.win 3).blk t).view.read (Elt Ideal) (G5_3 (V c main_v33_0) (V c main_v44) (V c main_v47)) := by
  show (cfg5.win 3).cut (grid5.coords t) ((dat5 V c).after 3 t) = _
  rw [after5_3]
  unfold out5_3
  rw [View.canon_unit_zero hz5]
  simp only [View.ld_unit_zero (S := S256x2048) hz5, View.ld_unit_zero (S := S1x2048) hz5]
  obtain ⟨-, -, -, -, -, -, e6, e7⟩ := idx_facts5 t
  funext j
  refine block5_3 V c t j (((cfg5.win 3).blk t).view.emb j) ?_ ?_
  · show win5_3.index t 0 * 256 + 1 * (j 0).val = 256 * t.val + (j 0).val
    rw [e6]; omega
  · show win5_3.index t 1 * 2048 + 1 * (j 1).val = (j 1).val
    rw [e7]; omega

/-! ## The cover -/

/-- An index of the output array is in point `t`'s block iff each coordinate is in the block's range on its axis. -/
theorem mem_blk5_3 (t : Fin cfg5.N) (i : S8192x2048.Idx) :
    i ∈ ((cfg5.win 3).blk t).view.set ↔ ∀ a : Fin 2, win5_3.index t a * S256x2048.size a ≤ (i a).val ∧ (i a).val < win5_3.index t a * S256x2048.size a + S256x2048.size a := by
  show i ∈ ((View.whole main_v48).slice (win5_3.rect t)).set ↔ _
  rw [View.set_slice_whole, Rect.mem_set_unit]
  exact Iff.rfl

/-- Every index of the output array is in some point's block: row r is in the block of point r / 256, and every point
    writes back. -/
theorem cover5 (i : S8192x2048.Idx) : ∃ t : Fin cfg5.N, (cfg5.win 3).flush t = true ∧ i ∈ ((cfg5.win 3).blk t).view.set := by
  have hi0 : (i 0).val < 8192 := (i 0).isLt
  have hi1 : (i 1).val < 2048 := (i 1).isLt
  have hN : cfg5.N = 32 := N_5
  refine ⟨⟨(i 0).val / 256, by rw [hN]; omega⟩, flush5_3 _, ?_⟩
  rw [mem_blk5_3]
  obtain ⟨-, -, -, -, -, -, e6, e7⟩ := idx_facts5 ⟨(i 0).val / 256, by rw [hN]; omega⟩
  intro a
  match a with
  | ⟨0, _⟩ =>
    show win5_3.index _ (0 : Fin 2) * 256 ≤ (i 0).val ∧ (i 0).val < win5_3.index _ (0 : Fin 2) * 256 + 256
    rw [e6]; show (i 0).val / 256 * 256 ≤ (i 0).val ∧ (i 0).val < (i 0).val / 256 * 256 + 256; omega
  | ⟨1, _⟩ =>
    show win5_3.index _ (1 : Fin 2) * 2048 ≤ (i 1).val ∧ (i 1).val < win5_3.index _ (1 : Fin 2) * 2048 + 2048
    rw [e7]; omega

/-! ## The array after the region -/

/-- THE OUTPUT ARRAY after the region: at every index, the quantiser of window 0's array there times window 1's row
    vector at the index's column plus window 2's. -/
theorem arrAt5_3 (c : Dev nD) : ((dat5 V c).arrAt 3 cfg5.N : S8192x2048.Idx → EReal)
    = G5_3 (V c main_v33_0) (V c main_v44) (V c main_v47) :=
  (dat5 V c).arrAt_eq_of_cover 3 (G5_3 (V c main_v33_0) (V c main_v44) (V c main_v47)) (fun t _ => flushed5_3_eq V c t) cover5

/-- `G5_3` at an index. -/
theorem G5_3_apply (a0 : S8192x2048.Idx → EReal) (a1 a2 : S1x2048.Idx → EReal) (i : S8192x2048.Idx) :
    G5_3 a0 a1 a2 i = Cert.Net.tern Cert.Net.C0 (a0 i * a1 (ix2 (0 : Fin 1) (i 1)) + a2 (ix2 (0 : Fin 1) (i 1))) := rfl

end Value5

end Cert.KernelIdeal.Hand
-- ==== Proof.HostStretch5.lean ====
/-
  The host's operations after the third statistics region, read at an index: the scale row and the shift row are the
  specification's `scaleOf` and `shiftOf` of the columns of the two accumulated rows (the first stretch's two reading
  lemmas, at this stretch's buffers).
-/
import proofs.«117354_j7189775254092_1_alg».proof.Proof.HostStretch1

noncomputable section

namespace Cert.KernelIdeal.Hand

open Idealize.ShloMosaic Idealize.ShloMosaic.ValueIdx
open Cert.KernelIdeal Cert.KernelIdeal.Gen

/-! ## The stretch after the third statistics region -/

/-- After the stretch the scale buffer holds the scale row of the two accumulated rows and the gain, whatever the
    buffers held before. -/
theorem stretch5_scale (W : Valuation τ sig (Elt Ideal)) :
    (StableHlo.after (hostOps5 (F := Ideal)) W (Proc.devRef .tc main_v44) : S1x2048.Idx → EReal)
      = ScaleRow (n := 2048) (W (Proc.devRef .tc main_v33_1)) (W (Proc.devRef .tc main_v33_2)) (W (Proc.devRef .tc main_arg8)) := by
  show StableHlo.after hostOps5 W (Proc.devRef .tc main_v44) = _
  after_results_simp
  exact scale_read bcast_S_S1x2048 shapeCasts_S2048_S1x2048 _ _ _

/-- After the stretch the shift buffer holds the shift row of the two accumulated rows, the gain and the bias. -/
theorem stretch5_shift (W : Valuation τ sig (Elt Ideal)) :
    (StableHlo.after (hostOps5 (F := Ideal)) W (Proc.devRef .tc main_v47) : S1x2048.Idx → EReal)
      = ShiftRow (n := 2048) (W (Proc.devRef .tc main_v33_1)) (W (Proc.devRef .tc main_v33_2)) (W (Proc.devRef .tc main_arg8))
          (W (Proc.devRef .tc main_arg9)) := by
  show StableHlo.after hostOps5 W (Proc.devRef .tc main_v47) = _
  after_results_simp
  exact shift_read bcast_S_S1x2048 shapeCasts_S2048_S1x2048 _ _ _ _

end Cert.KernelIdeal.Hand

end
-- ==== Proof.KernelValue3.lean ====
/-
  The kernel's program's value, layer 3: the third layer read off the chain, and its parameters' launch contents.
-/
import proofs.«117354_j7189775254092_1_alg».proof.Proof.KernelValue1
import proofs.«117354_j7189775254092_1_alg».proof.Proof.Value4
import proofs.«117354_j7189775254092_1_alg».proof.Proof.Value5
import proofs.«117354_j7189775254092_1_alg».proof.Proof.HostStretch5

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Net (C0 tern lin colSum layerK netK at1 at2 arr2)

variable (m : (ℓ : Loc nD τ sig) → Buf (Elt Ideal) ℓ)

/-- No item up to here writes argument 7. -/
theorem Ct7_arg7 (c : Dev nD) :
    Ct7 m c (Proc.devRef .tc main_arg7) = m ((c.tc : Thread nD τ).loc main_arg7) :=
  (Ct7_keep3 m c main_arg7 (by decide) (by decide) (by decide)).trans (Ct4_launch m c main_arg7 (by decide) (by decide) (by decide) (by decide))

/-- No item up to here writes argument 8. -/
theorem Ct7_arg8 (c : Dev nD) :
    Ct7 m c (Proc.devRef .tc main_arg8) = m ((c.tc : Thread nD τ).loc main_arg8) :=
  (Ct7_keep3 m c main_arg8 (by decide) (by decide) (by decide)).trans (Ct4_launch m c main_arg8 (by decide) (by decide) (by decide) (by decide))

/-- No item up to here writes argument 9. -/
theorem Ct7_arg9 (c : Dev nD) :
    Ct7 m c (Proc.devRef .tc main_arg9) = m ((c.tc : Thread nD τ).loc main_arg9) :=
  (Ct7_keep3 m c main_arg9 (by decide) (by decide) (by decide)).trans (Ct4_launch m c main_arg9 (by decide) (by decide) (by decide) (by decide))

/-! ## Layer 3 -/

/-- The third layer on the chain: the statistics region leaves the product array `h = a · q(w)ᵀ` and its column sums and
    sums of squares; the host stretch forms the scale and shift rows from them; the normalising region leaves
    `q(h · scale + shift)`, which is the specification's layer in the kernel's spelling. -/
theorem klayer3 (c : Dev nD) :
    (Ct10 m c (Proc.devRef .tc main_v48) : S8192x2048.Idx → EReal)
      = arr2 (layerK C0 true (at2 (n0 := 8192) (n1 := 2048) (Ct7 m c (Proc.devRef .tc main_v32))) (at2 (n0 := 2048) (n1 := 2048) (Ct7 m c (Proc.devRef .tc main_arg7)))
          (at1 (n := 2048) (Ct7 m c (Proc.devRef .tc main_arg8))) (at1 (n := 2048) (Ct7 m c (Proc.devRef .tc main_arg9)))) := by
  have hH : (Ct8 m c (Proc.devRef .tc main_v33_0) : S8192x2048.Idx → EReal) = arr2 (lin (tern C0) (at2 (n0 := 8192) (n1 := 2048) (Ct7 m c (Proc.devRef .tc main_v32))) (at2 (n0 := 2048) (n1 := 2048) (Ct7 m c (Proc.devRef .tc main_arg7)))) :=
    (Ct8_at_main_v33_0 m c).trans (arrAt4_2 (fun c b => Ct7 m c b) c)
  have hS : (Ct8 m c (Proc.devRef .tc main_v33_1) : S1x2048.Idx → EReal) = fun i => colSum C0 (lin (tern C0) (at2 (n0 := 8192) (n1 := 2048) (Ct7 m c (Proc.devRef .tc main_v32))) (at2 (n0 := 2048) (n1 := 2048) (Ct7 m c (Proc.devRef .tc main_arg7)))) (i 1) :=
    (Ct8_at_main_v33_1 m c).trans (arrAt4_3 (fun c b => Ct7 m c b) c)
  have hQ : (Ct8 m c (Proc.devRef .tc main_v33_2) : S1x2048.Idx → EReal)
      = fun i => colSum C0 (fun r n => lin (tern C0) (at2 (n0 := 8192) (n1 := 2048) (Ct7 m c (Proc.devRef .tc main_v32))) (at2 (n0 := 2048) (n1 := 2048) (Ct7 m c (Proc.devRef .tc main_arg7))) r n * lin (tern C0) (at2 (n0 := 8192) (n1 := 2048) (Ct7 m c (Proc.devRef .tc main_v32))) (at2 (n0 := 2048) (n1 := 2048) (Ct7 m c (Proc.devRef .tc main_arg7))) r n) (i 1) :=
    (Ct8_at_main_v33_2 m c).trans (arrAt4_4 (fun c b => Ct7 m c b) c)
  have hG : Ct8 m c (Proc.devRef .tc main_arg8) = Ct7 m c (Proc.devRef .tc main_arg8) := Ct8_keep m c main_arg8 (by decide)
  have hB : Ct8 m c (Proc.devRef .tc main_arg9) = Ct7 m c (Proc.devRef .tc main_arg9) := Ct8_keep m c main_arg9 (by decide)
  have h0 : Ct9 m c (Proc.devRef .tc main_v33_0) = Ct8 m c (Proc.devRef .tc main_v33_0) := Ct9_keep m c main_v33_0 (by decide)
  have hsc : (Ct9 m c (Proc.devRef .tc main_v44) : S1x2048.Idx → EReal)
      = ScaleRow (n := 2048) (Ct8 m c (Proc.devRef .tc main_v33_1)) (Ct8 m c (Proc.devRef .tc main_v33_2)) (Ct8 m c (Proc.devRef .tc main_arg8)) := stretch5_scale (Ct8 m c)
  have hsh : (Ct9 m c (Proc.devRef .tc main_v47) : S1x2048.Idx → EReal)
      = ShiftRow (n := 2048) (Ct8 m c (Proc.devRef .tc main_v33_1)) (Ct8 m c (Proc.devRef .tc main_v33_2)) (Ct8 m c (Proc.devRef .tc main_arg8)) (Ct8 m c (Proc.devRef .tc main_arg9)) := stretch5_shift (Ct8 m c)
  rw [Ct10_at_main_v48, arrAt5_3 (fun c b => Ct9 m c b) c, hsc, hsh, h0, hH, hS, hQ, hG, hB]
  rfl

end Cert.KernelIdeal.Hand

end
-- ==== Proof.Value6.lean ====
import proofs.«117354_j7189775254092_1_alg».proof.Proof.Region6
import proofs.«117354_j7189775254092_1_alg».proof.Proof.Spec
import proofs.«117354_j7189775254092_1_alg».proof.Proof.LibSums
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # Region 6 at the extended reals: what its three output arrays hold after the region

With `X` the `[8192, 2048]` activations and `W` the `[10, 2048]` weights as the region finds them, the product array
ends holding `h = X · tern(W)ᵀ`, and the two `[1, 10]` arrays the column sums of `h` and of its squares: 32 tiles of
256 rows, each tile's column sums added in turn to an accumulator that starts from the zero word. -/

/-! ## A product of an `[m, k]` array by a `[k, n]` array over the shared axis, at an index -/

/-- The sum over the contraction index, re-indexed by the contracted axis's one coordinate. -/
theorem contract_sum_cols6 {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product of rows against columns into the zero accumulator, at `(p, e)`. -/
theorem matmul_zero_cols_apply6 {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum_cols6 D hr hs hl0 hl1 hr0 hr1 A B p e)

/-! ## The body's payloads at the extended reals -/

/-- The tile's product at `(p, e)`: the row of the tile against the quantised weight row. -/
theorem pay1_apply6 (w : Vec Ideal S10x2048 .f32) (x : Vec Ideal S256x2048 .bf16) (p : Fin 256) (e : Fin 10) :
    k6_pay1 (F := Ideal) w x (ix2 p e) = ∑ j : Fin 2048, x (ix2 p j) * Cert.Net.tern Cert.Net.C0 (w (ix2 e j)) := by
  unfold k6_pay1
  dsimp only
  refine (matmul_zero_cols_apply6 (m := 256) (k := 2048) (n := 10) dot_S256x2048_S2048x10_S256x10_1_0_0_1_n_n rfl rfl
    (fun i q => by simp [DotDims.lhsIdx, dot_S256x2048_S2048x10_S256x10_1_0_0_1_n_n]; rfl) (fun i q => by simp [DotDims.lhsIdx, dot_S256x2048_S2048x10_S256x10_1_0_0_1_n_n]; rfl)
    (fun i q => by simp [DotDims.rhsIdx, dot_S256x2048_S2048x10_S256x10_1_0_0_1_n_n]; rfl) (fun i q => by simp [DotDims.rhsIdx, dot_S256x2048_S2048x10_S256x10_1_0_0_1_n_n]; rfl)
    none _ _ p e).trans ?_
  refine Finset.sum_congr rfl fun j _ => ?_
  rw [shapeCast_self, transpose_ix2_apply]
  rfl

/-- The zero row the accumulators start from. -/
theorem pay2_apply6 (i : S1x10.Idx) : k6_pay2 (F := Ideal) i = Cert.Net.C0.zero := by
  unfold k6_pay2
  rw [shapeCast_self]
  rfl
theorem pay3_apply6 (i : S1x10.Idx) : k6_pay3 (F := Ideal) i = Cert.Net.C0.zero := by
  unfold k6_pay3
  rw [shapeCast_self]
  rfl

/-- The column-sum accumulator's step: what it held plus the tile's column sum. -/
theorem pay4_apply6 (w : Vec Ideal S10x2048 .f32) (x : Vec Ideal S256x2048 .bf16) (s : Vec Ideal S1x10 .f32) (u : Fin 1) (e : Fin 10) :
    k6_pay4 (F := Ideal) w x s (ix2 u e) = s (ix2 u e) + ∑ r : Fin 256, k6_pay1 (F := Ideal) w x (ix2 r e) := by
  unfold k6_pay4
  dsimp only
  rw [shapeCast_self, addf_apply, shapeCast_a_1a_apply]
  refine congrArg (s (ix2 u e) + ·) ?_
  refine (Ideal.multiReduction_add_single (k6_pay1 (F := Ideal) w x) _ reduces_S256x10_S10 (.inl rfl) rfl (ix1 e)).trans ?_
  refine Finset.sum_congr rfl fun r _ => congrArg _ ?_
  funext a; apply Fin.ext
  match a with
  | ⟨0, _⟩ => rfl
  | ⟨1, _⟩ => rfl

/-- The squares' accumulator's step: what it held plus the tile's column sum of squares. -/
theorem pay5_apply6 (w : Vec Ideal S10x2048 .f32) (x : Vec Ideal S256x2048 .bf16) (s : Vec Ideal S1x10 .f32) (u : Fin 1) (e : Fin 10) :
    k6_pay5 (F := Ideal) w x s (ix2 u e) = s (ix2 u e) + ∑ r : Fin 256, k6_pay1 (F := Ideal) w x (ix2 r e) * k6_pay1 (F := Ideal) w x (ix2 r e) := by
  unfold k6_pay5
  dsimp only
  rw [shapeCast_self, addf_apply, shapeCast_a_1a_apply]
  refine congrArg (s (ix2 u e) + ·) ?_
  refine (Ideal.multiReduction_add_single (mulf (k6_pay1 (F := Ideal) w x) (k6_pay1 (F := Ideal) w x)) _ reduces_S256x10_S10 (.inl rfl) rfl (ix1 e)).trans ?_
  refine Finset.sum_congr rfl fun r _ => ?_
  rw [mulf_apply]
  have hi : reduces_S256x10_S10.lift (ix1 e) r = ix2 r e := by
    funext a; apply Fin.ext
    match a with
    | ⟨0, _⟩ => rfl
    | ⟨1, _⟩ => rfl
  rw [hi]
  rfl

/-! ## The windows' blocks as pieces of the arrays -/

-- the TensorCore's buffer contents when the region is entered
variable (V : (c : Dev nD) → (b : Ref sig .tc) → Buf (Elt Ideal) ((c : Thread nD τ).loc b))

/-- The activations and the weights as the region finds them. -/
abbrev X6 (c : Dev nD) : S8192x2048.Idx → EReal := V c (Pipeline.arrRef spec6 0)
abbrev W6 (c : Dev nD) : S10x2048.Idx → EReal := V c (Pipeline.arrRef spec6 1)

/-- The product array: every activation row against every quantised weight row. -/
abbrev H6 (c : Dev nD) : Fin 8192 → Fin 10 → EReal :=
  Cert.Net.lin (Cert.Net.tern Cert.Net.C0) (Cert.Net.at2 (X6 V c)) (Cert.Net.at2 (W6 V c))

/-- The printed index maps over the grid: the row tile moves with the point, everything else stays at block 0. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- Row `r` of tile `t` is row `256 t + r` of the activations. -/
theorem iblk6_0_apply (c : Dev nD) (t : Fin cfg6.N) (r : Fin 256) (j : Fin 2048) (hR : 256 * t.val + r.val < 8192) :
    (iblk6 V c 0 t : Vec Ideal S256x2048 .bf16) (ix2 r j) = X6 V c (ix2 ⟨256 * t.val + r.val, hR⟩ j) := by
  obtain ⟨e0, e1, -⟩ := idx_facts6 t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 256 + 1 * r.val = 256 * t.val + r.val; rw [e0]; omega
  | ⟨1, _⟩ => show win6_0.index t (1 : Fin 2) * 2048 + 1 * j.val = j.val; rw [e1]; omega

/-- The weights' one block is the weights. -/
theorem iblk6_1_apply (c : Dev nD) (t : Fin cfg6.N) (e : Fin 10) (j : Fin 2048) :
    (iblk6 V c 1 t : Vec Ideal S10x2048 .f32) (ix2 e j) = W6 V c (ix2 e j) := by
  obtain ⟨-, -, e0, e1, -⟩ := idx_facts6 t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 10 + 1 * e.val = e.val; rw [e0]; omega
  | ⟨1, _⟩ => show win6_1.index t (1 : Fin 2) * 2048 + 1 * j.val = j.val; rw [e1]; omega

/-- The tile's product at point `t` is rows `256 t … 256 t + 255` of the product array. -/
theorem tile6_apply (c : Dev nD) (t : Fin cfg6.N) (r : Fin 256) (e : Fin 10) (hR : 256 * t.val + r.val < 8192) :
    k6_pay1 (F := Ideal) (iblk6 V c 1 t) (iblk6 V c 0 t) (ix2 r e) = H6 V c ⟨256 * t.val + r.val, hR⟩ e := by
  rw [pay1_apply6]
  unfold H6 Cert.Net.lin
  refine Finset.sum_congr rfl fun j _ => ?_
  rw [iblk6_0_apply V c t r j hR, iblk6_1_apply V c t e j]

/-! ## The accumulators in closed form -/

/-- A row of the product array by its number (zero past the last row: never read). -/
def Hrow6 (c : Dev nD) (R : ℕ) (e : Fin 10) : EReal := if h : R < 8192 then H6 V c ⟨R, h⟩ e else 0

theorem tile6_row (c : Dev nD) (t : Fin cfg6.N) (r : Fin 256) (e : Fin 10) :
    k6_pay1 (F := Ideal) (iblk6 V c 1 t) (iblk6 V c 0 t) (ix2 r e) = Hrow6 V c (256 * t.val + r.val) e := by
  have hN : t.val < 32 := lt_of_lt_of_eq t.isLt (show cfg6.N = 32 from N_6)
  have hR : 256 * t.val + r.val < 8192 := by have := r.isLt; omega
  rw [tile6_apply V c t r e hR]; unfold Hrow6; rw [dif_pos hR]

/-- The column-sum accumulator after point `n`: the zero word, then the column sums of tiles `0 … n` added in turn. -/
theorem accSum6_apply (c : Dev nD) : ∀ (n : ℕ) (h : n < cfg6.N) (u : Fin 1) (e : Fin 10),
    accSum6 V c n h (ix2 u e) = Cert.Net.C0.zero + ∑ s ∈ Finset.range (n + 1), ∑ r : Fin 256, Hrow6 V c (256 * s + r.val) e
  | 0, h, u, e => by
    show k6_pay4 (F := Ideal) _ _ _ (ix2 u e) = _
    rw [pay4_apply6, pay2_apply6, Finset.sum_range_one]
    refine congrArg (Cert.Net.C0.zero + ·) (Finset.sum_congr rfl fun r _ => ?_)
    exact tile6_row V c ⟨0, h⟩ r e
  | n + 1, h, u, e => by
    show k6_pay4 (F := Ideal) _ _ (accSum6 V c n _) (ix2 u e) = _
    rw [pay4_apply6, accSum6_apply c n _ u e, Finset.sum_range_succ _ (n + 1), add_assoc]
    refine congrArg (_ + ·) (congrArg (_ + ·) (Finset.sum_congr rfl fun r _ => ?_))
    exact tile6_row V c ⟨n + 1, h⟩ r e

/-- The squares' accumulator after point `n`, likewise. -/
theorem accSq6_apply (c : Dev nD) : ∀ (n : ℕ) (h : n < cfg6.N) (u : Fin 1) (e : Fin 10),
    accSq6 V c n h (ix2 u e) = Cert.Net.C0.zero + ∑ s ∈ Finset.range (n + 1), ∑ r : Fin 256, Hrow6 V c (256 * s + r.val) e * Hrow6 V c (256 * s + r.val) e
  | 0, h, u, e => by
    show k6_pay5 (F := Ideal) _ _ _ (ix2 u e) = _
    rw [pay5_apply6, pay3_apply6, Finset.sum_range_one]
    refine congrArg (Cert.Net.C0.zero + ·) (Finset.sum_congr rfl fun r _ => ?_)
    rw [tile6_row V c ⟨0, h⟩ r e]
  | n + 1, h, u, e => by
    show k6_pay5 (F := Ideal) _ _ (accSq6 V c n _) (ix2 u e) = _
    rw [pay5_apply6, accSq6_apply c n _ u e, Finset.sum_range_succ _ (n + 1), add_assoc]
    refine congrArg (_ + ·) (congrArg (_ + ·) (Finset.sum_congr rfl fun r _ => ?_))
    rw [tile6_row V c ⟨n + 1, h⟩ r e]

/-- 32 tiles of 256 rows are the 8192 rows. -/
theorem sum_tiles6 (f : ℕ → EReal) (g : Fin 8192 → EReal) (hfg : ∀ R : Fin 8192, f R.val = g R) :
    ∑ s ∈ Finset.range (31 + 1), ∑ r : Fin 256, f (256 * s + r.val) = ∑ R : Fin 8192, g R := by
  rw [Finset.sum_range (fun s => ∑ r : Fin 256, f (256 * s + r.val)),
    Cert.LibSums.sum_by_tiles (T := 32) (R := 256) (N := 8192) rfl g]
  exact Finset.sum_congr rfl fun s _ => Finset.sum_congr rfl fun r _ => hfg ⟨256 * s.val + r.val, Cert.LibSums.tile_lt rfl s r⟩

theorem Hrow6_val (c : Dev nD) (R : Fin 8192) (e : Fin 10) : Hrow6 V c R.val e = H6 V c R e := by
  unfold Hrow6; rw [dif_pos R.isLt]

/-- After the last point the accumulators hold the column sums over all 8192 rows. -/
theorem accSum6_last (c : Dev nD) (t : Fin cfg6.N) (ht : t.val = 31) (u : Fin 1) (e : Fin 10) :
    accSum6 V c t.val t.isLt (ix2 u e) = Cert.Net.colSum Cert.Net.C0 (H6 V c) e := by
  obtain ⟨n, hn⟩ := t
  obtain rfl : n = 31 := ht
  rw [accSum6_apply]
  unfold Cert.Net.colSum
  exact congrArg (_ + ·) (sum_tiles6 (fun R => Hrow6 V c R e) (fun R => H6 V c R e) fun R => Hrow6_val V c R e)

theorem accSq6_last (c : Dev nD) (t : Fin cfg6.N) (ht : t.val = 31) (u : Fin 1) (e : Fin 10) :
    accSq6 V c t.val t.isLt (ix2 u e) = Cert.Net.colSum Cert.Net.C0 (fun r n => H6 V c r n * H6 V c r n) e := by
  obtain ⟨n, hn⟩ := t
  obtain rfl : n = 31 := ht
  rw [accSq6_apply]
  unfold Cert.Net.colSum
  exact congrArg (_ + ·) (sum_tiles6 (fun R => Hrow6 V c R e * Hrow6 V c R e) (fun R => H6 V c R e * H6 V c R e) fun R => by
    show Hrow6 V c R.val e * Hrow6 V c R.val e = _
    rw [Hrow6_val])

/-! ## From blocks to the arrays -/

/-- What point `t` writes back to the product array is block `t` of `arr2 H6`. -/
theorem flushed6_2 (c : Dev nD) (t : Fin cfg6.N) :
    (dat6 V c).flushed 2 t = ((cfg6.win 2).blk t).view.read (Elt Ideal) (Cert.Net.arr2 (H6 V c)) := by
  obtain ⟨-, -, -, -, e0, e1, -⟩ := idx_facts6 t
  have hN : t.val < 32 := lt_of_lt_of_eq t.isLt (show cfg6.N = 32 from N_6)
  show (cfg6.win 2).cut (grid6.coords t) ((dat6 V c).after 2 t) = _
  rw [after6_2]
  funext y
  obtain ⟨r, e, rfl⟩ : ∃ (r : Fin 256) (e : Fin 10), y = ix2 r e := ⟨y 0, y 1, eq_ix2 y⟩
  have hR : 256 * t.val + r.val < 8192 := by have := r.isLt; omega
  rw [View.read_apply]
  show k6_pay1 (F := Ideal) (iblk6 V c 1 t) (iblk6 V c 0 t) (ix2 r e) = H6 V c _ _
  rw [tile6_apply V c t r e hR]
  congr 1
  · apply Fin.ext; show 256 * t.val + r.val = win6_2.index t (0 : Fin 2) * 256 + 1 * r.val; rw [e0]; omega
  · apply Fin.ext; show e.val = win6_2.index t (1 : Fin 2) * 10 + 1 * e.val; rw [e1]; omega

/-- An index of the product array is in point `t`'s block iff each coordinate is in the block's range on its axis. -/
theorem mem_blk6_2 (t : Fin cfg6.N) (i : S8192x10.Idx) :
    i ∈ ((cfg6.win 2).blk t).view.set ↔ ∀ a : Fin 2, win6_2.index t a * S256x10.size a ≤ (i a).val ∧ (i a).val < win6_2.index t a * S256x10.size a + S256x10.size a := by
  show i ∈ ((View.whole main_v49_0).slice (win6_2.rect t)).set ↔ _
  rw [View.set_slice_whole, Rect.mem_set_unit]
  exact Iff.rfl

/-- THE PRODUCT ARRAY after the region: `X · tern(W)ᵀ`. -/
theorem arrAt6_2 (c : Dev nD) : (dat6 (F := Ideal) V c).arrAt 2 cfg6.N
    = Cert.Net.arr2 (Cert.Net.lin (Cert.Net.tern Cert.Net.C0) (Cert.Net.at2 (X6 V c)) (Cert.Net.at2 (W6 V c))) :=
  (dat6 V c).arrAt_eq_of_cover 2 (Cert.Net.arr2 (H6 V c)) (fun t _ => flushed6_2 V c t) fun (i : S8192x10.Idx) => by
    have hi0 : (i 0).val < 8192 := (i 0).isLt
    have hi1 : (i 1).val < 10 := (i 1).isLt
    have hN : cfg6.N = 32 := N_6
    obtain ⟨t, ht⟩ : ∃ t : Fin cfg6.N, t.val = (i 0).val / 256 := ⟨⟨(i 0).val / 256, by rw [hN]; omega⟩, rfl⟩
    obtain ⟨-, -, -, -, e0, e1, -⟩ := idx_facts6 t
    refine ⟨t, flush6_2 t, ?_⟩
    rw [mem_blk6_2]
    intro a
    match a with
    | ⟨0, _⟩ => show win6_2.index t (0 : Fin 2) * 256 ≤ (i 0).val ∧ (i 0).val < win6_2.index t (0 : Fin 2) * 256 + 256; omega
    | ⟨1, _⟩ => show win6_2.index t (1 : Fin 2) * 10 ≤ (i 1).val ∧ (i 1).val < win6_2.index t (1 : Fin 2) * 10 + 10; omega

/-- What the last point writes back to the column-sum array. -/
theorem flushed6_3 (c : Dev nD) (t : Fin cfg6.N) (hf : (cfg6.win 3).flush t = true) :
    (dat6 V c).flushed 3 t = ((cfg6.win 3).blk t).view.read (Elt Ideal) (fun i : S1x10.Idx => Cert.Net.colSum Cert.Net.C0 (H6 V c) (i 1)) := by
  have hN : cfg6.N = 32 := N_6
  have h31 : t.val = 31 := by have := (flush6_3 t).mp hf; have := t.isLt; omega
  obtain ⟨-, -, -, -, -, -, e0, e1, -⟩ := idx_facts6 t
  show (cfg6.win 3).cut (grid6.coords t) ((dat6 V c).after 3 t) = _
  rw [after6_3]
  funext y
  obtain ⟨u, e, rfl⟩ : ∃ (u : Fin 1) (e : Fin 10), y = ix2 u e := ⟨y 0, y 1, eq_ix2 y⟩
  rw [View.read_apply]
  show accSum6 V c t.val t.isLt (ix2 u e) = Cert.Net.colSum Cert.Net.C0 (H6 V c) _
  rw [accSum6_last V c t h31 u e]
  congr 1
  apply Fin.ext; show e.val = win6_3.index t (1 : Fin 2) * 10 + 1 * e.val; rw [e1]; omega

theorem flushed6_4 (c : Dev nD) (t : Fin cfg6.N) (hf : (cfg6.win 4).flush t = true) :
    (dat6 V c).flushed 4 t = ((cfg6.win 4).blk t).view.read (Elt Ideal) (fun i : S1x10.Idx => Cert.Net.colSum Cert.Net.C0 (fun r n => H6 V c r n * H6 V c r n) (i 1)) := by
  have hN : cfg6.N = 32 := N_6
  have h31 : t.val = 31 := by have := (flush6_4 t).mp hf; have := t.isLt; omega
  obtain ⟨-, -, -, -, -, -, -, -, e0, e1⟩ := idx_facts6 t
  show (cfg6.win 4).cut (grid6.coords t) ((dat6 V c).after 4 t) = _
  rw [after6_4]
  funext y
  obtain ⟨u, e, rfl⟩ : ∃ (u : Fin 1) (e : Fin 10), y = ix2 u e := ⟨y 0, y 1, eq_ix2 y⟩
  rw [View.read_apply]
  show accSq6 V c t.val t.isLt (ix2 u e) = Cert.Net.colSum Cert.Net.C0 (fun r n => H6 V c r n * H6 V c r n) _
  rw [accSq6_last V c t h31 u e]
  congr 1
  apply Fin.ext; show e.val = win6_4.index t (1 : Fin 2) * 10 + 1 * e.val; rw [e1]; omega

theorem mem_blk6_3 (t : Fin cfg6.N) (i : S1x10.Idx) :
    i ∈ ((cfg6.win 3).blk t).view.set ↔ ∀ a : Fin 2, win6_3.index t a * S1x10.size a ≤ (i a).val ∧ (i a).val < win6_3.index t a * S1x10.size a + S1x10.size a := by
  show i ∈ ((View.whole main_v49_1).slice (win6_3.rect t)).set ↔ _
  rw [View.set_slice_whole, Rect.mem_set_unit]
  exact Iff.rfl

theorem mem_blk6_4 (t : Fin cfg6.N) (i : S1x10.Idx) :
    i ∈ ((cfg6.win 4).blk t).view.set ↔ ∀ a : Fin 2, win6_4.index t a * S1x10.size a ≤ (i a).val ∧ (i a).val < win6_4.index t a * S1x10.size a + S1x10.size a := by
  show i ∈ ((View.whole main_v49_2).slice (win6_4.rect t)).set ↔ _
  rw [View.set_slice_whole, Rect.mem_set_unit]
  exact Iff.rfl

/-- THE COLUMN-SUM ARRAY after the region. -/
theorem arrAt6_3 (c : Dev nD) : (dat6 (F := Ideal) V c).arrAt 3 cfg6.N
    = fun i => Cert.Net.colSum Cert.Net.C0 (Cert.Net.lin (Cert.Net.tern Cert.Net.C0) (Cert.Net.at2 (X6 V c)) (Cert.Net.at2 (W6 V c))) (i 1) :=
  (dat6 V c).arrAt_eq_of_cover 3 (fun i : S1x10.Idx => Cert.Net.colSum Cert.Net.C0 (H6 V c) (i 1)) (flushed6_3 V c) fun (i : S1x10.Idx) => by
    have hi0 : (i 0).val < 1 := (i 0).isLt
    have hi1 : (i 1).val < 10 := (i 1).isLt
    have hN : cfg6.N = 32 := N_6
    obtain ⟨t, ht⟩ : ∃ t : Fin cfg6.N, t.val = 31 := ⟨⟨31, by rw [hN]; omega⟩, rfl⟩
    obtain ⟨-, -, -, -, -, -, e0, e1, -⟩ := idx_facts6 t
    refine ⟨t, (flush6_3 t).mpr (by rw [ht]), ?_⟩
    rw [mem_blk6_3]
    intro a
    match a with
    | ⟨0, _⟩ => show win6_3.index t (0 : Fin 2) * 1 ≤ (i 0).val ∧ (i 0).val < win6_3.index t (0 : Fin 2) * 1 + 1; omega
    | ⟨1, _⟩ => show win6_3.index t (1 : Fin 2) * 10 ≤ (i 1).val ∧ (i 1).val < win6_3.index t (1 : Fin 2) * 10 + 10; omega

/-- THE ARRAY OF COLUMN SUMS OF SQUARES after the region. -/
theorem arrAt6_4 (c : Dev nD) : (dat6 (F := Ideal) V c).arrAt 4 cfg6.N
    = fun i => Cert.Net.colSum Cert.Net.C0 (fun r n => Cert.Net.lin (Cert.Net.tern Cert.Net.C0) (Cert.Net.at2 (X6 V c)) (Cert.Net.at2 (W6 V c)) r n
        * Cert.Net.lin (Cert.Net.tern Cert.Net.C0) (Cert.Net.at2 (X6 V c)) (Cert.Net.at2 (W6 V c)) r n) (i 1) :=
  (dat6 V c).arrAt_eq_of_cover 4 (fun i : S1x10.Idx => Cert.Net.colSum Cert.Net.C0 (fun r n => H6 V c r n * H6 V c r n) (i 1)) (flushed6_4 V c) fun (i : S1x10.Idx) => by
    have hi0 : (i 0).val < 1 := (i 0).isLt
    have hi1 : (i 1).val < 10 := (i 1).isLt
    have hN : cfg6.N = 32 := N_6
    obtain ⟨t, ht⟩ : ∃ t : Fin cfg6.N, t.val = 31 := ⟨⟨31, by rw [hN]; omega⟩, rfl⟩
    obtain ⟨-, -, -, -, -, -, -, -, e0, e1⟩ := idx_facts6 t
    refine ⟨t, (flush6_4 t).mpr (by rw [ht]), ?_⟩
    rw [mem_blk6_4]
    intro a
    match a with
    | ⟨0, _⟩ => show win6_4.index t (0 : Fin 2) * 1 ≤ (i 0).val ∧ (i 0).val < win6_4.index t (0 : Fin 2) * 1 + 1; omega
    | ⟨1, _⟩ => show win6_4.index t (1 : Fin 2) * 10 ≤ (i 1).val ∧ (i 1).val < win6_4.index t (1 : Fin 2) * 10 + 10; omega

end Cert.KernelIdeal.Hand

end
-- ==== Proof.Value7.lean ====
/- What region 7 of @main (custom_call 7, pipeline 7) leaves in its output array, at the ideal instance: ONE whole-array
   function of the three input arrays as the region finds them (`V`).

   The body is pointwise. At tile index (p, q) its payload is `h · s + b`, where `h` is the tile of window 0 at (p, q)
   and `s`, `b` are the row vectors of windows 1 and 2 at column q (`pay7_apply`; this last layer has no quantiser and
   the output keeps the inputs' format). Point `t` of the grid stages rows 256 t … 256 t + 255 of window
   0's array and of the output's, and the whole of the two row vectors (`idx_facts7`, decided over the 32 points;
   `iblk7_W_apply`). So what point `t` writes back is block `t` of one function `G7_3` of the three arrays
   (`flushed7_3_eq`); row r of the output is covered by point r / 256 (`cover7`); hence the array ends at `G7_3`
   (`arrAt7_3`). -/
import proofs.«117354_j7189775254092_1_alg».proof.Proof.Region7
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Value7
-- the TensorCore's buffer contents when the region is entered, at the ideal instance
variable (V : (c : Dev nD) → (b : Ref sig .tc) → Buf (Elt Ideal) ((c : Thread nD τ).loc b))

/-- The zero offsets, however spelt. -/
theorem hz7 : (![0, 0] : Fin 2 → Nat) = fun _ => 0 := funext fun a => by fin_cases a <;> rfl

/-! ## The printed index maps, decided over the grid -/

/-- At point `t`: windows 0 and 3 stage row block `t` (column block 0); windows 1 and 2 stage block (0, 0). -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-! ## The kernel's payload at an index -/

/-- The payload at tile index `j`: the tile's entry times the first row vector's entry at `j`'s column plus the
    second's (each row vector broadcast down the tile). -/
theorem pay7_apply (v0 : Vec Ideal S256x10 .f32) (v2 v6 : Vec Ideal S1x10 .f32) (j : S256x10.Idx) :
    k7_pay1 v0 v2 v6 j = v0 j * v2 (ix2 (0 : Fin 1) (j 1)) + v6 (ix2 (0 : Fin 1) (j 1)) := by
  obtain ⟨p, q, rfl⟩ : ∃ (p : Fin 256) (q : Fin 10), j = ix2 p q := ⟨j 0, j 1, eq_ix2 j⟩
  unfold k7_pay1
  show shapeCast S256x10 v0 shapeCasts_S256x10_S256x10 (ix2 p q)
        * broadcastTo S256x10 (shapeCast S1x10 v2 shapeCasts_S1x10_S1x10) broadcasts_S1x10_S256x10 (ix2 p q)
        + broadcastTo S256x10 (shapeCast S1x10 v6 shapeCasts_S1x10_S1x10) broadcasts_S1x10_S256x10 (ix2 p q) = _
  rw [shapeCast_self, shapeCast_self, shapeCast_self, broadcastTo_1b_ab_apply, broadcastTo_1b_ab_apply]
  try rfl

/-! ## The input blocks as reads of their arrays -/

/-- Window 0's block at point `t` is rows 256 t … 256 t + 255 of its array. -/
theorem iblk7_0_apply (c : Dev nD) (t : Fin cfg7.N) (x : S256x10.Idx) (k : S8192x10.Idx)
    (hk0 : (k 0).val = 256 * t.val + (x 0).val) (hk1 : (k 1).val = (x 1).val) :
    (iblk7 V c 0 t : Vec Ideal S256x10 .f32) x = (V c main_v49_0 : S8192x10.Idx → EReal) k := by
  obtain ⟨e0, e1, -⟩ := idx_facts7 t
  unfold iblk7
  rw [View.read_apply]
  show V c main_v49_0 _ = V c main_v49_0 _
  congr 1
  funext a
  apply Fin.ext
  match a with
  | ⟨0, _⟩ => show win7_0.index t 0 * 256 + 1 * (x 0).val = (k 0).val; rw [e0, hk0]; omega
  | ⟨1, _⟩ => show win7_0.index t 1 * 10 + 1 * (x 1).val = (k 1).val; rw [e1, hk1]; omega

/-- Window 1's block at every point is its whole array. -/
theorem iblk7_1_apply (c : Dev nD) (t : Fin cfg7.N) (x k : S1x10.Idx) (hk1 : (k 1).val = (x 1).val) :
    (iblk7 V c 1 t : Vec Ideal S1x10 .f32) x = (V c main_v60 : S1x10.Idx → EReal) k := by
  obtain ⟨-, -, e2, e3, -⟩ := idx_facts7 t
  have hx0 : (x 0).val < 1 := (x 0).isLt
  have hk0 : (k 0).val < 1 := (k 0).isLt
  unfold iblk7
  rw [View.read_apply]
  show V c main_v60 _ = V c main_v60 _
  congr 1
  funext a
  apply Fin.ext
  match a with
  | ⟨0, _⟩ => show win7_1.index t 0 * 1 + 1 * (x 0).val = (k 0).val; rw [e2]; omega
  | ⟨1, _⟩ => show win7_1.index t 1 * 10 + 1 * (x 1).val = (k 1).val; rw [e3, hk1]; omega

/-- Window 2's block at every point is its whole array. -/
theorem iblk7_2_apply (c : Dev nD) (t : Fin cfg7.N) (x k : S1x10.Idx) (hk1 : (k 1).val = (x 1).val) :
    (iblk7 V c 2 t : Vec Ideal S1x10 .f32) x = (V c main_v63 : S1x10.Idx → EReal) k := by
  obtain ⟨-, -, -, -, e4, e5, -⟩ := idx_facts7 t
  have hx0 : (x 0).val < 1 := (x 0).isLt
  have hk0 : (k 0).val < 1 := (k 0).isLt
  unfold iblk7
  rw [View.read_apply]
  show V c main_v63 _ = V c main_v63 _
  congr 1
  funext a
  apply Fin.ext
  match a with
  | ⟨0, _⟩ => show win7_2.index t 0 * 1 + 1 * (x 0).val = (k 0).val; rw [e4]; omega
  | ⟨1, _⟩ => show win7_2.index t 1 * 10 + 1 * (x 1).val = (k 1).val; rw [e5, hk1]; omega

/-! ## The output array as one function of the input arrays -/

/-- What the output array ends holding: at row r and column q, `a0 (r, q) · a1 (0, q) + a2 (0, q)`. -/
abbrev G7_3 (a0 : S8192x10.Idx → EReal) (a1 a2 : S1x10.Idx → EReal) : S8192x10.Idx → EReal :=
  fun i => a0 i * a1 (ix2 (0 : Fin 1) (i 1)) + a2 (ix2 (0 : Fin 1) (i 1))

/-- The body's payload of the three blocks at point `t`, at tile index `j`, is `G7_3` of the arrays at the array index
    `k` that `j` names in block `t` (row 256 t + j's row, j's column). -/
theorem block7_3 (c : Dev nD) (t : Fin cfg7.N) (j : S256x10.Idx) (k : S8192x10.Idx)
    (hk0 : (k 0).val = 256 * t.val + (j 0).val) (hk1 : (k 1).val = (j 1).val) :
    k7_pay1 (iblk7 V c 0 t) (iblk7 V c 1 t) (iblk7 V c 2 t) j = G7_3 (V c main_v49_0) (V c main_v60) (V c main_v63) k := by
  refine (pay7_apply (iblk7 V c 0 t) (iblk7 V c 1 t) (iblk7 V c 2 t) j).trans ?_
  rw [iblk7_0_apply V c t j k hk0 hk1,
    iblk7_1_apply V c t (ix2 (0 : Fin 1) (j 1)) (ix2 (0 : Fin 1) (k 1)) hk1,
    iblk7_2_apply V c t (ix2 (0 : Fin 1) (j 1)) (ix2 (0 : Fin 1) (k 1)) hk1]

/-- WHAT POINT `t` WRITES BACK is block `t` of `G7_3` of the input arrays as the region finds them. -/
theorem flushed7_3_eq (c : Dev nD) (t : Fin cfg7.N) :
    (dat7 V c).flushed 3 t = ((cfg7.win 3).blk t).view.read (Elt Ideal) (G7_3 (V c main_v49_0) (V c main_v60) (V c main_v63)) := by
  show (cfg7.win 3).cut (grid7.coords t) ((dat7 V c).after 3 t) = _
  rw [after7_3]
  unfold out7_3
  rw [View.canon_unit_zero hz7]
  simp only [View.ld_unit_zero (S := S256x10) hz7, View.ld_unit_zero (S := S1x10) hz7]
  obtain ⟨-, -, -, -, -, -, e6, e7⟩ := idx_facts7 t
  funext j
  refine block7_3 V c t j (((cfg7.win 3).blk t).view.emb j) ?_ ?_
  · show win7_3.index t 0 * 256 + 1 * (j 0).val = 256 * t.val + (j 0).val
    rw [e6]; omega
  · show win7_3.index t 1 * 10 + 1 * (j 1).val = (j 1).val
    rw [e7]; omega

/-! ## The cover -/

/-- An index of the output array is in point `t`'s block iff each coordinate is in the block's range on its axis. -/
theorem mem_blk7_3 (t : Fin cfg7.N) (i : S8192x10.Idx) :
    i ∈ ((cfg7.win 3).blk t).view.set ↔ ∀ a : Fin 2, win7_3.index t a * S256x10.size a ≤ (i a).val ∧ (i a).val < win7_3.index t a * S256x10.size a + S256x10.size a := by
  show i ∈ ((View.whole main_v64).slice (win7_3.rect t)).set ↔ _
  rw [View.set_slice_whole, Rect.mem_set_unit]
  exact Iff.rfl

/-- Every index of the output array is in some point's block: row r is in the block of point r / 256, and every point
    writes back. -/
theorem cover7 (i : S8192x10.Idx) : ∃ t : Fin cfg7.N, (cfg7.win 3).flush t = true ∧ i ∈ ((cfg7.win 3).blk t).view.set := by
  have hi0 : (i 0).val < 8192 := (i 0).isLt
  have hi1 : (i 1).val < 10 := (i 1).isLt
  have hN : cfg7.N = 32 := N_7
  refine ⟨⟨(i 0).val / 256, by rw [hN]; omega⟩, flush7_3 _, ?_⟩
  rw [mem_blk7_3]
  obtain ⟨-, -, -, -, -, -, e6, e7⟩ := idx_facts7 ⟨(i 0).val / 256, by rw [hN]; omega⟩
  intro a
  match a with
  | ⟨0, _⟩ =>
    show win7_3.index _ (0 : Fin 2) * 256 ≤ (i 0).val ∧ (i 0).val < win7_3.index _ (0 : Fin 2) * 256 + 256
    rw [e6]; show (i 0).val / 256 * 256 ≤ (i 0).val ∧ (i 0).val < (i 0).val / 256 * 256 + 256; omega
  | ⟨1, _⟩ =>
    show win7_3.index _ (1 : Fin 2) * 10 ≤ (i 1).val ∧ (i 1).val < win7_3.index _ (1 : Fin 2) * 10 + 10
    rw [e7]; omega

/-! ## The array after the region -/

/-- THE OUTPUT ARRAY after the region: at every index, window 0's array there times window 1's row vector at the
    index's column plus window 2's. -/
theorem arrAt7_3 (c : Dev nD) : ((dat7 V c).arrAt 3 cfg7.N : S8192x10.Idx → EReal)
    = G7_3 (V c main_v49_0) (V c main_v60) (V c main_v63) :=
  (dat7 V c).arrAt_eq_of_cover 3 (G7_3 (V c main_v49_0) (V c main_v60) (V c main_v63)) (fun t _ => flushed7_3_eq V c t) cover7

/-- `G7_3` at an index. -/
theorem G7_3_apply (a0 : S8192x10.Idx → EReal) (a1 a2 : S1x10.Idx → EReal) (i : S8192x10.Idx) :
    G7_3 a0 a1 a2 i = a0 i * a1 (ix2 (0 : Fin 1) (i 1)) + a2 (ix2 (0 : Fin 1) (i 1)) := rfl

end Value7

end Cert.KernelIdeal.Hand
-- ==== Proof.HostStretch7.lean ====
/-
  The host's operations after the fourth statistics region, read at an index: the scale row and the shift row are the
  specification's `scaleOf` and `shiftOf` of the columns of the two accumulated rows (the first stretch's two reading
  lemmas, at this stretch's buffers).
-/
import proofs.«117354_j7189775254092_1_alg».proof.Proof.HostStretch1

noncomputable section

namespace Cert.KernelIdeal.Hand

open Idealize.ShloMosaic Idealize.ShloMosaic.ValueIdx
open Cert.KernelIdeal Cert.KernelIdeal.Gen

/-! ## The stretch after the fourth statistics region -/

/-- After the stretch the scale buffer holds the scale row of the two accumulated rows and the gain, whatever the
    buffers held before. -/
theorem stretch7_scale (W : Valuation τ sig (Elt Ideal)) :
    (StableHlo.after (hostOps7 (F := Ideal)) W (Proc.devRef .tc main_v60) : S1x10.Idx → EReal)
      = ScaleRow (n := 10) (W (Proc.devRef .tc main_v49_1)) (W (Proc.devRef .tc main_v49_2)) (W (Proc.devRef .tc main_arg11)) := by
  show StableHlo.after hostOps7 W (Proc.devRef .tc main_v60) = _
  after_results_simp
  exact scale_read bcast_S_S1x10 shapeCasts_S10_S1x10 _ _ _

/-- After the stretch the shift buffer holds the shift row of the two accumulated rows, the gain and the bias. -/
theorem stretch7_shift (W : Valuation τ sig (Elt Ideal)) :
    (StableHlo.after (hostOps7 (F := Ideal)) W (Proc.devRef .tc main_v63) : S1x10.Idx → EReal)
      = ShiftRow (n := 10) (W (Proc.devRef .tc main_v49_1)) (W (Proc.devRef .tc main_v49_2)) (W (Proc.devRef .tc main_arg11))
          (W (Proc.devRef .tc main_arg12)) := by
  show StableHlo.after hostOps7 W (Proc.devRef .tc main_v63) = _
  after_results_simp
  exact shift_read bcast_S_S1x10 shapeCasts_S10_S1x10 _ _ _ _

end Cert.KernelIdeal.Hand

end
-- ==== Proof.KernelValue4.lean ====
/-
  The kernel's program's value, layer 4: the fourth layer read off the chain, and its parameters' launch contents.
-/
import proofs.«117354_j7189775254092_1_alg».proof.Proof.KernelValue1
import proofs.«117354_j7189775254092_1_alg».proof.Proof.Value6
import proofs.«117354_j7189775254092_1_alg».proof.Proof.Value7
import proofs.«117354_j7189775254092_1_alg».proof.Proof.HostStretch7

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Net (C0 tern lin colSum layerK netK at1 at2 arr2)

variable (m : (ℓ : Loc nD τ sig) → Buf (Elt Ideal) ℓ)

/-- No item up to here writes argument 10. -/
theorem Ct10_arg10 (c : Dev nD) :
    Ct10 m c (Proc.devRef .tc main_arg10) = m ((c.tc : Thread nD τ).loc main_arg10) :=
  (Ct10_keep3 m c main_arg10 (by decide) (by decide) (by decide)).trans ((Ct7_keep3 m c main_arg10 (by decide) (by decide) (by decide)).trans (Ct4_launch m c main_arg10 (by decide) (by decide) (by decide) (by decide)))

/-- No item up to here writes argument 11. -/
theorem Ct10_arg11 (c : Dev nD) :
    Ct10 m c (Proc.devRef .tc main_arg11) = m ((c.tc : Thread nD τ).loc main_arg11) :=
  (Ct10_keep3 m c main_arg11 (by decide) (by decide) (by decide)).trans ((Ct7_keep3 m c main_arg11 (by decide) (by decide) (by decide)).trans (Ct4_launch m c main_arg11 (by decide) (by decide) (by decide) (by decide)))

/-- No item up to here writes argument 12. -/
theorem Ct10_arg12 (c : Dev nD) :
    Ct10 m c (Proc.devRef .tc main_arg12) = m ((c.tc : Thread nD τ).loc main_arg12) :=
  (Ct10_keep3 m c main_arg12 (by decide) (by decide) (by decide)).trans ((Ct7_keep3 m c main_arg12 (by decide) (by decide) (by decide)).trans (Ct4_launch m c main_arg12 (by decide) (by decide) (by decide) (by decide)))

/-! ## Layer 4 -/

/-- The fourth layer on the chain: the statistics region leaves the product array `h = a · q(w)ᵀ` and its column sums and
    sums of squares; the host stretch forms the scale and shift rows from them; the normalising region leaves
    `h · scale + shift`, which is the specification's layer in the kernel's spelling. -/
theorem klayer4 (c : Dev nD) :
    (Ct13 m c (Proc.devRef .tc main_v64) : S8192x10.Idx → EReal)
      = arr2 (layerK C0 false (at2 (n0 := 8192) (n1 := 2048) (Ct10 m c (Proc.devRef .tc main_v48))) (at2 (n0 := 10) (n1 := 2048) (Ct10 m c (Proc.devRef .tc main_arg10)))
          (at1 (n := 10) (Ct10 m c (Proc.devRef .tc main_arg11))) (at1 (n := 10) (Ct10 m c (Proc.devRef .tc main_arg12)))) := by
  have hH : (Ct11 m c (Proc.devRef .tc main_v49_0) : S8192x10.Idx → EReal) = arr2 (lin (tern C0) (at2 (n0 := 8192) (n1 := 2048) (Ct10 m c (Proc.devRef .tc main_v48))) (at2 (n0 := 10) (n1 := 2048) (Ct10 m c (Proc.devRef .tc main_arg10)))) :=
    (Ct11_at_main_v49_0 m c).trans (arrAt6_2 (fun c b => Ct10 m c b) c)
  have hS : (Ct11 m c (Proc.devRef .tc main_v49_1) : S1x10.Idx → EReal) = fun i => colSum C0 (lin (tern C0) (at2 (n0 := 8192) (n1 := 2048) (Ct10 m c (Proc.devRef .tc main_v48))) (at2 (n0 := 10) (n1 := 2048) (Ct10 m c (Proc.devRef .tc main_arg10)))) (i 1) :=
    (Ct11_at_main_v49_1 m c).trans (arrAt6_3 (fun c b => Ct10 m c b) c)
  have hQ : (Ct11 m c (Proc.devRef .tc main_v49_2) : S1x10.Idx → EReal)
      = fun i => colSum C0 (fun r n => lin (tern C0) (at2 (n0 := 8192) (n1 := 2048) (Ct10 m c (Proc.devRef .tc main_v48))) (at2 (n0 := 10) (n1 := 2048) (Ct10 m c (Proc.devRef .tc main_arg10))) r n * lin (tern C0) (at2 (n0 := 8192) (n1 := 2048) (Ct10 m c (Proc.devRef .tc main_v48))) (at2 (n0 := 10) (n1 := 2048) (Ct10 m c (Proc.devRef .tc main_arg10))) r n) (i 1) :=
    (Ct11_at_main_v49_2 m c).trans (arrAt6_4 (fun c b => Ct10 m c b) c)
  have hG : Ct11 m c (Proc.devRef .tc main_arg11) = Ct10 m c (Proc.devRef .tc main_arg11) := Ct11_keep m c main_arg11 (by decide)
  have hB : Ct11 m c (Proc.devRef .tc main_arg12) = Ct10 m c (Proc.devRef .tc main_arg12) := Ct11_keep m c main_arg12 (by decide)
  have h0 : Ct12 m c (Proc.devRef .tc main_v49_0) = Ct11 m c (Proc.devRef .tc main_v49_0) := Ct12_keep m c main_v49_0 (by decide)
  have hsc : (Ct12 m c (Proc.devRef .tc main_v60) : S1x10.Idx → EReal)
      = ScaleRow (n := 10) (Ct11 m c (Proc.devRef .tc main_v49_1)) (Ct11 m c (Proc.devRef .tc main_v49_2)) (Ct11 m c (Proc.devRef .tc main_arg11)) := stretch7_scale (Ct11 m c)
  have hsh : (Ct12 m c (Proc.devRef .tc main_v63) : S1x10.Idx → EReal)
      = ShiftRow (n := 10) (Ct11 m c (Proc.devRef .tc main_v49_1)) (Ct11 m c (Proc.devRef .tc main_v49_2)) (Ct11 m c (Proc.devRef .tc main_arg11)) (Ct11 m c (Proc.devRef .tc main_arg12)) := stretch7_shift (Ct11 m c)
  rw [Ct13_at_main_v64, arrAt7_3 (fun c b => Ct12 m c b) c, hsc, hsh, h0, hH, hS, hQ, hG, hB]
  rfl

end Cert.KernelIdeal.Hand

end
-- ==== Proof.KernelValue.lean ====
/-
  The kernel's program's result as a function of its arguments: the four-layer network in the kernel's spelling.

  Each layer's lemma reads its output array off the chain of contents as the specification's layer of the contents at the
  layer's start; the next layer's input is the previous layer's output; the parameters hold their launch contents
  throughout, and the input is the launched input (its change of float format is the identity on the extended reals).
-/
import proofs.«117354_j7189775254092_1_alg».proof.Proof.KernelValue2
import proofs.«117354_j7189775254092_1_alg».proof.Proof.KernelValue3
import proofs.«117354_j7189775254092_1_alg».proof.Proof.KernelValue4

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Net (C0 tern lin colSum layerK netK at1 at2 arr2)

variable (m : (ℓ : Loc nD τ sig) → Buf (Elt Ideal) ℓ)

/-- The result array at the end of the chain is the network of the launched arguments. -/
theorem kernel_value (c : Dev nD) :
    (Ct13 m c (Proc.devRef .tc main_v64) : S8192x10.Idx → EReal)
      = arr2 (netK C0
          (at2 (n0 := 8192) (n1 := 784) (m ((c.tc : Thread nD τ).loc main_arg0)))
          (at2 (n0 := 2048) (n1 := 784) (m ((c.tc : Thread nD τ).loc main_arg1))) (at1 (n := 2048) (m ((c.tc : Thread nD τ).loc main_arg2))) (at1 (n := 2048) (m ((c.tc : Thread nD τ).loc main_arg3)))
          (at2 (n0 := 2048) (n1 := 2048) (m ((c.tc : Thread nD τ).loc main_arg4))) (at1 (n := 2048) (m ((c.tc : Thread nD τ).loc main_arg5))) (at1 (n := 2048) (m ((c.tc : Thread nD τ).loc main_arg6)))
          (at2 (n0 := 2048) (n1 := 2048) (m ((c.tc : Thread nD τ).loc main_arg7))) (at1 (n := 2048) (m ((c.tc : Thread nD τ).loc main_arg8))) (at1 (n := 2048) (m ((c.tc : Thread nD τ).loc main_arg9)))
          (at2 (n0 := 10) (n1 := 2048) (m ((c.tc : Thread nD τ).loc main_arg10))) (at1 (n := 10) (m ((c.tc : Thread nD τ).loc main_arg11))) (at1 (n := 10) (m ((c.tc : Thread nD τ).loc main_arg12)))) := by
  rw [klayer4 m c, klayer3 m c, klayer2 m c, klayer1 m c,
    Ct10_arg10, Ct10_arg11, Ct10_arg12, Ct7_arg7, Ct7_arg8, Ct7_arg9, Ct4_arg4, Ct4_arg5, Ct4_arg6,
    Ct1_arg1, Ct1_arg2, Ct1_arg3, Ct1_v0]
  rfl

end Cert.KernelIdeal.Hand

end
-- ==== Proof.RefValue1.lean ====
/-
  Layer 1 of the reference program, read one operation at a time, is `layerR C0 true` of `Spec`:
  the quantised weights `w + (q(w) − w)`, the product of the activations with their transpose, the column means and the
  mean squared deviations over the 8192 rows, the scale `g · rsqrt(var + ε)`, the affine step `(h − m) · s + b`,
  and the output quantiser `y + (q(y) − y)`.
  The activations are the program's first argument.
  Each lemma reads one stage at explicit coordinates; the generated `_apply` lemmas carry the operations, the index
  equations identify the layout operations' composed index functions with coordinates.
-/
import proofs.«117354_j7189775254092_1_alg».proof.Proof.RefReadP
import proofs.«117354_j7189775254092_1_alg».proof.Proof.Spec

noncomputable section

open scoped BigOperators
open Idealize.ShloMosaic Idealize.ShloMosaic.ValueIdx Cert.ReferenceIdeal Cert.ReferenceIdeal.ReadP Cert.Net

namespace Cert.RefSide

/- The program's arguments this layer depends on. -/
variable (x0 : (⟨S8192x784, .f32⟩ : BufTy).Contents (Elt Ideal))
  (x1 : (⟨S2048x784, .f32⟩ : BufTy).Contents (Elt Ideal))
  (x2 x3 : (⟨S2048, .f32⟩ : BufTy).Contents (Elt Ideal))

/-- The layer's product: the activations against the quantised weight rows. -/
local notation "hid" => lin (ternR C0) (at2 x0) (at2 x1)

namespace L1

/-- The quantised weight at `(n, k)`: round, clamp between the two bounds, and `w + (q − w)`. -/
theorem wq (n : Fin 2048) (k : Fin 784) :
    val_main_v3 (F := Ideal) x1 (ix2 n k) = ternR C0 (x1 (ix2 n k)) := by
  rewrite [val_main_v3_apply, val_main_v2_apply, val_main_v1_apply, val_main_call1_v4_apply, val_main_call1_v3_apply, val_main_cst_0_apply,
    val_main_call1_v2_apply, val_main_call1_v1_apply, val_main_call1_v0_apply, val_main_cst_apply, val_main_v0_apply]
  rfl

/-- The product at `(r, n)`: the contraction over the 784 input features against the transposed quantised weights. -/
theorem hlin (r : Fin 8192) (n : Fin 2048) :
    val_main_v5 (F := Ideal) x0 x1 (ix2 r n) = hid r n := by
  rewrite [val_main_v5_apply]
  show _ = ∑ k : Fin 784, at2 x0 r k * ternR C0 (at2 x1 n k)
  refine Finset.sum_congr rfl fun k _ => ?_
  rewrite [val_main_v4_apply,
    show lidx_main_v5 (ix2 r n) k = ix2 r k from funext fun a => Fin.ext (by match a with | ⟨0, _⟩ => rfl | ⟨1, _⟩ => rfl),
    show idx_main_v4 (ridx_main_v5 (ix2 r n) k) = ix2 n k from funext fun a => Fin.ext (by match a with | ⟨0, _⟩ => rfl | ⟨1, _⟩ => rfl),
    wq x1 n k]
  rfl

/-- A column's mean: the sum over the rows from the initial value, divided by the number of rows. -/
theorem hmean (n : Fin 2048) :
    val_main_v8 (F := Ideal) x0 x1 (ix1 n) = mean C0 hid n := by
  have hs : ∀ k : Fin 8192, val_main_v5 (F := Ideal) x0 x1 (idx_main_v6 (ix1 n) k) = hid k n := fun k => by
    rewrite [show idx_main_v6 (ix1 n) k = ix2 k n from funext fun a => Fin.ext (by match a with | ⟨0, _⟩ => rfl | ⟨1, _⟩ => rfl)]
    exact hlin x0 x1 k n
  rewrite [val_main_v8_apply, val_main_v7_apply, val_main_cst_2_apply, val_main_v6_apply, val_main_cst_1_apply]
  simp only [hs, Ideal.hostDivf_def, Ideal.ofBits_def]
  rfl

/-- A column's variance: the mean of the squared deviations from the column's mean. -/
theorem hvar (n : Fin 2048) :
    val_main_v15 (F := Ideal) x0 x1 (ix1 n) = varR C0 hid n := by
  have hs : ∀ k : Fin 8192, val_main_v12 (F := Ideal) x0 x1 (idx_main_v13 (ix1 n) k)
      = (hid k n - mean C0 hid n) * (hid k n - mean C0 hid n) := fun k => by
    rewrite [show idx_main_v13 (ix1 n) k = ix2 k n from funext fun a => Fin.ext (by match a with | ⟨0, _⟩ => rfl | ⟨1, _⟩ => rfl),
      val_main_v12_apply, val_main_v11_apply, val_main_v10_apply, val_main_v9_apply,
      show idx_main_v9 (idx_main_v10 (ix2 k n)) = ix1 n from funext fun a => Fin.ext (by match a with | ⟨0, _⟩ => rfl),
      hlin x0 x1 k n, hmean x0 x1 n]
    rfl
  rewrite [val_main_v15_apply, val_main_v14_apply, val_main_cst_4_apply, val_main_v13_apply, val_main_cst_3_apply]
  simp only [hs, Ideal.hostDivf_def, Ideal.ofBits_def]
  rfl

/-- A column's scale: `g · rsqrt(var + ε)`. -/
theorem hscale (n : Fin 2048) :
    val_main_v22 (F := Ideal) x0 x1 x2 (ix1 n) = scale C0 (varR C0 hid) (at1 x2) n := by
  rewrite [val_main_v22_apply, val_main_v21_apply, val_main_v20_apply, val_main_v19_apply, val_main_cst_5_apply, hvar x0 x1 n]
  rfl

/-- The normalised entry at `(r, n)`: `(h − m) · s + b`, each per-column vector read through its two broadcasts. -/
theorem hbn (r : Fin 8192) (n : Fin 2048) :
    val_main_v28 (F := Ideal) x0 x1 x2 x3 (ix2 r n) = bnR C0 hid (at1 x2) (at1 x3) r n := by
  rewrite [val_main_v28_apply, val_main_v27_apply, val_main_v26_apply, val_main_v25_apply, val_main_v24_apply, val_main_v23_apply,
    val_main_v18_apply, val_main_v17_apply, val_main_v16_apply,
    show idx_main_v26 (idx_main_v27 (ix2 r n)) = ix1 n from funext fun a => Fin.ext (by match a with | ⟨0, _⟩ => rfl),
    show idx_main_v23 (idx_main_v24 (ix2 r n)) = ix1 n from funext fun a => Fin.ext (by match a with | ⟨0, _⟩ => rfl),
    show idx_main_v16 (idx_main_v17 (ix2 r n)) = ix1 n from funext fun a => Fin.ext (by match a with | ⟨0, _⟩ => rfl),
    hlin x0 x1 r n, hmean x0 x1 n, hscale x0 x1 x2 n]
  rfl

/-- The layer's entry at `(r, n)`: the normalised entry through the quantiser `y + (q(y) − y)`. -/
theorem hout (r : Fin 8192) (n : Fin 2048) :
    val_main_v32 (F := Ideal) x0 x1 x2 x3 (ix2 r n) = layerR C0 true (at2 x0) (at2 x1) (at1 x2) (at1 x3) r n := by
  rewrite [val_main_v32_apply, val_main_v31_apply, val_main_v30_apply, val_main_call3_v4_apply, val_main_call3_v3_apply, val_main_cst_7_apply,
    val_main_call3_v2_apply, val_main_call3_v1_apply, val_main_call3_v0_apply, val_main_cst_6_apply, val_main_v29_apply, hbn x0 x1 x2 x3 r n]
  rfl

end L1

/-- Layer 1 of the reference program is `layerR C0 true`. -/
theorem layer1 :
    val_main_v32 (F := Ideal) x0 x1 x2 x3 = arr2 (layerR C0 true (at2 x0) (at2 x1) (at1 x2) (at1 x3)) := by
  funext i
  obtain ⟨p, q, rfl⟩ : ∃ (p : Fin 8192) (q : Fin 2048), i = ix2 p q := ⟨i 0, i 1, eq_ix2 i⟩
  exact L1.hout x0 x1 x2 x3 p q

end Cert.RefSide

end
-- ==== Proof.RefValue2.lean ====
/-
  Layer 2 of the reference program, read one operation at a time, is `layerR C0 true` of `Spec`:
  the quantised weights `w + (q(w) − w)`, the product of the activations with their transpose, the column means and the
  mean squared deviations over the 8192 rows, the scale `g · rsqrt(var + ε)`, the affine step `(h − m) · s + b`,
  and the output quantiser `y + (q(y) − y)`.
  The activations are the previous layer's result, kept as one folded term throughout.
  Each lemma reads one stage at explicit coordinates; the generated `_apply` lemmas carry the operations, the index
  equations identify the layout operations' composed index functions with coordinates.
-/
import proofs.«117354_j7189775254092_1_alg».proof.Proof.RefReadP
import proofs.«117354_j7189775254092_1_alg».proof.Proof.Spec

noncomputable section

open scoped BigOperators
open Idealize.ShloMosaic Idealize.ShloMosaic.ValueIdx Cert.ReferenceIdeal Cert.ReferenceIdeal.ReadP Cert.Net

namespace Cert.RefSide

/- The program's arguments this layer depends on (the earlier ones only through the previous layer's result). -/
variable (x0 : (⟨S8192x784, .f32⟩ : BufTy).Contents (Elt Ideal))
  (x1 : (⟨S2048x784, .f32⟩ : BufTy).Contents (Elt Ideal))
  (x2 x3 : (⟨S2048, .f32⟩ : BufTy).Contents (Elt Ideal))
  (x4 : (⟨S2048x2048, .f32⟩ : BufTy).Contents (Elt Ideal))
  (x5 x6 : (⟨S2048, .f32⟩ : BufTy).Contents (Elt Ideal))

/-- The layer's activations: the previous layer's result, never opened here. -/
local notation "act" => val_main_v32 (F := Ideal) x0 x1 x2 x3
/-- The layer's product: the activations against the quantised weight rows. -/
local notation "hid" => lin (ternR C0) (at2 act) (at2 x4)

namespace L2

/-- The quantised weight at `(n, k)`: round, clamp between the two bounds, and `w + (q − w)`. -/
theorem wq (n : Fin 2048) (k : Fin 2048) :
    val_main_v36 (F := Ideal) x4 (ix2 n k) = ternR C0 (x4 (ix2 n k)) := by
  rewrite [val_main_v36_apply, val_main_v35_apply, val_main_v34_apply, val_main_call5_v4_apply, val_main_call5_v3_apply, val_main_cst_9_apply,
    val_main_call5_v2_apply, val_main_call5_v1_apply, val_main_call5_v0_apply, val_main_cst_8_apply, val_main_v33_apply]
  rfl

/-- The product at `(r, n)`: the contraction over the 2048 input features against the transposed quantised weights. -/
theorem hlin (r : Fin 8192) (n : Fin 2048) :
    val_main_v38 (F := Ideal) x0 x1 x2 x3 x4 (ix2 r n) = hid r n := by
  rewrite [val_main_v38_apply]
  show _ = ∑ k : Fin 2048, at2 act r k * ternR C0 (at2 x4 n k)
  refine Finset.sum_congr rfl fun k _ => ?_
  rewrite [val_main_v37_apply,
    show lidx_main_v38 (ix2 r n) k = ix2 r k from funext fun a => Fin.ext (by match a with | ⟨0, _⟩ => rfl | ⟨1, _⟩ => rfl),
    show idx_main_v37 (ridx_main_v38 (ix2 r n) k) = ix2 n k from funext fun a => Fin.ext (by match a with | ⟨0, _⟩ => rfl | ⟨1, _⟩ => rfl),
    wq x4 n k]
  rfl

/-- A column's mean: the sum over the rows from the initial value, divided by the number of rows. -/
theorem hmean (n : Fin 2048) :
    val_main_v41 (F := Ideal) x0 x1 x2 x3 x4 (ix1 n) = mean C0 hid n := by
  have hs : ∀ k : Fin 8192, val_main_v38 (F := Ideal) x0 x1 x2 x3 x4 (idx_main_v39 (ix1 n) k) = hid k n := fun k => by
    rewrite [show idx_main_v39 (ix1 n) k = ix2 k n from funext fun a => Fin.ext (by match a with | ⟨0, _⟩ => rfl | ⟨1, _⟩ => rfl)]
    exact hlin x0 x1 x2 x3 x4 k n
  rewrite [val_main_v41_apply, val_main_v40_apply, val_main_cst_11_apply, val_main_v39_apply, val_main_cst_10_apply]
  simp only [hs, Ideal.hostDivf_def, Ideal.ofBits_def]
  rfl

/-- A column's variance: the mean of the squared deviations from the column's mean. -/
theorem hvar (n : Fin 2048) :
    val_main_v48 (F := Ideal) x0 x1 x2 x3 x4 (ix1 n) = varR C0 hid n := by
  have hs : ∀ k : Fin 8192, val_main_v45 (F := Ideal) x0 x1 x2 x3 x4 (idx_main_v46 (ix1 n) k)
      = (hid k n - mean C0 hid n) * (hid k n - mean C0 hid n) := fun k => by
    rewrite [show idx_main_v46 (ix1 n) k = ix2 k n from funext fun a => Fin.ext (by match a with | ⟨0, _⟩ => rfl | ⟨1, _⟩ => rfl),
      val_main_v45_apply, val_main_v44_apply, val_main_v43_apply, val_main_v42_apply,
      show idx_main_v42 (idx_main_v43 (ix2 k n)) = ix1 n from funext fun a => Fin.ext (by match a with | ⟨0, _⟩ => rfl),
      hlin x0 x1 x2 x3 x4 k n, hmean x0 x1 x2 x3 x4 n]
    rfl
  rewrite [val_main_v48_apply, val_main_v47_apply, val_main_cst_13_apply, val_main_v46_apply, val_main_cst_12_apply]
  simp only [hs, Ideal.hostDivf_def, Ideal.ofBits_def]
  rfl

/-- A column's scale: `g · rsqrt(var + ε)`. -/
theorem hscale (n : Fin 2048) :
    val_main_v55 (F := Ideal) x0 x1 x2 x3 x4 x5 (ix1 n) = scale C0 (varR C0 hid) (at1 x5) n := by
  rewrite [val_main_v55_apply, val_main_v54_apply, val_main_v53_apply, val_main_v52_apply, val_main_cst_14_apply, hvar x0 x1 x2 x3 x4 n]
  rfl

/-- The normalised entry at `(r, n)`: `(h − m) · s + b`, each per-column vector read through its two broadcasts. -/
theorem hbn (r : Fin 8192) (n : Fin 2048) :
    val_main_v61 (F := Ideal) x0 x1 x2 x3 x4 x5 x6 (ix2 r n) = bnR C0 hid (at1 x5) (at1 x6) r n := by
  rewrite [val_main_v61_apply, val_main_v60_apply, val_main_v59_apply, val_main_v58_apply, val_main_v57_apply, val_main_v56_apply,
    val_main_v51_apply, val_main_v50_apply, val_main_v49_apply,
    show idx_main_v59 (idx_main_v60 (ix2 r n)) = ix1 n from funext fun a => Fin.ext (by match a with | ⟨0, _⟩ => rfl),
    show idx_main_v56 (idx_main_v57 (ix2 r n)) = ix1 n from funext fun a => Fin.ext (by match a with | ⟨0, _⟩ => rfl),
    show idx_main_v49 (idx_main_v50 (ix2 r n)) = ix1 n from funext fun a => Fin.ext (by match a with | ⟨0, _⟩ => rfl),
    hlin x0 x1 x2 x3 x4 r n, hmean x0 x1 x2 x3 x4 n, hscale x0 x1 x2 x3 x4 x5 n]
  rfl

/-- The layer's entry at `(r, n)`: the normalised entry through the quantiser `y + (q(y) − y)`. -/
theorem hout (r : Fin 8192) (n : Fin 2048) :
    val_main_v65 (F := Ideal) x0 x1 x2 x3 x4 x5 x6 (ix2 r n) = layerR C0 true (at2 act) (at2 x4) (at1 x5) (at1 x6) r n := by
  rewrite [val_main_v65_apply, val_main_v64_apply, val_main_v63_apply, val_main_call7_v4_apply, val_main_call7_v3_apply, val_main_cst_16_apply,
    val_main_call7_v2_apply, val_main_call7_v1_apply, val_main_call7_v0_apply, val_main_cst_15_apply, val_main_v62_apply, hbn x0 x1 x2 x3 x4 x5 x6 r n]
  rfl

end L2

/-- Layer 2 of the reference program is `layerR C0 true` of the previous layer's result. -/
theorem layer2 :
    val_main_v65 (F := Ideal) x0 x1 x2 x3 x4 x5 x6 = arr2 (layerR C0 true (at2 act) (at2 x4) (at1 x5) (at1 x6)) := by
  funext i
  obtain ⟨p, q, rfl⟩ : ∃ (p : Fin 8192) (q : Fin 2048), i = ix2 p q := ⟨i 0, i 1, eq_ix2 i⟩
  exact L2.hout x0 x1 x2 x3 x4 x5 x6 p q

end Cert.RefSide

end
-- ==== Proof.RefValue3.lean ====
/-
  Layer 3 of the reference program, read one operation at a time, is `layerR C0 true` of `Spec`:
  the quantised weights `w + (q(w) − w)`, the product of the activations with their transpose, the column means and the
  mean squared deviations over the 8192 rows, the scale `g · rsqrt(var + ε)`, the affine step `(h − m) · s + b`,
  and the output quantiser `y + (q(y) − y)`.
  The activations are the previous layer's result, kept as one folded term throughout.
  Each lemma reads one stage at explicit coordinates; the generated `_apply` lemmas carry the operations, the index
  equations identify the layout operations' composed index functions with coordinates.
-/
import proofs.«117354_j7189775254092_1_alg».proof.Proof.RefReadP
import proofs.«117354_j7189775254092_1_alg».proof.Proof.Spec

noncomputable section

open scoped BigOperators
open Idealize.ShloMosaic Idealize.ShloMosaic.ValueIdx Cert.ReferenceIdeal Cert.ReferenceIdeal.ReadP Cert.Net

namespace Cert.RefSide

/- The program's arguments this layer depends on (the earlier ones only through the previous layer's result). -/
variable (x0 : (⟨S8192x784, .f32⟩ : BufTy).Contents (Elt Ideal))
  (x1 : (⟨S2048x784, .f32⟩ : BufTy).Contents (Elt Ideal))
  (x2 x3 : (⟨S2048, .f32⟩ : BufTy).Contents (Elt Ideal))
  (x4 : (⟨S2048x2048, .f32⟩ : BufTy).Contents (Elt Ideal))
  (x5 x6 : (⟨S2048, .f32⟩ : BufTy).Contents (Elt Ideal))
  (x7 : (⟨S2048x2048, .f32⟩ : BufTy).Contents (Elt Ideal))
  (x8 x9 : (⟨S2048, .f32⟩ : BufTy).Contents (Elt Ideal))

/-- The layer's activations: the previous layer's result, never opened here. -/
local notation "act" => val_main_v65 (F := Ideal) x0 x1 x2 x3 x4 x5 x6
/-- The layer's product: the activations against the quantised weight rows. -/
local notation "hid" => lin (ternR C0) (at2 act) (at2 x7)

namespace L3

/-- The quantised weight at `(n, k)`: round, clamp between the two bounds, and `w + (q − w)`. -/
theorem wq (n : Fin 2048) (k : Fin 2048) :
    val_main_v69 (F := Ideal) x7 (ix2 n k) = ternR C0 (x7 (ix2 n k)) := by
  rewrite [val_main_v69_apply, val_main_v68_apply, val_main_v67_apply, val_main_call9_v4_apply, val_main_call9_v3_apply, val_main_cst_18_apply,
    val_main_call9_v2_apply, val_main_call9_v1_apply, val_main_call9_v0_apply, val_main_cst_17_apply, val_main_v66_apply]
  rfl

/-- The product at `(r, n)`: the contraction over the 2048 input features against the transposed quantised weights. -/
theorem hlin (r : Fin 8192) (n : Fin 2048) :
    val_main_v71 (F := Ideal) x0 x1 x2 x3 x4 x5 x6 x7 (ix2 r n) = hid r n := by
  rewrite [val_main_v71_apply]
  show _ = ∑ k : Fin 2048, at2 act r k * ternR C0 (at2 x7 n k)
  refine Finset.sum_congr rfl fun k _ => ?_
  rewrite [val_main_v70_apply,
    show lidx_main_v71 (ix2 r n) k = ix2 r k from funext fun a => Fin.ext (by match a with | ⟨0, _⟩ => rfl | ⟨1, _⟩ => rfl),
    show idx_main_v70 (ridx_main_v71 (ix2 r n) k) = ix2 n k from funext fun a => Fin.ext (by match a with | ⟨0, _⟩ => rfl | ⟨1, _⟩ => rfl),
    wq x7 n k]
  rfl

/-- A column's mean: the sum over the rows from the initial value, divided by the number of rows. -/
theorem hmean (n : Fin 2048) :
    val_main_v74 (F := Ideal) x0 x1 x2 x3 x4 x5 x6 x7 (ix1 n) = mean C0 hid n := by
  have hs : ∀ k : Fin 8192, val_main_v71 (F := Ideal) x0 x1 x2 x3 x4 x5 x6 x7 (idx_main_v72 (ix1 n) k) = hid k n := fun k => by
    rewrite [show idx_main_v72 (ix1 n) k = ix2 k n from funext fun a => Fin.ext (by match a with | ⟨0, _⟩ => rfl | ⟨1, _⟩ => rfl)]
    exact hlin x0 x1 x2 x3 x4 x5 x6 x7 k n
  rewrite [val_main_v74_apply, val_main_v73_apply, val_main_cst_20_apply, val_main_v72_apply, val_main_cst_19_apply]
  simp only [hs, Ideal.hostDivf_def, Ideal.ofBits_def]
  rfl

/-- A column's variance: the mean of the squared deviations from the column's mean. -/
theorem hvar (n : Fin 2048) :
    val_main_v81 (F := Ideal) x0 x1 x2 x3 x4 x5 x6 x7 (ix1 n) = varR C0 hid n := by
  have hs : ∀ k : Fin 8192, val_main_v78 (F := Ideal) x0 x1 x2 x3 x4 x5 x6 x7 (idx_main_v79 (ix1 n) k)
      = (hid k n - mean C0 hid n) * (hid k n - mean C0 hid n) := fun k => by
    rewrite [show idx_main_v79 (ix1 n) k = ix2 k n from funext fun a => Fin.ext (by match a with | ⟨0, _⟩ => rfl | ⟨1, _⟩ => rfl),
      val_main_v78_apply, val_main_v77_apply, val_main_v76_apply, val_main_v75_apply,
      show idx_main_v75 (idx_main_v76 (ix2 k n)) = ix1 n from funext fun a => Fin.ext (by match a with | ⟨0, _⟩ => rfl),
      hlin x0 x1 x2 x3 x4 x5 x6 x7 k n, hmean x0 x1 x2 x3 x4 x5 x6 x7 n]
    rfl
  rewrite [val_main_v81_apply, val_main_v80_apply, val_main_cst_22_apply, val_main_v79_apply, val_main_cst_21_apply]
  simp only [hs, Ideal.hostDivf_def, Ideal.ofBits_def]
  rfl

/-- A column's scale: `g · rsqrt(var + ε)`. -/
theorem hscale (n : Fin 2048) :
    val_main_v88 (F := Ideal) x0 x1 x2 x3 x4 x5 x6 x7 x8 (ix1 n) = scale C0 (varR C0 hid) (at1 x8) n := by
  rewrite [val_main_v88_apply, val_main_v87_apply, val_main_v86_apply, val_main_v85_apply, val_main_cst_23_apply, hvar x0 x1 x2 x3 x4 x5 x6 x7 n]
  rfl

/-- The normalised entry at `(r, n)`: `(h − m) · s + b`, each per-column vector read through its two broadcasts. -/
theorem hbn (r : Fin 8192) (n : Fin 2048) :
    val_main_v94 (F := Ideal) x0 x1 x2 x3 x4 x5 x6 x7 x8 x9 (ix2 r n) = bnR C0 hid (at1 x8) (at1 x9) r n := by
  rewrite [val_main_v94_apply, val_main_v93_apply, val_main_v92_apply, val_main_v91_apply, val_main_v90_apply, val_main_v89_apply,
    val_main_v84_apply, val_main_v83_apply, val_main_v82_apply,
    show idx_main_v92 (idx_main_v93 (ix2 r n)) = ix1 n from funext fun a => Fin.ext (by match a with | ⟨0, _⟩ => rfl),
    show idx_main_v89 (idx_main_v90 (ix2 r n)) = ix1 n from funext fun a => Fin.ext (by match a with | ⟨0, _⟩ => rfl),
    show idx_main_v82 (idx_main_v83 (ix2 r n)) = ix1 n from funext fun a => Fin.ext (by match a with | ⟨0, _⟩ => rfl),
    hlin x0 x1 x2 x3 x4 x5 x6 x7 r n, hmean x0 x1 x2 x3 x4 x5 x6 x7 n, hscale x0 x1 x2 x3 x4 x5 x6 x7 x8 n]
  rfl

/-- The layer's entry at `(r, n)`: the normalised entry through the quantiser `y + (q(y) − y)`. -/
theorem hout (r : Fin 8192) (n : Fin 2048) :
    val_main_v98 (F := Ideal) x0 x1 x2 x3 x4 x5 x6 x7 x8 x9 (ix2 r n) = layerR C0 true (at2 act) (at2 x7) (at1 x8) (at1 x9) r n := by
  rewrite [val_main_v98_apply, val_main_v97_apply, val_main_v96_apply, val_main_call11_v4_apply, val_main_call11_v3_apply, val_main_cst_25_apply,
    val_main_call11_v2_apply, val_main_call11_v1_apply, val_main_call11_v0_apply, val_main_cst_24_apply, val_main_v95_apply, hbn x0 x1 x2 x3 x4 x5 x6 x7 x8 x9 r n]
  rfl

end L3

/-- Layer 3 of the reference program is `layerR C0 true` of the previous layer's result. -/
theorem layer3 :
    val_main_v98 (F := Ideal) x0 x1 x2 x3 x4 x5 x6 x7 x8 x9 = arr2 (layerR C0 true (at2 act) (at2 x7) (at1 x8) (at1 x9)) := by
  funext i
  obtain ⟨p, q, rfl⟩ : ∃ (p : Fin 8192) (q : Fin 2048), i = ix2 p q := ⟨i 0, i 1, eq_ix2 i⟩
  exact L3.hout x0 x1 x2 x3 x4 x5 x6 x7 x8 x9 p q

end Cert.RefSide

end
-- ==== Proof.RefValue4.lean ====
/-
  Layer 4 of the reference program, read one operation at a time, is `layerR C0 false` of `Spec`:
  the quantised weights `w + (q(w) − w)`, the product of the activations with their transpose, the column means and the
  mean squared deviations over the 8192 rows, the scale `g · rsqrt(var + ε)`, the affine step `(h − m) · s + b`.
  The activations are the previous layer's result, kept as one folded term throughout.
  Each lemma reads one stage at explicit coordinates; the generated `_apply` lemmas carry the operations, the index
  equations identify the layout operations' composed index functions with coordinates.
-/
import proofs.«117354_j7189775254092_1_alg».proof.Proof.RefReadP
import proofs.«117354_j7189775254092_1_alg».proof.Proof.Spec

noncomputable section

open scoped BigOperators
open Idealize.ShloMosaic Idealize.ShloMosaic.ValueIdx Cert.ReferenceIdeal Cert.ReferenceIdeal.ReadP Cert.Net

namespace Cert.RefSide

/- The program's arguments this layer depends on (the earlier ones only through the previous layer's result). -/
variable (x0 : (⟨S8192x784, .f32⟩ : BufTy).Contents (Elt Ideal))
  (x1 : (⟨S2048x784, .f32⟩ : BufTy).Contents (Elt Ideal))
  (x2 x3 : (⟨S2048, .f32⟩ : BufTy).Contents (Elt Ideal))
  (x4 : (⟨S2048x2048, .f32⟩ : BufTy).Contents (Elt Ideal))
  (x5 x6 : (⟨S2048, .f32⟩ : BufTy).Contents (Elt Ideal))
  (x7 : (⟨S2048x2048, .f32⟩ : BufTy).Contents (Elt Ideal))
  (x8 x9 : (⟨S2048, .f32⟩ : BufTy).Contents (Elt Ideal))
  (x10 : (⟨S10x2048, .f32⟩ : BufTy).Contents (Elt Ideal))
  (x11 x12 : (⟨S10, .f32⟩ : BufTy).Contents (Elt Ideal))

/-- The layer's activations: the previous layer's result, never opened here. -/
local notation "act" => val_main_v98 (F := Ideal) x0 x1 x2 x3 x4 x5 x6 x7 x8 x9
/-- The layer's product: the activations against the quantised weight rows. -/
local notation "hid" => lin (ternR C0) (at2 act) (at2 x10)

namespace L4

/-- The quantised weight at `(n, k)`: round, clamp between the two bounds, and `w + (q − w)`. -/
theorem wq (n : Fin 10) (k : Fin 2048) :
    val_main_v102 (F := Ideal) x10 (ix2 n k) = ternR C0 (x10 (ix2 n k)) := by
  rewrite [val_main_v102_apply, val_main_v101_apply, val_main_v100_apply, val_main_call13_v4_apply, val_main_call13_v3_apply, val_main_cst_27_apply,
    val_main_call13_v2_apply, val_main_call13_v1_apply, val_main_call13_v0_apply, val_main_cst_26_apply, val_main_v99_apply]
  rfl

/-- The product at `(r, n)`: the contraction over the 2048 input features against the transposed quantised weights. -/
theorem hlin (r : Fin 8192) (n : Fin 10) :
    val_main_v104 (F := Ideal) x0 x1 x2 x3 x4 x5 x6 x7 x8 x9 x10 (ix2 r n) = hid r n := by
  rewrite [val_main_v104_apply]
  show _ = ∑ k : Fin 2048, at2 act r k * ternR C0 (at2 x10 n k)
  refine Finset.sum_congr rfl fun k _ => ?_
  rewrite [val_main_v103_apply,
    show lidx_main_v104 (ix2 r n) k = ix2 r k from funext fun a => Fin.ext (by match a with | ⟨0, _⟩ => rfl | ⟨1, _⟩ => rfl),
    show idx_main_v103 (ridx_main_v104 (ix2 r n) k) = ix2 n k from funext fun a => Fin.ext (by match a with | ⟨0, _⟩ => rfl | ⟨1, _⟩ => rfl),
    wq x10 n k]
  rfl

/-- A column's mean: the sum over the rows from the initial value, divided by the number of rows. -/
theorem hmean (n : Fin 10) :
    val_main_v107 (F := Ideal) x0 x1 x2 x3 x4 x5 x6 x7 x8 x9 x10 (ix1 n) = mean C0 hid n := by
  have hs : ∀ k : Fin 8192, val_main_v104 (F := Ideal) x0 x1 x2 x3 x4 x5 x6 x7 x8 x9 x10 (idx_main_v105 (ix1 n) k) = hid k n := fun k => by
    rewrite [show idx_main_v105 (ix1 n) k = ix2 k n from funext fun a => Fin.ext (by match a with | ⟨0, _⟩ => rfl | ⟨1, _⟩ => rfl)]
    exact hlin x0 x1 x2 x3 x4 x5 x6 x7 x8 x9 x10 k n
  rewrite [val_main_v107_apply, val_main_v106_apply, val_main_cst_29_apply, val_main_v105_apply, val_main_cst_28_apply]
  simp only [hs, Ideal.hostDivf_def, Ideal.ofBits_def]
  rfl

/-- A column's variance: the mean of the squared deviations from the column's mean. -/
theorem hvar (n : Fin 10) :
    val_main_v114 (F := Ideal) x0 x1 x2 x3 x4 x5 x6 x7 x8 x9 x10 (ix1 n) = varR C0 hid n := by
  have hs : ∀ k : Fin 8192, val_main_v111 (F := Ideal) x0 x1 x2 x3 x4 x5 x6 x7 x8 x9 x10 (idx_main_v112 (ix1 n) k)
      = (hid k n - mean C0 hid n) * (hid k n - mean C0 hid n) := fun k => by
    rewrite [show idx_main_v112 (ix1 n) k = ix2 k n from funext fun a => Fin.ext (by match a with | ⟨0, _⟩ => rfl | ⟨1, _⟩ => rfl),
      val_main_v111_apply, val_main_v110_apply, val_main_v109_apply, val_main_v108_apply,
      show idx_main_v108 (idx_main_v109 (ix2 k n)) = ix1 n from funext fun a => Fin.ext (by match a with | ⟨0, _⟩ => rfl),
      hlin x0 x1 x2 x3 x4 x5 x6 x7 x8 x9 x10 k n, hmean x0 x1 x2 x3 x4 x5 x6 x7 x8 x9 x10 n]
    rfl
  rewrite [val_main_v114_apply, val_main_v113_apply, val_main_cst_31_apply, val_main_v112_apply, val_main_cst_30_apply]
  simp only [hs, Ideal.hostDivf_def, Ideal.ofBits_def]
  rfl

/-- A column's scale: `g · rsqrt(var + ε)`. -/
theorem hscale (n : Fin 10) :
    val_main_v121 (F := Ideal) x0 x1 x2 x3 x4 x5 x6 x7 x8 x9 x10 x11 (ix1 n) = scale C0 (varR C0 hid) (at1 x11) n := by
  rewrite [val_main_v121_apply, val_main_v120_apply, val_main_v119_apply, val_main_v118_apply, val_main_cst_32_apply, hvar x0 x1 x2 x3 x4 x5 x6 x7 x8 x9 x10 n]
  rfl

/-- The normalised entry at `(r, n)`: `(h − m) · s + b`, each per-column vector read through its two broadcasts. -/
theorem hbn (r : Fin 8192) (n : Fin 10) :
    val_main_v127 (F := Ideal) x0 x1 x2 x3 x4 x5 x6 x7 x8 x9 x10 x11 x12 (ix2 r n) = bnR C0 hid (at1 x11) (at1 x12) r n := by
  rewrite [val_main_v127_apply, val_main_v126_apply, val_main_v125_apply, val_main_v124_apply, val_main_v123_apply, val_main_v122_apply,
    val_main_v117_apply, val_main_v116_apply, val_main_v115_apply,
    show idx_main_v125 (idx_main_v126 (ix2 r n)) = ix1 n from funext fun a => Fin.ext (by match a with | ⟨0, _⟩ => rfl),
    show idx_main_v122 (idx_main_v123 (ix2 r n)) = ix1 n from funext fun a => Fin.ext (by match a with | ⟨0, _⟩ => rfl),
    show idx_main_v115 (idx_main_v116 (ix2 r n)) = ix1 n from funext fun a => Fin.ext (by match a with | ⟨0, _⟩ => rfl),
    hlin x0 x1 x2 x3 x4 x5 x6 x7 x8 x9 x10 r n, hmean x0 x1 x2 x3 x4 x5 x6 x7 x8 x9 x10 n, hscale x0 x1 x2 x3 x4 x5 x6 x7 x8 x9 x10 x11 n]
  rfl

/-- The layer's entry at `(r, n)`: the normalised entry itself (the last layer has no quantiser). -/
theorem hout (r : Fin 8192) (n : Fin 10) :
    val_main_v127 (F := Ideal) x0 x1 x2 x3 x4 x5 x6 x7 x8 x9 x10 x11 x12 (ix2 r n) = layerR C0 false (at2 act) (at2 x10) (at1 x11) (at1 x12) r n := by
  rewrite [hbn x0 x1 x2 x3 x4 x5 x6 x7 x8 x9 x10 x11 x12 r n]
  rfl

end L4

/-- Layer 4 of the reference program is `layerR C0 false` of the previous layer's result. -/
theorem layer4 :
    val_main_v127 (F := Ideal) x0 x1 x2 x3 x4 x5 x6 x7 x8 x9 x10 x11 x12 = arr2 (layerR C0 false (at2 act) (at2 x10) (at1 x11) (at1 x12)) := by
  funext i
  obtain ⟨p, q, rfl⟩ : ∃ (p : Fin 8192) (q : Fin 10), i = ix2 p q := ⟨i 0, i 1, eq_ix2 i⟩
  exact L4.hout x0 x1 x2 x3 x4 x5 x6 x7 x8 x9 x10 x11 x12 p q

end Cert.RefSide

end
-- ==== Proof.RefValue.lean ====
/-
  The reference program's result is the four-layer network of `Spec` in its reference spelling, `netR C0`, of the
  program's thirteen arguments: the four layer identities composed, each layer's input being the previous layer's result
  read back by its two coordinates.
-/
import proofs.«117354_j7189775254092_1_alg».proof.Proof.RefValue1
import proofs.«117354_j7189775254092_1_alg».proof.Proof.RefValue2
import proofs.«117354_j7189775254092_1_alg».proof.Proof.RefValue3
import proofs.«117354_j7189775254092_1_alg».proof.Proof.RefValue4

noncomputable section

open scoped BigOperators
open Idealize.ShloMosaic Idealize.ShloMosaic.ValueIdx Cert.ReferenceIdeal Cert.ReferenceIdeal.ReadP Cert.Net

namespace Cert.RefSide

/-- Reading a function of two coordinates back from the array it fills gives the function. -/
theorem at2_arr2 {n0 n1 : Nat} (f : Fin n0 → Fin n1 → EReal) : at2 (arr2 f) = f := rfl

/-- The reference program's result, as a function of its thirteen arguments, is `netR C0` of them. -/
theorem ref_net (x0 : (⟨S8192x784, .f32⟩ : BufTy).Contents (Elt Ideal)) (x1 : (⟨S2048x784, .f32⟩ : BufTy).Contents (Elt Ideal)) (x2 x3 : (⟨S2048, .f32⟩ : BufTy).Contents (Elt Ideal)) (x4 : (⟨S2048x2048, .f32⟩ : BufTy).Contents (Elt Ideal)) (x5 x6 : (⟨S2048, .f32⟩ : BufTy).Contents (Elt Ideal)) (x7 : (⟨S2048x2048, .f32⟩ : BufTy).Contents (Elt Ideal)) (x8 x9 : (⟨S2048, .f32⟩ : BufTy).Contents (Elt Ideal)) (x10 : (⟨S10x2048, .f32⟩ : BufTy).Contents (Elt Ideal)) (x11 x12 : (⟨S10, .f32⟩ : BufTy).Contents (Elt Ideal)) :
    val_main_v127 (F := Ideal) x0 x1 x2 x3 x4 x5 x6 x7 x8 x9 x10 x11 x12
      = arr2 (netR C0 (at2 x0) (at2 x1) (at1 x2) (at1 x3) (at2 x4) (at1 x5) (at1 x6) (at2 x7) (at1 x8) (at1 x9) (at2 x10) (at1 x11) (at1 x12)) := by
  rewrite [layer4 x0 x1 x2 x3 x4 x5 x6 x7 x8 x9 x10 x11 x12, layer3 x0 x1 x2 x3 x4 x5 x6 x7 x8 x9, layer2 x0 x1 x2 x3 x4 x5 x6, layer1 x0 x1 x2 x3,
    at2_arr2, at2_arr2, at2_arr2]
  rfl

end Cert.RefSide

end
-- ==== Proof.RefRunLayers.lean ====
/-
  The reference program's run, read one layer at a time.

  The program is a straight line of 197 operations; its run leaves every buffer at the fold `after` of the operations'
  results over the launch contents. The line is cut after the operations that write each layer's result (52, 52, 52 and
  41 operations), the fold over a concatenation is the composition of the folds, and each piece is read against an
  ARBITRARY valuation standing for the buffers before it: the piece's result buffer is the layer's stages applied to the
  previous layer's result and to the layer's three arguments, and the later arguments are untouched. The pieces are then
  chained with each earlier fold generalised to a variable, so that no term ever spans two layers.
-/
import proofs.«117354_j7189775254092_1_alg».proof.Proof.RefRunP
import proofs.«117354_j7189775254092_1_alg».proof.Proof.RefReadP
import proofs.«117354_j7189775254092_1_alg».proof.Proof.RefValue

noncomputable section

open scoped BigOperators
open Cert.ReferenceIdeal Cert.ReferenceIdeal.Gen Idealize.ShloMosaic Idealize.ShloMosaic.TcCoe Idealize.SL.Sem Idealize.ShloMosaic.StableHlo Cert.Net

namespace Cert.RefSide

/-- The fold over a concatenation is the second line's fold after the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

section Pieces

variable {F : FTy → Type} [FloatOps F]

/-- Layer 1's operations: the program's operations 1 to 52, up to the one writing `main_v32`. -/
abbrev ops1 : List (HloOp τ sig (Elt F)) :=
  [ TRef.unary (TRef.of (T := ⟨S2048x784, .f32⟩) main_arg1) (TRef.of (T := ⟨S2048x784, .f32⟩) main_v0) Host.roundeven,
    nullary main_cst (constant S_ .f32 0xBF800000#32),
    nullary main_cst_0 (constant S_ .f32 0x3F800000#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S2048x784, .f32⟩) main_call1_v1) (broadcastInDim S2048x784 ![] bcast_S_S2048x784),
    TRef.binary (TRef.of (T := ⟨S2048x784, .f32⟩) main_call1_v1) (TRef.of (T := ⟨S2048x784, .f32⟩) main_v0) (TRef.of (T := ⟨S2048x784, .f32⟩) main_call1_v2) maximumf,
    TRef.unary (TRef.of (T := ⟨S_, .f32⟩) main_cst_0) (TRef.of (T := ⟨S_, .f32⟩) main_call1_v3) id,
    TRef.unary (TRef.of (T := ⟨S_, .f32⟩) main_call1_v3) (TRef.of (T := ⟨S2048x784, .f32⟩) main_call1_v4) (broadcastInDim S2048x784 ![] bcast_S_S2048x784),
    TRef.binary (TRef.of (T := ⟨S2048x784, .f32⟩) main_call1_v4) (TRef.of (T := ⟨S2048x784, .f32⟩) main_call1_v2) (TRef.of (T := ⟨S2048x784, .f32⟩) main_v1) minimumf,
    binary main_v1 main_arg1 main_v2 (subf : (⟨S2048x784, .f32⟩ : BufTy).Contents (Elt F) → (⟨S2048x784, .f32⟩ : BufTy).Contents (Elt F) → (⟨S2048x784, .f32⟩ : BufTy).Contents (Elt F)),
    binary main_arg1 main_v2 main_v3 (addf : (⟨S2048x784, .f32⟩ : BufTy).Contents (Elt F) → (⟨S2048x784, .f32⟩ : BufTy).Contents (Elt F) → (⟨S2048x784, .f32⟩ : BufTy).Contents (Elt F)),
    unary main_v3 main_v4 ((transpose S784x2048 [1, 0] · transposes_S2048x784_S784x2048_1_0) : (⟨S2048x784, .f32⟩ : BufTy).Contents (Elt F) → (⟨S784x2048, .f32⟩ : BufTy).Contents (Elt F)),
    binary main_arg0 main_v4 main_v5 ((fun l r => Host.dotGeneral dot_S8192x784_S784x2048_S8192x2048_1_0_0_1_n_n none l r) : (⟨S8192x784, .f32⟩ : BufTy).Contents (Elt F) → (⟨S784x2048, .f32⟩ : BufTy).Contents (Elt F) → (⟨S8192x2048, .f32⟩ : BufTy).Contents (Elt F)),
    nullary main_cst_1 (constant S_ .f32 0x00000000#32),
    binary main_v5 main_cst_1 main_v6 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    nullary main_cst_2 (constant S_ .f32 0x46000000#32),
    unary main_cst_2 main_v7 (broadcastInDim S2048 ![] bcast_S_S2048 : (⟨S_, .f32⟩ : BufTy).Contents (Elt F) → (⟨S2048, .f32⟩ : BufTy).Contents (Elt F)),
    binary main_v6 main_v7 main_v8 (Host.divf : (⟨S2048, .f32⟩ : BufTy).Contents (Elt F) → (⟨S2048, .f32⟩ : BufTy).Contents (Elt F) → (⟨S2048, .f32⟩ : BufTy).Contents (Elt F)),
    unary main_v8 main_v9 (broadcastInDim S1x2048 ![1] bcast_S2048_S1x2048_1 : (⟨S2048, .f32⟩ : BufTy).Contents (Elt F) → (⟨S1x2048, .f32⟩ : BufTy).Contents (Elt F)),
    unary main_v9 main_v10 (broadcastInDim S8192x2048 ![0, 1] bcast_S1x2048_S8192x2048_0_1 : (⟨S1x2048, .f32⟩ : BufTy).Contents (Elt F) → (⟨S8192x2048, .f32⟩ : BufTy).Contents (Elt F)),
    binary main_v5 main_v10 main_v11 (subf : (⟨S8192x2048, .f32⟩ : BufTy).Contents (Elt F) → (⟨S8192x2048, .f32⟩ : BufTy).Contents (Elt F) → (⟨S8192x2048, .f32⟩ : BufTy).Contents (Elt F)),
    binary main_v11 main_v11 main_v12 (mulf : (⟨S8192x2048, .f32⟩ : BufTy).Contents (Elt F) → (⟨S8192x2048, .f32⟩ : BufTy).Contents (Elt F) → (⟨S8192x2048, .f32⟩ : BufTy).Contents (Elt F)),
    nullary main_cst_3 (constant S_ .f32 0x00000000#32),
    binary main_v12 main_cst_3 main_v13 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    nullary main_cst_4 (constant S_ .f32 0x46000000#32),
    unary main_cst_4 main_v14 (broadcastInDim S2048 ![] bcast_S_S2048 : (⟨S_, .f32⟩ : BufTy).Contents (Elt F) → (⟨S2048, .f32⟩ : BufTy).Contents (Elt F)),
    binary main_v13 main_v14 main_v15 (Host.divf : (⟨S2048, .f32⟩ : BufTy).Contents (Elt F) → (⟨S2048, .f32⟩ : BufTy).Contents (Elt F) → (⟨S2048, .f32⟩ : BufTy).Contents (Elt F)),
    unary main_v8 main_v16 (broadcastInDim S1x2048 ![1] bcast_S2048_S1x2048_1 : (⟨S2048, .f32⟩ : BufTy).Contents (Elt F) → (⟨S1x2048, .f32⟩ : BufTy).Contents (Elt F)),
    unary main_v16 main_v17 (broadcastInDim S8192x2048 ![0, 1] bcast_S1x2048_S8192x2048_0_1 : (⟨S1x2048, .f32⟩ : BufTy).Contents (Elt F) → (⟨S8192x2048, .f32⟩ : BufTy).Contents (Elt F)),
    binary main_v5 main_v17 main_v18 (subf : (⟨S8192x2048, .f32⟩ : BufTy).Contents (Elt F) → (⟨S8192x2048, .f32⟩ : BufTy).Contents (Elt F) → (⟨S8192x2048, .f32⟩ : BufTy).Contents (Elt F)),
    nullary main_cst_5 (constant S_ .f32 0x3727C5AC#32),
    unary main_cst_5 main_v19 (broadcastInDim S2048 ![] bcast_S_S2048 : (⟨S_, .f32⟩ : BufTy).Contents (Elt F) → (⟨S2048, .f32⟩ : BufTy).Contents (Elt F)),
    binary main_v15 main_v19 main_v20 (addf : (⟨S2048, .f32⟩ : BufTy).Contents (Elt F) → (⟨S2048, .f32⟩ : BufTy).Contents (Elt F) → (⟨S2048, .f32⟩ : BufTy).Contents (Elt F)),
    unary main_v20 main_v21 (Host.rsqrt : (⟨S2048, .f32⟩ : BufTy).Contents (Elt F) → (⟨S2048, .f32⟩ : BufTy).Contents (Elt F)),
    binary main_arg2 main_v21 main_v22 (mulf : (⟨S2048, .f32⟩ : BufTy).Contents (Elt F) → (⟨S2048, .f32⟩ : BufTy).Contents (Elt F) → (⟨S2048, .f32⟩ : BufTy).Contents (Elt F)),
    unary main_v22 main_v23 (broadcastInDim S1x2048 ![1] bcast_S2048_S1x2048_1 : (⟨S2048, .f32⟩ : BufTy).Contents (Elt F) → (⟨S1x2048, .f32⟩ : BufTy).Contents (Elt F)),
    unary main_v23 main_v24 (broadcastInDim S8192x2048 ![0, 1] bcast_S1x2048_S8192x2048_0_1 : (⟨S1x2048, .f32⟩ : BufTy).Contents (Elt F) → (⟨S8192x2048, .f32⟩ : BufTy).Contents (Elt F)),
    binary main_v18 main_v24 main_v25 (mulf : (⟨S8192x2048, .f32⟩ : BufTy).Contents (Elt F) → (⟨S8192x2048, .f32⟩ : BufTy).Contents (Elt F) → (⟨S8192x2048, .f32⟩ : BufTy).Contents (Elt F)),
    unary main_arg3 main_v26 (broadcastInDim S1x2048 ![1] bcast_S2048_S1x2048_1 : (⟨S2048, .f32⟩ : BufTy).Contents (Elt F) → (⟨S1x2048, .f32⟩ : BufTy).Contents (Elt F)),
    unary main_v26 main_v27 (broadcastInDim S8192x2048 ![0, 1] bcast_S1x2048_S8192x2048_0_1 : (⟨S1x2048, .f32⟩ : BufTy).Contents (Elt F) → (⟨S8192x2048, .f32⟩ : BufTy).Contents (Elt F)),
    binary main_v25 main_v27 main_v28 (addf : (⟨S8192x2048, .f32⟩ : BufTy).Contents (Elt F) → (⟨S8192x2048, .f32⟩ : BufTy).Contents (Elt F) → (⟨S8192x2048, .f32⟩ : BufTy).Contents (Elt F)),
    TRef.unary (TRef.of (T := ⟨S8192x2048, .f32⟩) main_v28) (TRef.of (T := ⟨S8192x2048, .f32⟩) main_v29) Host.roundeven,
    nullary main_cst_6 (constant S_ .f32 0xBF800000#32),
    nullary main_cst_7 (constant S_ .f32 0x3F800000#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S8192x2048, .f32⟩) main_call3_v1) (broadcastInDim S8192x2048 ![] bcast_S_S8192x2048),
    TRef.binary (TRef.of (T := ⟨S8192x2048, .f32⟩) main_call3_v1) (TRef.of (T := ⟨S8192x2048, .f32⟩) main_v29) (TRef.of (T := ⟨S8192x2048, .f32⟩) main_call3_v2) maximumf,
    TRef.unary (TRef.of (T := ⟨S_, .f32⟩) main_cst_7) (TRef.of (T := ⟨S_, .f32⟩) main_call3_v3) id,
    TRef.unary (TRef.of (T := ⟨S_, .f32⟩) main_call3_v3) (TRef.of (T := ⟨S8192x2048, .f32⟩) main_call3_v4) (broadcastInDim S8192x2048 ![] bcast_S_S8192x2048),
    TRef.binary (TRef.of (T := ⟨S8192x2048, .f32⟩) main_call3_v4) (TRef.of (T := ⟨S8192x2048, .f32⟩) main_call3_v2) (TRef.of (T := ⟨S8192x2048, .f32⟩) main_v30) minimumf,
    binary main_v30 main_v28 main_v31 (subf : (⟨S8192x2048, .f32⟩ : BufTy).Contents (Elt F) → (⟨S8192x2048, .f32⟩ : BufTy).Contents (Elt F) → (⟨S8192x2048, .f32⟩ : BufTy).Contents (Elt F)),
    binary main_v28 main_v31 main_v32 (addf : (⟨S8192x2048, .f32⟩ : BufTy).Contents (Elt F) → (⟨S8192x2048, .f32⟩ : BufTy).Contents (Elt F) → (⟨S8192x2048, .f32⟩ : BufTy).Contents (Elt F)) ]

/-- Layer 2's operations: the program's operations 53 to 104, up to the one writing `main_v65`. -/
abbrev ops2 : List (HloOp τ sig (Elt F)) :=
  [ TRef.unary (TRef.of (T := ⟨S2048x2048, .f32⟩) main_arg4) (TRef.of (T := ⟨S2048x2048, .f32⟩) main_v33) Host.roundeven,
    nullary main_cst_8 (constant S_ .f32 0xBF800000#32),
    nullary main_cst_9 (constant S_ .f32 0x3F800000#32),
    TRef.unary (TRef.of (T := ⟨S_, .f32⟩) main_cst_8) (TRef.of (T := ⟨S_, .f32⟩) main_call5_v0) id,
    TRef.unary (TRef.of (T := ⟨S_, .f32⟩) main_call5_v0) (TRef.of (T := ⟨S2048x2048, .f32⟩) main_call5_v1) (broadcastInDim S2048x2048 ![] bcast_S_S2048x2048),
    TRef.binary (TRef.of (T := ⟨S2048x2048, .f32⟩) main_call5_v1) (TRef.of (T := ⟨S2048x2048, .f32⟩) main_v33) (TRef.of (T := ⟨S2048x2048, .f32⟩) main_call5_v2) maximumf,
    TRef.unary (TRef.of (T := ⟨S_, .f32⟩) main_cst_9) (TRef.of (T := ⟨S_, .f32⟩) main_call5_v3) id,
    TRef.unary (TRef.of (T := ⟨S_, .f32⟩) main_call5_v3) (TRef.of (T := ⟨S2048x2048, .f32⟩) main_call5_v4) (broadcastInDim S2048x2048 ![] bcast_S_S2048x2048),
    TRef.binary (TRef.of (T := ⟨S2048x2048, .f32⟩) main_call5_v4) (TRef.of (T := ⟨S2048x2048, .f32⟩) main_call5_v2) (TRef.of (T := ⟨S2048x2048, .f32⟩) main_v34) minimumf,
    binary main_v34 main_arg4 main_v35 (subf : (⟨S2048x2048, .f32⟩ : BufTy).Contents (Elt F) → (⟨S2048x2048, .f32⟩ : BufTy).Contents (Elt F) → (⟨S2048x2048, .f32⟩ : BufTy).Contents (Elt F)),
    binary main_arg4 main_v35 main_v36 (addf : (⟨S2048x2048, .f32⟩ : BufTy).Contents (Elt F) → (⟨S2048x2048, .f32⟩ : BufTy).Contents (Elt F) → (⟨S2048x2048, .f32⟩ : BufTy).Contents (Elt F)),
    unary main_v36 main_v37 ((transpose S2048x2048 [1, 0] · transposes_S2048x2048_S2048x2048_1_0) : (⟨S2048x2048, .f32⟩ : BufTy).Contents (Elt F) → (⟨S2048x2048, .f32⟩ : BufTy).Contents (Elt F)),
    binary main_v32 main_v37 main_v38 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    nullary main_cst_10 (constant S_ .f32 0x00000000#32),
    binary main_v38 main_cst_10 main_v39 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    nullary main_cst_11 (constant S_ .f32 0x46000000#32),
    unary main_cst_11 main_v40 (broadcastInDim S2048 ![] bcast_S_S2048 : (⟨S_, .f32⟩ : BufTy).Contents (Elt F) → (⟨S2048, .f32⟩ : BufTy).Contents (Elt F)),
    binary main_v39 main_v40 main_v41 (Host.divf : (⟨S2048, .f32⟩ : BufTy).Contents (Elt F) → (⟨S2048, .f32⟩ : BufTy).Contents (Elt F) → (⟨S2048, .f32⟩ : BufTy).Contents (Elt F)),
    unary main_v41 main_v42 (broadcastInDim S1x2048 ![1] bcast_S2048_S1x2048_1 : (⟨S2048, .f32⟩ : BufTy).Contents (Elt F) → (⟨S1x2048, .f32⟩ : BufTy).Contents (Elt F)),
    unary main_v42 main_v43 (broadcastInDim S8192x2048 ![0, 1] bcast_S1x2048_S8192x2048_0_1 : (⟨S1x2048, .f32⟩ : BufTy).Contents (Elt F) → (⟨S8192x2048, .f32⟩ : BufTy).Contents (Elt F)),
    binary main_v38 main_v43 main_v44 (subf : (⟨S8192x2048, .f32⟩ : BufTy).Contents (Elt F) → (⟨S8192x2048, .f32⟩ : BufTy).Contents (Elt F) → (⟨S8192x2048, .f32⟩ : BufTy).Contents (Elt F)),
    binary main_v44 main_v44 main_v45 (mulf : (⟨S8192x2048, .f32⟩ : BufTy).Contents (Elt F) → (⟨S8192x2048, .f32⟩ : BufTy).Contents (Elt F) → (⟨S8192x2048, .f32⟩ : BufTy).Contents (Elt F)),
    nullary main_cst_12 (constant S_ .f32 0x00000000#32),
    binary main_v45 main_cst_12 main_v46 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    nullary main_cst_13 (constant S_ .f32 0x46000000#32),
    unary main_cst_13 main_v47 (broadcastInDim S2048 ![] bcast_S_S2048 : (⟨S_, .f32⟩ : BufTy).Contents (Elt F) → (⟨S2048, .f32⟩ : BufTy).Contents (Elt F)),
    binary main_v46 main_v47 main_v48 (Host.divf : (⟨S2048, .f32⟩ : BufTy).Contents (Elt F) → (⟨S2048, .f32⟩ : BufTy).Contents (Elt F) → (⟨S2048, .f32⟩ : BufTy).Contents (Elt F)),
    unary main_v41 main_v49 (broadcastInDim S1x2048 ![1] bcast_S2048_S1x2048_1 : (⟨S2048, .f32⟩ : BufTy).Contents (Elt F) → (⟨S1x2048, .f32⟩ : BufTy).Contents (Elt F)),
    unary main_v49 main_v50 (broadcastInDim S8192x2048 ![0, 1] bcast_S1x2048_S8192x2048_0_1 : (⟨S1x2048, .f32⟩ : BufTy).Contents (Elt F) → (⟨S8192x2048, .f32⟩ : BufTy).Contents (Elt F)),
    binary main_v38 main_v50 main_v51 (subf : (⟨S8192x2048, .f32⟩ : BufTy).Contents (Elt F) → (⟨S8192x2048, .f32⟩ : BufTy).Contents (Elt F) → (⟨S8192x2048, .f32⟩ : BufTy).Contents (Elt F)),
    nullary main_cst_14 (constant S_ .f32 0x3727C5AC#32),
    unary main_cst_14 main_v52 (broadcastInDim S2048 ![] bcast_S_S2048 : (⟨S_, .f32⟩ : BufTy).Contents (Elt F) → (⟨S2048, .f32⟩ : BufTy).Contents (Elt F)),
    binary main_v48 main_v52 main_v53 (addf : (⟨S2048, .f32⟩ : BufTy).Contents (Elt F) → (⟨S2048, .f32⟩ : BufTy).Contents (Elt F) → (⟨S2048, .f32⟩ : BufTy).Contents (Elt F)),
    unary main_v53 main_v54 (Host.rsqrt : (⟨S2048, .f32⟩ : BufTy).Contents (Elt F) → (⟨S2048, .f32⟩ : BufTy).Contents (Elt F)),
    binary main_arg5 main_v54 main_v55 (mulf : (⟨S2048, .f32⟩ : BufTy).Contents (Elt F) → (⟨S2048, .f32⟩ : BufTy).Contents (Elt F) → (⟨S2048, .f32⟩ : BufTy).Contents (Elt F)),
    unary main_v55 main_v56 (broadcastInDim S1x2048 ![1] bcast_S2048_S1x2048_1 : (⟨S2048, .f32⟩ : BufTy).Contents (Elt F) → (⟨S1x2048, .f32⟩ : BufTy).Contents (Elt F)),
    unary main_v56 main_v57 (broadcastInDim S8192x2048 ![0, 1] bcast_S1x2048_S8192x2048_0_1 : (⟨S1x2048, .f32⟩ : BufTy).Contents (Elt F) → (⟨S8192x2048, .f32⟩ : BufTy).Contents (Elt F)),
    binary main_v51 main_v57 main_v58 (mulf : (⟨S8192x2048, .f32⟩ : BufTy).Contents (Elt F) → (⟨S8192x2048, .f32⟩ : BufTy).Contents (Elt F) → (⟨S8192x2048, .f32⟩ : BufTy).Contents (Elt F)),
    unary main_arg6 main_v59 (broadcastInDim S1x2048 ![1] bcast_S2048_S1x2048_1 : (⟨S2048, .f32⟩ : BufTy).Contents (Elt F) → (⟨S1x2048, .f32⟩ : BufTy).Contents (Elt F)),
    unary main_v59 main_v60 (broadcastInDim S8192x2048 ![0, 1] bcast_S1x2048_S8192x2048_0_1 : (⟨S1x2048, .f32⟩ : BufTy).Contents (Elt F) → (⟨S8192x2048, .f32⟩ : BufTy).Contents (Elt F)),
    binary main_v58 main_v60 main_v61 (addf : (⟨S8192x2048, .f32⟩ : BufTy).Contents (Elt F) → (⟨S8192x2048, .f32⟩ : BufTy).Contents (Elt F) → (⟨S8192x2048, .f32⟩ : BufTy).Contents (Elt F)),
    TRef.unary (TRef.of (T := ⟨S8192x2048, .f32⟩) main_v61) (TRef.of (T := ⟨S8192x2048, .f32⟩) main_v62) Host.roundeven,
    nullary main_cst_15 (constant S_ .f32 0xBF800000#32),
    nullary main_cst_16 (constant S_ .f32 0x3F800000#32),
    TRef.unary (TRef.of (T := ⟨S_, .f32⟩) main_cst_15) (TRef.of (T := ⟨S_, .f32⟩) main_call7_v0) id,
    TRef.unary (TRef.of (T := ⟨S_, .f32⟩) main_call7_v0) (TRef.of (T := ⟨S8192x2048, .f32⟩) main_call7_v1) (broadcastInDim S8192x2048 ![] bcast_S_S8192x2048),
    TRef.binary (TRef.of (T := ⟨S8192x2048, .f32⟩) main_call7_v1) (TRef.of (T := ⟨S8192x2048, .f32⟩) main_v62) (TRef.of (T := ⟨S8192x2048, .f32⟩) main_call7_v2) maximumf,
    TRef.unary (TRef.of (T := ⟨S_, .f32⟩) main_cst_16) (TRef.of (T := ⟨S_, .f32⟩) main_call7_v3) id,
    TRef.unary (TRef.of (T := ⟨S_, .f32⟩) main_call7_v3) (TRef.of (T := ⟨S8192x2048, .f32⟩) main_call7_v4) (broadcastInDim S8192x2048 ![] bcast_S_S8192x2048),
    TRef.binary (TRef.of (T := ⟨S8192x2048, .f32⟩) main_call7_v4) (TRef.of (T := ⟨S8192x2048, .f32⟩) main_call7_v2) (TRef.of (T := ⟨S8192x2048, .f32⟩) main_v63) minimumf,
    binary main_v63 main_v61 main_v64 (subf : (⟨S8192x2048, .f32⟩ : BufTy).Contents (Elt F) → (⟨S8192x2048, .f32⟩ : BufTy).Contents (Elt F) → (⟨S8192x2048, .f32⟩ : BufTy).Contents (Elt F)),
    binary main_v61 main_v64 main_v65 (addf : (⟨S8192x2048, .f32⟩ : BufTy).Contents (Elt F) → (⟨S8192x2048, .f32⟩ : BufTy).Contents (Elt F) → (⟨S8192x2048, .f32⟩ : BufTy).Contents (Elt F)) ]

/-- Layer 3's operations: the program's operations 105 to 156, up to the one writing `main_v98`. -/
abbrev ops3 : List (HloOp τ sig (Elt F)) :=
  [ TRef.unary (TRef.of (T := ⟨S2048x2048, .f32⟩) main_arg7) (TRef.of (T := ⟨S2048x2048, .f32⟩) main_v66) Host.roundeven,
    nullary main_cst_17 (constant S_ .f32 0xBF800000#32),
    nullary main_cst_18 (constant S_ .f32 0x3F800000#32),
    TRef.unary (TRef.of (T := ⟨S_, .f32⟩) main_cst_17) (TRef.of (T := ⟨S_, .f32⟩) main_call9_v0) id,
    TRef.unary (TRef.of (T := ⟨S_, .f32⟩) main_call9_v0) (TRef.of (T := ⟨S2048x2048, .f32⟩) main_call9_v1) (broadcastInDim S2048x2048 ![] bcast_S_S2048x2048),
    TRef.binary (TRef.of (T := ⟨S2048x2048, .f32⟩) main_call9_v1) (TRef.of (T := ⟨S2048x2048, .f32⟩) main_v66) (TRef.of (T := ⟨S2048x2048, .f32⟩) main_call9_v2) maximumf,
    TRef.unary (TRef.of (T := ⟨S_, .f32⟩) main_cst_18) (TRef.of (T := ⟨S_, .f32⟩) main_call9_v3) id,
    TRef.unary (TRef.of (T := ⟨S_, .f32⟩) main_call9_v3) (TRef.of (T := ⟨S2048x2048, .f32⟩) main_call9_v4) (broadcastInDim S2048x2048 ![] bcast_S_S2048x2048),
    TRef.binary (TRef.of (T := ⟨S2048x2048, .f32⟩) main_call9_v4) (TRef.of (T := ⟨S2048x2048, .f32⟩) main_call9_v2) (TRef.of (T := ⟨S2048x2048, .f32⟩) main_v67) minimumf,
    binary main_v67 main_arg7 main_v68 (subf : (⟨S2048x2048, .f32⟩ : BufTy).Contents (Elt F) → (⟨S2048x2048, .f32⟩ : BufTy).Contents (Elt F) → (⟨S2048x2048, .f32⟩ : BufTy).Contents (Elt F)),
    binary main_arg7 main_v68 main_v69 (addf : (⟨S2048x2048, .f32⟩ : BufTy).Contents (Elt F) → (⟨S2048x2048, .f32⟩ : BufTy).Contents (Elt F) → (⟨S2048x2048, .f32⟩ : BufTy).Contents (Elt F)),
    unary main_v69 main_v70 ((transpose S2048x2048 [1, 0] · transposes_S2048x2048_S2048x2048_1_0) : (⟨S2048x2048, .f32⟩ : BufTy).Contents (Elt F) → (⟨S2048x2048, .f32⟩ : BufTy).Contents (Elt F)),
    binary main_v65 main_v70 main_v71 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    nullary main_cst_19 (constant S_ .f32 0x00000000#32),
    binary main_v71 main_cst_19 main_v72 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    nullary main_cst_20 (constant S_ .f32 0x46000000#32),
    unary main_cst_20 main_v73 (broadcastInDim S2048 ![] bcast_S_S2048 : (⟨S_, .f32⟩ : BufTy).Contents (Elt F) → (⟨S2048, .f32⟩ : BufTy).Contents (Elt F)),
    binary main_v72 main_v73 main_v74 (Host.divf : (⟨S2048, .f32⟩ : BufTy).Contents (Elt F) → (⟨S2048, .f32⟩ : BufTy).Contents (Elt F) → (⟨S2048, .f32⟩ : BufTy).Contents (Elt F)),
    unary main_v74 main_v75 (broadcastInDim S1x2048 ![1] bcast_S2048_S1x2048_1 : (⟨S2048, .f32⟩ : BufTy).Contents (Elt F) → (⟨S1x2048, .f32⟩ : BufTy).Contents (Elt F)),
    unary main_v75 main_v76 (broadcastInDim S8192x2048 ![0, 1] bcast_S1x2048_S8192x2048_0_1 : (⟨S1x2048, .f32⟩ : BufTy).Contents (Elt F) → (⟨S8192x2048, .f32⟩ : BufTy).Contents (Elt F)),
    binary main_v71 main_v76 main_v77 (subf : (⟨S8192x2048, .f32⟩ : BufTy).Contents (Elt F) → (⟨S8192x2048, .f32⟩ : BufTy).Contents (Elt F) → (⟨S8192x2048, .f32⟩ : BufTy).Contents (Elt F)),
    binary main_v77 main_v77 main_v78 (mulf : (⟨S8192x2048, .f32⟩ : BufTy).Contents (Elt F) → (⟨S8192x2048, .f32⟩ : BufTy).Contents (Elt F) → (⟨S8192x2048, .f32⟩ : BufTy).Contents (Elt F)),
    nullary main_cst_21 (constant S_ .f32 0x00000000#32),
    binary main_v78 main_cst_21 main_v79 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    nullary main_cst_22 (constant S_ .f32 0x46000000#32),
    unary main_cst_22 main_v80 (broadcastInDim S2048 ![] bcast_S_S2048 : (⟨S_, .f32⟩ : BufTy).Contents (Elt F) → (⟨S2048, .f32⟩ : BufTy).Contents (Elt F)),
    binary main_v79 main_v80 main_v81 (Host.divf : (⟨S2048, .f32⟩ : BufTy).Contents (Elt F) → (⟨S2048, .f32⟩ : BufTy).Contents (Elt F) → (⟨S2048, .f32⟩ : BufTy).Contents (Elt F)),
    unary main_v74 main_v82 (broadcastInDim S1x2048 ![1] bcast_S2048_S1x2048_1 : (⟨S2048, .f32⟩ : BufTy).Contents (Elt F) → (⟨S1x2048, .f32⟩ : BufTy).Contents (Elt F)),
    unary main_v82 main_v83 (broadcastInDim S8192x2048 ![0, 1] bcast_S1x2048_S8192x2048_0_1 : (⟨S1x2048, .f32⟩ : BufTy).Contents (Elt F) → (⟨S8192x2048, .f32⟩ : BufTy).Contents (Elt F)),
    binary main_v71 main_v83 main_v84 (subf : (⟨S8192x2048, .f32⟩ : BufTy).Contents (Elt F) → (⟨S8192x2048, .f32⟩ : BufTy).Contents (Elt F) → (⟨S8192x2048, .f32⟩ : BufTy).Contents (Elt F)),
    nullary main_cst_23 (constant S_ .f32 0x3727C5AC#32),
    unary main_cst_23 main_v85 (broadcastInDim S2048 ![] bcast_S_S2048 : (⟨S_, .f32⟩ : BufTy).Contents (Elt F) → (⟨S2048, .f32⟩ : BufTy).Contents (Elt F)),
    binary main_v81 main_v85 main_v86 (addf : (⟨S2048, .f32⟩ : BufTy).Contents (Elt F) → (⟨S2048, .f32⟩ : BufTy).Contents (Elt F) → (⟨S2048, .f32⟩ : BufTy).Contents (Elt F)),
    unary main_v86 main_v87 (Host.rsqrt : (⟨S2048, .f32⟩ : BufTy).Contents (Elt F) → (⟨S2048, .f32⟩ : BufTy).Contents (Elt F)),
    binary main_arg8 main_v87 main_v88 (mulf : (⟨S2048, .f32⟩ : BufTy).Contents (Elt F) → (⟨S2048, .f32⟩ : BufTy).Contents (Elt F) → (⟨S2048, .f32⟩ : BufTy).Contents (Elt F)),
    unary main_v88 main_v89 (broadcastInDim S1x2048 ![1] bcast_S2048_S1x2048_1 : (⟨S2048, .f32⟩ : BufTy).Contents (Elt F) → (⟨S1x2048, .f32⟩ : BufTy).Contents (Elt F)),
    unary main_v89 main_v90 (broadcastInDim S8192x2048 ![0, 1] bcast_S1x2048_S8192x2048_0_1 : (⟨S1x2048, .f32⟩ : BufTy).Contents (Elt F) → (⟨S8192x2048, .f32⟩ : BufTy).Contents (Elt F)),
    binary main_v84 main_v90 main_v91 (mulf : (⟨S8192x2048, .f32⟩ : BufTy).Contents (Elt F) → (⟨S8192x2048, .f32⟩ : BufTy).Contents (Elt F) → (⟨S8192x2048, .f32⟩ : BufTy).Contents (Elt F)),
    unary main_arg9 main_v92 (broadcastInDim S1x2048 ![1] bcast_S2048_S1x2048_1 : (⟨S2048, .f32⟩ : BufTy).Contents (Elt F) → (⟨S1x2048, .f32⟩ : BufTy).Contents (Elt F)),
    unary main_v92 main_v93 (broadcastInDim S8192x2048 ![0, 1] bcast_S1x2048_S8192x2048_0_1 : (⟨S1x2048, .f32⟩ : BufTy).Contents (Elt F) → (⟨S8192x2048, .f32⟩ : BufTy).Contents (Elt F)),
    binary main_v91 main_v93 main_v94 (addf : (⟨S8192x2048, .f32⟩ : BufTy).Contents (Elt F) → (⟨S8192x2048, .f32⟩ : BufTy).Contents (Elt F) → (⟨S8192x2048, .f32⟩ : BufTy).Contents (Elt F)),
    TRef.unary (TRef.of (T := ⟨S8192x2048, .f32⟩) main_v94) (TRef.of (T := ⟨S8192x2048, .f32⟩) main_v95) Host.roundeven,
    nullary main_cst_24 (constant S_ .f32 0xBF800000#32),
    nullary main_cst_25 (constant S_ .f32 0x3F800000#32),
    TRef.unary (TRef.of (T := ⟨S_, .f32⟩) main_cst_24) (TRef.of (T := ⟨S_, .f32⟩) main_call11_v0) id,
    TRef.unary (TRef.of (T := ⟨S_, .f32⟩) main_call11_v0) (TRef.of (T := ⟨S8192x2048, .f32⟩) main_call11_v1) (broadcastInDim S8192x2048 ![] bcast_S_S8192x2048),
    TRef.binary (TRef.of (T := ⟨S8192x2048, .f32⟩) main_call11_v1) (TRef.of (T := ⟨S8192x2048, .f32⟩) main_v95) (TRef.of (T := ⟨S8192x2048, .f32⟩) main_call11_v2) maximumf,
    TRef.unary (TRef.of (T := ⟨S_, .f32⟩) main_cst_25) (TRef.of (T := ⟨S_, .f32⟩) main_call11_v3) id,
    TRef.unary (TRef.of (T := ⟨S_, .f32⟩) main_call11_v3) (TRef.of (T := ⟨S8192x2048, .f32⟩) main_call11_v4) (broadcastInDim S8192x2048 ![] bcast_S_S8192x2048),
    TRef.binary (TRef.of (T := ⟨S8192x2048, .f32⟩) main_call11_v4) (TRef.of (T := ⟨S8192x2048, .f32⟩) main_call11_v2) (TRef.of (T := ⟨S8192x2048, .f32⟩) main_v96) minimumf,
    binary main_v96 main_v94 main_v97 (subf : (⟨S8192x2048, .f32⟩ : BufTy).Contents (Elt F) → (⟨S8192x2048, .f32⟩ : BufTy).Contents (Elt F) → (⟨S8192x2048, .f32⟩ : BufTy).Contents (Elt F)),
    binary main_v94 main_v97 main_v98 (addf : (⟨S8192x2048, .f32⟩ : BufTy).Contents (Elt F) → (⟨S8192x2048, .f32⟩ : BufTy).Contents (Elt F) → (⟨S8192x2048, .f32⟩ : BufTy).Contents (Elt F)) ]

/-- Layer 4's operations: the program's operations 157 to 197, up to the one writing `main_v127`. -/
abbrev ops4 : List (HloOp τ sig (Elt F)) :=
  [ TRef.unary (TRef.of (T := ⟨S10x2048, .f32⟩) main_arg10) (TRef.of (T := ⟨S10x2048, .f32⟩) main_v99) Host.roundeven,
    nullary main_cst_26 (constant S_ .f32 0xBF800000#32),
    nullary main_cst_27 (constant S_ .f32 0x3F800000#32),
    TRef.unary (TRef.of (T := ⟨S_, .f32⟩) main_cst_26) (TRef.of (T := ⟨S_, .f32⟩) main_call13_v0) id,
    TRef.unary (TRef.of (T := ⟨S_, .f32⟩) main_call13_v0) (TRef.of (T := ⟨S10x2048, .f32⟩) main_call13_v1) (broadcastInDim S10x2048 ![] bcast_S_S10x2048),
    TRef.binary (TRef.of (T := ⟨S10x2048, .f32⟩) main_call13_v1) (TRef.of (T := ⟨S10x2048, .f32⟩) main_v99) (TRef.of (T := ⟨S10x2048, .f32⟩) main_call13_v2) maximumf,
    TRef.unary (TRef.of (T := ⟨S_, .f32⟩) main_cst_27) (TRef.of (T := ⟨S_, .f32⟩) main_call13_v3) id,
    TRef.unary (TRef.of (T := ⟨S_, .f32⟩) main_call13_v3) (TRef.of (T := ⟨S10x2048, .f32⟩) main_call13_v4) (broadcastInDim S10x2048 ![] bcast_S_S10x2048),
    TRef.binary (TRef.of (T := ⟨S10x2048, .f32⟩) main_call13_v4) (TRef.of (T := ⟨S10x2048, .f32⟩) main_call13_v2) (TRef.of (T := ⟨S10x2048, .f32⟩) main_v100) minimumf,
    binary main_v100 main_arg10 main_v101 (subf : (⟨S10x2048, .f32⟩ : BufTy).Contents (Elt F) → (⟨S10x2048, .f32⟩ : BufTy).Contents (Elt F) → (⟨S10x2048, .f32⟩ : BufTy).Contents (Elt F)),
    binary main_arg10 main_v101 main_v102 (addf : (⟨S10x2048, .f32⟩ : BufTy).Contents (Elt F) → (⟨S10x2048, .f32⟩ : BufTy).Contents (Elt F) → (⟨S10x2048, .f32⟩ : BufTy).Contents (Elt F)),
    unary main_v102 main_v103 ((transpose S2048x10 [1, 0] · transposes_S10x2048_S2048x10_1_0) : (⟨S10x2048, .f32⟩ : BufTy).Contents (Elt F) → (⟨S2048x10, .f32⟩ : BufTy).Contents (Elt F)),
    binary main_v98 main_v103 main_v104 ((fun l r => Host.dotGeneral dot_S8192x2048_S2048x10_S8192x10_1_0_0_1_n_n none l r) : (⟨S8192x2048, .f32⟩ : BufTy).Contents (Elt F) → (⟨S2048x10, .f32⟩ : BufTy).Contents (Elt F) → (⟨S8192x10, .f32⟩ : BufTy).Contents (Elt F)),
    nullary main_cst_28 (constant S_ .f32 0x00000000#32),
    binary main_v104 main_cst_28 main_v105 ((fun x v => Host.reduceAdd x v reducesTo_S8192x10_S10_d0 h_S_) : (⟨S8192x10, .f32⟩ : BufTy).Contents (Elt F) → (⟨S_, .f32⟩ : BufTy).Contents (Elt F) → (⟨S10, .f32⟩ : BufTy).Contents (Elt F)),
    nullary main_cst_29 (constant S_ .f32 0x46000000#32),
    unary main_cst_29 main_v106 (broadcastInDim S10 ![] bcast_S_S10 : (⟨S_, .f32⟩ : BufTy).Contents (Elt F) → (⟨S10, .f32⟩ : BufTy).Contents (Elt F)),
    binary main_v105 main_v106 main_v107 (Host.divf : (⟨S10, .f32⟩ : BufTy).Contents (Elt F) → (⟨S10, .f32⟩ : BufTy).Contents (Elt F) → (⟨S10, .f32⟩ : BufTy).Contents (Elt F)),
    unary main_v107 main_v108 (broadcastInDim S1x10 ![1] bcast_S10_S1x10_1 : (⟨S10, .f32⟩ : BufTy).Contents (Elt F) → (⟨S1x10, .f32⟩ : BufTy).Contents (Elt F)),
    unary main_v108 main_v109 (broadcastInDim S8192x10 ![0, 1] bcast_S1x10_S8192x10_0_1 : (⟨S1x10, .f32⟩ : BufTy).Contents (Elt F) → (⟨S8192x10, .f32⟩ : BufTy).Contents (Elt F)),
    binary main_v104 main_v109 main_v110 (subf : (⟨S8192x10, .f32⟩ : BufTy).Contents (Elt F) → (⟨S8192x10, .f32⟩ : BufTy).Contents (Elt F) → (⟨S8192x10, .f32⟩ : BufTy).Contents (Elt F)),
    binary main_v110 main_v110 main_v111 (mulf : (⟨S8192x10, .f32⟩ : BufTy).Contents (Elt F) → (⟨S8192x10, .f32⟩ : BufTy).Contents (Elt F) → (⟨S8192x10, .f32⟩ : BufTy).Contents (Elt F)),
    nullary main_cst_30 (constant S_ .f32 0x00000000#32),
    binary main_v111 main_cst_30 main_v112 ((fun x v => Host.reduceAdd x v reducesTo_S8192x10_S10_d0 h_S_) : (⟨S8192x10, .f32⟩ : BufTy).Contents (Elt F) → (⟨S_, .f32⟩ : BufTy).Contents (Elt F) → (⟨S10, .f32⟩ : BufTy).Contents (Elt F)),
    nullary main_cst_31 (constant S_ .f32 0x46000000#32),
    unary main_cst_31 main_v113 (broadcastInDim S10 ![] bcast_S_S10 : (⟨S_, .f32⟩ : BufTy).Contents (Elt F) → (⟨S10, .f32⟩ : BufTy).Contents (Elt F)),
    binary main_v112 main_v113 main_v114 (Host.divf : (⟨S10, .f32⟩ : BufTy).Contents (Elt F) → (⟨S10, .f32⟩ : BufTy).Contents (Elt F) → (⟨S10, .f32⟩ : BufTy).Contents (Elt F)),
    unary main_v107 main_v115 (broadcastInDim S1x10 ![1] bcast_S10_S1x10_1 : (⟨S10, .f32⟩ : BufTy).Contents (Elt F) → (⟨S1x10, .f32⟩ : BufTy).Contents (Elt F)),
    unary main_v115 main_v116 (broadcastInDim S8192x10 ![0, 1] bcast_S1x10_S8192x10_0_1 : (⟨S1x10, .f32⟩ : BufTy).Contents (Elt F) → (⟨S8192x10, .f32⟩ : BufTy).Contents (Elt F)),
    binary main_v104 main_v116 main_v117 (subf : (⟨S8192x10, .f32⟩ : BufTy).Contents (Elt F) → (⟨S8192x10, .f32⟩ : BufTy).Contents (Elt F) → (⟨S8192x10, .f32⟩ : BufTy).Contents (Elt F)),
    nullary main_cst_32 (constant S_ .f32 0x3727C5AC#32),
    unary main_cst_32 main_v118 (broadcastInDim S10 ![] bcast_S_S10 : (⟨S_, .f32⟩ : BufTy).Contents (Elt F) → (⟨S10, .f32⟩ : BufTy).Contents (Elt F)),
    binary main_v114 main_v118 main_v119 (addf : (⟨S10, .f32⟩ : BufTy).Contents (Elt F) → (⟨S10, .f32⟩ : BufTy).Contents (Elt F) → (⟨S10, .f32⟩ : BufTy).Contents (Elt F)),
    unary main_v119 main_v120 (Host.rsqrt : (⟨S10, .f32⟩ : BufTy).Contents (Elt F) → (⟨S10, .f32⟩ : BufTy).Contents (Elt F)),
    binary main_arg11 main_v120 main_v121 (mulf : (⟨S10, .f32⟩ : BufTy).Contents (Elt F) → (⟨S10, .f32⟩ : BufTy).Contents (Elt F) → (⟨S10, .f32⟩ : BufTy).Contents (Elt F)),
    unary main_v121 main_v122 (broadcastInDim S1x10 ![1] bcast_S10_S1x10_1 : (⟨S10, .f32⟩ : BufTy).Contents (Elt F) → (⟨S1x10, .f32⟩ : BufTy).Contents (Elt F)),
    unary main_v122 main_v123 (broadcastInDim S8192x10 ![0, 1] bcast_S1x10_S8192x10_0_1 : (⟨S1x10, .f32⟩ : BufTy).Contents (Elt F) → (⟨S8192x10, .f32⟩ : BufTy).Contents (Elt F)),
    binary main_v117 main_v123 main_v124 (mulf : (⟨S8192x10, .f32⟩ : BufTy).Contents (Elt F) → (⟨S8192x10, .f32⟩ : BufTy).Contents (Elt F) → (⟨S8192x10, .f32⟩ : BufTy).Contents (Elt F)),
    unary main_arg12 main_v125 (broadcastInDim S1x10 ![1] bcast_S10_S1x10_1 : (⟨S10, .f32⟩ : BufTy).Contents (Elt F) → (⟨S1x10, .f32⟩ : BufTy).Contents (Elt F)),
    unary main_v125 main_v126 (broadcastInDim S8192x10 ![0, 1] bcast_S1x10_S8192x10_0_1 : (⟨S1x10, .f32⟩ : BufTy).Contents (Elt F) → (⟨S8192x10, .f32⟩ : BufTy).Contents (Elt F)),
    binary main_v124 main_v126 main_v127 (addf : (⟨S8192x10, .f32⟩ : BufTy).Contents (Elt F) → (⟨S8192x10, .f32⟩ : BufTy).Contents (Elt F) → (⟨S8192x10, .f32⟩ : BufTy).Contents (Elt F)) ]

set_option maxRecDepth 8192 in
/-- The program's line of operations is the four pieces in order. -/
theorem ops_split : (ValueP.ops : List (HloOp τ sig (Elt F))) = ops1 ++ (ops2 ++ (ops3 ++ ops4)) := rfl

end Pieces

/-! ## Each piece against an arbitrary valuation -/

set_option maxRecDepth 8192 in
set_option maxHeartbeats 4000000 in
/-- Layer 1's result buffer after its operations: the layer's stages of the four arguments it reads. -/
theorem result1 (W : Valuation τ sig (Elt Ideal)) :
    after (ops1 (F := Ideal)) W (Proc.devRef .tc main_v32)
      = ReadP.val_main_v32 (F := Ideal) (W (Proc.devRef .tc main_arg0)) (W (Proc.devRef .tc main_arg1)) (W (Proc.devRef .tc main_arg2)) (W (Proc.devRef .tc main_arg3)) := by
  after_results_simp
  rfl

theorem keep1_4 (W : Valuation τ sig (Elt Ideal)) : after (ops1 (F := Ideal)) W (Proc.devRef .tc main_arg4) = W (Proc.devRef .tc main_arg4) := by
  after_results_simp
theorem keep1_5 (W : Valuation τ sig (Elt Ideal)) : after (ops1 (F := Ideal)) W (Proc.devRef .tc main_arg5) = W (Proc.devRef .tc main_arg5) := by
  after_results_simp
theorem keep1_6 (W : Valuation τ sig (Elt Ideal)) : after (ops1 (F := Ideal)) W (Proc.devRef .tc main_arg6) = W (Proc.devRef .tc main_arg6) := by
  after_results_simp
theorem keep1_7 (W : Valuation τ sig (Elt Ideal)) : after (ops1 (F := Ideal)) W (Proc.devRef .tc main_arg7) = W (Proc.devRef .tc main_arg7) := by
  after_results_simp
theorem keep1_8 (W : Valuation τ sig (Elt Ideal)) : after (ops1 (F := Ideal)) W (Proc.devRef .tc main_arg8) = W (Proc.devRef .tc main_arg8) := by
  after_results_simp
theorem keep1_9 (W : Valuation τ sig (Elt Ideal)) : after (ops1 (F := Ideal)) W (Proc.devRef .tc main_arg9) = W (Proc.devRef .tc main_arg9) := by
  after_results_simp
theorem keep1_10 (W : Valuation τ sig (Elt Ideal)) : after (ops1 (F := Ideal)) W (Proc.devRef .tc main_arg10) = W (Proc.devRef .tc main_arg10) := by
  after_results_simp
theorem keep1_11 (W : Valuation τ sig (Elt Ideal)) : after (ops1 (F := Ideal)) W (Proc.devRef .tc main_arg11) = W (Proc.devRef .tc main_arg11) := by
  after_results_simp
theorem keep1_12 (W : Valuation τ sig (Elt Ideal)) : after (ops1 (F := Ideal)) W (Proc.devRef .tc main_arg12) = W (Proc.devRef .tc main_arg12) := by
  after_results_simp

set_option maxRecDepth 8192 in
set_option maxHeartbeats 4000000 in
/-- Layer 2's result buffer after its operations, when the previous layer's result buffer holds `val_main_v32` of the
    earlier arguments: the layer's stages of that (kept folded) and of the three arguments it reads. -/
theorem result2 (W : Valuation τ sig (Elt Ideal)) (x0 : (⟨S8192x784, .f32⟩ : BufTy).Contents (Elt Ideal)) (x1 : (⟨S2048x784, .f32⟩ : BufTy).Contents (Elt Ideal)) (x2 x3 : (⟨S2048, .f32⟩ : BufTy).Contents (Elt Ideal))
    (h : W (Proc.devRef .tc main_v32) = ReadP.val_main_v32 (F := Ideal) x0 x1 x2 x3) :
    after (ops2 (F := Ideal)) W (Proc.devRef .tc main_v65)
      = ReadP.val_main_v65 (F := Ideal) x0 x1 x2 x3 (W (Proc.devRef .tc main_arg4)) (W (Proc.devRef .tc main_arg5)) (W (Proc.devRef .tc main_arg6)) := by
  after_results_simp
  rw [h]
  rfl

theorem keep2_7 (W : Valuation τ sig (Elt Ideal)) : after (ops2 (F := Ideal)) W (Proc.devRef .tc main_arg7) = W (Proc.devRef .tc main_arg7) := by
  after_results_simp
theorem keep2_8 (W : Valuation τ sig (Elt Ideal)) : after (ops2 (F := Ideal)) W (Proc.devRef .tc main_arg8) = W (Proc.devRef .tc main_arg8) := by
  after_results_simp
theorem keep2_9 (W : Valuation τ sig (Elt Ideal)) : after (ops2 (F := Ideal)) W (Proc.devRef .tc main_arg9) = W (Proc.devRef .tc main_arg9) := by
  after_results_simp
theorem keep2_10 (W : Valuation τ sig (Elt Ideal)) : after (ops2 (F := Ideal)) W (Proc.devRef .tc main_arg10) = W (Proc.devRef .tc main_arg10) := by
  after_results_simp
theorem keep2_11 (W : Valuation τ sig (Elt Ideal)) : after (ops2 (F := Ideal)) W (Proc.devRef .tc main_arg11) = W (Proc.devRef .tc main_arg11) := by
  after_results_simp
theorem keep2_12 (W : Valuation τ sig (Elt Ideal)) : after (ops2 (F := Ideal)) W (Proc.devRef .tc main_arg12) = W (Proc.devRef .tc main_arg12) := by
  after_results_simp

set_option maxRecDepth 8192 in
set_option maxHeartbeats 4000000 in
/-- Layer 3's result buffer after its operations, when the previous layer's result buffer holds `val_main_v65` of the
    earlier arguments: the layer's stages of that (kept folded) and of the three arguments it reads. -/
theorem result3 (W : Valuation τ sig (Elt Ideal)) (x0 : (⟨S8192x784, .f32⟩ : BufTy).Contents (Elt Ideal)) (x1 : (⟨S2048x784, .f32⟩ : BufTy).Contents (Elt Ideal)) (x2 x3 : (⟨S2048, .f32⟩ : BufTy).Contents (Elt Ideal)) (x4 : (⟨S2048x2048, .f32⟩ : BufTy).Contents (Elt Ideal)) (x5 x6 : (⟨S2048, .f32⟩ : BufTy).Contents (Elt Ideal))
    (h : W (Proc.devRef .tc main_v65) = ReadP.val_main_v65 (F := Ideal) x0 x1 x2 x3 x4 x5 x6) :
    after (ops3 (F := Ideal)) W (Proc.devRef .tc main_v98)
      = ReadP.val_main_v98 (F := Ideal) x0 x1 x2 x3 x4 x5 x6 (W (Proc.devRef .tc main_arg7)) (W (Proc.devRef .tc main_arg8)) (W (Proc.devRef .tc main_arg9)) := by
  after_results_simp
  rw [h]
  rfl

theorem keep3_10 (W : Valuation τ sig (Elt Ideal)) : after (ops3 (F := Ideal)) W (Proc.devRef .tc main_arg10) = W (Proc.devRef .tc main_arg10) := by
  after_results_simp
theorem keep3_11 (W : Valuation τ sig (Elt Ideal)) : after (ops3 (F := Ideal)) W (Proc.devRef .tc main_arg11) = W (Proc.devRef .tc main_arg11) := by
  after_results_simp
theorem keep3_12 (W : Valuation τ sig (Elt Ideal)) : after (ops3 (F := Ideal)) W (Proc.devRef .tc main_arg12) = W (Proc.devRef .tc main_arg12) := by
  after_results_simp

set_option maxRecDepth 8192 in
set_option maxHeartbeats 4000000 in
/-- Layer 4's result buffer after its operations, when the previous layer's result buffer holds `val_main_v98` of the
    earlier arguments: the layer's stages of that (kept folded) and of the three arguments it reads. -/
theorem result4 (W : Valuation τ sig (Elt Ideal)) (x0 : (⟨S8192x784, .f32⟩ : BufTy).Contents (Elt Ideal)) (x1 : (⟨S2048x784, .f32⟩ : BufTy).Contents (Elt Ideal)) (x2 x3 : (⟨S2048, .f32⟩ : BufTy).Contents (Elt Ideal)) (x4 : (⟨S2048x2048, .f32⟩ : BufTy).Contents (Elt Ideal)) (x5 x6 : (⟨S2048, .f32⟩ : BufTy).Contents (Elt Ideal)) (x7 : (⟨S2048x2048, .f32⟩ : BufTy).Contents (Elt Ideal)) (x8 x9 : (⟨S2048, .f32⟩ : BufTy).Contents (Elt Ideal))
    (h : W (Proc.devRef .tc main_v98) = ReadP.val_main_v98 (F := Ideal) x0 x1 x2 x3 x4 x5 x6 x7 x8 x9) :
    after (ops4 (F := Ideal)) W (Proc.devRef .tc main_v127)
      = ReadP.val_main_v127 (F := Ideal) x0 x1 x2 x3 x4 x5 x6 x7 x8 x9 (W (Proc.devRef .tc main_arg10)) (W (Proc.devRef .tc main_arg11)) (W (Proc.devRef .tc main_arg12)) := by
  after_results_simp
  rw [h]
  rfl

/-! ## The four pieces chained -/

/-- The result buffer after the four pieces in order, from any valuation: `val_main_v127` of its thirteen arguments. Each
    earlier fold is replaced by a variable as soon as what is known of it has been stated. -/
theorem after_pieces (V0 : Valuation τ sig (Elt Ideal)) :
    after (ops4 (F := Ideal)) (after (ops3 (F := Ideal)) (after (ops2 (F := Ideal)) (after (ops1 (F := Ideal)) V0))) (Proc.devRef .tc main_v127)
      = ReadP.val_main_v127 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  have h1 := result1 V0
  have a4 := keep1_4 V0
  have a5 := keep1_5 V0
  have a6 := keep1_6 V0
  have a7 := keep1_7 V0
  have a8 := keep1_8 V0
  have a9 := keep1_9 V0
  have a10 := keep1_10 V0
  have a11 := keep1_11 V0
  have a12 := keep1_12 V0
  generalize after (ops1 (F := Ideal)) V0 = V1 at h1 a4 a5 a6 a7 a8 a9 a10 a11 a12 ⊢
  have h2 := result2 V1 _ _ _ _ h1
  rw [a4, a5, a6] at h2
  have b7 := (keep2_7 V1).trans a7
  have b8 := (keep2_8 V1).trans a8
  have b9 := (keep2_9 V1).trans a9
  have b10 := (keep2_10 V1).trans a10
  have b11 := (keep2_11 V1).trans a11
  have b12 := (keep2_12 V1).trans a12
  clear h1 a4 a5 a6 a7 a8 a9 a10 a11 a12
  generalize after (ops2 (F := Ideal)) V1 = V2 at h2 b7 b8 b9 b10 b11 b12 ⊢
  have h3 := result3 V2 _ _ _ _ _ _ _ h2
  rw [b7, b8, b9] at h3
  have c10 := (keep3_10 V2).trans b10
  have c11 := (keep3_11 V2).trans b11
  have c12 := (keep3_12 V2).trans b12
  clear h2 b7 b8 b9 b10 b11 b12
  generalize after (ops3 (F := Ideal)) V2 = V3 at h3 c10 c11 c12 ⊢
  have h4 := result4 V3 _ _ _ _ _ _ _ _ _ _ h3
  rw [c10, c11, c12] at h4
  exact h4

/-- The run's result buffer: the fold of the program's 197 operations over the launch contents, at `main_v127`, is
    `val_main_v127` of the thirteen arguments' launch contents. -/
theorem ref_after (m : (ℓ : Loc nD τ sig) → Buf (Elt Ideal) ℓ) (c : Dev nD) :
    after (ValueP.ops (F := Ideal)) (launchContents m c) (Proc.devRef .tc main_v127)
      = ReadP.val_main_v127 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [ops_split, after_append, after_append, after_append]
  exact after_pieces (launchContents m c)

/-- On every device, from any memory with zero counters: every weakly fair execution of the reference program terminates
    with its result buffer at the four-layer network `netR C0` of the arguments' launch contents, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v127)
        = arr2 (netR C0 (at2 (m ((c.tc : Thread nD τ).loc main_arg0))) (at2 (m ((c.tc : Thread nD τ).loc main_arg1))) (at1 (m ((c.tc : Thread nD τ).loc main_arg2))) (at1 (m ((c.tc : Thread nD τ).loc main_arg3))) (at2 (m ((c.tc : Thread nD τ).loc main_arg4))) (at1 (m ((c.tc : Thread nD τ).loc main_arg5))) (at1 (m ((c.tc : Thread nD τ).loc main_arg6))) (at2 (m ((c.tc : Thread nD τ).loc main_arg7))) (at1 (m ((c.tc : Thread nD τ).loc main_arg8))) (at1 (m ((c.tc : Thread nD τ).loc main_arg9))) (at2 (m ((c.tc : Thread nD τ).loc main_arg10))) (at1 (m ((c.tc : Thread nD τ).loc main_arg11))) (at1 (m ((c.tc : Thread nD τ).loc main_arg12))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans ((ref_after m c).trans (ref_net _ _ _ _ _ _ _ _ _ _ _ _ _)), (h c).2⟩)
    (ValueP.run (F := Ideal) m ρ)

end Cert.RefSide

end
-- ==== Proof.LibBatchNormReal.lean ====
/-
  Real numbers inside the extended reals: the facts the batch-normalisation layer identity rests on.

  * a finite sum of reals formed in the extended reals is the real sum;
  * over the reals, with `N` the number of terms (nonzero), the mean of squares minus the squared mean is the
    mean of squared deviations, and that number is nonnegative;
  * the reciprocal square root of a positive real is a real;
  * a clamp `min hi (max lo y)` between two reals is a real, whatever `y` is (the infinities included);
  * the values of the five float words of the layer's constants.
-/
import Idealize.ShloMosaic.PureOps.Ideal
import Idealize.ShloMosaic.PureOps.Ideal.Laws

noncomputable section

open scoped BigOperators
open Idealize.ShloMosaic

namespace Cert.Net

/-- A finite sum of reals, formed in the extended reals, is the real sum. -/
theorem coe_sum {α : Type*} (s : Finset α) (f : α → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The sum of squared deviations from `m`, expanded: `∑ (f − m)² = ∑ f² − 2 m ∑ f + N m²`. -/
theorem sum_sq_dev {ι : Type*} [Fintype ι] (f : ι → ℝ) (m : ℝ) :
    ∑ r, (f r - m) * (f r - m) = ∑ r, f r * f r - 2 * m * ∑ r, f r + (Fintype.card ι : ℝ) * (m * m) := by
  have h : ∀ r, (f r - m) * (f r - m) = f r * f r - 2 * m * f r + m * m := fun r => by ring
  simp only [h]
  rw [Finset.sum_add_distrib, Finset.sum_sub_distrib, ← Finset.mul_sum, Finset.sum_const, Finset.card_univ,
    nsmul_eq_mul]

/-- With `N` the (nonzero) number of terms and `m = (∑ f)/N`: the mean of squares minus the squared mean is the
    mean of squared deviations. -/
theorem var_identity {ι : Type*} [Fintype ι] (f : ι → ℝ) (hN : (Fintype.card ι : ℝ) ≠ 0) :
    (∑ r, f r * f r) * (1 / (Fintype.card ι : ℝ))
        - ((∑ r, f r) * (1 / (Fintype.card ι : ℝ))) * ((∑ r, f r) * (1 / (Fintype.card ι : ℝ)))
      = (∑ r, (f r - (∑ r, f r) * (1 / (Fintype.card ι : ℝ))) * (f r - (∑ r, f r) * (1 / (Fintype.card ι : ℝ))))
          * (1 / (Fintype.card ι : ℝ)) := by
  rw [sum_sq_dev]
  field_simp
  ring

/-- A mean of squares is nonnegative. -/
theorem mean_sq_nonneg {ι : Type*} [Fintype ι] (f : ι → ℝ) (m : ℝ) :
    0 ≤ (∑ r, (f r - m) * (f r - m)) * (1 / (Fintype.card ι : ℝ)) :=
  mul_nonneg (Finset.sum_nonneg fun _ _ => mul_self_nonneg _) (by positivity)

/-- The reciprocal square root of a positive real is the real `(√x)⁻¹`. -/
theorem rsqrt_of_pos {x : ℝ} (hx : 0 < x) : Ideal.rsqrt (x : EReal) = (((Real.sqrt x)⁻¹ : ℝ) : EReal) := by
  rw [Ideal.rsqrt_coe, if_neg (not_lt.mpr hx.le), if_neg hx.ne']

/-- A clamp between two reals is a real: it is above `min hi lo > ⊥` and below `hi < ⊤`. -/
theorem clamp_real (l h : ℝ) (y : EReal) : ∃ t : ℝ, min (h : EReal) (max (l : EReal) y) = (t : EReal) := by
  have h1 : min (h : EReal) (max (l : EReal) y) ≠ ⊥ :=
    (lt_min (EReal.bot_lt_coe h) (lt_of_lt_of_le (EReal.bot_lt_coe l) (le_max_left _ _))).ne'
  have h2 : min (h : EReal) (max (l : EReal) y) ≠ ⊤ :=
    (lt_of_le_of_lt (min_le_left _ _) (EReal.coe_lt_top h)).ne
  exact ⟨_, (EReal.coe_toReal h2 h1).symm⟩

/-- The word `0xBF800000` is `−1`. -/
theorem ofBits_neg_one : Ideal.ofBits .f32 0xBF800000#32 = ((-1 : ℝ) : EReal) := by
  simp [Ideal.ofBits, Ideal.ieee, -EReal.coe_mul]; norm_num

/-- The word `0x3F800000` is `1`. -/
theorem ofBits_one : Ideal.ofBits .f32 0x3F800000#32 = ((1 : ℝ) : EReal) := by
  simp [Ideal.ofBits, Ideal.ieee, -EReal.coe_mul]; norm_num

/-- The word `0x46000000` is `8192 = 2¹³`. -/
theorem ofBits_8192 : Ideal.ofBits .f32 0x46000000#32 = ((8192 : ℝ) : EReal) := by
  simp [Ideal.ofBits, Ideal.ieee, -EReal.coe_mul]; norm_num

/-- The word `0x3727C5AC` (exponent field 110, fraction field 2606508) is `(2²³ + 2606508) · 2⁻⁴⁰`, a positive real. -/
theorem ofBits_eps : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

end Cert.Net

end
-- ==== Proof.LibBatchNorm.lean ====
/-
  One layer of the network (ternary-quantised linear map, batch normalisation over the rows, ternary activation)
  in its two spellings is one function wherever every entry is a real number, and its values are then real again;
  hence the two four-layer networks agree on real inputs.

  The steps: a clamp between real bounds is real whatever it is applied to, so the quantiser's two spellings
  `q(x)` and `x + (q(x) − x)` agree at a real `x`; a finite sum of products of reals is real; dividing by the
  (nonzero, real) number of rows is multiplying by its reciprocal; over the reals the mean of squares minus the squared
  mean is the mean of squared deviations, a nonnegative number, so adding the positive offset gives a positive real whose
  reciprocal square root is real; and `h·s + (b − m·s) = (h − m)·s + b` over the reals.
-/
import proofs.«117354_j7189775254092_1_alg».proof.Proof.Spec
import proofs.«117354_j7189775254092_1_alg».proof.Proof.LibBatchNormReal

noncomputable section

open scoped BigOperators
open Idealize.ShloMosaic

namespace Cert.Net

/-! ## The quantiser -/

/-- The quantiser's value is a real number whatever its argument: it lies between `min hi lo` and `hi`. -/
theorem tern_isReal (C : Consts) (hlo : IsReal C.lo) (hhi : IsReal C.hi) (x : EReal) : IsReal (tern C x) := by
  obtain ⟨l, hl⟩ := hlo
  obtain ⟨h, hh⟩ := hhi
  rw [tern, hl, hh]
  exact clamp_real l h _

/-- At a real `x`, `x + (q(x) − x) = q(x)`: both `x` and `q(x)` are real, and the identity holds in the reals. -/
theorem ternR_eq (C : Consts) (hlo : IsReal C.lo) (hhi : IsReal C.hi) {x : EReal} (hx : IsReal x) :
    ternR C x = tern C x := by
  obtain ⟨r, rfl⟩ := hx
  obtain ⟨t, ht⟩ := tern_isReal C hlo hhi (r : EReal)
  rw [ternR, ht, ← EReal.coe_sub, ← EReal.coe_add]
  congr 1; ring

section Layer

variable {ι κ ν : Type} [Fintype ι] [Fintype κ] [Fintype ν] (C : Consts)

/-! ## The linear map -/

/-- A finite sum of products of reals is real: rows of reals against weights whose quantised values are real. -/
theorem lin_real (q : EReal → EReal) (a : ι → κ → EReal) (w : ν → κ → EReal)
    (ha : ∀ r k, IsReal (a r k)) (hq : ∀ n k, IsReal (q (w n k))) :
    ∃ H : ι → ν → ℝ, lin q a w = fun r n => (H r n : EReal) := by
  have ha' : ∀ r k, ∃ t : ℝ, a r k = (t : EReal) := ha
  have hq' : ∀ n k, ∃ t : ℝ, q (w n k) = (t : EReal) := hq
  choose A hA using ha'
  choose Q hQ using hq'
  refine ⟨fun r n => ∑ k, A r k * Q n k, ?_⟩
  funext r n
  rw [← coe_sum]
  exact Finset.sum_congr rfl fun k _ => by rw [hA r k, hQ n k, EReal.coe_mul]

/-- The linear map depends on the quantiser only through its values at the weights. -/
theorem lin_congr (q q' : EReal → EReal) (a : ι → κ → EReal) (w : ν → κ → EReal)
    (h : ∀ n k, q (w n k) = q' (w n k)) : lin q a w = lin q' a w := by
  funext r n
  exact Finset.sum_congr rfl fun k _ => by rw [h n k]

/-! ## Mean, variance and scale of a real-valued array -/

/-- The column mean over the reals, the divisor the number of rows. -/
def rmean (H : ι → ν → ℝ) (n : ν) : ℝ := (∑ r, H r n) * (1 / (Fintype.card ι : ℝ))

/-- The column variance over the reals: the mean of squared deviations. -/
def rvar (H : ι → ν → ℝ) (n : ν) : ℝ :=
  (∑ r, (H r n - rmean H n) * (H r n - rmean H n)) * (1 / (Fintype.card ι : ℝ))

/-- The variance is nonnegative. -/
theorem rvar_nonneg (H : ι → ν → ℝ) (n : ν) : 0 ≤ rvar H n := mean_sq_nonneg (fun r => H r n) (rmean H n)

/-- A column sum of reals from the initial value zero is the real sum. -/
theorem colSum_coe (hz : C.zero = 0) (F : ι → ν → ℝ) (n : ν) :
    colSum C (fun r n => (F r n : EReal)) n = ((∑ r, F r n : ℝ) : EReal) := by
  rw [colSum, hz, zero_add, coe_sum]

/-- A column sum of reals divided by the number of rows is the real sum times the reciprocal. -/
theorem div_colSum_coe (hC : C.Good (Fintype.card ι)) (F : ι → ν → ℝ) (n : ν) :
    Ideal.div (colSum C (fun r n => (F r n : EReal)) n) C.nB
      = (((∑ r, F r n) * (1 / (Fintype.card ι : ℝ)) : ℝ) : EReal) := by
  have hN : (Fintype.card ι : ℝ) ≠ 0 := Nat.cast_ne_zero.mpr hC.rows_pos.ne'
  rw [colSum_coe C hC.zero, hC.nB, Ideal.div_coe hN, ← EReal.coe_mul]

/-- The mean of a real-valued array is the real mean. -/
theorem mean_coe (hC : C.Good (Fintype.card ι)) (H : ι → ν → ℝ) (n : ν) :
    mean C (fun r n => (H r n : EReal)) n = (rmean H n : EReal) := by
  rw [mean, div_colSum_coe C hC, rmean]

/-- The mean of squares minus the squared mean, of a real-valued array, is the real variance. -/
theorem varK_coe (hC : C.Good (Fintype.card ι)) (H : ι → ν → ℝ) (n : ν) :
    varK C (fun r n => (H r n : EReal)) n = (rvar H n : EReal) := by
  have hN : (Fintype.card ι : ℝ) ≠ 0 := Nat.cast_ne_zero.mpr hC.rows_pos.ne'
  have hsq : (fun r n => (H r n : EReal) * (H r n : EReal)) = fun r n => ((H r n * H r n : ℝ) : EReal) := by
    funext r n; rw [EReal.coe_mul]
  rw [varK, hsq, div_colSum_coe C hC, mean_coe C hC, ← EReal.coe_mul, ← EReal.coe_sub, rvar, rmean]
  congr 1
  exact var_identity (fun r => H r n) hN

/-- The mean of squared deviations of a real-valued array is the real variance. -/
theorem varR_coe (hC : C.Good (Fintype.card ι)) (H : ι → ν → ℝ) (n : ν) :
    varR C (fun r n => (H r n : EReal)) n = (rvar H n : EReal) := by
  have hdev : (fun r n => ((H r n : EReal) - mean C (fun r n => (H r n : EReal)) n)
        * ((H r n : EReal) - mean C (fun r n => (H r n : EReal)) n))
      = fun r n => (((H r n - rmean H n) * (H r n - rmean H n) : ℝ) : EReal) := by
    funext r n; rw [mean_coe C hC, ← EReal.coe_sub, ← EReal.coe_mul]
  rw [varR, hdev, div_colSum_coe C hC, rvar]

/-- The scale from a nonnegative real variance and a real gain is real: the offset makes the radicand positive. -/
theorem scale_coe {v g : ν → EReal} (n : ν) {V G e : ℝ} (hv : v n = (V : EReal)) (hV : 0 ≤ V)
    (hg : g n = (G : EReal)) (he : 0 < e) (heps : C.eps = (e : EReal)) :
    scale C v g n = ((G * (Real.sqrt (V + e))⁻¹ : ℝ) : EReal) := by
  rw [scale, hv, hg, heps, ← EReal.coe_add, rsqrt_of_pos (by linarith), ← EReal.coe_mul]

/-! ## The normalisation -/

/-- On a real-valued array with real gain and bias, the two normalisations are one real-valued array. -/
theorem bn_coe (hC : C.Good (Fintype.card ι)) (H : ι → ν → ℝ) (G B : ν → ℝ) :
    ∃ Y : ι → ν → ℝ,
      bnK C (fun r n => (H r n : EReal)) (fun n => (G n : EReal)) (fun n => (B n : EReal))
          = (fun r n => (Y r n : EReal)) ∧
      bnR C (fun r n => (H r n : EReal)) (fun n => (G n : EReal)) (fun n => (B n : EReal))
          = (fun r n => (Y r n : EReal)) := by
  obtain ⟨e, he, heps⟩ := hC.eps
  refine ⟨fun r n => H r n * (G n * (Real.sqrt (rvar H n + e))⁻¹)
      + (B n - rmean H n * (G n * (Real.sqrt (rvar H n + e))⁻¹)), ?_, ?_⟩
  · funext r n
    dsimp only [bnK]
    rw [scale_coe C n (varK_coe C hC H n) (rvar_nonneg H n) rfl he heps, mean_coe C hC, ← EReal.coe_mul,
      ← EReal.coe_mul, ← EReal.coe_sub, ← EReal.coe_add]
  · funext r n
    dsimp only [bnR]
    rw [scale_coe C n (varR_coe C hC H n) (rvar_nonneg H n) rfl he heps, mean_coe C hC, ← EReal.coe_sub,
      ← EReal.coe_mul, ← EReal.coe_add]
    congr 1; ring

end Layer

/-! ## One layer -/

/-- On real activations, weights, gains and biases the two spellings of a layer are one function, with real values. -/
theorem layer_eq {ι κ ν : Type} [Fintype ι] [Fintype κ] [Fintype ν] (C : Consts) (hC : C.Good (Fintype.card ι))
    (quant : Bool) (a : ι → κ → EReal) (w : ν → κ → EReal) (g b : ν → EReal)
    (ha : ∀ r k, IsReal (a r k)) (hw : ∀ n k, IsReal (w n k)) (hg : ∀ n, IsReal (g n)) (hb : ∀ n, IsReal (b n)) :
    layerK C quant a w g b = layerR C quant a w g b ∧ ∀ r n, IsReal (layerK C quant a w g b r n) := by
  have hg' : ∀ n, ∃ t : ℝ, g n = (t : EReal) := hg
  have hb' : ∀ n, ∃ t : ℝ, b n = (t : EReal) := hb
  choose G hG using hg'
  choose B hB using hb'
  obtain rfl : g = fun n => (G n : EReal) := funext hG
  obtain rfl : b = fun n => (B n : EReal) := funext hB
  have hlinR : lin (ternR C) a w = lin (tern C) a w :=
    lin_congr _ _ a w fun n k => ternR_eq C hC.lo hC.hi (hw n k)
  obtain ⟨H, hH⟩ := lin_real (tern C) a w ha fun n k => tern_isReal C hC.lo hC.hi (w n k)
  obtain ⟨Y, hK, hR⟩ := bn_coe C hC H G B
  have eK : ∀ r n, layerK C quant a w (fun n => (G n : EReal)) (fun n => (B n : EReal)) r n
      = if quant then tern C (Y r n : EReal) else (Y r n : EReal) := by
    intro r n; simp only [layerK, hH, hK]
  have eR : ∀ r n, layerR C quant a w (fun n => (G n : EReal)) (fun n => (B n : EReal)) r n
      = if quant then ternR C (Y r n : EReal) else (Y r n : EReal) := by
    intro r n; simp only [layerR, hlinR, hH, hR]
  refine ⟨?_, ?_⟩
  · funext r n
    rw [eK, eR, ternR_eq C hC.lo hC.hi ⟨Y r n, rfl⟩]
  · intro r n
    rw [eK]
    cases quant
    · exact ⟨Y r n, by simp⟩
    · simpa using tern_isReal C hC.lo hC.hi (Y r n : EReal)

/-! ## The network -/

/-- On real inputs and parameters the two four-layer networks agree: the layer identity four times, each layer's
    real values being the next layer's real activations. -/
theorem net_eq (C : Consts) (hC : C.Good 8192)
    (x : Fin 8192 → Fin 784 → EReal) (w1 : Fin 2048 → Fin 784 → EReal) (g1 b1 : Fin 2048 → EReal)
    (w2 : Fin 2048 → Fin 2048 → EReal) (g2 b2 : Fin 2048 → EReal)
    (w3 : Fin 2048 → Fin 2048 → EReal) (g3 b3 : Fin 2048 → EReal)
    (w4 : Fin 10 → Fin 2048 → EReal) (g4 b4 : Fin 10 → EReal)
    (hx : ∀ r k, IsReal (x r k))
    (hw1 : ∀ n k, IsReal (w1 n k)) (hg1 : ∀ n, IsReal (g1 n)) (hb1 : ∀ n, IsReal (b1 n))
    (hw2 : ∀ n k, IsReal (w2 n k)) (hg2 : ∀ n, IsReal (g2 n)) (hb2 : ∀ n, IsReal (b2 n))
    (hw3 : ∀ n k, IsReal (w3 n k)) (hg3 : ∀ n, IsReal (g3 n)) (hb3 : ∀ n, IsReal (b3 n))
    (hw4 : ∀ n k, IsReal (w4 n k)) (hg4 : ∀ n, IsReal (g4 n)) (hb4 : ∀ n, IsReal (b4 n)) :
    netK C x w1 g1 b1 w2 g2 b2 w3 g3 b3 w4 g4 b4 = netR C x w1 g1 b1 w2 g2 b2 w3 g3 b3 w4 g4 b4 := by
  have hC' : C.Good (Fintype.card (Fin 8192)) := by rw [Fintype.card_fin]; exact hC
  obtain ⟨e1, r1⟩ := layer_eq C hC' true x w1 g1 b1 hx hw1 hg1 hb1
  obtain ⟨e2, r2⟩ := layer_eq C hC' true _ w2 g2 b2 r1 hw2 hg2 hb2
  obtain ⟨e3, r3⟩ := layer_eq C hC' true _ w3 g3 b3 r2 hw3 hg3 hb3
  obtain ⟨e4, _⟩ := layer_eq C hC' false _ w4 g4 b4 r3 hw4 hg4 hb4
  show layerK C false (layerK C true (layerK C true (layerK C true x w1 g1 b1) w2 g2 b2) w3 g3 b3) w4 g4 b4
     = layerR C false (layerR C true (layerR C true (layerR C true x w1 g1 b1) w2 g2 b2) w3 g3 b3) w4 g4 b4
  rw [← e1, ← e2, ← e3, ← e4]

/-! ## The programs' constants -/

/-- The float words of the programs' constants are `−1`, `1`, `8192`, a positive real and `0`. -/
theorem C0_good : C0.Good 8192 where
  lo := ⟨-1, ofBits_neg_one⟩
  hi := ⟨1, ofBits_one⟩
  rows_pos := by norm_num
  nB := by rw [show C0.nB = _ from ofBits_8192]; norm_num
  eps := ofBits_eps
  zero := Ideal.ofBits_zero_f32

end Cert.Net

end
-- ==== Proof.Finite.lean ====
/- From the certificate's precondition to "every input entry is a real number", at the ideal instance.

   The printed predicate takes, for each of the thirteen arguments, the absolute value of every entry, compares it
   (strictly below) with the +infinity word broadcast over the argument's shape, reduces the comparisons by AND over all
   axes from the constant true, and ANDs the thirteen results. On the extended reals the +infinity word is the top
   element, the absolute value of `x` is `max x (-x)`, and `max x (-x) < ⊤` excludes both infinities (the absolute value
   of the bottom element is the top one): what is left is a real number. -/
import proofs.«117354_j7189775254092_1_alg».proof.Pre_finite_inputs
import proofs.«117354_j7189775254092_1_alg».proof.Proof.Spec
import Idealize.ShloMosaic.Lib.ReduceAll
import Idealize.ShloMosaic.PureOps.Ideal
import Idealize.ShloMosaic.PureOps.Ideal.Laws
import Idealize.ShloMosaic.Lib.ValueIdx

noncomputable section

namespace Cert.Finite

open Idealize.ShloMosaic
open Cert.Pre_finite_inputs

/-- The rank-0 shape has one index. -/
instance : Subsingleton S_.Idx := ⟨fun a b => funext fun d => d.elim0⟩

/-- The +infinity word of the 32-bit format denotes the top element. -/
theorem inf_word : Ideal.ofBits .f32 0x7F800000#32 = (⊤ : EReal) := by
  simp [Ideal.ofBits, Ideal.ieee]

/-- An extended real whose absolute value is strictly below the top element is a real number. -/
theorem isReal_of_abs_lt_top (x : EReal) (h : max x (-x) < ⊤) : Cert.Net.IsReal x := by
  induction x using EReal.rec with
  | bot => simp at h
  | top => simp at h
  | coe r => exact ⟨r, rfl⟩

/-- ONE argument, of any shape: if the AND over all axes of "the entry's absolute value is below +infinity" is true,
    every entry is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ValueIdx.ix0 = 1#1) :
    ∀ i, Cert.Net.IsReal (x i) := by
  intro i
  have h1 : Ideal.cmp .olt (max (x i) (-(x i))) (Ideal.ofBits .f32 0x7F800000#32) = 1#1 :=
    Host.reduce_andi_all _ _ hr hu _ e i
  rw [inf_word] at h1
  refine isReal_of_abs_lt_top (x i) ?_
  by_contra hn
  have h2 : BitVec.ofBool (decide (max (x i) (-(x i)) < (⊤ : EReal))) = 1#1 := h1
  rw [decide_eq_false hn] at h2
  exact absurd h2 (by decide)

variable [Cert.Pre_finite_inputs.Facts]
open Cert.Pre_finite_inputs.Facts

/-- THE PRECONDITION, READ: where the printed predicate holds, every entry of every argument is a real number. -/
theorem finite_of_pre (x0 : FVec Ideal S8192x784 .f32) (x1 : FVec Ideal S2048x784 .f32) (x2 x3 : FVec Ideal S2048 .f32)
    (x4 : FVec Ideal S2048x2048 .f32) (x5 x6 : FVec Ideal S2048 .f32) (x7 : FVec Ideal S2048x2048 .f32)
    (x8 x9 : FVec Ideal S2048 .f32) (x10 : FVec Ideal S10x2048 .f32) (x11 x12 : FVec Ideal S10 .f32)
    (h : Cert.Pre_finite_inputs.fn (F := Ideal) x0 x1 x2 x3 x4 x5 x6 x7 x8 x9 x10 x11 x12 = fun _ => 1#1) :
    (∀ i, Cert.Net.IsReal (x0 i)) ∧ (∀ i, Cert.Net.IsReal (x1 i)) ∧ (∀ i, Cert.Net.IsReal (x2 i)) ∧ (∀ i, Cert.Net.IsReal (x3 i))
    ∧ (∀ i, Cert.Net.IsReal (x4 i)) ∧ (∀ i, Cert.Net.IsReal (x5 i)) ∧ (∀ i, Cert.Net.IsReal (x6 i)) ∧ (∀ i, Cert.Net.IsReal (x7 i))
    ∧ (∀ i, Cert.Net.IsReal (x8 i)) ∧ (∀ i, Cert.Net.IsReal (x9 i)) ∧ (∀ i, Cert.Net.IsReal (x10 i)) ∧ (∀ i, Cert.Net.IsReal (x11 i))
    ∧ (∀ i, Cert.Net.IsReal (x12 i)) := by
  have h0 := congrFun h ValueIdx.ix0
  dsimp only [fn, fn_part1, fn_part2, fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real x0 _ _ _ e0, all_real x1 _ _ _ e1, all_real x2 _ _ _ e2, all_real x3 _ _ _ e3, all_real x4 _ _ _ e4,
    all_real x5 _ _ _ e5, all_real x6 _ _ _ e6, all_real x7 _ _ _ e7, all_real x8 _ _ _ e8, all_real x9 _ _ _ e9,
    all_real x10 _ _ _ e10, all_real x11 _ _ _ e11, all_real x12 _ _ _ e12⟩

end Cert.Finite
-- ==== Proof.lean ====
/-
  The claim: the kernel's program and the reference compute the same network.

  Both programs are a four-layer network on 8192 rows: each layer quantises its weights to {-1, 0, 1}, multiplies, normalises
  every column by its mean and variance over the rows and, on the first three layers, quantises the result. The kernel's
  program does each layer in two kernel regions (a tiled product that also accumulates every column's sum and sum of squares
  across the row tiles; then a pointwise normalisation from a per-column scale and shift the host forms in between); the
  reference does it with whole-array operations.

  * The frames. The kernel's program runs to its end through its thirteen items, each region a segment between two valuations
    of the buffers (the same text at either float instance); the reference's run is its host operations folded. In both,
    no item writes an argument array.
  * The values, at the exact instance. The kernel's result, read back through the regions and the host stretches, is the
    network with the variance as mean of squares minus squared mean and the affine step as `h·s + (b − m·s)`; the
    reference's, read one layer at a time, is the network with the variance as mean of squared deviations, the affine step as
    `(h − m)·s + b` and the quantiser as `y + (q(y) − y)`. Over real numbers these are one function — the first identity
    because the divisor IS the number of rows — and the precondition says every input entry is a real number, which every
    layer preserves; so the two results are equal entry by entry.
  * The idealisation rewrote nothing, so it preserves the kernel's program trivially.
-/
import proofs.«117354_j7189775254092_1_alg».proof.Defs
import proofs.«117354_j7189775254092_1_alg».proof.Proof.Gen.Kernel
import proofs.«117354_j7189775254092_1_alg».proof.Proof.Gen.KernelIdeal
import proofs.«117354_j7189775254092_1_alg».proof.Proof.Gen.ReferenceIdeal
import proofs.«117354_j7189775254092_1_alg».proof.Proof.Gen.Pre_finite_inputs
import proofs.«117354_j7189775254092_1_alg».proof.Proof.KChain
import proofs.«117354_j7189775254092_1_alg».proof.Proof.Chain
import proofs.«117354_j7189775254092_1_alg».proof.Proof.KernelValue
import proofs.«117354_j7189775254092_1_alg».proof.Proof.RefRunLayers
import proofs.«117354_j7189775254092_1_alg».proof.Proof.LibBatchNorm
import proofs.«117354_j7189775254092_1_alg».proof.Proof.Finite
import Idealize.ShloMosaic.Adequacy
import Idealize.ShloMosaic.Init

set_option maxRecDepth 16384

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  haveI := Cert.Pre_finite_inputs.Gen.facts
  refine ⟨?_, ?_, ?_, trivial, ?_⟩
  · -- the kernel's program at the word-level instance: its run, the result dropped
    intro m ρ _
    exact (θ_run (Cert.Kernel.defs (F := Bits)) _ _).mono (fun _ h c => (h c).2) (Cert.Kernel.Hand.kernel_run (F := Bits) m ρ)
  · -- the same at the exact instance
    intro m ρ _
    exact (θ_run (Cert.KernelIdeal.defs (F := Ideal)) _ _).mono (fun _ h c => (h c).2) (Cert.KernelIdeal.Hand.kernel_run (F := Ideal) m ρ)
  · -- the reference: its run, the result dropped
    intro m ρ _
    exact (θ_run (Cert.ReferenceIdeal.defs (F := Ideal)) _ _).mono (fun _ h c => (h c).2) (Cert.RefSide.ref_run m ρ)
  · -- both runs end at the same network of the arguments
    intro m ρ m' ρ' hpre hagree
    refine ⟨fun c => Cert.Net.arr2 (Cert.Net.netK Cert.Net.C0
      (Cert.Net.at2 (m ((c.tc : Thread Cert.KernelIdeal.nD Cert.KernelIdeal.τ).loc Cert.KernelIdeal.main_arg0)))
      (Cert.Net.at2 (m ((c.tc : Thread Cert.KernelIdeal.nD Cert.KernelIdeal.τ).loc Cert.KernelIdeal.main_arg1)))
      (Cert.Net.at1 (m ((c.tc : Thread Cert.KernelIdeal.nD Cert.KernelIdeal.τ).loc Cert.KernelIdeal.main_arg2)))
      (Cert.Net.at1 (m ((c.tc : Thread Cert.KernelIdeal.nD Cert.KernelIdeal.τ).loc Cert.KernelIdeal.main_arg3)))
      (Cert.Net.at2 (m ((c.tc : Thread Cert.KernelIdeal.nD Cert.KernelIdeal.τ).loc Cert.KernelIdeal.main_arg4)))
      (Cert.Net.at1 (m ((c.tc : Thread Cert.KernelIdeal.nD Cert.KernelIdeal.τ).loc Cert.KernelIdeal.main_arg5)))
      (Cert.Net.at1 (m ((c.tc : Thread Cert.KernelIdeal.nD Cert.KernelIdeal.τ).loc Cert.KernelIdeal.main_arg6)))
      (Cert.Net.at2 (m ((c.tc : Thread Cert.KernelIdeal.nD Cert.KernelIdeal.τ).loc Cert.KernelIdeal.main_arg7)))
      (Cert.Net.at1 (m ((c.tc : Thread Cert.KernelIdeal.nD Cert.KernelIdeal.τ).loc Cert.KernelIdeal.main_arg8)))
      (Cert.Net.at1 (m ((c.tc : Thread Cert.KernelIdeal.nD Cert.KernelIdeal.τ).loc Cert.KernelIdeal.main_arg9)))
      (Cert.Net.at2 (m ((c.tc : Thread Cert.KernelIdeal.nD Cert.KernelIdeal.τ).loc Cert.KernelIdeal.main_arg10)))
      (Cert.Net.at1 (m ((c.tc : Thread Cert.KernelIdeal.nD Cert.KernelIdeal.τ).loc Cert.KernelIdeal.main_arg11)))
      (Cert.Net.at1 (m ((c.tc : Thread Cert.KernelIdeal.nD Cert.KernelIdeal.τ).loc Cert.KernelIdeal.main_arg12)))), ?_, ?_⟩
    · exact (θ_run (Cert.KernelIdeal.defs (F := Ideal)) _ _).mono
        (fun _ h c => ⟨(h c).1.trans (Cert.KernelIdeal.Hand.kernel_value m c), (h c).2⟩)
        (Cert.KernelIdeal.Hand.kernel_run (F := Ideal) m ρ)
    · refine (θ_run (Cert.ReferenceIdeal.defs (F := Ideal)) _ _).mono (fun _ h c => ⟨(h c).1.trans ?_, (h c).2⟩)
        (Cert.RefSide.ref_run m' ρ')
      obtain ⟨e0, e1, e2, e3, e4, e5, e6, e7, e8, e9, e10, e11, e12⟩ := hagree c
      rw [e0, e1, e2, e3, e4, e5, e6, e7, e8, e9, e10, e11, e12]
      obtain ⟨f0, f1, f2, f3, f4, f5, f6, f7, f8, f9, f10, f11, f12⟩ := Cert.Finite.finite_of_pre _ _ _ _ _ _ _ _ _ _ _ _ _ (hpre c)
      exact congrArg Cert.Net.arr2 (Cert.Net.net_eq Cert.Net.C0 Cert.Net.C0_good _ _ _ _ _ _ _ _ _ _ _ _ _
        (fun r k => f0 _) (fun n k => f1 _) (fun n => f2 _) (fun n => f3 _) (fun n k => f4 _) (fun n => f5 _) (fun n => f6 _)
        (fun n k => f7 _) (fun n => f8 _) (fun n => f9 _) (fun n k => f10 _) (fun n => f11 _) (fun n => f12 _)).symm⟩

end Cert.Proof

end
